-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1024x200 : Shape := ⟨2, ![1024, 200]⟩
abbrev S128x100 : Shape := ⟨2, ![128, 100]⟩
abbrev S100 : Shape := ⟨1, ![100]⟩
abbrev S100x20 : Shape := ⟨2, ![100, 20]⟩
abbrev S20 : Shape := ⟨1, ![20]⟩
abbrev S220x200 : Shape := ⟨2, ![220, 200]⟩
abbrev S200 : Shape := ⟨1, ![200]⟩
abbrev S4221x128 : Shape := ⟨2, ![4221, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1600000 : Shape := ⟨1, ![1600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1024x200 : S_.BroadcastsInDim S1024x200 (![] : Fin 0 → Fin S1024x200.rank)
  reducesTo_S1024x200_S_d0_1 : S1024x200.ReducesTo [0, 1] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x20 : S_.BroadcastsInDim S100x20 (![] : Fin 0 → Fin S100x20.rank)
  reducesTo_S100x20_S_d0_1 : S100x20.ReducesTo [0, 1] S_
  bcast_S_S20 : S_.BroadcastsInDim S20 (![] : Fin 0 → Fin S20.rank)
  reducesTo_S20_S_d0 : S20.ReducesTo [0] S_
  bcast_S_S220x200 : S_.BroadcastsInDim S220x200 (![] : Fin 0 → Fin S220x200.rank)
  reducesTo_S220x200_S_d0_1 : S220x200.ReducesTo [0, 1] S_
  bcast_S_S200 : S_.BroadcastsInDim S200 (![] : Fin 0 → Fin S200.rank)
  reducesTo_S200_S_d0 : S200.ReducesTo [0] S_
  bcast_S_S4221x128 : S_.BroadcastsInDim S4221x128 (![] : Fin 0 → Fin S4221x128.rank)
  reducesTo_S4221x128_S_d0_1 : S4221x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  main_v93

def fn_part4 {F : FTy → Type} [FloatOps F] (main_arg14 : FVec F S1 .f32) (main_arg15 : FVec F S128 .f32) (main_arg16 : FVec F S128 .f32) (main_arg17 : FVec F S32 .f32) (main_arg18 : FVec F S32 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x32 .f32) (main_arg12 : FVec F S32 .f32) (main_arg13 : FVec F S32x1 .f32) (main_arg14 : FVec F S1 .f32) (main_arg15 : FVec F S128 .f32) (main_arg16 : FVec F S128 .f32) (main_arg17 : FVec F S32 .f32) (main_arg18 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x32 .f32 := Host.absf main_arg11
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_arg15 main_arg16 main_arg17 main_arg18 main_v63 main_v67

def fn_part2 {F : FTy → Type} [FloatOps F] (main_arg7 : FVec F S220x200 .f32) (main_arg8 : FVec F S200 .f32) (main_arg9 : FVec F S4221x128 .f32) (main_arg10 : FVec F S128 .f32) (main_arg11 : FVec F S128x32 .f32) (main_arg12 : FVec F S32 .f32) (main_arg13 : FVec F S32x1 .f32) (main_arg14 : FVec F S1 .f32) (main_arg15 : FVec F S128 .f32) (main_arg16 : FVec F S128 .f32) (main_arg17 : FVec F S32 .f32) (main_arg18 : FVec F S32 .f32) (main_v33 : IVec S_ 1) : IVec S_ 1 :=
  let main_v34 : FVec F S220x200 .f32 := Host.absf main_arg7
  let main_cst_12 : FVec F S_ .f32 := constant S_ .f32 0x7F800000#32
  let main_v35 : FVec F S220x200 .f32 := broadcastInDim S220x200 ![] bcast_S_S220x200 main_cst_12
  let main_v36 : IVec S220x200 1 := cmpf .olt main_v34 main_v35
  let main_c_13 : IVec S_ 1 := constantI S_ 1 1#1
  let main_v37 : IVec S_ 1 := (fun x v => Host.reduce IntOp.andi x v reducesTo_S220x200_S_d0_1 h_S_) main_v36 main_c_13
  let main_v38 : IVec S_ 1 := andi main_v33 main_v37
  let main_v39 : FVec F S200 .f32 := Host.absf main_arg8
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S4221x128 .f32 := Host.absf main_arg9
  let main_cst_16 : FVec F S_ .f32 := constant S_ .f32 0x7F800000#32
  let main_v45 : FVec F S4221x128 .f32 := broadcastInDim S4221x128 ![] bcast_S_S4221x128 main_cst_16
  let main_v46 : IVec S4221x128 1 := cmpf .olt main_v44 main_v45
  let main_c_17 : IVec S_ 1 := constantI S_ 1 1#1
  let main_v47 : IVec S_ 1 := (fun x v => Host.reduce IntOp.andi x v reducesTo_S4221x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S100 .f32) (main_arg5 : FVec F S100x20 .f32) (main_arg6 : FVec F S20 .f32) (main_arg7 : FVec F S220x200 .f32) (main_arg8 : FVec F S200 .f32) (main_arg9 : FVec F S4221x128 .f32) (main_arg10 : FVec F S128 .f32) (main_arg11 : FVec F S128x32 .f32) (main_arg12 : FVec F S32 .f32) (main_arg13 : FVec F S32x1 .f32) (main_arg14 : FVec F S1 .f32) (main_arg15 : FVec F S128 .f32) (main_arg16 : FVec F S128 .f32) (main_arg17 : FVec F S32 .f32) (main_arg18 : FVec F S32 .f32) (main_v13 : IVec S_ 1) (main_v16 : IVec S128x100 1) : IVec S_ 1 :=
  let main_c_5 : IVec S_ 1 := constantI S_ 1 1#1
  let main_v17 : IVec S_ 1 := (fun x v => Host.reduce IntOp.andi x v reducesTo_S128x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x20 .f32 := Host.absf main_arg5
  let main_cst_8 : FVec F S_ .f32 := constant S_ .f32 0x7F800000#32
  let main_v25 : FVec F S100x20 .f32 := broadcastInDim S100x20 ![] bcast_S_S100x20 main_cst_8
  let main_v26 : IVec S100x20 1 := cmpf .olt main_v24 main_v25
  let main_c_9 : IVec S_ 1 := constantI S_ 1 1#1
  let main_v27 : IVec S_ 1 := (fun x v => Host.reduce IntOp.andi x v reducesTo_S100x20_S_d0_1 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S50000x128 .f32) (main_arg1 : FVec F S1024x200 .f32) (main_arg2 : FVec F S1024x200 .f32) (main_arg3 : FVec F S128x100 .f32) (main_arg4 : FVec F S100 .f32) (main_arg5 : FVec F S100x20 .f32) (main_arg6 : FVec F S20 .f32) (main_arg7 : FVec F S220x200 .f32) (main_arg8 : FVec F S200 .f32) (main_arg9 : FVec F S4221x128 .f32) (main_arg10 : FVec F S128 .f32) (main_arg11 : FVec F S128x32 .f32) (main_arg12 : FVec F S32 .f32) (main_arg13 : FVec F S32x1 .f32) (main_arg14 : FVec F S1 .f32) (main_arg15 : FVec F S128 .f32) (main_arg16 : FVec F S128 .f32) (main_arg17 : FVec F S32 .f32) (main_arg18 : FVec F S32 .f32) (main_arg19 : IVec S1600000 32) (main_arg20 : IVec S1600000 32) (main_arg21 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1024x200 .f32 := Host.absf main_arg1
  let main_cst_0 : FVec F S_ .f32 := constant S_ .f32 0x7F800000#32
  let main_v5 : FVec F S1024x200 .f32 := broadcastInDim S1024x200 ![] bcast_S_S1024x200 main_cst_0
  let main_v6 : IVec S1024x200 1 := cmpf .olt main_v4 main_v5
  let main_c_1 : IVec S_ 1 := constantI S_ 1 1#1
  let main_v7 : IVec S_ 1 := (fun x v => Host.reduce IntOp.andi x v reducesTo_S1024x200_S_d0_1 h_S_) main_v6 main_c_1
  let main_v8 : IVec S_ 1 := andi main_v3 main_v7
  let main_v9 : FVec F S1024x200 .f32 := Host.absf main_arg2
  let main_cst_2 : FVec F S_ .f32 := constant S_ .f32 0x7F800000#32
  let main_v10 : FVec F S1024x200 .f32 := broadcastInDim S1024x200 ![] bcast_S_S1024x200 main_cst_2
  let main_v11 : IVec S1024x200 1 := cmpf .olt main_v9 main_v10
  let main_c_3 : IVec S_ 1 := constantI S_ 1 1#1
  let main_v12 : IVec S_ 1 := (fun x v => Host.reduce IntOp.andi x v reducesTo_S1024x200_S_d0_1 h_S_) main_v11 main_c_3
  let main_v13 : IVec S_ 1 := andi main_v8 main_v12
  let main_v14 : FVec F S128x100 .f32 := Host.absf main_arg3
  let main_cst_4 : FVec F S_ .f32 := constant S_ .f32 0x7F800000#32
  let main_v15 : FVec F S128x100 .f32 := broadcastInDim S128x100 ![] bcast_S_S128x100 main_cst_4
  let main_v16 : IVec S128x100 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S1024x200 : Shape := ⟨2, ![1024, 200]⟩
abbrev S128x100 : Shape := ⟨2, ![128, 100]⟩
abbrev S100 : Shape := ⟨1, ![100]⟩
abbrev S100x20 : Shape := ⟨2, ![100, 20]⟩
abbrev S20 : Shape := ⟨1, ![20]⟩
abbrev S220x200 : Shape := ⟨2, ![220, 200]⟩
abbrev S200 : Shape := ⟨1, ![200]⟩
abbrev S4221x128 : Shape := ⟨2, ![4221, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S50000x100 : Shape := ⟨2, ![50000, 100]⟩
abbrev S10000x128 : Shape := ⟨2, ![10000, 128]⟩
abbrev S10000x1 : Shape := ⟨2, ![10000, 1]⟩
abbrev S10000x100 : Shape := ⟨2, ![10000, 100]⟩
abbrev S1x100 : Shape := ⟨2, ![1, 100]⟩
abbrev S1600000x100 : Shape := ⟨2, ![1600000, 100]⟩
abbrev S50000x20 : Shape := ⟨2, ![50000, 20]⟩
abbrev S10000x20 : Shape := ⟨2, ![10000, 20]⟩
abbrev S1x20 : Shape := ⟨2, ![1, 20]⟩
abbrev S1024 : Shape := ⟨1, ![1024]⟩
abbrev S1024x20 : Shape := ⟨2, ![1024, 20]⟩
abbrev S1024x1 : Shape := ⟨2, ![1024, 1]⟩
abbrev S1024x4221 : Shape := ⟨2, ![1024, 4221]⟩
abbrev S1024x220 : Shape := ⟨2, ![1024, 220]⟩
abbrev S1x200 : Shape := ⟨2, ![1, 200]⟩
abbrev S1024x21 : Shape := ⟨2, ![1024, 21]⟩
abbrev S1024x201 : Shape := ⟨2, ![1024, 201]⟩
abbrev S1024x128 : Shape := ⟨2, ![1024, 128]⟩
abbrev S1x128 : Shape := ⟨2, ![1, 128]⟩
abbrev S1024x32 : Shape := ⟨2, ![1024, 32]⟩
abbrev S1x32 : Shape := ⟨2, ![1, 32]⟩
abbrev S1x1 : Shape := ⟨2, ![1, 1]⟩

abbrev nBuf : Space → Nat
  | .hbm => 77
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S1024x200, .f32⟩
  | .hbm, ⟨2, _⟩ => ⟨S1024x200, .f32⟩
  | .hbm, ⟨3, _⟩ => ⟨S128x100, .f32⟩
  | .hbm, ⟨4, _⟩ => ⟨S100, .f32⟩
  | .hbm, ⟨5, _⟩ => ⟨S100x20, .f32⟩
  | .hbm, ⟨6, _⟩ => ⟨S20, .f32⟩
  | .hbm, ⟨7, _⟩ => ⟨S220x200, .f32⟩
  | .hbm, ⟨8, _⟩ => ⟨S200, .f32⟩
  | .hbm, ⟨9, _⟩ => ⟨S4221x128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S128, .f32⟩
  | .hbm, ⟨16, _⟩ => ⟨S128, .f32⟩
  | .hbm, ⟨17, _⟩ => ⟨S32, .f32⟩
  | .hbm, ⟨18, _⟩ => ⟨S32, .f32⟩
  | .hbm, ⟨19, _⟩ => ⟨S1600000, .i32⟩
  | .hbm, ⟨20, _⟩ => ⟨S1600000, .i32⟩
  | .hbm, ⟨21, _⟩ => ⟨S50000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S50000, .f32⟩
  | .hbm, ⟨26, _⟩ => ⟨S1600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x100, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x100, .f32⟩
  | .hbm, ⟨55, _⟩ => ⟨S_, .f32⟩
  | .hbm, ⟨56, _⟩ => ⟨S50000x100, .f32⟩
  | .hbm, ⟨57, _⟩ => ⟨S1600000x1, .i32⟩
  | .hbm, ⟨58, _⟩ => ⟨S50000x100, .f32⟩
  | .hbm, ⟨59, _⟩ => ⟨S50000x20, .f32⟩
  | .hbm, ⟨60, _⟩ => ⟨S_, .f32⟩
  | .hbm, ⟨61, _⟩ => ⟨S50000, .f32⟩
  | .hbm, ⟨62, _⟩ => ⟨S_, .f32⟩
  | .hbm, ⟨63, _⟩ => ⟨S1024, .f32⟩
  | .hbm, ⟨64, _⟩ => ⟨S50000x1, .i32⟩
  | .hbm, ⟨65, _⟩ => ⟨S1024, .f32⟩
  | .hbm, ⟨66, _⟩ => ⟨S_, .f32⟩
  | .hbm, ⟨67, _⟩ => ⟨S1024x20, .f32⟩
  | .hbm, ⟨68, _⟩ => ⟨S50000x1, .i32⟩
  | .hbm, ⟨69, _⟩ => ⟨S1024x20, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S1024x1, .f32⟩
  | .hbm, ⟨74, _⟩ => ⟨S1024x20, .f32⟩
  | .hbm, ⟨75, _⟩ => ⟨S1024x20, .f32⟩
  | .hbm, ⟨76, _⟩ => ⟨S1024x1, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x100, .f32⟩
  | .local _ .vmem, ⟨5, _⟩ => ⟨S100, .f32⟩
  | .local _ .vmem, ⟨6, _⟩ => ⟨S10000x100, .f32⟩
  | .local _ .vmem, ⟨7, _⟩ => ⟨S10000x100, .f32⟩
  | .local _ .vmem, ⟨8, _⟩ => ⟨S10000x100, .f32⟩
  | .local _ .vmem, ⟨9, _⟩ => ⟨S10000x100, .f32⟩
  | .local _ .vmem, ⟨10, _⟩ => ⟨S10000x1, .f32⟩
  | .local _ .vmem, ⟨11, _⟩ => ⟨S10000x1, .f32⟩
  | .local _ .vmem, ⟨12, _⟩ => ⟨S100x20, .f32⟩
  | .local _ .vmem, ⟨13, _⟩ => ⟨S20, .f32⟩
  | .local _ .vmem, ⟨14, _⟩ => ⟨S10000x20, .f32⟩
  | .local _ .vmem, ⟨15, _⟩ => ⟨S10000x20, .f32⟩
  | .local _ .vmem, ⟨16, _⟩ => ⟨S1024x20, .f32⟩
  | .local _ .vmem, ⟨17, _⟩ => ⟨S1024x200, .f32⟩
  | .local _ .vmem, ⟨18, _⟩ => ⟨S220x200, .f32⟩
  | .local _ .vmem, ⟨19, _⟩ => ⟨S200, .f32⟩
  | .local _ .vmem, ⟨20, _⟩ => ⟨S4221x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x32, .f32⟩
  | .local _ .vmem, ⟨25, _⟩ => ⟨S32, .f32⟩
  | .local _ .vmem, ⟨26, _⟩ => ⟨S32, .f32⟩
  | .local _ .vmem, ⟨27, _⟩ => ⟨S32, .f32⟩
  | .local _ .vmem, ⟨28, _⟩ => ⟨S32x1, .f32⟩
  | .local _ .vmem, ⟨29, _⟩ => ⟨S1, .f32⟩
  | .local _ .vmem, ⟨30, _⟩ => ⟨S1024x1, .f32⟩
  | .local _ .vmem, ⟨31, _⟩ => ⟨S1024x4221, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_7 : Ref sig .tc := ⟨.hbm, 60, rfl⟩
abbrev main_v29 : Ref sig .tc := ⟨.hbm, 61, rfl⟩
abbrev main_cst_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_10 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc2_stg14_0 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29
abbrev cc2_sem14_0 : DmaSem sig := 30

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x20 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x20 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S220x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4221x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S32x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1024x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  inb_S100_S100_0 : ∀ a, (![0] : Fin 1 → Nat) a + S100.size a ≤ S100.size a
  h_S100 : 0 < S100.numel
  shapeCasts_S100_S1x100 : S100.ShapeCasts S1x100
  broadcasts_S1x100_S10000x100 : S1x100.Broadcasts S10000x100
  inb_S10000x100_S10000x100_0_0 : ∀ a, (![0, 0] : Fin 2 → Nat) a + S10000x100.size a ≤ S10000x100.size a
  h_S10000x100 : 0 < S10000x100.numel
  bcast_S_S50000x100 : S_.BroadcastsInDim S50000x100 (![] : Fin 0 → Fin S50000x100.rank)
  shapeCasts_S10000x100_S10000x100 : S10000x100.ShapeCasts S10000x100
  broadcasts_S10000x1_S10000x100 : S10000x1.Broadcasts S10000x100
  inb_S100x20_S100x20_0_0 : ∀ a, (![0, 0] : Fin 2 → Nat) a + S100x20.size a ≤ S100x20.size a
  h_S100x20 : 0 < S100x20.numel
  inb_S20_S20_0 : ∀ a, (![0] : Fin 1 → Nat) a + S20.size a ≤ S20.size a
  h_S20 : 0 < S20.numel
  shapeCasts_S20_S1x20 : S20.ShapeCasts S1x20
  broadcasts_S1x20_S10000x20 : S1x20.Broadcasts S10000x20
  inb_S10000x20_S10000x20_0_0 : ∀ a, (![0, 0] : Fin 2 → Nat) a + S10000x20.size a ≤ S10000x20.size a
  h_S10000x20 : 0 < S10000x20.numel
  bcast_S_S1024 : S_.BroadcastsInDim S1024 (![] : Fin 0 → Fin S1024.rank)
  bcast_S_S1024x20 : S_.BroadcastsInDim S1024x20 (![] : Fin 0 → Fin S1024x20.rank)
  bcast_S1024_S1024x1_0 : S1024.BroadcastsInDim S1024x1 (![0] : Fin 1 → Fin S1024x1.rank)
  bcast_S1024x1_S1024x20_0_1 : S1024x1.BroadcastsInDim S1024x20 (![0, 1] : Fin 2 → Fin S1024x20.rank)
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S1024x200_S1024x200_0_0 : ∀ a, (![0, 0] : Fin 2 → Nat) a + S1024x200.size a ≤ S1024x200.size a
  h_S1024x200 : 0 < S1024x200.numel
  concatenates_S1024x20_S1024x200_S1024x220_d1 : Shape.Concatenates [S1024x20, S1024x200] S1024x220 1
  inb_S220x200_S220x200_0_0 : ∀ a, (![0, 0] : Fin 2 → Nat) a + S220x200.size a ≤ S220x200.size a
  h_S220x200 : 0 < S220x200.numel
  inb_S200_S200_0 : ∀ a, (![0] : Fin 1 → Nat) a + S200.size a ≤ S200.size a
  h_S200 : 0 < S200.numel
  shapeCasts_S200_S1x200 : S200.ShapeCasts S1x200
  broadcasts_S1x200_S1024x200 : S1x200.Broadcasts S1024x200
  concatenates_S1024x20_S1024x1_S1024x21_d1 : Shape.Concatenates [S1024x20, S1024x1] S1024x21 1
  concatenates_S1024x200_S1024x1_S1024x201_d1 : Shape.Concatenates [S1024x200, S1024x1] S1024x201 1
  slices_S1024x21_o0_0_S1024x1 : S1024x21.Slices ![0, 0] S1024x1
  broadcasts_S1024x1_S1024x201 : S1024x1.Broadcasts S1024x201
  inb_S1024x4221_S1024x201_0_0 : ∀ a, (![0, 0] : Fin 2 → Nat) a + S1024x201.size a ≤ S1024x4221.size a
  h_S1024x201 : 0 < S1024x201.numel
  shapeCasts_S1024x201_S1024x201 : S1024x201.ShapeCasts S1024x201
  packedbf16_S1024x4221_S1024x201_0_0 : (Rect.unit (s := S1024x4221) ![0, 0] S1024x201.size inb_S1024x4221_S1024x201_0_0).PackedRows (EltTy.packing .bf16)
  slices_S1024x21_o0_1_S1024x1 : S1024x21.Slices ![0, 1] S1024x1
  inb_S1024x4221_S1024x201_0_201 : ∀ a, (![0, 201] : Fin 2 → Nat) a + S1024x201.size a ≤ S1024x4221.size a
  packedbf16_S1024x4221_S1024x201_0_201 : (Rect.unit (s := S1024x4221) ![0, 201] S1024x201.size inb_S1024x4221_S1024x201_0_201).PackedRows (EltTy.packing .bf16)
  slices_S1024x21_o0_2_S1024x1 : S1024x21.Slices ![0, 2] S1024x1
  inb_S1024x4221_S1024x201_0_402 : ∀ a, (![0, 402] : Fin 2 → Nat) a + S1024x201.size a ≤ S1024x4221.size a
  packedbf16_S1024x4221_S1024x201_0_402 : (Rect.unit (s := S1024x4221) ![0, 402] S1024x201.size inb_S1024x4221_S1024x201_0_402).PackedRows (EltTy.packing .bf16)
  slices_S1024x21_o0_3_S1024x1 : S1024x21.Slices ![0, 3] S1024x1
  inb_S1024x4221_S1024x201_0_603 : ∀ a, (![0, 603] : Fin 2 → Nat) a + S1024x201.size a ≤ S1024x4221.size a
  packedbf16_S1024x4221_S1024x201_0_603 : (Rect.unit (s := S1024x4221) ![0, 603] S1024x201.size inb_S1024x4221_S1024x201_0_603).PackedRows (EltTy.packing .bf16)
  slices_S1024x21_o0_4_S1024x1 : S1024x21.Slices ![0, 4] S1024x1
  inb_S1024x4221_S1024x201_0_804 : ∀ a, (![0, 804] : Fin 2 → Nat) a + S1024x201.size a ≤ S1024x4221.size a
  packedbf16_S1024x4221_S1024x201_0_804 : (Rect.unit (s := S1024x4221) ![0, 804] S1024x201.size inb_S1024x4221_S1024x201_0_804).PackedRows (EltTy.packing .bf16)
  slices_S1024x21_o0_5_S1024x1 : S1024x21.Slices ![0, 5] S1024x1
  inb_S1024x4221_S1024x201_0_1005 : ∀ a, (![0, 1005] : Fin 2 → Nat) a + S1024x201.size a ≤ S1024x4221.size a
  packedbf16_S1024x4221_S1024x201_0_1005 : (Rect.unit (s := S1024x4221) ![0, 1005] S1024x201.size inb_S1024x4221_S1024x201_0_1005).PackedRows (EltTy.packing .bf16)
  slices_S1024x21_o0_6_S1024x1 : S1024x21.Slices ![0, 6] S1024x1
  inb_S1024x4221_S1024x201_0_1206 : ∀ a, (![0, 1206] : Fin 2 → Nat) a + S1024x201.size a ≤ S1024x4221.size a
  packedbf16_S1024x4221_S1024x201_0_1206 : (Rect.unit (s := S1024x4221) ![0, 1206] S1024x201.size inb_S1024x4221_S1024x201_0_1206).PackedRows (EltTy.packing .bf16)
  slices_S1024x21_o0_7_S1024x1 : S1024x21.Slices ![0, 7] S1024x1
  inb_S1024x4221_S1024x201_0_1407 : ∀ a, (![0, 1407] : Fin 2 → Nat) a + S1024x201.size a ≤ S1024x4221.size a
  packedbf16_S1024x4221_S1024x201_0_1407 : (Rect.unit (s := S1024x4221) ![0, 1407] S1024x201.size inb_S1024x4221_S1024x201_0_1407).PackedRows (EltTy.packing .bf16)
  slices_S1024x21_o0_8_S1024x1 : S1024x21.Slices ![0, 8] S1024x1
  inb_S1024x4221_S1024x201_0_1608 : ∀ a, (![0, 1608] : Fin 2 → Nat) a + S1024x201.size a ≤ S1024x4221.size a
  packedbf16_S1024x4221_S1024x201_0_1608 : (Rect.unit (s := S1024x4221) ![0, 1608] S1024x201.size inb_S1024x4221_S1024x201_0_1608).PackedRows (EltTy.packing .bf16)
  slices_S1024x21_o0_9_S1024x1 : S1024x21.Slices ![0, 9] S1024x1
  inb_S1024x4221_S1024x201_0_1809 : ∀ a, (![0, 1809] : Fin 2 → Nat) a + S1024x201.size a ≤ S1024x4221.size a
  packedbf16_S1024x4221_S1024x201_0_1809 : (Rect.unit (s := S1024x4221) ![0, 1809] S1024x201.size inb_S1024x4221_S1024x201_0_1809).PackedRows (EltTy.packing .bf16)
  slices_S1024x21_o0_10_S1024x1 : S1024x21.Slices ![0, 10] S1024x1
  inb_S1024x4221_S1024x201_0_2010 : ∀ a, (![0, 2010] : Fin 2 → Nat) a + S1024x201.size a ≤ S1024x4221.size a
  packedbf16_S1024x4221_S1024x201_0_2010 : (Rect.unit (s := S1024x4221) ![0, 2010] S1024x201.size inb_S1024x4221_S1024x201_0_2010).PackedRows (EltTy.packing .bf16)
  slices_S1024x21_o0_11_S1024x1 : S1024x21.Slices ![0, 11] S1024x1
  inb_S1024x4221_S1024x201_0_2211 : ∀ a, (![0, 2211] : Fin 2 → Nat) a + S1024x201.size a ≤ S1024x4221.size a
  packedbf16_S1024x4221_S1024x201_0_2211 : (Rect.unit (s := S1024x4221) ![0, 2211] S1024x201.size inb_S1024x4221_S1024x201_0_2211).PackedRows (EltTy.packing .bf16)
  slices_S1024x21_o0_12_S1024x1 : S1024x21.Slices ![0, 12] S1024x1
  inb_S1024x4221_S1024x201_0_2412 : ∀ a, (![0, 2412] : Fin 2 → Nat) a + S1024x201.size a ≤ S1024x4221.size a
  packedbf16_S1024x4221_S1024x201_0_2412 : (Rect.unit (s := S1024x4221) ![0, 2412] S1024x201.size inb_S1024x4221_S1024x201_0_2412).PackedRows (EltTy.packing .bf16)
  slices_S1024x21_o0_13_S1024x1 : S1024x21.Slices ![0, 13] S1024x1
  inb_S1024x4221_S1024x201_0_2613 : ∀ a, (![0, 2613] : Fin 2 → Nat) a + S1024x201.size a ≤ S1024x4221.size a
  packedbf16_S1024x4221_S1024x201_0_2613 : (Rect.unit (s := S1024x4221) ![0, 2613] S1024x201.size inb_S1024x4221_S1024x201_0_2613).PackedRows (EltTy.packing .bf16)
  slices_S1024x21_o0_14_S1024x1 : S1024x21.Slices ![0, 14] S1024x1
  inb_S1024x4221_S1024x201_0_2814 : ∀ a, (![0, 2814] : Fin 2 → Nat) a + S1024x201.size a ≤ S1024x4221.size a
  packedbf16_S1024x4221_S1024x201_0_2814 : (Rect.unit (s := S1024x4221) ![0, 2814] S1024x201.size inb_S1024x4221_S1024x201_0_2814).PackedRows (EltTy.packing .bf16)
  slices_S1024x21_o0_15_S1024x1 : S1024x21.Slices ![0, 15] S1024x1
  inb_S1024x4221_S1024x201_0_3015 : ∀ a, (![0, 3015] : Fin 2 → Nat) a + S1024x201.size a ≤ S1024x4221.size a
  packedbf16_S1024x4221_S1024x201_0_3015 : (Rect.unit (s := S1024x4221) ![0, 3015] S1024x201.size inb_S1024x4221_S1024x201_0_3015).PackedRows (EltTy.packing .bf16)
  slices_S1024x21_o0_16_S1024x1 : S1024x21.Slices ![0, 16] S1024x1
  inb_S1024x4221_S1024x201_0_3216 : ∀ a, (![0, 3216] : Fin 2 → Nat) a + S1024x201.size a ≤ S1024x4221.size a
  packedbf16_S1024x4221_S1024x201_0_3216 : (Rect.unit (s := S1024x4221) ![0, 3216] S1024x201.size inb_S1024x4221_S1024x201_0_3216).PackedRows (EltTy.packing .bf16)
  slices_S1024x21_o0_17_S1024x1 : S1024x21.Slices ![0, 17] S1024x1
  inb_S1024x4221_S1024x201_0_3417 : ∀ a, (![0, 3417] : Fin 2 → Nat) a + S1024x201.size a ≤ S1024x4221.size a
  packedbf16_S1024x4221_S1024x201_0_3417 : (Rect.unit (s := S1024x4221) ![0, 3417] S1024x201.size inb_S1024x4221_S1024x201_0_3417).PackedRows (EltTy.packing .bf16)
  slices_S1024x21_o0_18_S1024x1 : S1024x21.Slices ![0, 18] S1024x1
  inb_S1024x4221_S1024x201_0_3618 : ∀ a, (![0, 3618] : Fin 2 → Nat) a + S1024x201.size a ≤ S1024x4221.size a
  packedbf16_S1024x4221_S1024x201_0_3618 : (Rect.unit (s := S1024x4221) ![0, 3618] S1024x201.size inb_S1024x4221_S1024x201_0_3618).PackedRows (EltTy.packing .bf16)
  slices_S1024x21_o0_19_S1024x1 : S1024x21.Slices ![0, 19] S1024x1
  inb_S1024x4221_S1024x201_0_3819 : ∀ a, (![0, 3819] : Fin 2 → Nat) a + S1024x201.size a ≤ S1024x4221.size a
  packedbf16_S1024x4221_S1024x201_0_3819 : (Rect.unit (s := S1024x4221) ![0, 3819] S1024x201.size inb_S1024x4221_S1024x201_0_3819).PackedRows (EltTy.packing .bf16)
  slices_S1024x21_o0_20_S1024x1 : S1024x21.Slices ![0, 20] S1024x1
  inb_S1024x4221_S1024x201_0_4020 : ∀ a, (![0, 4020] : Fin 2 → Nat) a + S1024x201.size a ≤ S1024x4221.size a
  packedbf16_S1024x4221_S1024x201_0_4020 : (Rect.unit (s := S1024x4221) ![0, 4020] S1024x201.size inb_S1024x4221_S1024x201_0_4020).PackedRows (EltTy.packing .bf16)
  inb_S1024x4221_S1024x4221_0_0 : ∀ a, (![0, 0] : Fin 2 → Nat) a + S1024x4221.size a ≤ S1024x4221.size a
  h_S1024x4221 : 0 < S1024x4221.numel
  inb_S4221x128_S4221x128_0_0 : ∀ a, (![0, 0] : Fin 2 → Nat) a + S4221x128.size a ≤ S4221x128.size a
  h_S4221x128 : 0 < S4221x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S128 : S1024x128.Reduces [0] S128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  reduces_S1024x32_S32 : S1024x32.Reduces [0] S32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S10000x128_S128x100_S10000x100_1_0_0_1_n_n_wf : DotDims.WF S10000x128 S128x100 S10000x100 [1] [0] [0] [1] [] []
  gather_S50000x100_S1600000x1_S1600000x100_1_0_n_n_0_1_1100_wf : GatherDims.WF S50000x100 S1600000x1 S1600000x100 [1] [0] [] [0] [] 1 ![1, 100]
  scatter_S50000x100_S1600000x1_S1600000x100_1_0_0_1_wf : ScatterDims.WF S50000x100 S1600000x1 S1600000x100 [1] [0] [0] 1
  dot_S10000x100_S100x20_S10000x20_1_0_0_1_n_n_wf : DotDims.WF S10000x100 S100x20 S10000x20 [1] [0] [0] [1] [] []
  scatter_S1024_S50000x1_S50000_n_0_0_1_wf : ScatterDims.WF S1024 S50000x1 S50000 [] [0] [0] 1
  scatter_S1024x20_S50000x1_S50000x20_1_0_0_1_wf : ScatterDims.WF S1024x20 S50000x1 S50000x20 [1] [0] [0] 1
  dot_S1024x220_S220x200_S1024x200_1_0_0_1_n_n_wf : DotDims.WF S1024x220 S220x200 S1024x200 [1] [0] [0] [1] [] []
  dot_S1024x4221_S4221x128_S1024x128_1_0_0_1_n_n_wf : DotDims.WF S1024x4221 S4221x128 S1024x128 [1] [0] [0] [1] [] []
  dot_S1024x128_S128x32_S1024x32_1_0_0_1_n_n_wf : DotDims.WF S1024x128 S128x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S128x100.size a
  hwx0_2 : ∀ i : grid0.Coords, EltTy.bits .f32 = 32 ∨ (Rect.block (s := S128x100) S128x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100.size a ≤ S100.size a
  hwx0_3 : ∀ i : grid0.Coords, EltTy.bits .f32 = 32 ∨ (Rect.block (s := S100) S100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x100.size a ≤ S50000x100.size a
  hwx0_4 : ∀ i : grid0.Coords, EltTy.bits .f32 = 32 ∨ (Rect.block (s := S50000x100) S10000x100.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S50000x100.size a
  hwx1_0 : ∀ i : grid1.Coords, EltTy.bits .f32 = 32 ∨ (Rect.block (s := S50000x100) S10000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x20.size a ≤ S100x20.size a
  hwx1_2 : ∀ i : grid1.Coords, EltTy.bits .f32 = 32 ∨ (Rect.block (s := S100x20) S100x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20.size a ≤ S20.size a
  hwx1_3 : ∀ i : grid1.Coords, EltTy.bits .f32 = 32 ∨ (Rect.block (s := S20) S20.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x20.size a ≤ S50000x20.size a
  hwx1_4 : ∀ i : grid1.Coords, EltTy.bits .f32 = 32 ∨ (Rect.block (s := S50000x20) S10000x20.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x20.size a ≤ S1024x20.size a
  hwx2_0 : ∀ i : grid2.Coords, EltTy.bits .f32 = 32 ∨ (Rect.block (s := S1024x20) S1024x20.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x200.size a ≤ S1024x200.size a
  hwx2_1 : ∀ i : grid2.Coords, EltTy.bits .f32 = 32 ∨ (Rect.block (s := S1024x200) S1024x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S220x200.size a ≤ S220x200.size a
  hwx2_2 : ∀ i : grid2.Coords, EltTy.bits .f32 = 32 ∨ (Rect.block (s := S220x200) S220x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S200.size a ≤ S200.size a
  hwx2_3 : ∀ i : grid2.Coords, EltTy.bits .f32 = 32 ∨ (Rect.block (s := S200) S200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4221x128.size a ≤ S4221x128.size a
  hwx2_4 : ∀ i : grid2.Coords, EltTy.bits .f32 = 32 ∨ (Rect.block (s := S4221x128) S4221x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x32.size a ≤ S128x32.size a
  hwx2_8 : ∀ i : grid2.Coords, EltTy.bits .f32 = 32 ∨ (Rect.block (s := S128x32) S128x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32.size a ≤ S32.size a
  hwx2_9 : ∀ i : grid2.Coords, EltTy.bits .f32 = 32 ∨ (Rect.block (s := S32) S32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S32.size a ≤ S32.size a
  hwx2_10 : ∀ i : grid2.Coords, EltTy.bits .f32 = 32 ∨ (Rect.block (s := S32) S32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S32.size a ≤ S32.size a
  hwx2_11 : ∀ i : grid2.Coords, EltTy.bits .f32 = 32 ∨ (Rect.block (s := S32) S32.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S32x1.size a ≤ S32x1.size a
  hwx2_12 : ∀ i : grid2.Coords, EltTy.bits .f32 = 32 ∨ (Rect.block (s := S32x1) S32x1.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1.size a ≤ S1.size a
  hwx2_13 : ∀ i : grid2.Coords, EltTy.bits .f32 = 32 ∨ (Rect.block (s := S1) S1.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1024x1.size a ≤ S1024x1.size a
  hwx2_14 : ∀ i : grid2.Coords, EltTy.bits .f32 = 32 ∨ (Rect.block (s := S1024x1) S1024x1.size (cc2_transform_14 i) (hinb2_14 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S10000x128_S128x100_S10000x100_1_0_0_1_n_n : DotDims S10000x128 S128x100 S10000x100 where
  lhsContracting := [1]
  rhsContracting := [0]
  lhsNonContracting := [0]
  rhsNonContracting := [1]
  lhsBatch := []
  rhsBatch := []
  wf := dot_S10000x128_S128x100_S10000x100_1_0_0_1_n_n_wf
def gather_S50000x100_S1600000x1_S1600000x100_1_0_n_n_0_1_1100 : GatherDims S50000x100 S1600000x1 S1600000x100 where
  offsetDims := [1]
  collapsedSliceDims := [0]
  operandBatchingDims := []
  startIndicesBatchingDims := []
  startIndexMap := [0]
  indexVectorDim := 1
  sliceSizes := ![1, 100]
  wf := gather_S50000x100_S1600000x1_S1600000x100_1_0_n_n_0_1_1100_wf
def scatter_S50000x100_S1600000x1_S1600000x100_1_0_0_1 : ScatterDims S50000x100 S1600000x1 S1600000x100 where
  updateWindowDims := [1]
  insertedWindowDims := [0]
  scatterDimsToOperandDims := [0]
  indexVectorDim := 1
  wf := scatter_S50000x100_S1600000x1_S1600000x100_1_0_0_1_wf
def dot_S10000x100_S100x20_S10000x20_1_0_0_1_n_n : DotDims S10000x100 S100x20 S10000x20 where
  lhsContracting := [1]
  rhsContracting := [0]
  lhsNonContracting := [0]
  rhsNonContracting := [1]
  lhsBatch := []
  rhsBatch := []
  wf := dot_S10000x100_S100x20_S10000x20_1_0_0_1_n_n_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def scatter_S1024x20_S50000x1_S50000x20_1_0_0_1 : ScatterDims S1024x20 S50000x1 S50000x20 where
  updateWindowDims := [1]
  insertedWindowDims := [0]
  scatterDimsToOperandDims := [0]
  indexVectorDim := 1
  wf := scatter_S1024x20_S50000x1_S50000x20_1_0_0_1_wf
def dot_S1024x220_S220x200_S1024x200_1_0_0_1_n_n : DotDims S1024x220 S220x200 S1024x200 where
  lhsContracting := [1]
  rhsContracting := [0]
  lhsNonContracting := [0]
  rhsNonContracting := [1]
  lhsBatch := []
  rhsBatch := []
  wf := dot_S1024x220_S220x200_S1024x200_1_0_0_1_n_n_wf
def dot_S1024x4221_S4221x128_S1024x128_1_0_0_1_n_n : DotDims S1024x4221 S4221x128 S1024x128 where
  lhsContracting := [1]
  rhsContracting := [0]
  lhsNonContracting := [0]
  rhsNonContracting := [1]
  lhsBatch := []
  rhsBatch := []
  wf := dot_S1024x4221_S4221x128_S1024x128_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S10000x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S100x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x20.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S1024x20.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S220x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S4221x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg11) S128x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg18) S32.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg13) S32x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg14) S1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v41) S1024x1.size cc2_transform_14 reads2_14 true true 1 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S50000x128 : Shape := ⟨2, ![50000, 128]⟩
abbrev S1024x200 : Shape := ⟨2, ![1024, 200]⟩
abbrev S128x100 : Shape := ⟨2, ![128, 100]⟩
abbrev S100 : Shape := ⟨1, ![100]⟩
abbrev S100x20 : Shape := ⟨2, ![100, 20]⟩
abbrev S20 : Shape := ⟨1, ![20]⟩
abbrev S220x200 : Shape := ⟨2, ![220, 200]⟩
abbrev S200 : Shape := ⟨1, ![200]⟩
abbrev S4221x128 : Shape := ⟨2, ![4221, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x100 : Shape := ⟨2, ![50000, 100]⟩
abbrev S1x100 : Shape := ⟨2, ![1, 100]⟩
abbrev S1600000x100 : Shape := ⟨2, ![1600000, 100]⟩
abbrev S50000x20 : Shape := ⟨2, ![50000, 20]⟩
abbrev S1x20 : Shape := ⟨2, ![1, 20]⟩
abbrev S1024 : Shape := ⟨1, ![1024]⟩
abbrev S1024x20 : Shape := ⟨2, ![1024, 20]⟩
abbrev S1024x1 : Shape := ⟨2, ![1024, 1]⟩
abbrev S1024x220 : Shape := ⟨2, ![1024, 220]⟩
abbrev S1x200 : Shape := ⟨2, ![1, 200]⟩
abbrev S1024x21 : Shape := ⟨2, ![1024, 21]⟩
abbrev S1024x201 : Shape := ⟨2, ![1024, 201]⟩
abbrev S1024x21x1 : Shape := ⟨3, ![1024, 21, 1]⟩
abbrev S1024x1x201 : Shape := ⟨3, ![1024, 1, 201]⟩
abbrev S1024x21x201 : Shape := ⟨3, ![1024, 21, 201]⟩
abbrev S1024x4221 : Shape := ⟨2, ![1024, 4221]⟩
abbrev S1024x128 : Shape := ⟨2, ![1024, 128]⟩
abbrev S1x128 : Shape := ⟨2, ![1, 128]⟩
abbrev S1024x32 : Shape := ⟨2, ![1024, 32]⟩
abbrev S1x32 : Shape := ⟨2, ![1, 32]⟩
abbrev S1x1 : Shape := ⟨2, ![1, 1]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S1024x200, .f32⟩
  | 2 => ⟨S1024x200, .f32⟩
  | 3 => ⟨S128x100, .f32⟩
  | 4 => ⟨S100, .f32⟩
  | 5 => ⟨S100x20, .f32⟩
  | 6 => ⟨S20, .f32⟩
  | 7 => ⟨S220x200, .f32⟩
  | 8 => ⟨S200, .f32⟩
  | 9 => ⟨S4221x128, .f32⟩
  | 10 => ⟨S128, .f32⟩
  | 11 => ⟨S128x32, .f32⟩
  | 12 => ⟨S32, .f32⟩
  | 13 => ⟨S32x1, .f32⟩
  | 14 => ⟨S1, .f32⟩
  | 15 => ⟨S128, .f32⟩
  | 16 => ⟨S128, .f32⟩
  | 17 => ⟨S32, .f32⟩
  | 18 => ⟨S32, .f32⟩
  | 19 => ⟨S1600000, .i32⟩
  | 20 => ⟨S1600000, .i32⟩
  | 21 => ⟨S50000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S50000x128, .f32⟩
  | 33 => ⟨S1600000x1, .i32⟩
  | 34 => ⟨S50000x128, .f32⟩
  | 35 => ⟨S_, .f32⟩
  | 36 => ⟨S1600000, .f32⟩
  | 37 => ⟨S_, .f32⟩
  | 38 => ⟨S50000, .f32⟩
  | 39 => ⟨S1600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x100, .f32⟩
  | 48 => ⟨S1x100, .f32⟩
  | 49 => ⟨S50000x100, .f32⟩
  | 50 => ⟨S50000x100, .f32⟩
  | 51 => ⟨S_, .f32⟩
  | 52 => ⟨S50000x100, .f32⟩
  | 53 => ⟨S50000x100, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x100, .f32⟩
  | 63 => ⟨S_, .f32⟩
  | 64 => ⟨S50000x100, .f32⟩
  | 65 => ⟨S1600000x1, .i32⟩
  | 66 => ⟨S50000x100, .f32⟩
  | 67 => ⟨S_, .f32⟩
  | 68 => ⟨S1600000, .f32⟩
  | 69 => ⟨S_, .f32⟩
  | 70 => ⟨S50000, .f32⟩
  | 71 => ⟨S1600000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x100, .f32⟩
  | 78 => ⟨S50000x100, .f32⟩
  | 79 => ⟨S50000x20, .f32⟩
  | 80 => ⟨S1x20, .f32⟩
  | 81 => ⟨S50000x20, .f32⟩
  | 82 => ⟨S50000x20, .f32⟩
  | 83 => ⟨S_, .f32⟩
  | 84 => ⟨S50000x20, .f32⟩
  | 85 => ⟨S50000x20, .f32⟩
  | 86 => ⟨S_, .f32⟩
  | 87 => ⟨S50000, .f32⟩
  | 88 => ⟨S_, .f32⟩
  | 89 => ⟨S1024, .f32⟩
  | 90 => ⟨S50000x1, .i32⟩
  | 91 => ⟨S1024, .f32⟩
  | 92 => ⟨S_, .f32⟩
  | 93 => ⟨S1024x20, .f32⟩
  | 94 => ⟨S50000x1, .i32⟩
  | 95 => ⟨S1024x20, .f32⟩
  | 96 => ⟨S_, .f32⟩
  | 97 => ⟨S1024, .f32⟩
  | 98 => ⟨S1024, .f32⟩
  | 99 => ⟨S1024x1, .f32⟩
  | 100 => ⟨S1024x20, .f32⟩
  | 101 => ⟨S1024x20, .f32⟩
  | 102 => ⟨S1024x220, .f32⟩
  | 103 => ⟨S1024x200, .f32⟩
  | 104 => ⟨S1x200, .f32⟩
  | 105 => ⟨S1024x200, .f32⟩
  | 106 => ⟨S1024x200, .f32⟩
  | 107 => ⟨S1024x200, .f32⟩
  | 108 => ⟨S1024x200, .f32⟩
  | 109 => ⟨S_, .f32⟩
  | 110 => ⟨S1024x200, .f32⟩
  | 111 => ⟨S1024x200, .f32⟩
  | 112 => ⟨S_, .f32⟩
  | 113 => ⟨S1024x200, .f32⟩
  | 114 => ⟨S1024x200, .f32⟩
  | 115 => ⟨S1024x200, .f32⟩
  | 116 => ⟨S_, .f32⟩
  | 117 => ⟨S1024x1, .f32⟩
  | 118 => ⟨S1024x21, .f32⟩
  | 119 => ⟨S1024x201, .f32⟩
  | 120 => ⟨S1024x21x1, .f32⟩
  | 121 => ⟨S1024x1x201, .f32⟩
  | 122 => ⟨S1024x21x201, .f32⟩
  | 123 => ⟨S1024x21x201, .f32⟩
  | 124 => ⟨S1024x21x201, .f32⟩
  | 125 => ⟨S1024x4221, .f32⟩
  | 126 => ⟨S1024x128, .f32⟩
  | 127 => ⟨S1x128, .f32⟩
  | _ => ⟨S50000x128, .f32⟩

abbrev hbmTy0_1 (i : Nat) : BufTy := match i % 128 with
  | 0 => ⟨S1024x128, .f32⟩
  | 1 => ⟨S1024x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S1024x128, .f32⟩
  | 15 => ⟨S1024x128, .f32⟩
  | 16 => ⟨S1024x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S1024x128, .f32⟩
  | 32 => ⟨S1024x128, .f32⟩
  | 33 => ⟨S_, .f32⟩
  | 34 => ⟨S128, .f32⟩
  | 35 => ⟨S128, .f32⟩
  | 36 => ⟨S128, .f32⟩
  | 37 => ⟨S1x128, .f32⟩
  | 38 => ⟨S1024x128, .f32⟩
  | 39 => ⟨S1024x128, .f32⟩
  | 40 => ⟨S1x128, .f32⟩
  | 41 => ⟨S1024x128, .f32⟩
  | 42 => ⟨S1024x128, .f32⟩
  | 43 => ⟨S1x128, .f32⟩
  | 44 => ⟨S1024x128, .f32⟩
  | 45 => ⟨S1024x128, .f32⟩
  | 46 => ⟨S_, .f32⟩
  | 47 => ⟨S1024x128, .f32⟩
  | 48 => ⟨S1024x128, .f32⟩
  | 49 => ⟨S1024x32, .f32⟩
  | 50 => ⟨S1x32, .f32⟩
  | 51 => ⟨S1024x32, .f32⟩
  | 52 => ⟨S1024x32, .f32⟩
  | 53 => ⟨S_, .f32⟩
  | 54 => ⟨S32, .f32⟩
  | 55 => ⟨S_, .f32⟩
  | 56 => ⟨S32, .f32⟩
  | 57 => ⟨S32, .f32⟩
  | 58 => ⟨S_, .i32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S1024x32, .f32⟩
  | 66 => ⟨S1024x32, .f32⟩
  | 67 => ⟨S1024x32, .f32⟩
  | 68 => ⟨S_, .f32⟩
  | 69 => ⟨S_, .f32⟩
  | 70 => ⟨S_, .f32⟩
  | 71 => ⟨S_, .f32⟩
  | 72 => ⟨S32, .f32⟩
  | 73 => ⟨S32, .f32⟩
  | 74 => ⟨S32, .f32⟩
  | 75 => ⟨S_, .f32⟩
  | 76 => ⟨S_, .i1⟩
  | 77 => ⟨S_, .f32⟩
  | 78 => ⟨S_, .f32⟩
  | 79 => ⟨S32, .f32⟩
  | 80 => ⟨S32, .f32⟩
  | 81 => ⟨S1x32, .f32⟩
  | 82 => ⟨S1024x32, .f32⟩
  | 83 => ⟨S1024x32, .f32⟩
  | 84 => ⟨S_, .f32⟩
  | 85 => ⟨S32, .f32⟩
  | 86 => ⟨S32, .f32⟩
  | 87 => ⟨S32, .f32⟩
  | 88 => ⟨S1x32, .f32⟩
  | 89 => ⟨S1024x32, .f32⟩
  | 90 => ⟨S1024x32, .f32⟩
  | 91 => ⟨S1x32, .f32⟩
  | 92 => ⟨S1024x32, .f32⟩
  | 93 => ⟨S1024x32, .f32⟩
  | 94 => ⟨S1x32, .f32⟩
  | 95 => ⟨S1024x32, .f32⟩
  | 96 => ⟨S1024x32, .f32⟩
  | 97 => ⟨S_, .f32⟩
  | 98 => ⟨S1024x32, .f32⟩
  | 99 => ⟨S1024x32, .f32⟩
  | 100 => ⟨S1024x1, .f32⟩
  | 101 => ⟨S1x1, .f32⟩
  | 102 => ⟨S1024x1, .f32⟩
  | 103 => ⟨S1024x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_call0_cst : Ref sig .tc := ⟨.hbm, 51, rfl⟩
abbrev main_call0_v0 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_9 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call1_cst : Ref sig .tc := ⟨.hbm, 83, rfl⟩
abbrev main_call1_v0 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_cst_11 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_13 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_14 : Ref sig .tc := ⟨.hbm, 109, rfl⟩
abbrev main_v67 : Ref sig .tc := ⟨.hbm, 110, rfl⟩
abbrev main_v68 : Ref sig .tc := ⟨.hbm, 111, rfl⟩
abbrev main_cst_15 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_16 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_cst_18 : Ref sig .tc := ⟨.hbm, 132, rfl⟩
abbrev main_v86 : Ref sig .tc := ⟨.hbm, 133, rfl⟩
abbrev main_v87 : Ref sig .tc := ⟨.hbm, 134, rfl⟩
abbrev main_c_19 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_cst_1 : Ref sig .tc := ⟨.hbm, 146, rfl⟩
abbrev main_call2_v8 : Ref sig .tc := ⟨.hbm, 147, rfl⟩
abbrev main_call2_cst_2 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_cst_3 : Ref sig .tc := ⟨.hbm, 152, rfl⟩
abbrev main_call2_v12 : Ref sig .tc := ⟨.hbm, 153, rfl⟩
abbrev main_call2_cst_4 : Ref sig .tc := ⟨.hbm, 154, rfl⟩
abbrev main_call2_call0_v0 : Ref sig .tc := ⟨.hbm, 155, rfl⟩
abbrev main_call2_call0_v1 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_20 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_call3_cst : Ref sig .tc := ⟨.hbm, 174, rfl⟩
abbrev main_call3_v0 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_21 : Ref sig .tc := ⟨.hbm, 181, rfl⟩
abbrev main_v109 : Ref sig .tc := ⟨.hbm, 182, rfl⟩
abbrev main_cst_22 : Ref sig .tc := ⟨.hbm, 183, rfl⟩
abbrev main_v110 : Ref sig .tc := ⟨.hbm, 184, rfl⟩
abbrev main_v111 : Ref sig .tc := ⟨.hbm, 185, rfl⟩
abbrev main_c_23 : Ref sig .tc := ⟨.hbm, 186, rfl⟩
abbrev main_call4_cst : Ref sig .tc := ⟨.hbm, 187, rfl⟩
abbrev main_call4_v0 : Ref sig .tc := ⟨.hbm, 188, rfl⟩
abbrev main_call4_v1 : Ref sig .tc := ⟨.hbm, 189, rfl⟩
abbrev main_call4_cst_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_cst_1 : Ref sig .tc := ⟨.hbm, 197, rfl⟩
abbrev main_call4_v8 : Ref sig .tc := ⟨.hbm, 198, rfl⟩
abbrev main_call4_cst_2 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_cst_3 : Ref sig .tc := ⟨.hbm, 203, rfl⟩
abbrev main_call4_v12 : Ref sig .tc := ⟨.hbm, 204, rfl⟩
abbrev main_call4_cst_4 : Ref sig .tc := ⟨.hbm, 205, rfl⟩
abbrev main_call4_call0_v0 : Ref sig .tc := ⟨.hbm, 206, rfl⟩
abbrev main_call4_call0_v1 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_cst_24 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_call5_cst : Ref sig .tc := ⟨.hbm, 225, rfl⟩
abbrev main_call5_v0 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S50000x1_S50000x100_0_1 : S50000x1.BroadcastsInDim S50000x100 (![0, 1] : Fin 2 → Fin S50000x100.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  bcast_S_S50000x20 : S_.BroadcastsInDim S50000x20 (![] : Fin 0 → Fin S50000x20.rank)
  bcast_S_S1024 : S_.BroadcastsInDim S1024 (![] : Fin 0 → Fin S1024.rank)
  bcast_S_S1024x20 : S_.BroadcastsInDim S1024x20 (![] : Fin 0 → Fin S1024x20.rank)
  bcast_S1024_S1024x1_0 : S1024.BroadcastsInDim S1024x1 (![0] : Fin 1 → Fin S1024x1.rank)
  bcast_S1024x1_S1024x20_0_1 : S1024x1.BroadcastsInDim S1024x20 (![0, 1] : Fin 2 → Fin S1024x20.rank)
  concatenates_S1024x20_S1024x200_S1024x220_d1 : Shape.Concatenates [S1024x20, S1024x200] S1024x220 1
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S1024x200 : S_.BroadcastsInDim S1024x200 (![] : Fin 0 → Fin S1024x200.rank)
  bcast_S_S1024x1 : S_.BroadcastsInDim S1024x1 (![] : Fin 0 → Fin S1024x1.rank)
  concatenates_S1024x20_S1024x1_S1024x21_d1 : Shape.Concatenates [S1024x20, S1024x1] S1024x21 1
  concatenates_S1024x200_S1024x1_S1024x201_d1 : Shape.Concatenates [S1024x200, S1024x1] S1024x201 1
  bcast_S1024x21_S1024x21x1_0_1 : S1024x21.BroadcastsInDim S1024x21x1 (![0, 1] : Fin 2 → Fin S1024x21x1.rank)
  bcast_S1024x201_S1024x1x201_0_2 : S1024x201.BroadcastsInDim S1024x1x201 (![0, 2] : Fin 2 → Fin S1024x1x201.rank)
  bcast_S1024x21x1_S1024x21x201_0_1_2 : S1024x21x1.BroadcastsInDim S1024x21x201 (![0, 1, 2] : Fin 3 → Fin S1024x21x201.rank)
  bcast_S1024x1x201_S1024x21x201_0_1_2 : S1024x1x201.BroadcastsInDim S1024x21x201 (![0, 1, 2] : Fin 3 → Fin S1024x21x201.rank)
  shapeCasts_S1024x21x201_S1024x4221 : S1024x21x201.ShapeCasts S1024x4221
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S128_d0 : S1024x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S1024x128 : S_.BroadcastsInDim S1024x128 (![] : Fin 0 → Fin S1024x128.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  reducesTo_S1024x32_S32_d0 : S1024x32.ReducesTo [0] S32
  bcast_S_S32 : S_.BroadcastsInDim S32 (![] : Fin 0 → Fin S32.rank)
  bcast_S_S1x32 : S_.BroadcastsInDim S1x32 (![] : Fin 0 → Fin S1x32.rank)
  bcast_S_S1024x32 : S_.BroadcastsInDim S1024x32 (![] : Fin 0 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x100_S50000x100_1_0_0_1_n_n_wf : DotDims.WF S50000x128 S128x100 S50000x100 [1] [0] [0] [1] [] []
  gather_S50000x100_S1600000x1_S1600000x100_1_0_n_n_0_1_1100_wf : GatherDims.WF S50000x100 S1600000x1 S1600000x100 [1] [0] [] [0] [] 1 ![1, 100]
  scatter_S50000x100_S1600000x1_S1600000x100_1_0_0_1_wf : ScatterDims.WF S50000x100 S1600000x1 S1600000x100 [1] [0] [0] 1
  dot_S50000x100_S100x20_S50000x20_1_0_0_1_n_n_wf : DotDims.WF S50000x100 S100x20 S50000x20 [1] [0] [0] [1] [] []
  scatter_S1024_S50000x1_S50000_n_0_0_1_wf : ScatterDims.WF S1024 S50000x1 S50000 [] [0] [0] 1
  scatter_S1024x20_S50000x1_S50000x20_1_0_0_1_wf : ScatterDims.WF S1024x20 S50000x1 S50000x20 [1] [0] [0] 1
  dot_S1024x220_S220x200_S1024x200_1_0_0_1_n_n_wf : DotDims.WF S1024x220 S220x200 S1024x200 [1] [0] [0] [1] [] []
  dot_S1024x4221_S4221x128_S1024x128_1_0_0_1_n_n_wf : DotDims.WF S1024x4221 S4221x128 S1024x128 [1] [0] [0] [1] [] []
  dot_S1024x128_S128x32_S1024x32_1_0_0_1_n_n_wf : DotDims.WF S1024x128 S128x32 S1024x32 [1] [0] [0] [1] [] []
  dot_S1024x32_S32x1_S1024x1_1_0_0_1_n_n_wf : DotDims.WF S1024x32 S32x1 S1024x1 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def gather_S50000x100_S1600000x1_S1600000x100_1_0_n_n_0_1_1100 : GatherDims S50000x100 S1600000x1 S1600000x100 where
  offsetDims := [1]
  collapsedSliceDims := [0]
  operandBatchingDims := []
  startIndicesBatchingDims := []
  startIndexMap := [0]
  indexVectorDim := 1
  sliceSizes := ![1, 100]
  wf := gather_S50000x100_S1600000x1_S1600000x100_1_0_n_n_0_1_1100_wf
def scatter_S50000x100_S1600000x1_S1600000x100_1_0_0_1 : ScatterDims S50000x100 S1600000x1 S1600000x100 where
  updateWindowDims := [1]
  insertedWindowDims := [0]
  scatterDimsToOperandDims := [0]
  indexVectorDim := 1
  wf := scatter_S50000x100_S1600000x1_S1600000x100_1_0_0_1_wf
def dot_S50000x100_S100x20_S50000x20_1_0_0_1_n_n : DotDims S50000x100 S100x20 S50000x20 where
  lhsContracting := [1]
  rhsContracting := [0]
  lhsNonContracting := [0]
  rhsNonContracting := [1]
  lhsBatch := []
  rhsBatch := []
  wf := dot_S50000x100_S100x20_S50000x20_1_0_0_1_n_n_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def scatter_S1024x20_S50000x1_S50000x20_1_0_0_1 : ScatterDims S1024x20 S50000x1 S50000x20 where
  updateWindowDims := [1]
  insertedWindowDims := [0]
  scatterDimsToOperandDims := [0]
  indexVectorDim := 1
  wf := scatter_S1024x20_S50000x1_S50000x20_1_0_0_1_wf
def dot_S1024x220_S220x200_S1024x200_1_0_0_1_n_n : DotDims S1024x220 S220x200 S1024x200 where
  lhsContracting := [1]
  rhsContracting := [0]
  lhsNonContracting := [0]
  rhsNonContracting := [1]
  lhsBatch := []
  rhsBatch := []
  wf := dot_S1024x220_S220x200_S1024x200_1_0_0_1_n_n_wf
def dot_S1024x4221_S4221x128_S1024x128_1_0_0_1_n_n : DotDims S1024x4221 S4221x128 S1024x128 where
  lhsContracting := [1]
  rhsContracting := [0]
  lhsNonContracting := [0]
  rhsNonContracting := [1]
  lhsBatch := []
  rhsBatch := []
  wf := dot_S1024x4221_S4221x128_S1024x128_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KernelRun.lean ====
/-
  The idealized kernel's run with its RESULT named: every weakly fair execution of @main from a memory with zero
  counters terminates, nothing faulting, with the result buffer at what the last region's write-backs leave
  (the boundary contents after the third region, `W6`) and every argument array as launched.  The argument is the
  frame's own: the launch over @main's six segments (three stretches of host operations, three regions), the last
  thread state read against the final state; the result buffer is one more unscoped buffer read there.
-/
import proofs.«144383_j84954453115094_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_value : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c)⟩)

end Cert.KernelIdeal.KRun

end
-- ==== Proof.KStages.lean ====
/-
  The host operations of the kernel's program between its three regions, as functions of the buffers they read.

  `kDegCol`: the clamped in-degree of every node as a column — ones scattered and added at the destination
  indices, the maximum with one.  `kMsum1`, `kMsum2`: the neighbourhood sums — the rows of the features gathered at the
  (wrapped) source indices, scattered and added at the destination indices.  `kHg`: the per-graph mean readout — rows
  scattered and added at the graph ids, divided by the clamped node count of the graph.
-/
import proofs.«144383_j84954453115094_1_alg».proof.Proof.Gen.KernelIdeal

noncomputable section

namespace Cert.KernelIdeal.KStages

open Cert.KernelIdeal Idealize.ShloMosaic
open Cert.KernelIdeal.Facts₀ Cert.KernelIdeal.Facts

variable {F : FTy → Type} [FloatOps F]

/-- The source indices with the negative ones wrapped by the node count, as a column. -/
def kIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The clamped in-degrees as a column `[50000, 1]`. -/
def kDegCol (dst : IVec S1600000 32) : FVec F S50000x1 .f32 :=
  broadcastInDim S50000x1 ![0] bcast_S50000_S50000x1_0
    (maximumf
      (Host.scatterAdd scatter_S50000_S1600000x1_S1600000_n_0_0_1
        (broadcastInDim S50000 ![] bcast_S_S50000 (constant (F := F) S_ .f32 0x00000000#32))
        (broadcastInDim S1600000x1 ![0] bcast_S1600000_S1600000x1_0 dst)
        (broadcastInDim S1600000 ![] bcast_S_S1600000 (constant (F := F) S_ .f32 0x3F800000#32)))
      (broadcastInDim S50000 ![] bcast_S_S50000 (constant (F := F) S_ .f32 0x3F800000#32)))

/-- The neighbourhood sums of the input features. -/
def kMsum1 (feat : FVec F S50000x128 .f32) (src dst : IVec S1600000 32) : FVec F S50000x128 .f32 :=
  Host.scatterAdd scatter_S50000x128_S1600000x1_S1600000x128_1_0_0_1
    (broadcastInDim S50000x128 ![] bcast_S_S50000x128 (constant (F := F) S_ .f32 0x00000000#32))
    (broadcastInDim S1600000x1 ![0] bcast_S1600000_S1600000x1_0 dst)
    (Host.gather gather_S50000x128_S1600000x1_S1600000x128_1_0_n_n_0_1_1128 feat (kIdx src))

/-- The neighbourhood sums of the first layer's output. -/
def kMsum2 (h : FVec F S50000x100 .f32) (src dst : IVec S1600000 32) : FVec F S50000x100 .f32 :=
  Host.scatterAdd scatter_S50000x100_S1600000x1_S1600000x100_1_0_0_1
    (broadcastInDim S50000x100 ![] bcast_S_S50000x100 (constant (F := F) S_ .f32 0x00000000#32))
    (broadcastInDim S1600000x1 ![0] bcast_S1600000_S1600000x1_0 dst)
    (Host.gather gather_S50000x100_S1600000x1_S1600000x100_1_0_n_n_0_1_1100 h (kIdx src))

/-- The per-graph mean of the second layer's output. -/
def kHg (h : FVec F S50000x20 .f32) (gid : IVec S50000 32) : FVec F S1024x20 .f32 :=
  Host.divf
    (Host.scatterAdd scatter_S1024x20_S50000x1_S50000x20_1_0_0_1
      (broadcastInDim S1024x20 ![] bcast_S_S1024x20 (constant (F := F) S_ .f32 0x00000000#32))
      (broadcastInDim S50000x1 ![0] bcast_S50000_S50000x1_0 gid) h)
    (broadcastInDim S1024x20 ![0, 1] bcast_S1024x1_S1024x20_0_1
      (broadcastInDim S1024x1 ![0] bcast_S1024_S1024x1_0
        (maximumf
          (Host.scatterAdd scatter_S1024_S50000x1_S50000_n_0_0_1
            (broadcastInDim S1024 ![] bcast_S_S1024 (constant (F := F) S_ .f32 0x00000000#32))
            (broadcastInDim S50000x1 ![0] bcast_S50000_S50000x1_0 gid)
            (broadcastInDim S50000 ![] bcast_S_S50000 (constant (F := F) S_ .f32 0x3F800000#32)))
          (broadcastInDim S1024 ![] bcast_S_S1024 (constant (F := F) S_ .f32 0x3F800000#32)))))

end Cert.KernelIdeal.KStages

end
-- ==== Proof.KChain.lean ====
/-
  The buffer contents at the boundaries of the kernel's program.

  Between the regions run three stretches of host operations.  Each stretch's result buffers, read off the fold of the
  stretch over the contents it starts from, are the stage functions of the buffers the stretch reads (the in-degree
  column and the first neighbourhood sums in the first stretch; the second neighbourhood sums in the second; the
  per-graph mean readout in the third); a buffer no operation of a stretch writes — every argument array, and the
  in-degree column after the first stretch — is what it was.
-/
import proofs.«144383_j84954453115094_1_alg».proof.Proof.Gen.KernelIdeal.Frame
import proofs.«144383_j84954453115094_1_alg».proof.Proof.KStages
import Idealize.ShloMosaic.Lib.StableHlo.Run

noncomputable section

namespace Cert.KernelIdeal.KChain

open Cert.KernelIdeal Cert.KernelIdeal.Gen Cert.KernelIdeal.KStages
open Idealize.ShloMosaic Idealize.ShloMosaic.TcCoe Idealize.SL.Sem Idealize.ShloMosaic.StableHlo

variable {F : FTy → Type} [FloatOps F]

/-! ## What each stretch computes -/

/-- The first stretch leaves the clamped in-degree column in its buffer. -/
theorem stretch0_v6 (W : Valuation τ sig (Elt F)) :
    StableHlo.after hostOps0 W (Proc.devRef .tc main_v6) = kDegCol (F := F) (W (Proc.devRef .tc main_arg20)) := by
  after_results
  rfl

set_option maxHeartbeats 1000000 in
/-- The first stretch leaves the neighbourhood sums of the input features in their buffer. -/
theorem stretch0_v16 (W : Valuation τ sig (Elt F)) :
    StableHlo.after hostOps0 W (Proc.devRef .tc main_v16)
      = kMsum1 (W (Proc.devRef .tc main_arg0)) (W (Proc.devRef .tc main_arg19)) (W (Proc.devRef .tc main_arg20)) := by
  after_results_simp
  rfl

set_option maxHeartbeats 1000000 in
/-- The second stretch leaves the neighbourhood sums of the first layer's output in their buffer. -/
theorem stretch1_v27 (W : Valuation τ sig (Elt F)) :
    StableHlo.after hostOps1 W (Proc.devRef .tc main_v27)
      = kMsum2 (W (Proc.devRef .tc main_v17)) (W (Proc.devRef .tc main_arg19)) (W (Proc.devRef .tc main_arg20)) := by
  after_results_simp
  rfl

set_option maxHeartbeats 1000000 in
/-- The third stretch leaves the per-graph mean of the second layer's output in its buffer. -/
theorem stretch2_v40 (W : Valuation τ sig (Elt F)) :
    StableHlo.after hostOps2 W (Proc.devRef .tc main_v40)
      = kHg (W (Proc.devRef .tc main_v28)) (W (Proc.devRef .tc main_arg21)) := by
  after_results_simp
  rfl

/-! ## What each stretch leaves alone -/

/-- A buffer that no operation of a stretch writes holds after the stretch what it held before. -/
local macro "host_pass" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem pass0_main_arg0 (W : Valuation τ sig (Elt F)) :
    StableHlo.after hostOps0 W (Proc.devRef .tc main_arg0) = W (Proc.devRef .tc main_arg0) := by host_pass
theorem pass0_main_arg1 (W : Valuation τ sig (Elt F)) :
    StableHlo.after hostOps0 W (Proc.devRef .tc main_arg1) = W (Proc.devRef .tc main_arg1) := by host_pass
theorem pass0_main_arg2 (W : Valuation τ sig (Elt F)) :
    StableHlo.after hostOps0 W (Proc.devRef .tc main_arg2) = W (Proc.devRef .tc main_arg2) := by host_pass
theorem pass0_main_arg3 (W : Valuation τ sig (Elt F)) :
    StableHlo.after hostOps0 W (Proc.devRef .tc main_arg3) = W (Proc.devRef .tc main_arg3) := by host_pass
theorem pass0_main_arg4 (W : Valuation τ sig (Elt F)) :
    StableHlo.after hostOps0 W (Proc.devRef .tc main_arg4) = W (Proc.devRef .tc main_arg4) := by host_pass
theorem pass0_main_arg5 (W : Valuation τ sig (Elt F)) :
    StableHlo.after hostOps0 W (Proc.devRef .tc main_arg5) = W (Proc.devRef .tc main_arg5) := by host_pass
theorem pass0_main_arg6 (W : Valuation τ sig (Elt F)) :
    StableHlo.after hostOps0 W (Proc.devRef .tc main_arg6) = W (Proc.devRef .tc main_arg6) := by host_pass
theorem pass0_main_arg7 (W : Valuation τ sig (Elt F)) :
    StableHlo.after hostOps0 W (Proc.devRef .tc main_arg7) = W (Proc.devRef .tc main_arg7) := by host_pass
theorem pass0_main_arg8 (W : Valuation τ sig (Elt F)) :
    StableHlo.after hostOps0 W (Proc.devRef .tc main_arg8) = W (Proc.devRef .tc main_arg8) := by host_pass
theorem pass0_main_arg9 (W : Valuation τ sig (Elt F)) :
    StableHlo.after hostOps0 W (Proc.devRef .tc main_arg9) = W (Proc.devRef .tc main_arg9) := by host_pass
theorem pass0_main_arg10 (W : Valuation τ sig (Elt F)) :
    StableHlo.after hostOps0 W (Proc.devRef .tc main_arg10) = W (Proc.devRef .tc main_arg10) := by host_pass
theorem pass0_main_arg11 (W : Valuation τ sig (Elt F)) :
    StableHlo.after hostOps0 W (Proc.devRef .tc main_arg11) = W (Proc.devRef .tc main_arg11) := by host_pass
theorem pass0_main_arg12 (W : Valuation τ sig (Elt F)) :
    StableHlo.after hostOps0 W (Proc.devRef .tc main_arg12) = W (Proc.devRef .tc main_arg12) := by host_pass
theorem pass0_main_arg13 (W : Valuation τ sig (Elt F)) :
    StableHlo.after hostOps0 W (Proc.devRef .tc main_arg13) = W (Proc.devRef .tc main_arg13) := by host_pass
theorem pass0_main_arg14 (W : Valuation τ sig (Elt F)) :
    StableHlo.after hostOps0 W (Proc.devRef .tc main_arg14) = W (Proc.devRef .tc main_arg14) := by host_pass
theorem pass0_main_arg15 (W : Valuation τ sig (Elt F)) :
    StableHlo.after hostOps0 W (Proc.devRef .tc main_arg15) = W (Proc.devRef .tc main_arg15) := by host_pass
theorem pass0_main_arg16 (W : Valuation τ sig (Elt F)) :
    StableHlo.after hostOps0 W (Proc.devRef .tc main_arg16) = W (Proc.devRef .tc main_arg16) := by host_pass
theorem pass0_main_arg17 (W : Valuation τ sig (Elt F)) :
    StableHlo.after hostOps0 W (Proc.devRef .tc main_arg17) = W (Proc.devRef .tc main_arg17) := by host_pass
theorem pass0_main_arg18 (W : Valuation τ sig (Elt F)) :
    StableHlo.after hostOps0 W (Proc.devRef .tc main_arg18) = W (Proc.devRef .tc main_arg18) := by host_pass
theorem pass0_main_arg19 (W : Valuation τ sig (Elt F)) :
    StableHlo.after hostOps0 W (Proc.devRef .tc main_arg19) = W (Proc.devRef .tc main_arg19) := by host_pass
theorem pass0_main_arg20 (W : Valuation τ sig (Elt F)) :
    StableHlo.after hostOps0 W (Proc.devRef .tc main_arg20) = W (Proc.devRef .tc main_arg20) := by host_pass
theorem pass0_main_arg21 (W : Valuation τ sig (Elt F)) :
    StableHlo.after hostOps0 W (Proc.devRef .tc main_arg21) = W (Proc.devRef .tc main_arg21) := by host_pass
theorem pass1_main_arg0 (W : Valuation τ sig (Elt F)) :
    StableHlo.after hostOps1 W (Proc.devRef .tc main_arg0) = W (Proc.devRef .tc main_arg0) := by host_pass
theorem pass1_main_arg1 (W : Valuation τ sig (Elt F)) :
    StableHlo.after hostOps1 W (Proc.devRef .tc main_arg1) = W (Proc.devRef .tc main_arg1) := by host_pass
theorem pass1_main_arg2 (W : Valuation τ sig (Elt F)) :
    StableHlo.after hostOps1 W (Proc.devRef .tc main_arg2) = W (Proc.devRef .tc main_arg2) := by host_pass
theorem pass1_main_arg3 (W : Valuation τ sig (Elt F)) :
    StableHlo.after hostOps1 W (Proc.devRef .tc main_arg3) = W (Proc.devRef .tc main_arg3) := by host_pass
theorem pass1_main_arg4 (W : Valuation τ sig (Elt F)) :
    StableHlo.after hostOps1 W (Proc.devRef .tc main_arg4) = W (Proc.devRef .tc main_arg4) := by host_pass
theorem pass1_main_arg5 (W : Valuation τ sig (Elt F)) :
    StableHlo.after hostOps1 W (Proc.devRef .tc main_arg5) = W (Proc.devRef .tc main_arg5) := by host_pass
theorem pass1_main_arg6 (W : Valuation τ sig (Elt F)) :
    StableHlo.after hostOps1 W (Proc.devRef .tc main_arg6) = W (Proc.devRef .tc main_arg6) := by host_pass
theorem pass1_main_arg7 (W : Valuation τ sig (Elt F)) :
    StableHlo.after hostOps1 W (Proc.devRef .tc main_arg7) = W (Proc.devRef .tc main_arg7) := by host_pass
theorem pass1_main_arg8 (W : Valuation τ sig (Elt F)) :
    StableHlo.after hostOps1 W (Proc.devRef .tc main_arg8) = W (Proc.devRef .tc main_arg8) := by host_pass
theorem pass1_main_arg9 (W : Valuation τ sig (Elt F)) :
    StableHlo.after hostOps1 W (Proc.devRef .tc main_arg9) = W (Proc.devRef .tc main_arg9) := by host_pass
theorem pass1_main_arg10 (W : Valuation τ sig (Elt F)) :
    StableHlo.after hostOps1 W (Proc.devRef .tc main_arg10) = W (Proc.devRef .tc main_arg10) := by host_pass
theorem pass1_main_arg11 (W : Valuation τ sig (Elt F)) :
    StableHlo.after hostOps1 W (Proc.devRef .tc main_arg11) = W (Proc.devRef .tc main_arg11) := by host_pass
theorem pass1_main_arg12 (W : Valuation τ sig (Elt F)) :
    StableHlo.after hostOps1 W (Proc.devRef .tc main_arg12) = W (Proc.devRef .tc main_arg12) := by host_pass
theorem pass1_main_arg13 (W : Valuation τ sig (Elt F)) :
    StableHlo.after hostOps1 W (Proc.devRef .tc main_arg13) = W (Proc.devRef .tc main_arg13) := by host_pass
theorem pass1_main_arg14 (W : Valuation τ sig (Elt F)) :
    StableHlo.after hostOps1 W (Proc.devRef .tc main_arg14) = W (Proc.devRef .tc main_arg14) := by host_pass
theorem pass1_main_arg15 (W : Valuation τ sig (Elt F)) :
    StableHlo.after hostOps1 W (Proc.devRef .tc main_arg15) = W (Proc.devRef .tc main_arg15) := by host_pass
theorem pass1_main_arg16 (W : Valuation τ sig (Elt F)) :
    StableHlo.after hostOps1 W (Proc.devRef .tc main_arg16) = W (Proc.devRef .tc main_arg16) := by host_pass
theorem pass1_main_arg17 (W : Valuation τ sig (Elt F)) :
    StableHlo.after hostOps1 W (Proc.devRef .tc main_arg17) = W (Proc.devRef .tc main_arg17) := by host_pass
theorem pass1_main_arg18 (W : Valuation τ sig (Elt F)) :
    StableHlo.after hostOps1 W (Proc.devRef .tc main_arg18) = W (Proc.devRef .tc main_arg18) := by host_pass
theorem pass1_main_arg19 (W : Valuation τ sig (Elt F)) :
    StableHlo.after hostOps1 W (Proc.devRef .tc main_arg19) = W (Proc.devRef .tc main_arg19) := by host_pass
theorem pass1_main_arg20 (W : Valuation τ sig (Elt F)) :
    StableHlo.after hostOps1 W (Proc.devRef .tc main_arg20) = W (Proc.devRef .tc main_arg20) := by host_pass
theorem pass1_main_arg21 (W : Valuation τ sig (Elt F)) :
    StableHlo.after hostOps1 W (Proc.devRef .tc main_arg21) = W (Proc.devRef .tc main_arg21) := by host_pass
theorem pass1_main_v6 (W : Valuation τ sig (Elt F)) :
    StableHlo.after hostOps1 W (Proc.devRef .tc main_v6) = W (Proc.devRef .tc main_v6) := by host_pass
theorem pass2_main_arg0 (W : Valuation τ sig (Elt F)) :
    StableHlo.after hostOps2 W (Proc.devRef .tc main_arg0) = W (Proc.devRef .tc main_arg0) := by host_pass
theorem pass2_main_arg1 (W : Valuation τ sig (Elt F)) :
    StableHlo.after hostOps2 W (Proc.devRef .tc main_arg1) = W (Proc.devRef .tc main_arg1) := by host_pass
theorem pass2_main_arg2 (W : Valuation τ sig (Elt F)) :
    StableHlo.after hostOps2 W (Proc.devRef .tc main_arg2) = W (Proc.devRef .tc main_arg2) := by host_pass
theorem pass2_main_arg3 (W : Valuation τ sig (Elt F)) :
    StableHlo.after hostOps2 W (Proc.devRef .tc main_arg3) = W (Proc.devRef .tc main_arg3) := by host_pass
theorem pass2_main_arg4 (W : Valuation τ sig (Elt F)) :
    StableHlo.after hostOps2 W (Proc.devRef .tc main_arg4) = W (Proc.devRef .tc main_arg4) := by host_pass
theorem pass2_main_arg5 (W : Valuation τ sig (Elt F)) :
    StableHlo.after hostOps2 W (Proc.devRef .tc main_arg5) = W (Proc.devRef .tc main_arg5) := by host_pass
theorem pass2_main_arg6 (W : Valuation τ sig (Elt F)) :
    StableHlo.after hostOps2 W (Proc.devRef .tc main_arg6) = W (Proc.devRef .tc main_arg6) := by host_pass
theorem pass2_main_arg7 (W : Valuation τ sig (Elt F)) :
    StableHlo.after hostOps2 W (Proc.devRef .tc main_arg7) = W (Proc.devRef .tc main_arg7) := by host_pass
theorem pass2_main_arg8 (W : Valuation τ sig (Elt F)) :
    StableHlo.after hostOps2 W (Proc.devRef .tc main_arg8) = W (Proc.devRef .tc main_arg8) := by host_pass
theorem pass2_main_arg9 (W : Valuation τ sig (Elt F)) :
    StableHlo.after hostOps2 W (Proc.devRef .tc main_arg9) = W (Proc.devRef .tc main_arg9) := by host_pass
theorem pass2_main_arg10 (W : Valuation τ sig (Elt F)) :
    StableHlo.after hostOps2 W (Proc.devRef .tc main_arg10) = W (Proc.devRef .tc main_arg10) := by host_pass
theorem pass2_main_arg11 (W : Valuation τ sig (Elt F)) :
    StableHlo.after hostOps2 W (Proc.devRef .tc main_arg11) = W (Proc.devRef .tc main_arg11) := by host_pass
theorem pass2_main_arg12 (W : Valuation τ sig (Elt F)) :
    StableHlo.after hostOps2 W (Proc.devRef .tc main_arg12) = W (Proc.devRef .tc main_arg12) := by host_pass
theorem pass2_main_arg13 (W : Valuation τ sig (Elt F)) :
    StableHlo.after hostOps2 W (Proc.devRef .tc main_arg13) = W (Proc.devRef .tc main_arg13) := by host_pass
theorem pass2_main_arg14 (W : Valuation τ sig (Elt F)) :
    StableHlo.after hostOps2 W (Proc.devRef .tc main_arg14) = W (Proc.devRef .tc main_arg14) := by host_pass
theorem pass2_main_arg15 (W : Valuation τ sig (Elt F)) :
    StableHlo.after hostOps2 W (Proc.devRef .tc main_arg15) = W (Proc.devRef .tc main_arg15) := by host_pass
theorem pass2_main_arg16 (W : Valuation τ sig (Elt F)) :
    StableHlo.after hostOps2 W (Proc.devRef .tc main_arg16) = W (Proc.devRef .tc main_arg16) := by host_pass
theorem pass2_main_arg17 (W : Valuation τ sig (Elt F)) :
    StableHlo.after hostOps2 W (Proc.devRef .tc main_arg17) = W (Proc.devRef .tc main_arg17) := by host_pass
theorem pass2_main_arg18 (W : Valuation τ sig (Elt F)) :
    StableHlo.after hostOps2 W (Proc.devRef .tc main_arg18) = W (Proc.devRef .tc main_arg18) := by host_pass
theorem pass2_main_arg19 (W : Valuation τ sig (Elt F)) :
    StableHlo.after hostOps2 W (Proc.devRef .tc main_arg19) = W (Proc.devRef .tc main_arg19) := by host_pass
theorem pass2_main_arg20 (W : Valuation τ sig (Elt F)) :
    StableHlo.after hostOps2 W (Proc.devRef .tc main_arg20) = W (Proc.devRef .tc main_arg20) := by host_pass
theorem pass2_main_arg21 (W : Valuation τ sig (Elt F)) :
    StableHlo.after hostOps2 W (Proc.devRef .tc main_arg21) = W (Proc.devRef .tc main_arg21) := by host_pass

end Cert.KernelIdeal.KChain

end
-- ==== Proof.Spec.lean ====
/-
  The mathematics both programs compute, index by index, over the extended reals.

  A graph-convolution layer: row `i` of the aggregated features is divided entry by entry by the
  row's (clamped) in-degree, multiplied into the weight matrix, shifted by the bias and clamped at zero.

  The fusion head, for each of the 1024 graphs `b`: the gate `logistic ([hg | d3] · Wg + bg)` scales the
  3d descriptor; both the pooled features and the gated descriptor get a trailing one; their outer product,
  flattened row-major (`q = 201·d + j`), goes through three dense layers, the first two followed by a
  batch normalisation over the 1024 rows (column mean, biased column variance, `ε`, scale and shift) and a
  clamp at zero.

  The normalisation is stated twice: with the deviation MULTIPLIED by the reciprocal square root of
  `var + ε`, and with the deviation DIVIDED by the square root of `var + ε`.  The variance is a sum of squares
  divided by 1024, so `var + ε` is a positive real or `⊤`, and there the two agree for every extended-real
  deviation (`normMul_eq_normDiv` is proved in its own module).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The rank-2 shape of extents `a × b`, and the rank-1 shape of extent `a`. -/
abbrev Sh2 (a b : Nat) : Shape := ⟨2, ![a, b]⟩
abbrev Sh1 (a : Nat) : Shape := ⟨1, ![a]⟩
/-- Arrays of extended reals over those shapes. -/
abbrev A2 (a b : Nat) : Type := (Sh2 a b).Idx → EReal
abbrev A1 (a : Nat) : Type := (Sh1 a).Idx → EReal

/-- The three float words the programs share, read as extended reals: 1024, ε = f32(1e-5), and 1. -/
def c1024 : EReal := Ideal.ofBits .f32 0x44800000#32
def ceps : EReal := Ideal.ofBits .f32 0x3727C5AC#32
def cone : EReal := Ideal.ofBits .f32 0x3F800000#32

/-! ## A graph-convolution layer -/

/-- Entry `(i, j)` of `relu ((x / deg) · W + b)`: the sum over `k` of `x[i,k] / deg[i]` times `W[k,j]`, plus `b[j]`,
    clamped at zero. -/
def layerAt {N K D : Nat} (x : A2 N K) (deg : A2 N 1) (W : A2 K D) (b : A1 D) (i : Fin N) (j : Fin D) : EReal :=
  max ((∑ k : Fin K, Ideal.div (x (ix2 i k)) (deg (ix2 i 0)) * W (ix2 k j)) + b (ix1 j)) 0

/-- The layer as an array. -/
def layer {N K D : Nat} (x : A2 N K) (deg : A2 N 1) (W : A2 K D) (b : A1 D) : A2 N D :=
  fun y => layerAt x deg W b (y 0) (y 1)

/-! ## A dense layer and the batch normalisation -/

/-- Entry `(r, n)` of `x · W + b`. -/
def denseAt {B K D : Nat} (x : Fin B → Fin K → EReal) (W : A2 K D) (b : A1 D) (r : Fin B) (n : Fin D) : EReal :=
  (∑ k : Fin K, x r k * W (ix2 k n)) + b (ix1 n)

/-- The mean of column `n` over the `B` rows: the column's sum divided by (the word) 1024. -/
def colMean {B D : Nat} (y : Fin B → Fin D → EReal) (n : Fin D) : EReal :=
  Ideal.div (∑ r : Fin B, y r n) c1024

/-- The biased variance of column `n`: the sum of the squared deviations from the column mean, divided by 1024. -/
def colVar {B D : Nat} (y : Fin B → Fin D → EReal) (n : Fin D) : EReal :=
  Ideal.div (∑ r : Fin B, (y r n - colMean y n) * (y r n - colMean y n)) c1024

/-- A deviation scaled by the reciprocal square root of `v`, as a product. -/
def normMul (d v : EReal) : EReal := d * Ideal.rsqrt v
/-- A deviation scaled by the reciprocal square root of `v`, as a quotient. -/
def normDiv (d v : EReal) : EReal := Ideal.div d (Ideal.sqrt v)

/-- Batch normalisation of entry `(r, n)` followed by the clamp at zero, the scaling step a parameter. -/
def bnReluAt (nrm : EReal → EReal → EReal) {B D : Nat} (y : Fin B → Fin D → EReal) (g be : A1 D)
    (r : Fin B) (n : Fin D) : EReal :=
  max (nrm (y r n - colMean y n) (colVar y n + ceps) * g (ix1 n) + be (ix1 n)) 0

/-! ## The fusion head -/

section Fusion

variable (hg : A2 1024 20) (d3 : A2 1024 200) (Wg : A2 220 200) (bg : A1 200)

/-- `[hg | d3]` at row `r`, column `k`. -/
def catAt (r : Fin 1024) (k : Fin 220) : EReal :=
  if h : k.val < 20 then hg (ix2 r ⟨k.val, h⟩) else d3 (ix2 r ⟨k.val - 20, by omega⟩)

/-- The gated descriptor `logistic ([hg | d3] · Wg + bg) * d3` at `(r, n)`. -/
def gatedAt (r : Fin 1024) (n : Fin 200) : EReal :=
  Ideal.logistic ((∑ k : Fin 220, catAt hg d3 r k * Wg (ix2 k n)) + bg (ix1 n)) * d3 (ix2 r n)

/-- `[hg | 1]` at `(r, d)`. -/
def hgAugAt (r : Fin 1024) (d : Fin 21) : EReal :=
  if h : d.val < 20 then hg (ix2 r ⟨d.val, h⟩) else cone

/-- `[gated | 1]` at `(r, j)`. -/
def gatedAugAt (r : Fin 1024) (j : Fin 201) : EReal :=
  if h : j.val < 200 then gatedAt hg d3 Wg bg r ⟨j.val, h⟩ else cone

/-- The flattened outer product at `(r, q)`, `q = 201·d + j`. -/
def fusedAt (r : Fin 1024) (q : Fin 4221) : EReal :=
  hgAugAt hg r ⟨q.val / 201, by omega⟩ * gatedAugAt hg d3 Wg bg r ⟨q.val % 201, Nat.mod_lt _ (by norm_num)⟩

variable (Wf1 : A2 4221 128) (bf1 : A1 128) (g1 be1 : A1 128) (Wf2 : A2 128 32) (bf2 : A1 32) (g2 be2 : A1 32)
  (Wf3 : A2 32 1) (bf3 : A1 1)

/-- The head's three dense layers with the two normalisations, the scaling step a parameter. -/
def y1At (r : Fin 1024) (n : Fin 128) : EReal := denseAt (fusedAt hg d3 Wg bg) Wf1 bf1 r n
def o1At (nrm : EReal → EReal → EReal) (r : Fin 1024) (n : Fin 128) : EReal :=
  bnReluAt nrm (y1At hg d3 Wg bg Wf1 bf1) g1 be1 r n
def y2At (nrm : EReal → EReal → EReal) (r : Fin 1024) (n : Fin 32) : EReal :=
  denseAt (o1At hg d3 Wg bg Wf1 bf1 g1 be1 nrm) Wf2 bf2 r n
def o2At (nrm : EReal → EReal → EReal) (r : Fin 1024) (n : Fin 32) : EReal :=
  bnReluAt nrm (y2At hg d3 Wg bg Wf1 bf1 g1 be1 Wf2 bf2 nrm) g2 be2 r n
def y3At (nrm : EReal → EReal → EReal) (r : Fin 1024) (n : Fin 1) : EReal :=
  denseAt (o2At hg d3 Wg bg Wf1 bf1 g1 be1 Wf2 bf2 g2 be2 nrm) Wf3 bf3 r n

/-- The fusion head as an array `[1024, 1]`, the scaling step a parameter. -/
def fusion (nrm : EReal → EReal → EReal) : A2 1024 1 :=
  fun y => y3At hg d3 Wg bg Wf1 bf1 g1 be1 Wf2 bf2 g2 be2 Wf3 bf3 nrm (y 0) (y 1)

end Fusion

end Cert.Spec

end
-- ==== Proof.KChain2.lean ====
/-
  The kernel's result buffer as ONE function of the argument arrays.

  Threading the boundary contents through @main: the first region finds the first neighbourhood sums and the in-degree
  column and leaves the first layer; the second stretch gathers and scatters that; the second region leaves the second
  layer; the third stretch pools it per graph; the third region leaves the fusion head of the pooled features and the
  argument arrays.  Each region's output array as a function of the arrays it finds is a hypothesis here (the three
  region-value theorems), so this module is about the order of the segments only.
-/
import proofs.«144383_j84954453115094_1_alg».proof.Proof.KChain
import proofs.«144383_j84954453115094_1_alg».proof.Proof.Spec

noncomputable section

namespace Cert.KernelIdeal.KChain

open Cert.KernelIdeal Cert.KernelIdeal.Gen Cert.KernelIdeal.KStages
open Idealize.ShloMosaic Idealize.ShloMosaic.TcCoe Idealize.SL.Sem Idealize.ShloMosaic.StableHlo

/-- The region-entry contents type. -/
abbrev Entry := (c : Dev nD) → (b : Ref sig .tc) → Buf (Elt Ideal) ((c : Thread nD τ).loc b)

/-- What the three region-value theorems say. -/
def Region0Value : Prop := ∀ (V : Entry) (c : Dev nD), (dat0 (F := Ideal) V c).arrAt 4 cfg0.N
    = Cert.Spec.layer (N := 50000) (K := 128) (D := 100) (V c (Pipeline.arrRef spec0 0)) (V c (Pipeline.arrRef spec0 1)) (V c (Pipeline.arrRef spec0 2)) (V c (Pipeline.arrRef spec0 3))
def Region1Value : Prop := ∀ (V : Entry) (c : Dev nD), (dat1 (F := Ideal) V c).arrAt 4 cfg1.N
    = Cert.Spec.layer (N := 50000) (K := 100) (D := 20) (V c (Pipeline.arrRef spec1 0)) (V c (Pipeline.arrRef spec1 1)) (V c (Pipeline.arrRef spec1 2)) (V c (Pipeline.arrRef spec1 3))
def Region2Value : Prop := ∀ (V : Entry) (c : Dev nD), (dat2 (F := Ideal) V c).arrAt 14 cfg2.N
    = Cert.Spec.fusion (V c (Pipeline.arrRef spec2 0)) (V c (Pipeline.arrRef spec2 1)) (V c (Pipeline.arrRef spec2 2)) (V c (Pipeline.arrRef spec2 3))
        (V c (Pipeline.arrRef spec2 4)) (V c (Pipeline.arrRef spec2 5)) (V c (Pipeline.arrRef spec2 6)) (V c (Pipeline.arrRef spec2 7))
        (V c (Pipeline.arrRef spec2 8)) (V c (Pipeline.arrRef spec2 9)) (V c (Pipeline.arrRef spec2 10)) (V c (Pipeline.arrRef spec2 11))
        (V c (Pipeline.arrRef spec2 12)) (V c (Pipeline.arrRef spec2 13)) Cert.Spec.normMul

/-- The kernel's result as a function of the argument arrays. -/
def G (a0 : FVec Ideal S50000x128 .f32) (a2 : FVec Ideal S1024x200 .f32) (a3 : FVec Ideal S128x100 .f32) (a4 : FVec Ideal S100 .f32)
    (a5 : FVec Ideal S100x20 .f32) (a6 : FVec Ideal S20 .f32) (a7 : FVec Ideal S220x200 .f32) (a8 : FVec Ideal S200 .f32)
    (a9 : FVec Ideal S4221x128 .f32) (a10 : FVec Ideal S128 .f32) (a11 : FVec Ideal S128x32 .f32) (a12 : FVec Ideal S32 .f32)
    (a13 : FVec Ideal S32x1 .f32) (a14 : FVec Ideal S1 .f32) (a15 a16 : FVec Ideal S128 .f32) (a17 a18 : FVec Ideal S32 .f32)
    (a19 a20 : IVec S1600000 32) (a21 : IVec S50000 32) (nrm : EReal → EReal → EReal) : FVec Ideal S1024x1 .f32 :=
  Cert.Spec.fusion
    (kHg (F := Ideal) (Cert.Spec.layer (N := 50000) (K := 100) (D := 20)
      (kMsum2 (F := Ideal) (Cert.Spec.layer (N := 50000) (K := 128) (D := 100) (kMsum1 (F := Ideal) a0 a19 a20) (kDegCol (F := Ideal) a20) a3 a4) a19 a20)
      (kDegCol (F := Ideal) a20) a5 a6) a21)
    a2 a7 a8 a9 a10 a15 a16 a11 a12 a17 a18 a13 a14 nrm

variable (m : (ℓ : Loc nD τ sig) → Buf (Elt Ideal) ℓ) (ρ : Dev nD → PrngReg) (c : Dev nD)

/-! ## The argument arrays at the inner boundaries -/

theorem W2_arg5 : W2 m ρ c (Proc.devRef .tc main_arg5) = (m ((c : Thread nD τ).loc main_arg5)) :=
  (W2_of_ne m ρ c main_arg5 (by decide)).trans (pass0_main_arg5 (W0 m ρ c))
theorem W2_arg6 : W2 m ρ c (Proc.devRef .tc main_arg6) = (m ((c : Thread nD τ).loc main_arg6)) :=
  (W2_of_ne m ρ c main_arg6 (by decide)).trans (pass0_main_arg6 (W0 m ρ c))
theorem W2_arg19 : W2 m ρ c (Proc.devRef .tc main_arg19) = (m ((c : Thread nD τ).loc main_arg19)) :=
  (W2_of_ne m ρ c main_arg19 (by decide)).trans (pass0_main_arg19 (W0 m ρ c))
theorem W2_arg20 : W2 m ρ c (Proc.devRef .tc main_arg20) = (m ((c : Thread nD τ).loc main_arg20)) :=
  (W2_of_ne m ρ c main_arg20 (by decide)).trans (pass0_main_arg20 (W0 m ρ c))
theorem W4_arg21 : W4 m ρ c (Proc.devRef .tc main_arg21) = (m ((c : Thread nD τ).loc main_arg21)) :=
  (W4_of_ne m ρ c main_arg21 (by decide)).trans ((pass1_main_arg21 (W2 m ρ c)).trans
    ((W2_of_ne m ρ c main_arg21 (by decide)).trans (pass0_main_arg21 (W0 m ρ c))))
theorem W4_arg2 : W4 m ρ c (Proc.devRef .tc main_arg2) = (m ((c : Thread nD τ).loc main_arg2)) :=
  (W4_of_ne m ρ c main_arg2 (by decide)).trans ((pass1_main_arg2 (W2 m ρ c)).trans
    ((W2_of_ne m ρ c main_arg2 (by decide)).trans (pass0_main_arg2 (W0 m ρ c))))
theorem W4_arg7 : W4 m ρ c (Proc.devRef .tc main_arg7) = (m ((c : Thread nD τ).loc main_arg7)) :=
  (W4_of_ne m ρ c main_arg7 (by decide)).trans ((pass1_main_arg7 (W2 m ρ c)).trans
    ((W2_of_ne m ρ c main_arg7 (by decide)).trans (pass0_main_arg7 (W0 m ρ c))))
theorem W4_arg8 : W4 m ρ c (Proc.devRef .tc main_arg8) = (m ((c : Thread nD τ).loc main_arg8)) :=
  (W4_of_ne m ρ c main_arg8 (by decide)).trans ((pass1_main_arg8 (W2 m ρ c)).trans
    ((W2_of_ne m ρ c main_arg8 (by decide)).trans (pass0_main_arg8 (W0 m ρ c))))
theorem W4_arg9 : W4 m ρ c (Proc.devRef .tc main_arg9) = (m ((c : Thread nD τ).loc main_arg9)) :=
  (W4_of_ne m ρ c main_arg9 (by decide)).trans ((pass1_main_arg9 (W2 m ρ c)).trans
    ((W2_of_ne m ρ c main_arg9 (by decide)).trans (pass0_main_arg9 (W0 m ρ c))))
theorem W4_arg10 : W4 m ρ c (Proc.devRef .tc main_arg10) = (m ((c : Thread nD τ).loc main_arg10)) :=
  (W4_of_ne m ρ c main_arg10 (by decide)).trans ((pass1_main_arg10 (W2 m ρ c)).trans
    ((W2_of_ne m ρ c main_arg10 (by decide)).trans (pass0_main_arg10 (W0 m ρ c))))
theorem W4_arg15 : W4 m ρ c (Proc.devRef .tc main_arg15) = (m ((c : Thread nD τ).loc main_arg15)) :=
  (W4_of_ne m ρ c main_arg15 (by decide)).trans ((pass1_main_arg15 (W2 m ρ c)).trans
    ((W2_of_ne m ρ c main_arg15 (by decide)).trans (pass0_main_arg15 (W0 m ρ c))))
theorem W4_arg16 : W4 m ρ c (Proc.devRef .tc main_arg16) = (m ((c : Thread nD τ).loc main_arg16)) :=
  (W4_of_ne m ρ c main_arg16 (by decide)).trans ((pass1_main_arg16 (W2 m ρ c)).trans
    ((W2_of_ne m ρ c main_arg16 (by decide)).trans (pass0_main_arg16 (W0 m ρ c))))
theorem W4_arg11 : W4 m ρ c (Proc.devRef .tc main_arg11) = (m ((c : Thread nD τ).loc main_arg11)) :=
  (W4_of_ne m ρ c main_arg11 (by decide)).trans ((pass1_main_arg11 (W2 m ρ c)).trans
    ((W2_of_ne m ρ c main_arg11 (by decide)).trans (pass0_main_arg11 (W0 m ρ c))))
theorem W4_arg12 : W4 m ρ c (Proc.devRef .tc main_arg12) = (m ((c : Thread nD τ).loc main_arg12)) :=
  (W4_of_ne m ρ c main_arg12 (by decide)).trans ((pass1_main_arg12 (W2 m ρ c)).trans
    ((W2_of_ne m ρ c main_arg12 (by decide)).trans (pass0_main_arg12 (W0 m ρ c))))
theorem W4_arg17 : W4 m ρ c (Proc.devRef .tc main_arg17) = (m ((c : Thread nD τ).loc main_arg17)) :=
  (W4_of_ne m ρ c main_arg17 (by decide)).trans ((pass1_main_arg17 (W2 m ρ c)).trans
    ((W2_of_ne m ρ c main_arg17 (by decide)).trans (pass0_main_arg17 (W0 m ρ c))))
theorem W4_arg18 : W4 m ρ c (Proc.devRef .tc main_arg18) = (m ((c : Thread nD τ).loc main_arg18)) :=
  (W4_of_ne m ρ c main_arg18 (by decide)).trans ((pass1_main_arg18 (W2 m ρ c)).trans
    ((W2_of_ne m ρ c main_arg18 (by decide)).trans (pass0_main_arg18 (W0 m ρ c))))
theorem W4_arg13 : W4 m ρ c (Proc.devRef .tc main_arg13) = (m ((c : Thread nD τ).loc main_arg13)) :=
  (W4_of_ne m ρ c main_arg13 (by decide)).trans ((pass1_main_arg13 (W2 m ρ c)).trans
    ((W2_of_ne m ρ c main_arg13 (by decide)).trans (pass0_main_arg13 (W0 m ρ c))))
theorem W4_arg14 : W4 m ρ c (Proc.devRef .tc main_arg14) = (m ((c : Thread nD τ).loc main_arg14)) :=
  (W4_of_ne m ρ c main_arg14 (by decide)).trans ((pass1_main_arg14 (W2 m ρ c)).trans
    ((W2_of_ne m ρ c main_arg14 (by decide)).trans (pass0_main_arg14 (W0 m ρ c))))

/-! ## Congruence, stated once (rewriting under the boundary folds is avoided: a failed match would unfold them) -/

theorem layer_congr {N K D : Nat} {x x' : Cert.Spec.A2 N K} {d d' : Cert.Spec.A2 N 1} {W W' : Cert.Spec.A2 K D} {b b' : Cert.Spec.A1 D}
    (hx : x = x') (hd : d = d') (hW : W = W') (hb : b = b') : Cert.Spec.layer x d W b = Cert.Spec.layer x' d' W' b' := by
  subst hx hd hW hb; rfl

theorem fusion_congr {x0 y0 : Cert.Spec.A2 1024 20} {x1 y1 : Cert.Spec.A2 1024 200} {x2 y2 : Cert.Spec.A2 220 200} {x3 y3 : Cert.Spec.A1 200}
    {x4 y4 : Cert.Spec.A2 4221 128} {x5 y5 x6 y6 x7 y7 : Cert.Spec.A1 128} {x8 y8 : Cert.Spec.A2 128 32} {x9 y9 x10 y10 x11 y11 : Cert.Spec.A1 32}
    {x12 y12 : Cert.Spec.A2 32 1} {x13 y13 : Cert.Spec.A1 1} (nrm : EReal → EReal → EReal)
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) :
    Cert.Spec.fusion x0 x1 x2 x3 x4 x5 x6 x7 x8 x9 x10 x11 x12 x13 nrm = Cert.Spec.fusion y0 y1 y2 y3 y4 y5 y6 y7 y8 y9 y10 y11 y12 y13 nrm := by
  subst h0 h1 h2 h3 h4 h5 h6 h7 h8 h9 h10 h11 h12 h13; rfl

/-! ## The three regions in turn -/

/-- The in-degree column, one of the first region's input arrays, is after that region what the first stretch left. -/
theorem W2_v6 : W2 m ρ c (Proc.devRef .tc main_v6) = kDegCol (F := Ideal) (m ((c : Thread nD τ).loc main_arg20)) :=
  (W2_arr m ρ c 1).trans ((((dat0 (V1 m ρ) c).arrAt_in 1 rfl _).trans (A_eq0 (V1 m ρ) c 1)).trans (stretch0_v6 (W0 m ρ c)))

/-- The first region leaves the first layer. -/
theorem W2_v17 (h0 : Region0Value) :
    W2 m ρ c (Proc.devRef .tc main_v17) = Cert.Spec.layer (N := 50000) (K := 128) (D := 100) (kMsum1 (F := Ideal) (m ((c : Thread nD τ).loc main_arg0)) (m ((c : Thread nD τ).loc main_arg19)) (m ((c : Thread nD τ).loc main_arg20))) (kDegCol (F := Ideal) (m ((c : Thread nD τ).loc main_arg20))) (m ((c : Thread nD τ).loc main_arg3)) (m ((c : Thread nD τ).loc main_arg4)) :=
  (W2_arr m ρ c 4).trans ((h0 (V1 m ρ) c).trans (layer_congr
    (stretch0_v16 (W0 m ρ c)) (stretch0_v6 (W0 m ρ c)) (pass0_main_arg3 (W0 m ρ c)) (pass0_main_arg4 (W0 m ρ c))))

/-- The second region leaves the second layer. -/
theorem W4_v28 (h0 : Region0Value) (h1 : Region1Value) :
    W4 m ρ c (Proc.devRef .tc main_v28) = Cert.Spec.layer (N := 50000) (K := 100) (D := 20) (kMsum2 (F := Ideal) (Cert.Spec.layer (N := 50000) (K := 128) (D := 100) (kMsum1 (F := Ideal) (m ((c : Thread nD τ).loc main_arg0)) (m ((c : Thread nD τ).loc main_arg19)) (m ((c : Thread nD τ).loc main_arg20))) (kDegCol (F := Ideal) (m ((c : Thread nD τ).loc main_arg20))) (m ((c : Thread nD τ).loc main_arg3)) (m ((c : Thread nD τ).loc main_arg4))) (m ((c : Thread nD τ).loc main_arg19)) (m ((c : Thread nD τ).loc main_arg20))) (kDegCol (F := Ideal) (m ((c : Thread nD τ).loc main_arg20))) (m ((c : Thread nD τ).loc main_arg5)) (m ((c : Thread nD τ).loc main_arg6)) :=
  (W4_arr m ρ c 4).trans ((h1 (V3 m ρ) c).trans (layer_congr
    ((stretch1_v27 (W2 m ρ c)).trans (by rw [W2_v17 m ρ c h0, W2_arg19 m ρ c, W2_arg20 m ρ c]))
    ((pass1_main_v6 (W2 m ρ c)).trans (W2_v6 m ρ c))
    ((pass1_main_arg5 (W2 m ρ c)).trans (W2_arg5 m ρ c))
    ((pass1_main_arg6 (W2 m ρ c)).trans (W2_arg6 m ρ c))))

/-- The third region leaves the fusion head: the result buffer is `G` of the argument arrays. -/
theorem W6_v41 (h0 : Region0Value) (h1 : Region1Value) (h2 : Region2Value) :
    W6 m ρ c (Proc.devRef .tc main_v41)
      = G (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) Cert.Spec.normMul :=
  (W6_arr m ρ c 14).trans ((h2 (V5 m ρ) c).trans (fusion_congr Cert.Spec.normMul
    ((stretch2_v40 (W4 m ρ c)).trans (by rw [W4_v28 m ρ c h0 h1, W4_arg21 m ρ c]))
    ((pass2_main_arg2 (W4 m ρ c)).trans (W4_arg2 m ρ c))
    ((pass2_main_arg7 (W4 m ρ c)).trans (W4_arg7 m ρ c))
    ((pass2_main_arg8 (W4 m ρ c)).trans (W4_arg8 m ρ c))
    ((pass2_main_arg9 (W4 m ρ c)).trans (W4_arg9 m ρ c))
    ((pass2_main_arg10 (W4 m ρ c)).trans (W4_arg10 m ρ c))
    ((pass2_main_arg15 (W4 m ρ c)).trans (W4_arg15 m ρ c))
    ((pass2_main_arg16 (W4 m ρ c)).trans (W4_arg16 m ρ c))
    ((pass2_main_arg11 (W4 m ρ c)).trans (W4_arg11 m ρ c))
    ((pass2_main_arg12 (W4 m ρ c)).trans (W4_arg12 m ρ c))
    ((pass2_main_arg17 (W4 m ρ c)).trans (W4_arg17 m ρ c))
    ((pass2_main_arg18 (W4 m ρ c)).trans (W4_arg18 m ρ c))
    ((pass2_main_arg13 (W4 m ρ c)).trans (W4_arg13 m ρ c))
    ((pass2_main_arg14 (W4 m ρ c)).trans (W4_arg14 m ρ c))))

end Cert.KernelIdeal.KChain

end
-- ==== Proof.KLayer0.lean ====
/-
  The first graph-convolution layer, read off the row-tiled kernel as ONE array.

  The kernel runs over 5 grid points. Point `t` works on rows `10000 t … 10000 t + 9999`: it is handed those rows of
  the features [50000,128] and of the degree column [50000,1], the whole weight matrix [128,100] and the whole bias
  [100], and it writes those rows of the output [50000,100]. At entry (p, q) of its block the body computes
  `max (∑ k, (x[p,k] / deg[p]) · W[k,q] + b[q]) 0`: the quotient by the degree column repeated across the feature
  columns, a change of float format (the identity on the extended reals), the block product into a zero accumulator
  (a sum over the 128 contracted columns), the bias row repeated down the block, and the clamp at the zero word.
  Entry (p, q) of block `t` is entry (10000 t + p, q) of the array, the weights' and the bias's one block is the
  whole array, and the five blocks tile the 50000 rows (row `r` lies in block `r / 10000`). So the output array after
  the last point is `Cert.Spec.layer` of the four arrays the region finds.
-/
import proofs.«144383_j84954453115094_1_alg».proof.Proof.Gen.KernelIdeal.Frame
import proofs.«144383_j84954453115094_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KVal

open Cert.KernelIdeal Cert.KernelIdeal.Gen Idealize.ShloMosaic Idealize.ShloMosaic.ValueIdx Idealize.ShloMosaic.TcCoe
open Idealize.ShloMosaic.Pipeline (Dat)

abbrev D0 := dot_S10000x128_S128x100_S10000x100_1_0_0_1_n_n

theorem lhs0_0 (i : S10000x100.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem lhs0_1 (i : S10000x100.Idx) (q : D0.contr.Idx) : (D0.lhsIdx i q 1).val = (q ⟨0, by decide⟩).val :=
  D0.lhsIdx_val_of_single rfl i q
theorem rhs0_0 (i : S10000x100.Idx) (q : D0.contr.Idx) : (D0.rhsIdx i q 0).val = (q ⟨0, by decide⟩).val :=
  D0.rhsIdx_val_of_single rfl i q
theorem rhs0_1 (i : S10000x100.Idx) (q : D0.contr.Idx) : (D0.rhsIdx i q 1).val = (i 1).val := by
  unfold DotDims.rhsIdx
  rw [dif_neg (show ¬(1 : Fin S128x100.rank) ∈ D0.rhsBatch by decide), dif_pos (show (1 : Fin S128x100.rank) ∈ D0.rhsNonContracting by decide)]
  rfl

/-- The block product at an entry: the sum over the 128 columns. -/
theorem mm0_apply (a : FVec Ideal S10000x128 .bf16) (b : FVec Ideal S128x100 .bf16) (p : Fin 10000) (q : Fin 100) :
    matmul D0 none a b (constant (F := Ideal) S10000x100 .f32 0x00000000#32) (ix2 p q)
      = ∑ k : Fin 128, a (ix2 p k) * b (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 k q := funext fun a => Fin.ext (by
    match a with
    | ⟨0, _⟩ => exact (rhs0_0 _ _).trans hk
    | ⟨1, _⟩ => exact rhs0_1 _ _)
  rw [el, er]

/-- The bias row, reshaped to one row and repeated down the block, read at an entry. -/
theorem bias0_apply (x3 : Vec Ideal S100 .f32) (p : Fin 10000) (q : Fin 100) :
    broadcastTo S10000x100 (shapeCast S1x100 x3 shapeCasts_S100_S1x100) broadcasts_S1x100_S10000x100 (ix2 p q) = x3 (ix1 q) := by
  rw [broadcastTo_apply _ _ (ix2 p q) (ix2 (0 : Fin 1) q) (fun a => by
    match a with
    | ⟨0, _⟩ => rfl
    | ⟨1, _⟩ => rfl)]
  exact shapeCast_apply _ _ _ (ix1 q) (by
    rw [Shape.rowMajor_val_one, Shape.rowMajor_val_two]
    show q.val = 0 * 100 + q.val
    omega)

/-- The degree column repeated across the 128 feature columns, read at an entry. -/
theorem deg0_apply (x1 : Vec Ideal S10000x1 .f32) (p : Fin 10000) (k : Fin 128) :
    broadcastTo S10000x128 (shapeCast S10000x1 x1 shapeCasts_S10000x1_S10000x1) broadcasts_S10000x1_S10000x128 (ix2 p k) = x1 (ix2 p 0) := by
  rw [shapeCast_self]
  exact broadcastTo_apply _ _ (ix2 p k) (ix2 p (0 : Fin 1)) (fun a => by
    match a with
    | ⟨0, _⟩ => rfl
    | ⟨1, _⟩ => rfl)

/-- The body's result at entry (p, q) of the block. -/
theorem pay0_apply (x0 : Vec Ideal S10000x128 .f32) (x1 : Vec Ideal S10000x1 .f32) (x2 : Vec Ideal S128x100 .f32)
    (x3 : Vec Ideal S100 .f32) (p : Fin 10000) (q : Fin 100) :
    k0_pay1 (F := Ideal) x0 x1 x2 x3 (ix2 p q)
      = max ((∑ k : Fin 128, Ideal.div (x0 (ix2 p k)) (x1 (ix2 p 0)) * x2 (ix2 k q)) + x3 (ix1 q)) 0 := by
  unfold k0_pay1
  refine (congrArg₂ max (congrArg₂ HAdd.hAdd (mm0_apply _ _ p q) (bias0_apply x3 p q)) Ideal.ofBits_zero_f32).trans ?_
  refine congrArg (fun s => max (s + x3 (ix1 q)) 0) (Finset.sum_congr rfl fun k _ => ?_)
  show Ideal.div (shapeCast S10000x128 x0 shapeCasts_S10000x128_S10000x128 (ix2 p k)) (broadcastTo S10000x128 (shapeCast S10000x1 x1 shapeCasts_S10000x1_S10000x1) broadcasts_S10000x1_S10000x128 (ix2 p k)) * x2 (ix2 k q) = _
  rw [shapeCast_self, deg0_apply]

section Blocks

variable (V : (c : Dev nD) → (b : Ref sig .tc) → Buf (Elt Ideal) ((c : Thread nD τ).loc b))

theorem zeros2_0 : (![0, 0] : Fin 2 → Nat) = fun _ => 0 := funext fun a => by fin_cases a <;> rfl
theorem zeros1_0 : (![0] : Fin 1 → Nat) = fun _ => 0 := funext fun a => by fin_cases a; rfl

/-- The windows' index maps over the five grid points: the row-tiled windows sit at row block `t`, the weights and the
    bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 ∧ t.val < 5 :=
  (by decide +kernel : ∀ t : Fin grid0.N, _)

theorem iblk0_0_apply (c : Dev nD) (t : Fin cfg0.N) (p : Fin 10000) (k : Fin 128) (i : Fin 50000)
    (hi : i.val = t.val * 10000 + p.val) :
    (iblk0 V c 0 t : Vec Ideal S10000x128 .f32) (ix2 p k) = (V c (Pipeline.arrRef spec0 0) : S50000x128.Idx → EReal) (ix2 i k) := by
  obtain ⟨e0, e1, -⟩ := idx0 t
  unfold iblk0
  rw [View.read_apply]
  refine congrArg (V c (Pipeline.arrRef spec0 0) : S50000x128.Idx → EReal) (funext fun a => Fin.ext ?_)
  match a with
  | ⟨0, _⟩ => show win0_0.index t 0 * 10000 + 1 * p.val = i.val; rw [e0, hi]; omega
  | ⟨1, _⟩ => show win0_0.index t 1 * 128 + 1 * k.val = k.val; rw [e1]; omega

theorem iblk0_1_apply (c : Dev nD) (t : Fin cfg0.N) (p : Fin 10000) (i : Fin 50000)
    (hi : i.val = t.val * 10000 + p.val) :
    (iblk0 V c 1 t : Vec Ideal S10000x1 .f32) (ix2 p 0) = (V c (Pipeline.arrRef spec0 1) : S50000x1.Idx → EReal) (ix2 i 0) := by
  obtain ⟨-, -, e0, e1, -⟩ := idx0 t
  unfold iblk0
  rw [View.read_apply]
  refine congrArg (V c (Pipeline.arrRef spec0 1) : S50000x1.Idx → EReal) (funext fun a => Fin.ext ?_)
  match a with
  | ⟨0, _⟩ => show win0_1.index t 0 * 10000 + 1 * p.val = i.val; rw [e0, hi]; omega
  | ⟨1, _⟩ => show win0_1.index t 1 * 1 + 1 * 0 = 0; rw [e1]

theorem iblk0_2_apply (c : Dev nD) (t : Fin cfg0.N) (k : Fin 128) (q : Fin 100) :
    (iblk0 V c 2 t : Vec Ideal S128x100 .f32) (ix2 k q) = (V c (Pipeline.arrRef spec0 2) : S128x100.Idx → EReal) (ix2 k q) := by
  obtain ⟨-, -, -, -, e0, e1, -⟩ := idx0 t
  unfold iblk0
  rw [View.read_apply]
  refine congrArg (V c (Pipeline.arrRef spec0 2) : S128x100.Idx → EReal) (funext fun a => Fin.ext ?_)
  match a with
  | ⟨0, _⟩ => show win0_2.index t 0 * 128 + 1 * k.val = k.val; rw [e0]; omega
  | ⟨1, _⟩ => show win0_2.index t 1 * 100 + 1 * q.val = q.val; rw [e1]; omega

theorem iblk0_3_apply (c : Dev nD) (t : Fin cfg0.N) (q : Fin 100) :
    (iblk0 V c 3 t : Vec Ideal S100 .f32) (ix1 q) = (V c (Pipeline.arrRef spec0 3) : S100.Idx → EReal) (ix1 q) := by
  obtain ⟨-, -, -, -, -, -, e0, -⟩ := idx0 t
  unfold iblk0
  rw [View.read_apply]
  refine congrArg (V c (Pipeline.arrRef spec0 3) : S100.Idx → EReal) (funext fun a => Fin.ext ?_)
  match a with
  | ⟨0, _⟩ => show win0_3.index t 0 * 100 + 1 * q.val = q.val; rw [e0]; omega

/-- Entry (p, q) of the output's block at point `t` is entry (10000 t + p, q) of the array. -/
theorem oblk0_emb (t : Fin cfg0.N) (p : Fin 10000) (q : Fin 100) (i : Fin 50000) (hi : i.val = t.val * 10000 + p.val) :
    (((cfg0.win 4).blk t).view.emb (ix2 p q) : S50000x100.Idx) = ix2 i q := by
  obtain ⟨-, -, -, -, -, -, -, e0, e1, -⟩ := idx0 t
  refine funext fun a => Fin.ext ?_
  match a with
  | ⟨0, _⟩ => show win0_4.index t 0 * 10000 + 1 * p.val = i.val; rw [e0, hi]; omega
  | ⟨1, _⟩ => show win0_4.index t 1 * 100 + 1 * q.val = q.val; rw [e1]; omega

/-- The layer of the arrays the region finds. -/
abbrev L0 (c : Dev nD) : S50000x100.Idx → EReal :=
  Cert.Spec.layer (V c (Pipeline.arrRef spec0 0)) (V c (Pipeline.arrRef spec0 1)) (V c (Pipeline.arrRef spec0 2)) (V c (Pipeline.arrRef spec0 3))

/-- What point `t` writes back is block `t` of the layer. -/
theorem flushed0_eq (c : Dev nD) (t : Fin cfg0.N) :
    (dat0 (F := Ideal) V c).flushed 4 t = ((cfg0.win 4).blk t).view.read (Elt Ideal) (L0 V c) := by
  show (cfg0.win 4).cut (grid0.coords t) ((dat0 V c).after 4 t) = _
  rw [after0_4]
  unfold out0_4
  rw [View.canon_unit_zero zeros2_0]
  simp only [View.ld_unit_zero (S := S10000x128) zeros2_0, View.ld_unit_zero (S := S10000x1) zeros2_0,
    View.ld_unit_zero (S := S128x100) zeros2_0, View.ld_unit_zero (S := S100) zeros1_0]
  funext j
  obtain ⟨p, q, rfl⟩ : ∃ (p : Fin 10000) (q : Fin 100), j = ix2 p q := ⟨j 0, j 1, eq_ix2 j⟩
  have ht : t.val < 5 := (idx0 t).2.2.2.2.2.2.2.2.2
  have hi : t.val * 10000 + p.val < 50000 := by have := p.isLt; omega
  refine (pay0_apply (iblk0 V c 0 t) (iblk0 V c 1 t) (iblk0 V c 2 t) (iblk0 V c 3 t) p q).trans ?_
  rw [View.read_apply, oblk0_emb t p q ⟨t.val * 10000 + p.val, hi⟩ rfl]
  show _ = Cert.Spec.layerAt (V c (Pipeline.arrRef spec0 0)) (V c (Pipeline.arrRef spec0 1)) (V c (Pipeline.arrRef spec0 2)) (V c (Pipeline.arrRef spec0 3)) ⟨t.val * 10000 + p.val, hi⟩ q
  unfold Cert.Spec.layerAt
  rw [iblk0_1_apply V c t p ⟨t.val * 10000 + p.val, hi⟩ rfl, iblk0_3_apply V c t q]
  refine congrArg (fun s => max (s + _) 0) (Finset.sum_congr rfl fun k _ => ?_)
  rw [iblk0_0_apply V c t p k ⟨t.val * 10000 + p.val, hi⟩ rfl, iblk0_2_apply V c t k q]

end Blocks

section Final

variable (V : (c : Dev nD) → (b : Ref sig .tc) → Buf (Elt Ideal) ((c : Thread nD τ).loc b))

/-- An index of the array is in point `t`'s block iff each coordinate is in the block's range on its axis. -/
theorem mem_oblk0 (t : Fin cfg0.N) (i : S50000x100.Idx) :
    i ∈ ((cfg0.win 4).blk t).view.set ↔ ∀ a : Fin 2, win0_4.index t a * S10000x100.size a ≤ (i a).val ∧ (i a).val < win0_4.index t a * S10000x100.size a + S10000x100.size a := by
  show i ∈ ((View.whole main_v17).slice (win0_4.rect t)).set ↔ _
  rw [View.set_slice_whole, Rect.mem_set_unit]
  exact Iff.rfl

/-- Row `r` of the array lies in the block of point `r / 10000`. -/
theorem cover0 (i : S50000x100.Idx) : ∃ t : Fin cfg0.N, (cfg0.win 4).flush t = true ∧ i ∈ ((cfg0.win 4).blk t).view.set := by
  have hi0 : (i 0).val < 50000 := (i 0).isLt
  have hi1 : (i 1).val < 100 := (i 1).isLt
  have hN : cfg0.N = 5 := N_0
  refine ⟨⟨(i 0).val / 10000, by rw [hN]; omega⟩, flush0_4 _, ?_⟩
  rw [mem_oblk0]
  obtain ⟨-, -, -, -, -, -, -, e0, e1, -⟩ := idx0 ⟨(i 0).val / 10000, by rw [hN]; omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 100 ≤ (i 1).val ∧ (i 1).val < win0_4.index _ (1 : Fin 2) * 100 + 100
    rw [e1]; omega

/-- The output array of region 0 after its five points: the layer of the arrays the region finds. -/
theorem region0_value (c : Dev nD) :
    (dat0 (F := Ideal) V c).arrAt 4 cfg0.N
      = Cert.Spec.layer (V c (Pipeline.arrRef spec0 0)) (V c (Pipeline.arrRef spec0 1)) (V c (Pipeline.arrRef spec0 2)) (V c (Pipeline.arrRef spec0 3)) :=
  (dat0 (F := Ideal) V c).arrAt_eq_of_cover 4 (L0 V c) (fun t _ => flushed0_eq V c t) cover0

end Final

end Cert.KernelIdeal.KVal

end
-- ==== Proof.KLayer1.lean ====
/-
  The second graph-convolution layer, read off the row-tiled kernel as ONE array.

  The same kernel as the first layer's at other extents. It runs over 5 grid points; point `t` works on rows
  `10000 t … 10000 t + 9999`: it is handed those rows of the features [50000,100] and of the degree column [50000,1],
  the whole weight matrix [100,20] and the whole bias [20], and it writes those rows of the output [50000,20]. At
  entry (p, q) of its block the body computes `max (∑ k, (x[p,k] / deg[p]) · W[k,q] + b[q]) 0`: the quotient by the
  degree column repeated across the feature columns, a change of float format (the identity on the extended reals),
  the block product into a zero accumulator (a sum over the 100 contracted columns), the bias row repeated down the
  block, and the clamp at the zero word. Entry (p, q) of block `t` is entry (10000 t + p, q) of the array, the
  weights' and the bias's one block is the whole array, and the five blocks tile the 50000 rows (row `r` lies in
  block `r / 10000`). So the output array after the last point is `Cert.Spec.layer` of the four arrays the region finds.
-/
import proofs.«144383_j84954453115094_1_alg».proof.Proof.Gen.KernelIdeal.Frame
import proofs.«144383_j84954453115094_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KVal

open Cert.KernelIdeal Cert.KernelIdeal.Gen Idealize.ShloMosaic Idealize.ShloMosaic.ValueIdx Idealize.ShloMosaic.TcCoe
open Idealize.ShloMosaic.Pipeline (Dat)

abbrev D1 := dot_S10000x100_S100x20_S10000x20_1_0_0_1_n_n

theorem lhs1_0 (i : S10000x20.Idx) (q : D1.contr.Idx) : (D1.lhsIdx i q 0).val = (i 0).val := by
  unfold DotDims.lhsIdx
  rw [dif_neg (show ¬(0 : Fin S10000x100.rank) ∈ D1.lhsBatch by decide), dif_pos (show (0 : Fin S10000x100.rank) ∈ D1.lhsNonContracting by decide)]
  rfl
theorem lhs1_1 (i : S10000x20.Idx) (q : D1.contr.Idx) : (D1.lhsIdx i q 1).val = (q ⟨0, by decide⟩).val :=
  D1.lhsIdx_val_of_single rfl i q
theorem rhs1_0 (i : S10000x20.Idx) (q : D1.contr.Idx) : (D1.rhsIdx i q 0).val = (q ⟨0, by decide⟩).val :=
  D1.rhsIdx_val_of_single rfl i q
theorem rhs1_1 (i : S10000x20.Idx) (q : D1.contr.Idx) : (D1.rhsIdx i q 1).val = (i 1).val := by
  unfold DotDims.rhsIdx
  rw [dif_neg (show ¬(1 : Fin S100x20.rank) ∈ D1.rhsBatch by decide), dif_pos (show (1 : Fin S100x20.rank) ∈ D1.rhsNonContracting by decide)]
  rfl

/-- The block product at an entry: the sum over the 100 columns. -/
theorem mm1_apply (a : FVec Ideal S10000x100 .bf16) (b : FVec Ideal S100x20 .bf16) (p : Fin 10000) (q : Fin 20) :
    matmul D1 none a b (constant (F := Ideal) S10000x20 .f32 0x00000000#32) (ix2 p q)
      = ∑ k : Fin 100, a (ix2 p k) * b (ix2 k q) := by
  simp only [matmul]
  rw [Ideal.matmul_constant_zero_apply, ← Equiv.sum_comp (contrEquiv1 D1 100 rfl rfl).symm]
  refine Finset.sum_congr rfl fun k _ => ?_
  have hk := contrEquiv1_symm_val D1 100 rfl rfl k
  have el : D1.lhsIdx (ix2 p q) ((contrEquiv1 D1 100 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 100 rfl rfl).symm k) = ix2 k q := funext fun a => Fin.ext (by
    match a with
    | ⟨0, _⟩ => exact (rhs1_0 _ _).trans hk
    | ⟨1, _⟩ => exact rhs1_1 _ _)
  rw [el, er]

/-- The bias row, reshaped to one row and repeated down the block, read at an entry. -/
theorem bias1_apply (x3 : Vec Ideal S20 .f32) (p : Fin 10000) (q : Fin 20) :
    broadcastTo S10000x20 (shapeCast S1x20 x3 shapeCasts_S20_S1x20) broadcasts_S1x20_S10000x20 (ix2 p q) = x3 (ix1 q) := by
  rw [broadcastTo_apply _ _ (ix2 p q) (ix2 (0 : Fin 1) q) (fun a => by
    match a with
    | ⟨0, _⟩ => rfl
    | ⟨1, _⟩ => rfl)]
  exact shapeCast_apply _ _ _ (ix1 q) (by
    rw [Shape.rowMajor_val_one, Shape.rowMajor_val_two]
    show q.val = 0 * 20 + q.val
    omega)

/-- The degree column repeated across the 100 feature columns, read at an entry. -/
theorem deg1_apply (x1 : Vec Ideal S10000x1 .f32) (p : Fin 10000) (k : Fin 100) :
    broadcastTo S10000x100 (shapeCast S10000x1 x1 shapeCasts_S10000x1_S10000x1) broadcasts_S10000x1_S10000x100 (ix2 p k) = x1 (ix2 p 0) := by
  rw [shapeCast_self]
  exact broadcastTo_apply _ _ (ix2 p k) (ix2 p (0 : Fin 1)) (fun a => by
    match a with
    | ⟨0, _⟩ => rfl
    | ⟨1, _⟩ => rfl)

/-- The body's result at entry (p, q) of the block. -/
theorem pay1_apply (x0 : Vec Ideal S10000x100 .f32) (x1 : Vec Ideal S10000x1 .f32) (x2 : Vec Ideal S100x20 .f32)
    (x3 : Vec Ideal S20 .f32) (p : Fin 10000) (q : Fin 20) :
    k1_pay1 (F := Ideal) x0 x1 x2 x3 (ix2 p q)
      = max ((∑ k : Fin 100, Ideal.div (x0 (ix2 p k)) (x1 (ix2 p 0)) * x2 (ix2 k q)) + x3 (ix1 q)) 0 := by
  unfold k1_pay1
  refine (congrArg₂ max (congrArg₂ HAdd.hAdd (mm1_apply _ _ p q) (bias1_apply x3 p q)) Ideal.ofBits_zero_f32).trans ?_
  refine congrArg (fun s => max (s + x3 (ix1 q)) 0) (Finset.sum_congr rfl fun k _ => ?_)
  show Ideal.div (shapeCast S10000x100 x0 shapeCasts_S10000x100_S10000x100 (ix2 p k)) (broadcastTo S10000x100 (shapeCast S10000x1 x1 shapeCasts_S10000x1_S10000x1) broadcasts_S10000x1_S10000x100 (ix2 p k)) * x2 (ix2 k q) = _
  rw [shapeCast_self, deg1_apply]

section Blocks

variable (V : (c : Dev nD) → (b : Ref sig .tc) → Buf (Elt Ideal) ((c : Thread nD τ).loc b))

theorem zeros2_1 : (![0, 0] : Fin 2 → Nat) = fun _ => 0 := funext fun a => by fin_cases a <;> rfl
theorem zeros1_1 : (![0] : Fin 1 → Nat) = fun _ => 0 := funext fun a => by fin_cases a; rfl

/-- The windows' index maps over the five grid points: the row-tiled windows sit at row block `t`, the weights and the
    bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 ∧ t.val < 5 :=
  (by decide +kernel : ∀ t : Fin grid1.N, _)

theorem iblk1_0_apply (c : Dev nD) (t : Fin cfg1.N) (p : Fin 10000) (k : Fin 100) (i : Fin 50000)
    (hi : i.val = t.val * 10000 + p.val) :
    (iblk1 V c 0 t : Vec Ideal S10000x100 .f32) (ix2 p k) = (V c (Pipeline.arrRef spec1 0) : S50000x100.Idx → EReal) (ix2 i k) := by
  obtain ⟨e0, e1, -⟩ := idx1 t
  unfold iblk1
  rw [View.read_apply]
  refine congrArg (V c (Pipeline.arrRef spec1 0) : S50000x100.Idx → EReal) (funext fun a => Fin.ext ?_)
  match a with
  | ⟨0, _⟩ => show win1_0.index t 0 * 10000 + 1 * p.val = i.val; rw [e0, hi]; omega
  | ⟨1, _⟩ => show win1_0.index t 1 * 100 + 1 * k.val = k.val; rw [e1]; omega

theorem iblk1_1_apply (c : Dev nD) (t : Fin cfg1.N) (p : Fin 10000) (i : Fin 50000)
    (hi : i.val = t.val * 10000 + p.val) :
    (iblk1 V c 1 t : Vec Ideal S10000x1 .f32) (ix2 p 0) = (V c (Pipeline.arrRef spec1 1) : S50000x1.Idx → EReal) (ix2 i 0) := by
  obtain ⟨-, -, e0, e1, -⟩ := idx1 t
  unfold iblk1
  rw [View.read_apply]
  refine congrArg (V c (Pipeline.arrRef spec1 1) : S50000x1.Idx → EReal) (funext fun a => Fin.ext ?_)
  match a with
  | ⟨0, _⟩ => show win1_1.index t 0 * 10000 + 1 * p.val = i.val; rw [e0, hi]; omega
  | ⟨1, _⟩ => show win1_1.index t 1 * 1 + 1 * 0 = 0; rw [e1]

theorem iblk1_2_apply (c : Dev nD) (t : Fin cfg1.N) (k : Fin 100) (q : Fin 20) :
    (iblk1 V c 2 t : Vec Ideal S100x20 .f32) (ix2 k q) = (V c (Pipeline.arrRef spec1 2) : S100x20.Idx → EReal) (ix2 k q) := by
  obtain ⟨-, -, -, -, e0, e1, -⟩ := idx1 t
  unfold iblk1
  rw [View.read_apply]
  refine congrArg (V c (Pipeline.arrRef spec1 2) : S100x20.Idx → EReal) (funext fun a => Fin.ext ?_)
  match a with
  | ⟨0, _⟩ => show win1_2.index t 0 * 100 + 1 * k.val = k.val; rw [e0]; omega
  | ⟨1, _⟩ => show win1_2.index t 1 * 20 + 1 * q.val = q.val; rw [e1]; omega

theorem iblk1_3_apply (c : Dev nD) (t : Fin cfg1.N) (q : Fin 20) :
    (iblk1 V c 3 t : Vec Ideal S20 .f32) (ix1 q) = (V c (Pipeline.arrRef spec1 3) : S20.Idx → EReal) (ix1 q) := by
  obtain ⟨-, -, -, -, -, -, e0, -⟩ := idx1 t
  unfold iblk1
  rw [View.read_apply]
  refine congrArg (V c (Pipeline.arrRef spec1 3) : S20.Idx → EReal) (funext fun a => Fin.ext ?_)
  match a with
  | ⟨0, _⟩ => show win1_3.index t 0 * 20 + 1 * q.val = q.val; rw [e0]; omega

/-- Entry (p, q) of the output's block at point `t` is entry (10000 t + p, q) of the array. -/
theorem oblk1_emb (t : Fin cfg1.N) (p : Fin 10000) (q : Fin 20) (i : Fin 50000) (hi : i.val = t.val * 10000 + p.val) :
    (((cfg1.win 4).blk t).view.emb (ix2 p q) : S50000x20.Idx) = ix2 i q := by
  obtain ⟨-, -, -, -, -, -, -, e0, e1, -⟩ := idx1 t
  refine funext fun a => Fin.ext ?_
  match a with
  | ⟨0, _⟩ => show win1_4.index t 0 * 10000 + 1 * p.val = i.val; rw [e0, hi]; omega
  | ⟨1, _⟩ => show win1_4.index t 1 * 20 + 1 * q.val = q.val; rw [e1]; omega

/-- The layer of the arrays the region finds. -/
abbrev L1 (c : Dev nD) : S50000x20.Idx → EReal :=
  Cert.Spec.layer (V c (Pipeline.arrRef spec1 0)) (V c (Pipeline.arrRef spec1 1)) (V c (Pipeline.arrRef spec1 2)) (V c (Pipeline.arrRef spec1 3))

/-- What point `t` writes back is block `t` of the layer. -/
theorem flushed1_eq (c : Dev nD) (t : Fin cfg1.N) :
    (dat1 (F := Ideal) V c).flushed 4 t = ((cfg1.win 4).blk t).view.read (Elt Ideal) (L1 V c) := by
  show (cfg1.win 4).cut (grid1.coords t) ((dat1 V c).after 4 t) = _
  rw [after1_4]
  unfold out1_4
  rw [View.canon_unit_zero zeros2_1]
  simp only [View.ld_unit_zero (S := S10000x100) zeros2_1, View.ld_unit_zero (S := S10000x1) zeros2_1,
    View.ld_unit_zero (S := S100x20) zeros2_1, View.ld_unit_zero (S := S20) zeros1_1]
  funext j
  obtain ⟨p, q, rfl⟩ : ∃ (p : Fin 10000) (q : Fin 20), j = ix2 p q := ⟨j 0, j 1, eq_ix2 j⟩
  have ht : t.val < 5 := (idx1 t).2.2.2.2.2.2.2.2.2
  have hi : t.val * 10000 + p.val < 50000 := by have := p.isLt; omega
  refine (pay1_apply (iblk1 V c 0 t) (iblk1 V c 1 t) (iblk1 V c 2 t) (iblk1 V c 3 t) p q).trans ?_
  rw [View.read_apply, oblk1_emb t p q ⟨t.val * 10000 + p.val, hi⟩ rfl]
  show _ = Cert.Spec.layerAt (V c (Pipeline.arrRef spec1 0)) (V c (Pipeline.arrRef spec1 1)) (V c (Pipeline.arrRef spec1 2)) (V c (Pipeline.arrRef spec1 3)) ⟨t.val * 10000 + p.val, hi⟩ q
  unfold Cert.Spec.layerAt
  rw [iblk1_1_apply V c t p ⟨t.val * 10000 + p.val, hi⟩ rfl, iblk1_3_apply V c t q]
  refine congrArg (fun s => max (s + _) 0) (Finset.sum_congr rfl fun k _ => ?_)
  rw [iblk1_0_apply V c t p k ⟨t.val * 10000 + p.val, hi⟩ rfl, iblk1_2_apply V c t k q]

end Blocks

section Final

variable (V : (c : Dev nD) → (b : Ref sig .tc) → Buf (Elt Ideal) ((c : Thread nD τ).loc b))

/-- An index of the array is in point `t`'s block iff each coordinate is in the block's range on its axis. -/
theorem mem_oblk1 (t : Fin cfg1.N) (i : S50000x20.Idx) :
    i ∈ ((cfg1.win 4).blk t).view.set ↔ ∀ a : Fin 2, win1_4.index t a * S10000x20.size a ≤ (i a).val ∧ (i a).val < win1_4.index t a * S10000x20.size a + S10000x20.size a := by
  show i ∈ ((View.whole main_v28).slice (win1_4.rect t)).set ↔ _
  rw [View.set_slice_whole, Rect.mem_set_unit]
  exact Iff.rfl

/-- Row `r` of the array lies in the block of point `r / 10000`. -/
theorem cover1 (i : S50000x20.Idx) : ∃ t : Fin cfg1.N, (cfg1.win 4).flush t = true ∧ i ∈ ((cfg1.win 4).blk t).view.set := by
  have hi0 : (i 0).val < 50000 := (i 0).isLt
  have hi1 : (i 1).val < 20 := (i 1).isLt
  have hN : cfg1.N = 5 := N_1
  refine ⟨⟨(i 0).val / 10000, by rw [hN]; omega⟩, flush1_4 _, ?_⟩
  rw [mem_oblk1]
  obtain ⟨-, -, -, -, -, -, -, e0, e1, -⟩ := idx1 ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e0]; show (i 0).val / 10000 * 10000 ≤ (i 0).val ∧ (i 0).val < (i 0).val / 10000 * 10000 + 10000; omega
  | ⟨1, _⟩ =>
    show win1_4.index _ (1 : Fin 2) * 20 ≤ (i 1).val ∧ (i 1).val < win1_4.index _ (1 : Fin 2) * 20 + 20
    rw [e1]; omega

/-- The output array of region 1 after its five points: the layer of the arrays the region finds. -/
theorem region1_value (c : Dev nD) :
    (dat1 (F := Ideal) V c).arrAt 4 cfg1.N
      = Cert.Spec.layer (V c (Pipeline.arrRef spec1 0)) (V c (Pipeline.arrRef spec1 1)) (V c (Pipeline.arrRef spec1 2)) (V c (Pipeline.arrRef spec1 3)) :=
  (dat1 (F := Ideal) V c).arrAt_eq_of_cover 4 (L1 V c) (fun t _ => flushed1_eq V c t) cover1

end Final

end Cert.KernelIdeal.KVal

end
-- ==== Proof.KFusionScratch.lean ====
/-
  The fusion kernel's scratch buffer, read back as one function.

  The kernel forms the row-wise outer product of `u = [hg | 1]` (1024 × 21) and `v = [gate · d3 | 1]` (1024 × 201)
  slab by slab: for each column `d` of `u` it stores the 1024 × 201 array `u (r, d) * v (r, j)` at columns
  `201·d … 201·d + 200` of a 1024 × 4221 buffer. The 21 slabs tile the buffer, so the buffer read back whole is the
  flattened outer product: entry `(r, q)` is `u (r, q / 201) * v (r, q % 201)`. Over the extended reals the
  narrowing of each product to bf16 is the identity.
-/
import proofs.«144383_j84954453115094_1_alg».proof.Proof.Gen.KernelIdeal.Skeleton
import Idealize.ShloMosaic.Lib.Pipeline.Value
import Idealize.ShloMosaic.Lib.Ring
import Idealize.ShloMosaic.Lib.ValueIdx
import Idealize.ShloMosaic.Lib.Tactic

set_option maxRecDepth 16384

noncomputable section

open Idealize.ShloMosaic Idealize.ShloMosaic.ValueIdx Idealize.SL.Sem

namespace Cert.KernelIdeal.KVal

open Cert.KernelIdeal Cert.KernelIdeal.Gen

variable {F : FTy → Type} [FloatOps F]

/-! ## The 21 stored slabs, last store first, and the buffer they leave -/

/-- The stores into the buffer, last first: slab `d` at column offset `201·d`, over the four arrays the two factors
    are computed from. -/
def pieces (x0 : Vec F S1024x20 .f32) (x1 : Vec F S1024x200 .f32) (x2 : Vec F S220x200 .f32) (x3 : Vec F S200 .f32) :
    List (View.Piece (Elt F) S1024x4221 .bf16) :=
  [
    ⟨Rect.unit ![0, 4020] S1024x201.size inb_S1024x4221_S1024x201_0_4020, k2_pay29 (k2_pay4 x0) (k2_pay5 x0 x1 x2 x3)⟩,
    ⟨Rect.unit ![0, 3819] S1024x201.size inb_S1024x4221_S1024x201_0_3819, k2_pay28 (k2_pay4 x0) (k2_pay5 x0 x1 x2 x3)⟩,
    ⟨Rect.unit ![0, 3618] S1024x201.size inb_S1024x4221_S1024x201_0_3618, k2_pay27 (k2_pay4 x0) (k2_pay5 x0 x1 x2 x3)⟩,
    ⟨Rect.unit ![0, 3417] S1024x201.size inb_S1024x4221_S1024x201_0_3417, k2_pay26 (k2_pay4 x0) (k2_pay5 x0 x1 x2 x3)⟩,
    ⟨Rect.unit ![0, 3216] S1024x201.size inb_S1024x4221_S1024x201_0_3216, k2_pay25 (k2_pay4 x0) (k2_pay5 x0 x1 x2 x3)⟩,
    ⟨Rect.unit ![0, 3015] S1024x201.size inb_S1024x4221_S1024x201_0_3015, k2_pay24 (k2_pay23 (k2_pay4 x0) (k2_pay5 x0 x1 x2 x3))⟩,
    ⟨Rect.unit ![0, 2814] S1024x201.size inb_S1024x4221_S1024x201_0_2814, k2_pay22 (k2_pay4 x0) (k2_pay5 x0 x1 x2 x3)⟩,
    ⟨Rect.unit ![0, 2613] S1024x201.size inb_S1024x4221_S1024x201_0_2613, k2_pay21 (k2_pay4 x0) (k2_pay5 x0 x1 x2 x3)⟩,
    ⟨Rect.unit ![0, 2412] S1024x201.size inb_S1024x4221_S1024x201_0_2412, k2_pay20 (k2_pay4 x0) (k2_pay5 x0 x1 x2 x3)⟩,
    ⟨Rect.unit ![0, 2211] S1024x201.size inb_S1024x4221_S1024x201_0_2211, k2_pay19 (k2_pay4 x0) (k2_pay5 x0 x1 x2 x3)⟩,
    ⟨Rect.unit ![0, 2010] S1024x201.size inb_S1024x4221_S1024x201_0_2010, k2_pay18 (k2_pay4 x0) (k2_pay5 x0 x1 x2 x3)⟩,
    ⟨Rect.unit ![0, 1809] S1024x201.size inb_S1024x4221_S1024x201_0_1809, k2_pay17 (k2_pay16 (k2_pay4 x0) (k2_pay5 x0 x1 x2 x3))⟩,
    ⟨Rect.unit ![0, 1608] S1024x201.size inb_S1024x4221_S1024x201_0_1608, k2_pay15 (k2_pay4 x0) (k2_pay5 x0 x1 x2 x3)⟩,
    ⟨Rect.unit ![0, 1407] S1024x201.size inb_S1024x4221_S1024x201_0_1407, k2_pay14 (k2_pay4 x0) (k2_pay5 x0 x1 x2 x3)⟩,
    ⟨Rect.unit ![0, 1206] S1024x201.size inb_S1024x4221_S1024x201_0_1206, k2_pay13 (k2_pay4 x0) (k2_pay5 x0 x1 x2 x3)⟩,
    ⟨Rect.unit ![0, 1005] S1024x201.size inb_S1024x4221_S1024x201_0_1005, k2_pay12 (k2_pay4 x0) (k2_pay5 x0 x1 x2 x3)⟩,
    ⟨Rect.unit ![0, 804] S1024x201.size inb_S1024x4221_S1024x201_0_804, k2_pay11 (k2_pay4 x0) (k2_pay5 x0 x1 x2 x3)⟩,
    ⟨Rect.unit ![0, 603] S1024x201.size inb_S1024x4221_S1024x201_0_603, k2_pay10 (k2_pay9 x0 x1 x2 x3)⟩,
    ⟨Rect.unit ![0, 402] S1024x201.size inb_S1024x4221_S1024x201_0_402, k2_pay8 x0 x1 x2 x3⟩,
    ⟨Rect.unit ![0, 201] S1024x201.size inb_S1024x4221_S1024x201_0_201, k2_pay7 x0 x1 x2 x3⟩,
    ⟨Rect.unit ![0, 0] S1024x201.size inb_S1024x4221_S1024x201_0_0, k2_pay6 x0 x1 x2 x3⟩]

/-- The buffer after the 21 stores: their closed form. -/
def scratch (x0 : Vec F S1024x20 .f32) (x1 : Vec F S1024x200 .f32) (x2 : Vec F S220x200 .f32) (x3 : Vec F S200 .f32) :
    Vec F S1024x4221 .bf16 :=
  View.canon (pieces x0 x1 x2 x3)

/-! ## One column slab: column `d` of the first factor, broadcast along the row, times the second factor -/

/-- Entry `(r, j)` of the slab built from column `d` of `u`: `u (r, d) * v (r, j)` (the narrowing to bf16 and the cast to
    the same shape change nothing over the extended reals). -/
theorem slab_apply (off : Fin 2 → Nat) (d : Fin 21) (hoff : off = ![0, d.val])
    (u : FVec Ideal S1024x21 .f32) (v : FVec Ideal S1024x201 .f32)
    (hs : S1024x21.Slices off S1024x1) (hb : S1024x1.Broadcasts S1024x201) (hc : S1024x201.ShapeCasts S1024x201)
    (r : Fin 1024) (j : Fin 201) :
    (shapeCast S1024x201 (truncf .bf16 (mulf (broadcastTo S1024x201 (extractStridedSlice S1024x1 off u hs) hb) v) bitsLt_bf16_f32) hc
        : FVec Ideal S1024x201 .bf16) (ix2 r j)
      = u (ix2 r d) * v (ix2 r j) := by
  rw [shapeCast_self]
  show broadcastTo S1024x201 (extractStridedSlice S1024x1 off u hs) hb (ix2 r j) * v (ix2 r j) = _
  congr 1
  refine (broadcastTo_apply _ hb (ix2 r j) (ix2 r (0 : Fin 1)) ?_).trans ?_
  · intro a; fin_cases a <;> simp
  · exact extractStridedSlice_apply off u hs (ix2 r (0 : Fin 1)) (ix2 r d) (by subst hoff; intro a; fin_cases a <;> simp)

section Slabs

variable (x0 : Vec Ideal S1024x20 .f32) (x1 : Vec Ideal S1024x200 .f32) (x2 : Vec Ideal S220x200 .f32) (x3 : Vec Ideal S200 .f32)

theorem slab0_apply (r : Fin 1024) (j : Fin 201) :
    (k2_pay6 (F := Ideal) x0 x1 x2 x3) (ix2 r j) = k2_pay4 (F := Ideal) x0 (ix2 r ⟨0, by norm_num⟩) * k2_pay5 (F := Ideal) x0 x1 x2 x3 (ix2 r j) := by
  unfold k2_pay6
  exact slab_apply ![0, 0] ⟨0, by norm_num⟩ rfl (k2_pay4 x0) (k2_pay5 x0 x1 x2 x3) _ _ _ r j
theorem slab1_apply (r : Fin 1024) (j : Fin 201) :
    (k2_pay7 (F := Ideal) x0 x1 x2 x3) (ix2 r j) = k2_pay4 (F := Ideal) x0 (ix2 r ⟨1, by norm_num⟩) * k2_pay5 (F := Ideal) x0 x1 x2 x3 (ix2 r j) := by
  unfold k2_pay7
  exact slab_apply ![0, 1] ⟨1, by norm_num⟩ rfl (k2_pay4 x0) (k2_pay5 x0 x1 x2 x3) _ _ _ r j
theorem slab2_apply (r : Fin 1024) (j : Fin 201) :
    (k2_pay8 (F := Ideal) x0 x1 x2 x3) (ix2 r j) = k2_pay4 (F := Ideal) x0 (ix2 r ⟨2, by norm_num⟩) * k2_pay5 (F := Ideal) x0 x1 x2 x3 (ix2 r j) := by
  unfold k2_pay8
  exact slab_apply ![0, 2] ⟨2, by norm_num⟩ rfl (k2_pay4 x0) (k2_pay5 x0 x1 x2 x3) _ _ _ r j
theorem slab3_apply (r : Fin 1024) (j : Fin 201) :
    (k2_pay10 (F := Ideal) (k2_pay9 x0 x1 x2 x3)) (ix2 r j) = k2_pay4 (F := Ideal) x0 (ix2 r ⟨3, by norm_num⟩) * k2_pay5 (F := Ideal) x0 x1 x2 x3 (ix2 r j) := by
  unfold k2_pay10 k2_pay9
  exact slab_apply ![0, 3] ⟨3, by norm_num⟩ rfl (k2_pay4 x0) (k2_pay5 x0 x1 x2 x3) _ _ _ r j
theorem slab4_apply (r : Fin 1024) (j : Fin 201) :
    (k2_pay11 (F := Ideal) (k2_pay4 x0) (k2_pay5 x0 x1 x2 x3)) (ix2 r j) = k2_pay4 (F := Ideal) x0 (ix2 r ⟨4, by norm_num⟩) * k2_pay5 (F := Ideal) x0 x1 x2 x3 (ix2 r j) := by
  unfold k2_pay11
  exact slab_apply ![0, 4] ⟨4, by norm_num⟩ rfl (k2_pay4 x0) (k2_pay5 x0 x1 x2 x3) _ _ _ r j
theorem slab5_apply (r : Fin 1024) (j : Fin 201) :
    (k2_pay12 (F := Ideal) (k2_pay4 x0) (k2_pay5 x0 x1 x2 x3)) (ix2 r j) = k2_pay4 (F := Ideal) x0 (ix2 r ⟨5, by norm_num⟩) * k2_pay5 (F := Ideal) x0 x1 x2 x3 (ix2 r j) := by
  unfold k2_pay12
  exact slab_apply ![0, 5] ⟨5, by norm_num⟩ rfl (k2_pay4 x0) (k2_pay5 x0 x1 x2 x3) _ _ _ r j
theorem slab6_apply (r : Fin 1024) (j : Fin 201) :
    (k2_pay13 (F := Ideal) (k2_pay4 x0) (k2_pay5 x0 x1 x2 x3)) (ix2 r j) = k2_pay4 (F := Ideal) x0 (ix2 r ⟨6, by norm_num⟩) * k2_pay5 (F := Ideal) x0 x1 x2 x3 (ix2 r j) := by
  unfold k2_pay13
  exact slab_apply ![0, 6] ⟨6, by norm_num⟩ rfl (k2_pay4 x0) (k2_pay5 x0 x1 x2 x3) _ _ _ r j
theorem slab7_apply (r : Fin 1024) (j : Fin 201) :
    (k2_pay14 (F := Ideal) (k2_pay4 x0) (k2_pay5 x0 x1 x2 x3)) (ix2 r j) = k2_pay4 (F := Ideal) x0 (ix2 r ⟨7, by norm_num⟩) * k2_pay5 (F := Ideal) x0 x1 x2 x3 (ix2 r j) := by
  unfold k2_pay14
  exact slab_apply ![0, 7] ⟨7, by norm_num⟩ rfl (k2_pay4 x0) (k2_pay5 x0 x1 x2 x3) _ _ _ r j
theorem slab8_apply (r : Fin 1024) (j : Fin 201) :
    (k2_pay15 (F := Ideal) (k2_pay4 x0) (k2_pay5 x0 x1 x2 x3)) (ix2 r j) = k2_pay4 (F := Ideal) x0 (ix2 r ⟨8, by norm_num⟩) * k2_pay5 (F := Ideal) x0 x1 x2 x3 (ix2 r j) := by
  unfold k2_pay15
  exact slab_apply ![0, 8] ⟨8, by norm_num⟩ rfl (k2_pay4 x0) (k2_pay5 x0 x1 x2 x3) _ _ _ r j
theorem slab9_apply (r : Fin 1024) (j : Fin 201) :
    (k2_pay17 (F := Ideal) (k2_pay16 (k2_pay4 x0) (k2_pay5 x0 x1 x2 x3))) (ix2 r j) = k2_pay4 (F := Ideal) x0 (ix2 r ⟨9, by norm_num⟩) * k2_pay5 (F := Ideal) x0 x1 x2 x3 (ix2 r j) := by
  unfold k2_pay17 k2_pay16
  exact slab_apply ![0, 9] ⟨9, by norm_num⟩ rfl (k2_pay4 x0) (k2_pay5 x0 x1 x2 x3) _ _ _ r j
theorem slab10_apply (r : Fin 1024) (j : Fin 201) :
    (k2_pay18 (F := Ideal) (k2_pay4 x0) (k2_pay5 x0 x1 x2 x3)) (ix2 r j) = k2_pay4 (F := Ideal) x0 (ix2 r ⟨10, by norm_num⟩) * k2_pay5 (F := Ideal) x0 x1 x2 x3 (ix2 r j) := by
  unfold k2_pay18
  exact slab_apply ![0, 10] ⟨10, by norm_num⟩ rfl (k2_pay4 x0) (k2_pay5 x0 x1 x2 x3) _ _ _ r j
theorem slab11_apply (r : Fin 1024) (j : Fin 201) :
    (k2_pay19 (F := Ideal) (k2_pay4 x0) (k2_pay5 x0 x1 x2 x3)) (ix2 r j) = k2_pay4 (F := Ideal) x0 (ix2 r ⟨11, by norm_num⟩) * k2_pay5 (F := Ideal) x0 x1 x2 x3 (ix2 r j) := by
  unfold k2_pay19
  exact slab_apply ![0, 11] ⟨11, by norm_num⟩ rfl (k2_pay4 x0) (k2_pay5 x0 x1 x2 x3) _ _ _ r j
theorem slab12_apply (r : Fin 1024) (j : Fin 201) :
    (k2_pay20 (F := Ideal) (k2_pay4 x0) (k2_pay5 x0 x1 x2 x3)) (ix2 r j) = k2_pay4 (F := Ideal) x0 (ix2 r ⟨12, by norm_num⟩) * k2_pay5 (F := Ideal) x0 x1 x2 x3 (ix2 r j) := by
  unfold k2_pay20
  exact slab_apply ![0, 12] ⟨12, by norm_num⟩ rfl (k2_pay4 x0) (k2_pay5 x0 x1 x2 x3) _ _ _ r j
theorem slab13_apply (r : Fin 1024) (j : Fin 201) :
    (k2_pay21 (F := Ideal) (k2_pay4 x0) (k2_pay5 x0 x1 x2 x3)) (ix2 r j) = k2_pay4 (F := Ideal) x0 (ix2 r ⟨13, by norm_num⟩) * k2_pay5 (F := Ideal) x0 x1 x2 x3 (ix2 r j) := by
  unfold k2_pay21
  exact slab_apply ![0, 13] ⟨13, by norm_num⟩ rfl (k2_pay4 x0) (k2_pay5 x0 x1 x2 x3) _ _ _ r j
theorem slab14_apply (r : Fin 1024) (j : Fin 201) :
    (k2_pay22 (F := Ideal) (k2_pay4 x0) (k2_pay5 x0 x1 x2 x3)) (ix2 r j) = k2_pay4 (F := Ideal) x0 (ix2 r ⟨14, by norm_num⟩) * k2_pay5 (F := Ideal) x0 x1 x2 x3 (ix2 r j) := by
  unfold k2_pay22
  exact slab_apply ![0, 14] ⟨14, by norm_num⟩ rfl (k2_pay4 x0) (k2_pay5 x0 x1 x2 x3) _ _ _ r j
theorem slab15_apply (r : Fin 1024) (j : Fin 201) :
    (k2_pay24 (F := Ideal) (k2_pay23 (k2_pay4 x0) (k2_pay5 x0 x1 x2 x3))) (ix2 r j) = k2_pay4 (F := Ideal) x0 (ix2 r ⟨15, by norm_num⟩) * k2_pay5 (F := Ideal) x0 x1 x2 x3 (ix2 r j) := by
  unfold k2_pay24 k2_pay23
  exact slab_apply ![0, 15] ⟨15, by norm_num⟩ rfl (k2_pay4 x0) (k2_pay5 x0 x1 x2 x3) _ _ _ r j
theorem slab16_apply (r : Fin 1024) (j : Fin 201) :
    (k2_pay25 (F := Ideal) (k2_pay4 x0) (k2_pay5 x0 x1 x2 x3)) (ix2 r j) = k2_pay4 (F := Ideal) x0 (ix2 r ⟨16, by norm_num⟩) * k2_pay5 (F := Ideal) x0 x1 x2 x3 (ix2 r j) := by
  unfold k2_pay25
  exact slab_apply ![0, 16] ⟨16, by norm_num⟩ rfl (k2_pay4 x0) (k2_pay5 x0 x1 x2 x3) _ _ _ r j
theorem slab17_apply (r : Fin 1024) (j : Fin 201) :
    (k2_pay26 (F := Ideal) (k2_pay4 x0) (k2_pay5 x0 x1 x2 x3)) (ix2 r j) = k2_pay4 (F := Ideal) x0 (ix2 r ⟨17, by norm_num⟩) * k2_pay5 (F := Ideal) x0 x1 x2 x3 (ix2 r j) := by
  unfold k2_pay26
  exact slab_apply ![0, 17] ⟨17, by norm_num⟩ rfl (k2_pay4 x0) (k2_pay5 x0 x1 x2 x3) _ _ _ r j
theorem slab18_apply (r : Fin 1024) (j : Fin 201) :
    (k2_pay27 (F := Ideal) (k2_pay4 x0) (k2_pay5 x0 x1 x2 x3)) (ix2 r j) = k2_pay4 (F := Ideal) x0 (ix2 r ⟨18, by norm_num⟩) * k2_pay5 (F := Ideal) x0 x1 x2 x3 (ix2 r j) := by
  unfold k2_pay27
  exact slab_apply ![0, 18] ⟨18, by norm_num⟩ rfl (k2_pay4 x0) (k2_pay5 x0 x1 x2 x3) _ _ _ r j
theorem slab19_apply (r : Fin 1024) (j : Fin 201) :
    (k2_pay28 (F := Ideal) (k2_pay4 x0) (k2_pay5 x0 x1 x2 x3)) (ix2 r j) = k2_pay4 (F := Ideal) x0 (ix2 r ⟨19, by norm_num⟩) * k2_pay5 (F := Ideal) x0 x1 x2 x3 (ix2 r j) := by
  unfold k2_pay28
  exact slab_apply ![0, 19] ⟨19, by norm_num⟩ rfl (k2_pay4 x0) (k2_pay5 x0 x1 x2 x3) _ _ _ r j
theorem slab20_apply (r : Fin 1024) (j : Fin 201) :
    (k2_pay29 (F := Ideal) (k2_pay4 x0) (k2_pay5 x0 x1 x2 x3)) (ix2 r j) = k2_pay4 (F := Ideal) x0 (ix2 r ⟨20, by norm_num⟩) * k2_pay5 (F := Ideal) x0 x1 x2 x3 (ix2 r j) := by
  unfold k2_pay29
  exact slab_apply ![0, 20] ⟨20, by norm_num⟩ rfl (k2_pay4 x0) (k2_pay5 x0 x1 x2 x3) _ _ _ r j

end Slabs

/-! ## The scratch buffer read back: the flattened outer product -/

section Entry

variable (x0 : Vec Ideal S1024x20 .f32) (x1 : Vec Ideal S1024x200 .f32) (x2 : Vec Ideal S220x200 .f32) (x3 : Vec Ideal S200 .f32)

/-- The flattened outer product at `(r, q)`, `q = 201·d + j`: the first factor's column `d` times the second factor's
    column `j`. -/
def fusedK (r : Fin 1024) (q : Fin 4221) : EReal :=
  k2_pay4 (F := Ideal) x0 (ix2 r ⟨q.val / 201, by omega⟩)
    * k2_pay5 (F := Ideal) x0 x1 x2 x3 (ix2 r ⟨q.val % 201, Nat.mod_lt _ (by norm_num)⟩)

/-- At `q = 201·d + j` with `j < 201` the quotient is `d` and the remainder `j`. -/
theorem fusedK_of (r r' : Fin 1024) (q : Fin 4221) (d : Fin 21) (j : Fin 201) (hr : r' = r)
    (hq : q.val = 201 * d.val + j.val) :
    fusedK x0 x1 x2 x3 r' q
      = k2_pay4 (F := Ideal) x0 (ix2 r d) * k2_pay5 (F := Ideal) x0 x1 x2 x3 (ix2 r j) := by
  subst hr
  unfold fusedK
  have hd : q.val / 201 = d.val := by have := j.isLt; omega
  have hj : q.val % 201 = j.val := by have := j.isLt; omega
  simp only [hd, hj]

/-- The outer product as a function of the buffer's index. -/
def fusedG : S1024x4221.Idx → Elt Ideal .bf16 := fun y => fusedK x0 x1 x2 x3 (y 0) (y 1)

/-- A stored piece agrees with the outer product on its rectangle. -/
abbrev PieceOk (p : View.Piece (Elt Ideal) S1024x4221 .bf16) : Prop :=
  ∀ x : p.1.shape.Idx, p.2 x = fusedG x0 x1 x2 x3 (p.1.emb x)

/-- The slab stored at columns `201·d … 201·d + 200`, whose entry `(r, j)` is the product of column `d` and column `j`,
    agrees with the outer product there. -/
theorem piece_ok (d : Fin 21) (off : Fin 2 → Nat) (hoff : off = ![0, 201 * d.val])
    (inb : ∀ a, off a + S1024x201.size a ≤ S1024x4221.size a) (P : FVec Ideal S1024x201 .bf16)
    (hP : ∀ (r : Fin 1024) (j : Fin 201), P (ix2 r j)
      = k2_pay4 (F := Ideal) x0 (ix2 r d) * k2_pay5 (F := Ideal) x0 x1 x2 x3 (ix2 r j)) :
    PieceOk x0 x1 x2 x3 ⟨Rect.unit off S1024x201.size inb, P⟩ := by
  subst hoff
  intro (x : S1024x201.Idx)
  obtain ⟨r, j, rfl⟩ : ∃ (r : Fin 1024) (j : Fin 201), x = ix2 r j := ⟨x 0, x 1, eq_ix2 x⟩
  refine (hP r j).trans (fusedK_of x0 x1 x2 x3 r _ _ d j (Fin.ext ?_) ?_).symm
  · show 0 + 1 * r.val = r.val; omega
  · show 201 * d.val + 1 * j.val = _; omega

theorem pieces_ok : ∀ p ∈ pieces (F := Ideal) x0 x1 x2 x3, PieceOk x0 x1 x2 x3 p := by
  unfold pieces
  exact List.forall_mem_cons.mpr ⟨piece_ok x0 x1 x2 x3 ⟨20, by norm_num⟩ _ rfl _ _ (slab20_apply x0 x1 x2 x3),
    List.forall_mem_cons.mpr ⟨piece_ok x0 x1 x2 x3 ⟨19, by norm_num⟩ _ rfl _ _ (slab19_apply x0 x1 x2 x3),
    List.forall_mem_cons.mpr ⟨piece_ok x0 x1 x2 x3 ⟨18, by norm_num⟩ _ rfl _ _ (slab18_apply x0 x1 x2 x3),
    List.forall_mem_cons.mpr ⟨piece_ok x0 x1 x2 x3 ⟨17, by norm_num⟩ _ rfl _ _ (slab17_apply x0 x1 x2 x3),
    List.forall_mem_cons.mpr ⟨piece_ok x0 x1 x2 x3 ⟨16, by norm_num⟩ _ rfl _ _ (slab16_apply x0 x1 x2 x3),
    List.forall_mem_cons.mpr ⟨piece_ok x0 x1 x2 x3 ⟨15, by norm_num⟩ _ rfl _ _ (slab15_apply x0 x1 x2 x3),
    List.forall_mem_cons.mpr ⟨piece_ok x0 x1 x2 x3 ⟨14, by norm_num⟩ _ rfl _ _ (slab14_apply x0 x1 x2 x3),
    List.forall_mem_cons.mpr ⟨piece_ok x0 x1 x2 x3 ⟨13, by norm_num⟩ _ rfl _ _ (slab13_apply x0 x1 x2 x3),
    List.forall_mem_cons.mpr ⟨piece_ok x0 x1 x2 x3 ⟨12, by norm_num⟩ _ rfl _ _ (slab12_apply x0 x1 x2 x3),
    List.forall_mem_cons.mpr ⟨piece_ok x0 x1 x2 x3 ⟨11, by norm_num⟩ _ rfl _ _ (slab11_apply x0 x1 x2 x3),
    List.forall_mem_cons.mpr ⟨piece_ok x0 x1 x2 x3 ⟨10, by norm_num⟩ _ rfl _ _ (slab10_apply x0 x1 x2 x3),
    List.forall_mem_cons.mpr ⟨piece_ok x0 x1 x2 x3 ⟨9, by norm_num⟩ _ rfl _ _ (slab9_apply x0 x1 x2 x3),
    List.forall_mem_cons.mpr ⟨piece_ok x0 x1 x2 x3 ⟨8, by norm_num⟩ _ rfl _ _ (slab8_apply x0 x1 x2 x3),
    List.forall_mem_cons.mpr ⟨piece_ok x0 x1 x2 x3 ⟨7, by norm_num⟩ _ rfl _ _ (slab7_apply x0 x1 x2 x3),
    List.forall_mem_cons.mpr ⟨piece_ok x0 x1 x2 x3 ⟨6, by norm_num⟩ _ rfl _ _ (slab6_apply x0 x1 x2 x3),
    List.forall_mem_cons.mpr ⟨piece_ok x0 x1 x2 x3 ⟨5, by norm_num⟩ _ rfl _ _ (slab5_apply x0 x1 x2 x3),
    List.forall_mem_cons.mpr ⟨piece_ok x0 x1 x2 x3 ⟨4, by norm_num⟩ _ rfl _ _ (slab4_apply x0 x1 x2 x3),
    List.forall_mem_cons.mpr ⟨piece_ok x0 x1 x2 x3 ⟨3, by norm_num⟩ _ rfl _ _ (slab3_apply x0 x1 x2 x3),
    List.forall_mem_cons.mpr ⟨piece_ok x0 x1 x2 x3 ⟨2, by norm_num⟩ _ rfl _ _ (slab2_apply x0 x1 x2 x3),
    List.forall_mem_cons.mpr ⟨piece_ok x0 x1 x2 x3 ⟨1, by norm_num⟩ _ rfl _ _ (slab1_apply x0 x1 x2 x3),
    List.forall_mem_cons.mpr ⟨piece_ok x0 x1 x2 x3 ⟨0, by norm_num⟩ _ rfl _ _ (slab0_apply x0 x1 x2 x3),
    fun _ h => absurd h List.not_mem_nil⟩⟩⟩⟩⟩⟩⟩⟩⟩⟩⟩⟩⟩⟩⟩⟩⟩⟩⟩⟩⟩

/-- The 21 slabs tile the buffer. -/
theorem pieces_cover (y : S1024x4221.Idx) : ∃ p ∈ pieces (F := Ideal) x0 x1 x2 x3, y ∈ p.1.set :=
  View.cover_of_tiledL (pieces x0 x1 x2 x3) S1024x201.size (by unfold pieces; sl_kernel_rfl) y

/-- The scratch buffer, read back whole, is the flattened outer product. -/
theorem scratch_apply (r : Fin 1024) (q : Fin 4221) :
    scratch (F := Ideal) x0 x1 x2 x3 (ix2 r q)
      = k2_pay4 (F := Ideal) x0 (ix2 r ⟨q.val / 201, by omega⟩)
        * k2_pay5 (F := Ideal) x0 x1 x2 x3 (ix2 r ⟨q.val % 201, Nat.mod_lt _ (by norm_num)⟩) :=
  View.canon_apply_of_pieces (fusedG x0 x1 x2 x3) (pieces x0 x1 x2 x3)
    (pieces_ok x0 x1 x2 x3) (ix2 r q) (pieces_cover x0 x1 x2 x3 (ix2 r q))

end Entry

end Cert.KernelIdeal.KVal

end
-- ==== Proof.KFusionRun.lean ====
/-
  The fusion kernel's run, read back as values.

  The kernel runs at a single grid point with every operand one whole block. Its body stores the row-wise outer
  product of `[hg | 1]` and `[gate · d3 | 1]` into a 1024 × 4221 buffer as 21 column slabs, loads the buffer whole, and
  stores the head's result (three dense layers with two batch normalisations) into the 1024 × 1 output block. Read
  back: the output's staging buffer holds the head's payloads applied to the closed form of the 21 stores; each input
  block is its whole array; the one written-back block covers the output array. Over the extended reals the buffer's
  entry `(r, q)` is the product of column `q / 201` of the first factor and column `q % 201` of the second.
-/
import proofs.«144383_j84954453115094_1_alg».proof.Proof.Gen.KernelIdeal.Frame
import proofs.«144383_j84954453115094_1_alg».proof.Proof.KFusionScratch
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-! ## The body's output as payloads over the input blocks -/

/-- The zero offsets of a rank-2 whole-buffer access, however spelt. -/
theorem hz2 : (![0, 0] : Fin 2 → Nat) = fun _ => 0 := funext fun a => by fin_cases a <;> rfl
/-- The zero offset of a rank-1 whole-buffer access. -/
theorem hz1 : (![0] : Fin 1 → Nat) = fun _ => 0 := funext fun a => by fin_cases a; rfl

/-- A load of the whole buffer after a list of stores reads the stores' closed form. -/
theorem readCov_whole {sg : RefSig} {κ : Kind} {sp : Space} (v : View sg κ sp S1024x4221 .bf16)
    (L : List (View.Piece (Elt F) S1024x4221 .bf16)) (inb : ∀ a, (![0, 0] : Fin 2 → Nat) a + S1024x4221.size a ≤ S1024x4221.size a) :
    v.readCov L (Rect.unit ![0, 0] S1024x4221.size inb).toLoadRect = View.canon L := by
  rw [View.readCov_eq_canon']
  exact View.ld_unit_zero (S := S1024x4221) hz2 inb (View.canon L)

/-- What the body leaves in the output's staging buffer: the head's payloads over the input blocks, the buffer being
    the closed form of the 21 slab stores (every load and the one output store go through whole-buffer rectangles). -/
theorem out2_eq (c : Dev nD) (i : grid2.Coords) (arg1 : Memref sig .tc .vmem S1024x20 .f32) (harg1 : arg1.IsWhole) (arg2 : Memref sig .tc .vmem S1024x200 .f32) (harg2 : arg2.IsWhole) (arg3 : Memref sig .tc .vmem S220x200 .f32) (harg3 : arg3.IsWhole) (arg4 : Memref sig .tc .vmem S200 .f32) (harg4 : arg4.IsWhole) (arg5 : Memref sig .tc .vmem S4221x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128x32 .f32) (harg9 : arg9.IsWhole) (arg10 : Memref sig .tc .vmem S32 .f32) (harg10 : arg10.IsWhole) (arg11 : Memref sig .tc .vmem S32 .f32) (harg11 : arg11.IsWhole) (arg12 : Memref sig .tc .vmem S32 .f32) (harg12 : arg12.IsWhole) (arg13 : Memref sig .tc .vmem S32x1 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x4221 .bf16) (harg16 : arg16.IsWhole)
    (x0 : Vec F S1024x20 .f32) (x1 : Vec F S1024x200 .f32) (x2 : Vec F S220x200 .f32) (x3 : Vec F S200 .f32) (x4 : Vec F S4221x128 .f32) (x5 : Vec F S128 .f32) (x6 : Vec F S128 .f32) (x7 : Vec F S128 .f32) (x8 : Vec F S128x32 .f32) (x9 : Vec F S32 .f32) (x10 : Vec F S32 .f32) (x11 : Vec F S32 .f32) (x12 : Vec F S32x1 .f32) (x13 : Vec F S1 .f32) :
    out2_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13
      = k2_pay1 (k2_pay30 (scratch x0 x1 x2 x3) x4 x5 x6 x7 x8 x9) (k2_pay31 (scratch x0 x1 x2 x3) x4 x5 x6 x7 x8 x9)
          (Scalar.ofBits .f32 0x44800000#32) x10 x11 x12 x13 := by
  unfold out2_A_14
  rw [View.read_writes_eq_canon _ _ _ (cover2_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13)]
  unfold kernelRun2_A
  dsimp only
  sl_unfold_words
  rw [View.canon_unit_zero (S := S1024x1) hz2]
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread,
    View.ld_unit_zero (S := S1024x20) hz2, View.ld_unit_zero (S := S1024x200) hz2, View.ld_unit_zero (S := S220x200) hz2,
    View.ld_unit_zero (S := S200) hz1, View.ld_unit_zero (S := S4221x128) hz2, View.ld_unit_zero (S := S128) hz1,
    View.ld_unit_zero (S := S128x32) hz2, View.ld_unit_zero (S := S32) hz1, View.ld_unit_zero (S := S32x1) hz2,
    View.ld_unit_zero (S := S1) hz1]
  rw [readCov_whole]
  rfl

/-! ## From the single block to the array -/

section Array

variable (V : (c : Dev nD) → (b : Ref sig .tc) → Buf (Elt F) ((c : Thread nD τ).loc b))

/-- Window 0's block at the single grid point is its whole array. -/
theorem iblk_0 (c : Dev nD) (t : Fin cfg2.N) : iblk2 V c 0 t = V c (Pipeline.arrRef spec2 0) := by
  unfold iblk2
  have hz' : (fun a => win2_0.index t a * main_v40.ty.shape.size a) = fun _ => 0 := funext fun a => by fin_cases a <;> rfl
  exact Memref.read_access_unit_zero (Elt F) main_v40 hz' (fun a => by rw [congrFun hz' a]; simp) _
/-- Window 1's block at the single grid point is its whole array. -/
theorem iblk_1 (c : Dev nD) (t : Fin cfg2.N) : iblk2 V c 1 t = V c (Pipeline.arrRef spec2 1) := by
  unfold iblk2
  have hz' : (fun a => win2_1.index t a * main_arg2.ty.shape.size a) = fun _ => 0 := funext fun a => by fin_cases a <;> rfl
  exact Memref.read_access_unit_zero (Elt F) main_arg2 hz' (fun a => by rw [congrFun hz' a]; simp) _
/-- Window 2's block at the single grid point is its whole array. -/
theorem iblk_2 (c : Dev nD) (t : Fin cfg2.N) : iblk2 V c 2 t = V c (Pipeline.arrRef spec2 2) := by
  unfold iblk2
  have hz' : (fun a => win2_2.index t a * main_arg7.ty.shape.size a) = fun _ => 0 := funext fun a => by fin_cases a <;> rfl
  exact Memref.read_access_unit_zero (Elt F) main_arg7 hz' (fun a => by rw [congrFun hz' a]; simp) _
/-- Window 3's block at the single grid point is its whole array. -/
theorem iblk_3 (c : Dev nD) (t : Fin cfg2.N) : iblk2 V c 3 t = V c (Pipeline.arrRef spec2 3) := by
  unfold iblk2
  have hz' : (fun a => win2_3.index t a * main_arg8.ty.shape.size a) = fun _ => 0 := funext fun a => by fin_cases a <;> rfl
  exact Memref.read_access_unit_zero (Elt F) main_arg8 hz' (fun a => by rw [congrFun hz' a]; simp) _
/-- Window 4's block at the single grid point is its whole array. -/
theorem iblk_4 (c : Dev nD) (t : Fin cfg2.N) : iblk2 V c 4 t = V c (Pipeline.arrRef spec2 4) := by
  unfold iblk2
  have hz' : (fun a => win2_4.index t a * main_arg9.ty.shape.size a) = fun _ => 0 := funext fun a => by fin_cases a <;> rfl
  exact Memref.read_access_unit_zero (Elt F) main_arg9 hz' (fun a => by rw [congrFun hz' a]; simp) _
/-- Window 5's block at the single grid point is its whole array. -/
theorem iblk_5 (c : Dev nD) (t : Fin cfg2.N) : iblk2 V c 5 t = V c (Pipeline.arrRef spec2 5) := by
  unfold iblk2
  have hz' : (fun a => win2_5.index t a * main_arg10.ty.shape.size a) = fun _ => 0 := funext fun a => by fin_cases a <;> rfl
  exact Memref.read_access_unit_zero (Elt F) main_arg10 hz' (fun a => by rw [congrFun hz' a]; simp) _
/-- Window 6's block at the single grid point is its whole array. -/
theorem iblk_6 (c : Dev nD) (t : Fin cfg2.N) : iblk2 V c 6 t = V c (Pipeline.arrRef spec2 6) := by
  unfold iblk2
  have hz' : (fun a => win2_6.index t a * main_arg15.ty.shape.size a) = fun _ => 0 := funext fun a => by fin_cases a <;> rfl
  exact Memref.read_access_unit_zero (Elt F) main_arg15 hz' (fun a => by rw [congrFun hz' a]; simp) _
/-- Window 7's block at the single grid point is its whole array. -/
theorem iblk_7 (c : Dev nD) (t : Fin cfg2.N) : iblk2 V c 7 t = V c (Pipeline.arrRef spec2 7) := by
  unfold iblk2
  have hz' : (fun a => win2_7.index t a * main_arg16.ty.shape.size a) = fun _ => 0 := funext fun a => by fin_cases a <;> rfl
  exact Memref.read_access_unit_zero (Elt F) main_arg16 hz' (fun a => by rw [congrFun hz' a]; simp) _
/-- Window 8's block at the single grid point is its whole array. -/
theorem iblk_8 (c : Dev nD) (t : Fin cfg2.N) : iblk2 V c 8 t = V c (Pipeline.arrRef spec2 8) := by
  unfold iblk2
  have hz' : (fun a => win2_8.index t a * main_arg11.ty.shape.size a) = fun _ => 0 := funext fun a => by fin_cases a <;> rfl
  exact Memref.read_access_unit_zero (Elt F) main_arg11 hz' (fun a => by rw [congrFun hz' a]; simp) _
/-- Window 9's block at the single grid point is its whole array. -/
theorem iblk_9 (c : Dev nD) (t : Fin cfg2.N) : iblk2 V c 9 t = V c (Pipeline.arrRef spec2 9) := by
  unfold iblk2
  have hz' : (fun a => win2_9.index t a * main_arg12.ty.shape.size a) = fun _ => 0 := funext fun a => by fin_cases a <;> rfl
  exact Memref.read_access_unit_zero (Elt F) main_arg12 hz' (fun a => by rw [congrFun hz' a]; simp) _
/-- Window 10's block at the single grid point is its whole array. -/
theorem iblk_10 (c : Dev nD) (t : Fin cfg2.N) : iblk2 V c 10 t = V c (Pipeline.arrRef spec2 10) := by
  unfold iblk2
  have hz' : (fun a => win2_10.index t a * main_arg17.ty.shape.size a) = fun _ => 0 := funext fun a => by fin_cases a <;> rfl
  exact Memref.read_access_unit_zero (Elt F) main_arg17 hz' (fun a => by rw [congrFun hz' a]; simp) _
/-- Window 11's block at the single grid point is its whole array. -/
theorem iblk_11 (c : Dev nD) (t : Fin cfg2.N) : iblk2 V c 11 t = V c (Pipeline.arrRef spec2 11) := by
  unfold iblk2
  have hz' : (fun a => win2_11.index t a * main_arg18.ty.shape.size a) = fun _ => 0 := funext fun a => by fin_cases a <;> rfl
  exact Memref.read_access_unit_zero (Elt F) main_arg18 hz' (fun a => by rw [congrFun hz' a]; simp) _
/-- Window 12's block at the single grid point is its whole array. -/
theorem iblk_12 (c : Dev nD) (t : Fin cfg2.N) : iblk2 V c 12 t = V c (Pipeline.arrRef spec2 12) := by
  unfold iblk2
  have hz' : (fun a => win2_12.index t a * main_arg13.ty.shape.size a) = fun _ => 0 := funext fun a => by fin_cases a <;> rfl
  exact Memref.read_access_unit_zero (Elt F) main_arg13 hz' (fun a => by rw [congrFun hz' a]; simp) _
/-- Window 13's block at the single grid point is its whole array. -/
theorem iblk_13 (c : Dev nD) (t : Fin cfg2.N) : iblk2 V c 13 t = V c (Pipeline.arrRef spec2 13) := by
  unfold iblk2
  have hz' : (fun a => win2_13.index t a * main_arg14.ty.shape.size a) = fun _ => 0 := funext fun a => by fin_cases a <;> rfl
  exact Memref.read_access_unit_zero (Elt F) main_arg14 hz' (fun a => by rw [congrFun hz' a]; simp) _

/-- The head's value over the whole arrays the region finds. -/
def headOut (c : Dev nD) : Vec F S1024x1 .f32 :=
  k2_pay1 (k2_pay30 (scratch (V c (Pipeline.arrRef spec2 0)) (V c (Pipeline.arrRef spec2 1)) (V c (Pipeline.arrRef spec2 2)) (V c (Pipeline.arrRef spec2 3))) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)))
    (k2_pay31 (scratch (V c (Pipeline.arrRef spec2 0)) (V c (Pipeline.arrRef spec2 1)) (V c (Pipeline.arrRef spec2 2)) (V c (Pipeline.arrRef spec2 3))) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)))
    (Scalar.ofBits .f32 0x44800000#32) (V c (Pipeline.arrRef spec2 10)) (V c (Pipeline.arrRef spec2 11)) (V c (Pipeline.arrRef spec2 12)) (V c (Pipeline.arrRef spec2 13))

/-- After the single grid point the output's staging buffer holds the head's value. -/
theorem outsAt2_eq (c : Dev nD) (t : Fin cfg2.N) : outsAt2 V c t = headOut V c := by
  unfold outsAt2
  rw [out2_eq, iblk_0, iblk_1, iblk_2, iblk_3, iblk_4, iblk_5, iblk_6, iblk_7, iblk_8, iblk_9, iblk_10, iblk_11, iblk_12, iblk_13]
  rfl

/-- The block written back at the single grid point is the whole of the head's value. -/
theorem flushed_eq (c : Dev nD) (t : Fin cfg2.N) :
    (dat2 V c).flushed 14 t = ((cfg2.win 14).blk t).view.read (Elt F) (headOut V c) := by
  show (cfg2.win 14).cut (grid2.coords t) ((dat2 V c).after 14 t) = _
  rw [after2_14, outsAt2_eq]
  have hz' : (fun a => win2_14.index t a * main_v41.ty.shape.size a) = fun _ => 0 := funext fun a => by fin_cases a <;> rfl
  exact (Memref.read_access_unit_zero (Elt F) main_v41 hz' (fun a => by rw [congrFun hz' a]; simp) (headOut V c)).symm

/-- The single grid point's block covers the output array, which therefore ends holding the head's value. -/
theorem final14 (c : Dev nD) : (dat2 V c).arrAt 14 cfg2.N = headOut V c :=
  (dat2 V c).arrAt_eq_of_cover 14 (headOut V c) (fun t _ => flushed_eq V c t) fun i =>
    ⟨t2_0, flush2_14 t2_0, by
      show i ∈ ((View.whole main_v41).slice (win2_14.rect t2_0)).set
      rw [View.set_slice_whole, Rect.mem_set_unit]
      intro a
      have h0 : (i 0 : Nat) < 1024 := (i 0).isLt
      have h1 : (i 1 : Nat) < 1 := (i 1).isLt
      match a with
      | ⟨0, _⟩ => show win2_14.index t2_0 0 * win2_14.size 0 ≤ (i 0 : Nat) ∧ (i 0 : Nat) < win2_14.index t2_0 0 * win2_14.size 0 + win2_14.xsize (grid2.coords t2_0) 0
                  rw [show win2_14.index t2_0 0 * win2_14.size 0 = 0 from by decide +kernel, show win2_14.xsize (grid2.coords t2_0) 0 = 1024 from by decide +kernel]; omega
      | ⟨1, _⟩ => show win2_14.index t2_0 1 * win2_14.size 1 ≤ (i 1 : Nat) ∧ (i 1 : Nat) < win2_14.index t2_0 1 * win2_14.size 1 + win2_14.xsize (grid2.coords t2_0) 1
                  rw [show win2_14.index t2_0 1 * win2_14.size 1 = 0 from by decide +kernel, show win2_14.xsize (grid2.coords t2_0) 1 = 1 from by decide +kernel]; omega⟩

end Array

/-! ## The region's output array over the extended reals -/

/-- What the fusion kernel leaves in its output array: the head (three dense layers with the two batch
    normalisations, the generated payloads from the whole load of the buffer on) applied to a buffer `scr` whose
    entry `(r, q)` is the flattened outer product `u (r, q / 201) * v (r, q % 201)` of `u = [hg | 1]` and
    `v = [gate · d3 | 1]`, all over the arrays the region finds. -/
theorem region2_out (V : (c : Dev nD) → (b : Ref sig .tc) → Buf (Elt Ideal) ((c : Thread nD τ).loc b)) (c : Dev nD) :
    ∃ scr : Vec Ideal S1024x4221 .bf16,
      (∀ (r : Fin 1024) (q : Fin 4221), scr (ValueIdx.ix2 r q)
          = k2_pay4 (F := Ideal) (V c (Pipeline.arrRef spec2 0)) (ValueIdx.ix2 r ⟨q.val / 201, by omega⟩)
            * k2_pay5 (F := Ideal) (V c (Pipeline.arrRef spec2 0)) (V c (Pipeline.arrRef spec2 1)) (V c (Pipeline.arrRef spec2 2)) (V c (Pipeline.arrRef spec2 3))
                (ValueIdx.ix2 r ⟨q.val % 201, Nat.mod_lt _ (by norm_num)⟩))
      ∧ (dat2 (F := Ideal) V c).arrAt 14 cfg2.N
          = k2_pay1 (F := Ideal)
              (k2_pay30 scr (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)))
              (k2_pay31 scr (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)))
              (Scalar.ofBits .f32 0x44800000#32) (V c (Pipeline.arrRef spec2 10)) (V c (Pipeline.arrRef spec2 11)) (V c (Pipeline.arrRef spec2 12)) (V c (Pipeline.arrRef spec2 13)) :=
  ⟨scratch (V c (Pipeline.arrRef spec2 0)) (V c (Pipeline.arrRef spec2 1)) (V c (Pipeline.arrRef spec2 2)) (V c (Pipeline.arrRef spec2 3)),
    fun r q => scratch_apply (V c (Pipeline.arrRef spec2 0)) (V c (Pipeline.arrRef spec2 1)) (V c (Pipeline.arrRef spec2 2)) (V c (Pipeline.arrRef spec2 3)) r q,
    final14 V c⟩

end Cert.KernelIdeal.KVal

end
-- ==== Proof.KFusionPay.lean ====
/-
  The fusion head's arithmetic, read index by index over the extended reals.

  For each of the 1024 rows: the pooled features with a trailing one; the gate
  logistic ([hg | d3] · Wg + bg) times the 3d descriptor, with a trailing one; the flattened outer
  product of the two (q = 201·d + j); then three dense layers, the first two followed by a batch
  normalisation over the rows (column mean, biased column variance, ε, the deviation MULTIPLIED by the
  reciprocal square root, scale, shift) and a clamp at zero.  Each vector operation is read at an index:
  a concatenation by the side the column falls on, a matrix product as the sum over the contracted
  coordinate, a column reduction as the sum over the rows, a broadcast row at its column.
-/
import proofs.«144383_j84954453115094_1_alg».proof.Proof.Gen.KernelIdeal.Skeleton
import proofs.«144383_j84954453115094_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-- The identity cast of the pooled features. -/
theorem pay2_apply (x0 : Vec Ideal S1024x20 .f32) (j : S1024x20.Idx) :
    k2_pay2 (F := Ideal) x0 j = x0 j := by
  unfold k2_pay2
  exact congrFun (shapeCast_self x0 _) j

/-- The column of ones. -/
theorem pay3_apply (j : S1024x1.Idx) :
    k2_pay3 (F := Ideal) j = Cert.Spec.cone := rfl

/-- `[hg | 1]` at `(r, d)`. -/
theorem pay4_apply (x0 : Vec Ideal S1024x20 .f32) (r : Fin 1024) (d : Fin 21) :
    k2_pay4 (F := Ideal) x0 (ix2 r d) = Cert.Spec.hgAugAt x0 r d := by
  unfold k2_pay4 Cert.Spec.hgAugAt
  by_cases h : d.val < 20
  · rw [dif_pos h]
    refine (concatenate_pair_apply_left (t := S1024x21) (s₁ := S1024x20) (s₂ := S1024x1) (1 : Fin 2) _ _ _
      (ix2 r d) rfl (ix2 r ⟨d.val, h⟩) ?_).trans ?_
    · intro b
      match b with
      | ⟨0, _⟩ => rfl
      | ⟨1, _⟩ => rfl
    · exact pay2_apply x0 _
  · rw [dif_neg h]
    refine (concatenate_pair_apply_right (t := S1024x21) (s₁ := S1024x20) (s₂ := S1024x1) (1 : Fin 2) _ _ _
      (ix2 r d) rfl rfl (ix2 r (0 : Fin 1)) ?_ ?_).trans ?_
    · intro b hb
      match b with
      | ⟨0, _⟩ => rfl
      | ⟨1, _⟩ => exact absurd rfl hb
    · show 0 + 20 = d.val
      have := d.isLt
      omega
    · exact pay3_apply _

/-! ## Layout and contraction read at an index -/

/-- A vector cast to one row and broadcast down the rows reads, at `(p, c)`, the vector at `c`. -/
theorem rowBcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- One row broadcast down the rows reads, at `(p, c)`, the row at `c`. -/
theorem rowBcast'_apply {α : Type} {a b : ℕ} (v : (⟨2, ![1, b]⟩ : Shape).Idx → α)
    (h2 : (⟨2, ![1, b]⟩ : Shape).Broadcasts ⟨2, ![a, b]⟩) (p : Fin a) (c : Fin b) :
    broadcastTo ⟨2, ![a, b]⟩ v h2 (ix2 p c) = v (ix2 (0 : Fin 1) c) :=
  broadcastTo_1b_ab_apply _ h2 p c

/-- The sum down the rows of a matrix, read at column `n`. -/
theorem colSum_apply {A B : ℕ} (src : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (n : Fin B) :
    multiReduction (F := Ideal) .add [0] ⟨1, ![B]⟩ src 0x00000000#32 h hφ hacc (ix1 n) = ∑ r : Fin A, src (ix2 r n) := by
  refine (Ideal.multiReduction_add_single src 0x00000000#32 h hφ hacc (ix1 n)).trans ?_
  refine Finset.sum_congr rfl fun k _ => congrArg src (funext fun a => ?_)
  match a with
  | ⟨0, _⟩ => rfl
  | ⟨1, _⟩ => rfl

/-- A matrix product `[A, K] · [K, B]` into the zero accumulator, read at `(a, b)`: the sum over the contracted coordinate. -/
theorem matmul_ix2_apply {A K B : ℕ} {φ₁ φ₂ : FTy} (D : DotDims ⟨2, ![A, K]⟩ ⟨2, ![K, B]⟩ ⟨2, ![A, B]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (lhs : FVec Ideal ⟨2, ![A, K]⟩ φ₁) (rhs : FVec Ideal ⟨2, ![K, B]⟩ φ₂) (a : Fin A) (b : Fin B) :
    matmul D prec lhs rhs (constant (F := Ideal) ⟨2, ![A, B]⟩ .f32 0x00000000#32) (ix2 a b)
      = ∑ k : Fin K, lhs (ix2 a k) * rhs (ix2 k b) := by
  refine (Ideal.matmul_constant_zero_apply D prec lhs rhs (ix2 a b)).trans ?_
  refine (Equiv.sum_comp (contrEquiv1 D K hr hs).symm _).symm.trans ?_
  refine Finset.sum_congr rfl fun k _ => ?_
  have e1 : D.lhsIdx (ix2 a b) ((contrEquiv1 D K hr hs).symm k) = ix2 a k := funext fun x => by
    match x with
    | ⟨0, _⟩ => exact Fin.ext (hl0 _ _)
    | ⟨1, _⟩ => exact Fin.ext ((hl1 _ _).trans (contrEquiv1_symm_val D K hr hs k))
  have e2 : D.rhsIdx (ix2 a b) ((contrEquiv1 D K hr hs).symm k) = ix2 k b := funext fun x => by
    match x with
    | ⟨0, _⟩ => exact Fin.ext ((hr0 _ _).trans (contrEquiv1_symm_val D K hr hs k))
    | ⟨1, _⟩ => exact Fin.ext (hr1 _ _)
  show lhs _ * rhs _ = _
  rw [e1, e2]

/-- The four products of the head, each read at an index. -/
theorem dot1_apply (lhs : FVec Ideal S1024x220 .bf16) (rhs : FVec Ideal S220x200 .bf16) (a : Fin 1024) (b : Fin 200) :
    matmul dot_S1024x220_S220x200_S1024x200_1_0_0_1_n_n none lhs rhs (constant (F := Ideal) S1024x200 .f32 0x00000000#32) (ix2 a b)
      = ∑ k : Fin 220, lhs (ix2 a k) * rhs (ix2 k b) :=
  matmul_ix2_apply _ rfl rfl (fun _ _ => rfl) (fun _ _ => rfl) (fun _ _ => rfl) (fun _ _ => rfl) none lhs rhs a b

theorem dot2_apply (lhs : FVec Ideal S1024x4221 .bf16) (rhs : FVec Ideal S4221x128 .bf16) (a : Fin 1024) (b : Fin 128) :
    matmul dot_S1024x4221_S4221x128_S1024x128_1_0_0_1_n_n none lhs rhs (constant (F := Ideal) S1024x128 .f32 0x00000000#32) (ix2 a b)
      = ∑ k : Fin 4221, lhs (ix2 a k) * rhs (ix2 k b) :=
  matmul_ix2_apply _ rfl rfl (fun _ _ => rfl) (fun _ _ => rfl) (fun _ _ => rfl) (fun _ _ => rfl) none lhs rhs a b

theorem dot3_apply (lhs : FVec Ideal S1024x128 .bf16) (rhs : FVec Ideal S128x32 .bf16) (a : Fin 1024) (b : Fin 32) :
    matmul dot_S1024x128_S128x32_S1024x32_1_0_0_1_n_n none lhs rhs (constant (F := Ideal) S1024x32 .f32 0x00000000#32) (ix2 a b)
      = ∑ k : Fin 128, lhs (ix2 a k) * rhs (ix2 k b) :=
  matmul_ix2_apply _ rfl rfl (fun _ _ => rfl) (fun _ _ => rfl) (fun _ _ => rfl) (fun _ _ => rfl) none lhs rhs a b

theorem dot4_apply (lhs : FVec Ideal S1024x32 .bf16) (rhs : FVec Ideal S32x1 .bf16) (a : Fin 1024) (b : Fin 1) :
    matmul dot_S1024x32_S32x1_S1024x1_1_0_0_1_n_n none lhs rhs (constant (F := Ideal) S1024x1 .f32 0x00000000#32) (ix2 a b)
      = ∑ k : Fin 32, lhs (ix2 a k) * rhs (ix2 k b) :=
  matmul_ix2_apply _ rfl rfl (fun _ _ => rfl) (fun _ _ => rfl) (fun _ _ => rfl) (fun _ _ => rfl) none lhs rhs a b

/-! ## The batch normalisation followed by the clamp, as the kernels spell it -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

section BN
variable {D : ℕ} (y : FVec Ideal ⟨2, ![1024, D]⟩ .f32) (s : FVec Ideal ⟨1, ![D]⟩ .f32) (c : Ideal .f32)
    (g be : Vec Ideal ⟨1, ![D]⟩ .f32)
    (hred : (⟨2, ![1024, D]⟩ : Shape).Reduces [0] ⟨1, ![D]⟩)
    (hsc : (⟨1, ![D]⟩ : Shape).ShapeCasts ⟨2, ![1, D]⟩)
    (hbc : (⟨2, ![1, D]⟩ : Shape).Broadcasts ⟨2, ![1024, D]⟩)

/-- The column sums `s` divided by the splat of `c`. -/
def meanK : FVec Ideal ⟨1, ![D]⟩ .f32 := divf s (broadcast ⟨1, ![D]⟩ c)

/-- The array minus its column means, the means cast to one row and broadcast down the rows. -/
def devK : FVec Ideal ⟨2, ![1024, D]⟩ .f32 :=
  subf y (broadcastTo ⟨2, ![1024, D]⟩ (shapeCast ⟨2, ![1, D]⟩ (meanK s c) hsc) hbc)

/-- The column sums of the squared deviations, divided by the splat of 1024. -/
def varK : FVec Ideal ⟨1, ![D]⟩ .f32 :=
  divf (multiReduction .add [0] ⟨1, ![D]⟩ (mulf (devK y s c hsc hbc) (devK y s c hsc hbc)) 0x00000000#32 hred (.inl rfl) rfl)
    (broadcast ⟨1, ![D]⟩ (Scalar.ofBits .f32 0x44800000#32))

/-- Deviations times the reciprocal square root of variance plus `ε`, scaled, shifted, clamped at zero. -/
def bnK : FVec Ideal ⟨2, ![1024, D]⟩ .f32 :=
  maximumf
    (addf
      (mulf
        (mulf (devK y s c hsc hbc)
          (broadcastTo ⟨2, ![1024, D]⟩
            (rsqrt (addf (shapeCast ⟨2, ![1, D]⟩ (varK y s c hred hsc hbc) hsc)
              (broadcast ⟨2, ![1, D]⟩ (Scalar.ofBits .f32 0x3727C5AC#32)))) hbc))
        (broadcastTo ⟨2, ![1024, D]⟩ (shapeCast ⟨2, ![1, D]⟩ g hsc) hbc))
      (broadcastTo ⟨2, ![1024, D]⟩ (shapeCast ⟨2, ![1, D]⟩ be hsc) hbc))
    (broadcast ⟨2, ![1024, D]⟩ (Scalar.ofBits .f32 0x00000000#32))

variable (hs : ∀ n : Fin D, s (ix1 n) = ∑ r : Fin 1024, y (ix2 r n)) (hc : c = Cert.Spec.c1024)
include hs hc

theorem meanK_apply (n : Fin D) : meanK s c (ix1 n) = Cert.Spec.colMean (fun r n => y (ix2 r n)) n := by
  unfold meanK Cert.Spec.colMean
  rw [divf_apply, broadcast_apply, hs n, hc]

theorem devK_apply (r : Fin 1024) (n : Fin D) :
    devK y s c hsc hbc (ix2 r n) = y (ix2 r n) - Cert.Spec.colMean (fun r n => y (ix2 r n)) n := by
  unfold devK
  rw [subf_apply, rowBcast_apply, meanK_apply y s c hs hc]

theorem varK_apply (n : Fin D) :
    varK y s c hred hsc hbc (ix1 n) = Cert.Spec.colVar (fun r n => y (ix2 r n)) n := by
  unfold varK Cert.Spec.colVar
  rw [divf_apply, broadcast_apply]
  refine congrArg₂ Ideal.div ((colSum_apply _ hred _ _ n).trans (Finset.sum_congr rfl fun p _ => ?_)) rfl
  rw [mulf_apply, devK_apply y s c hsc hbc hs hc]

theorem bnK_apply (r : Fin 1024) (n : Fin D) :
    bnK y s c g be hred hsc hbc (ix2 r n)
      = Cert.Spec.bnReluAt Cert.Spec.normMul (fun r n => y (ix2 r n)) g be r n := by
  unfold bnK Cert.Spec.bnReluAt Cert.Spec.normMul
  rw [maximumf_apply, addf_apply, mulf_apply, mulf_apply, devK_apply y s c hsc hbc hs hc, rowBcast_apply g,
    rowBcast_apply be, rowBcast'_apply, rsqrt_apply, addf_apply, shapeCast_a_1a_apply,
    varK_apply y s c hred hsc hbc hs hc, broadcast_apply, broadcast_apply]
  exact congrArg₂ max rfl Ideal.ofBits_zero_f32

end BN

/-! ## The gate -/

/-- `[hg | d3]` at `(r, k)`. -/
theorem cat_apply (x0 : Vec Ideal S1024x20 .f32) (x1 : Vec Ideal S1024x200 .f32) (r : Fin 1024) (k : Fin 220) :
    concatenate S1024x220 1 [⟨S1024x20, k2_pay2 (F := Ideal) x0⟩, ⟨S1024x200, x1⟩]
      concatenates_S1024x20_S1024x200_S1024x220_d1 (ix2 r k) = Cert.Spec.catAt x0 x1 r k := by
  unfold Cert.Spec.catAt
  by_cases h : k.val < 20
  · rw [dif_pos h]
    refine (concatenate_pair_apply_left (t := S1024x220) (s₁ := S1024x20) (s₂ := S1024x200) (1 : Fin 2) _ _ _
      (ix2 r k) rfl (ix2 r ⟨k.val, h⟩) ?_).trans ?_
    · intro b
      match b with
      | ⟨0, _⟩ => rfl
      | ⟨1, _⟩ => rfl
    · exact pay2_apply x0 _
  · rw [dif_neg h]
    refine concatenate_pair_apply_right (t := S1024x220) (s₁ := S1024x20) (s₂ := S1024x200) (1 : Fin 2) _ _ _
      (ix2 r k) rfl rfl (ix2 r ⟨k.val - 20, by have := k.isLt; omega⟩) ?_ ?_
    · intro b hb
      match b with
      | ⟨0, _⟩ => rfl
      | ⟨1, _⟩ => exact absurd rfl hb
    · show k.val - 20 + 20 = k.val
      omega

/-- `[gated | 1]` at `(r, j)`. -/
theorem pay5_apply (x0 : Vec Ideal S1024x20 .f32) (x1 : Vec Ideal S1024x200 .f32) (x2 : Vec Ideal S220x200 .f32)
    (x3 : Vec Ideal S200 .f32) (r : Fin 1024) (j : Fin 201) :
    k2_pay5 (F := Ideal) x0 x1 x2 x3 (ix2 r j) = Cert.Spec.gatedAugAt x0 x1 x2 x3 r j := by
  unfold k2_pay5 Cert.Spec.gatedAugAt
  by_cases h : j.val < 200
  · rw [dif_pos h]
    refine (concatenate_pair_apply_left (t := S1024x201) (s₁ := S1024x200) (s₂ := S1024x1) (1 : Fin 2) _ _ _
      (ix2 r j) rfl (ix2 r ⟨j.val, h⟩) ?_).trans ?_
    · intro b
      match b with
      | ⟨0, _⟩ => rfl
      | ⟨1, _⟩ => rfl
    · unfold Cert.Spec.gatedAt
      rw [mulf_apply, logistic_apply, addf_apply, dot1_apply, rowBcast_apply]
      refine congrArg₂ (· * ·) (congrArg Ideal.logistic (congrArg₂ (· + ·)
        (Finset.sum_congr rfl fun k _ => congrArg₂ (· * ·) ?_ rfl) rfl)) rfl
      exact cat_apply x0 x1 r k
  · rw [dif_neg h]
    refine (concatenate_pair_apply_right (t := S1024x201) (s₁ := S1024x200) (s₂ := S1024x1) (1 : Fin 2) _ _ _
      (ix2 r j) rfl rfl (ix2 r (0 : Fin 1)) ?_ ?_).trans ?_
    · intro b hb
      match b with
      | ⟨0, _⟩ => rfl
      | ⟨1, _⟩ => exact absurd rfl hb
    · show 0 + 200 = j.val
      have := j.isLt
      omega
    · exact pay3_apply _

/-! ## The dense layers -/

section Dense
variable (x0 : Vec Ideal S1024x20 .f32) (x1 : Vec Ideal S1024x200 .f32) (x2 : Vec Ideal S220x200 .f32) (x3 : Vec Ideal S200 .f32)
  (x4 : Vec Ideal S4221x128 .f32) (x5 x6 x7 : Vec Ideal S128 .f32) (x8 : Vec Ideal S128x32 .f32) (x9 x10 x11 : Vec Ideal S32 .f32)
  (x12 : Vec Ideal S32x1 .f32) (x13 : Vec Ideal S1 .f32) (scr : Vec Ideal S1024x4221 .bf16)

/-- The first dense layer, from the scratch. -/
def y1K : FVec Ideal S1024x128 .f32 :=
  addf (matmul (φ₁ := .bf16) dot_S1024x4221_S4221x128_S1024x128_1_0_0_1_n_n none scr (truncf .bf16 x4 bitsLt_bf16_f32)
      (constant S1024x128 .f32 0x00000000#32))
    (broadcastTo S1024x128 (shapeCast S1x128 x5 shapeCasts_S128_S1x128) broadcasts_S1x128_S1024x128)

/-- Its normalisation and clamp. -/
def o1K : FVec Ideal S1024x128 .f32 :=
  bnK (y1K x4 x5 scr)
    (multiReduction .add [0] S128 (y1K x4 x5 scr) 0x00000000#32 reduces_S1024x128_S128 (.inl rfl) rfl)
    (Scalar.ofBits .f32 0x44800000#32) x6 x7 reduces_S1024x128_S128 shapeCasts_S128_S1x128 broadcasts_S1x128_S1024x128

/-- The second dense layer. -/
def y2K : FVec Ideal S1024x32 .f32 :=
  addf (matmul dot_S1024x128_S128x32_S1024x32_1_0_0_1_n_n none (truncf .bf16 (o1K x4 x5 x6 x7 scr) bitsLt_bf16_f32)
      (truncf .bf16 x8 bitsLt_bf16_f32) (constant S1024x32 .f32 0x00000000#32))
    (broadcastTo S1024x32 (shapeCast S1x32 x9 shapeCasts_S32_S1x32) broadcasts_S1x32_S1024x32)

/-- The second normalisation and clamp, the third dense layer: from the second layer's output and its column sums. -/
def y3K (y2 : FVec Ideal S1024x32 .f32) (s2 : FVec Ideal S32 .f32) (c : Ideal .f32) : FVec Ideal S1024x1 .f32 :=
  addf (matmul dot_S1024x32_S32x1_S1024x1_1_0_0_1_n_n none
      (truncf .bf16 (bnK y2 s2 c x10 x11 reduces_S1024x32_S32 shapeCasts_S32_S1x32 broadcasts_S1x32_S1024x32) bitsLt_bf16_f32)
      (truncf .bf16 x12 bitsLt_bf16_f32) (constant S1024x1 .f32 0x00000000#32))
    (broadcastTo S1024x1 (shapeCast S1x1 x13 shapeCasts_S1_S1x1) broadcasts_S1x1_S1024x1)

/-- The printed payloads are these chains. -/
theorem pay30_eq : k2_pay30 (F := Ideal) scr x4 x5 x6 x7 x8 x9 = y2K x4 x5 x6 x7 x8 x9 scr := rfl

theorem pay1_eq (y2 : FVec Ideal S1024x32 .f32) (s2 : FVec Ideal S32 .f32) (c : Ideal .f32) :
    k2_pay1 (F := Ideal) y2 s2 c x10 x11 x12 x13 = y3K x10 x11 x12 x13 y2 s2 c := rfl

variable (hscr : ∀ (r : Fin 1024) (q : Fin 4221), scr (ix2 r q) = Cert.Spec.fusedAt x0 x1 x2 x3 r q)
include hscr

theorem y1K_apply (r : Fin 1024) (n : Fin 128) :
    y1K x4 x5 scr (ix2 r n) = Cert.Spec.y1At x0 x1 x2 x3 x4 x5 r n := by
  unfold y1K Cert.Spec.y1At Cert.Spec.denseAt
  rw [addf_apply, dot2_apply, rowBcast_apply]
  exact congrArg₂ (· + ·) (Finset.sum_congr rfl fun k _ => congrArg₂ (· * ·) (hscr r k) rfl) rfl

theorem o1K_apply (r : Fin 1024) (n : Fin 128) :
    o1K x4 x5 x6 x7 scr (ix2 r n) = Cert.Spec.o1At x0 x1 x2 x3 x4 x5 x6 x7 Cert.Spec.normMul r n := by
  have hY : (fun (r : Fin 1024) (n : Fin 128) => y1K x4 x5 scr (ix2 r n)) = Cert.Spec.y1At x0 x1 x2 x3 x4 x5 :=
    funext fun r => funext fun n => y1K_apply x0 x1 x2 x3 x4 x5 scr hscr r n
  unfold o1K Cert.Spec.o1At
  refine (bnK_apply (y1K x4 x5 scr) _ _ x6 x7 _ _ _ (fun n => colSum_apply _ _ _ _ n) rfl r n).trans ?_
  rw [hY]

theorem y2K_apply (r : Fin 1024) (n : Fin 32) :
    y2K x4 x5 x6 x7 x8 x9 scr (ix2 r n) = Cert.Spec.y2At x0 x1 x2 x3 x4 x5 x6 x7 x8 x9 Cert.Spec.normMul r n := by
  unfold y2K Cert.Spec.y2At Cert.Spec.denseAt
  rw [addf_apply, dot3_apply, rowBcast_apply]
  exact congrArg₂ (· + ·) (Finset.sum_congr rfl fun k _ =>
    congrArg₂ (· * ·) (o1K_apply x0 x1 x2 x3 x4 x5 x6 x7 scr hscr r k) rfl) rfl

end Dense

/-! ## The whole head -/

/-- The second layer's column sums, as the kernel takes them. -/
theorem pay31_apply (scr : Vec Ideal S1024x4221 .bf16) (x4 : Vec Ideal S4221x128 .f32) (x5 x6 x7 : Vec Ideal S128 .f32)
    (x8 : Vec Ideal S128x32 .f32) (x9 : Vec Ideal S32 .f32) (n : Fin 32) :
    k2_pay31 (F := Ideal) scr x4 x5 x6 x7 x8 x9 (ix1 n) = ∑ r : Fin 1024, k2_pay30 (F := Ideal) scr x4 x5 x6 x7 x8 x9 (ix2 r n) := by
  unfold k2_pay31
  exact colSum_apply _ _ _ _ n

/-- The fusion kernel's stored value, from the scratch holding the flattened outer product, is the specification's
    fusion head with the deviation multiplied by the reciprocal square root. -/
theorem fusion_pay_eq
    (x0 : Vec Ideal S1024x20 .f32) (x1 : Vec Ideal S1024x200 .f32) (x2 : Vec Ideal S220x200 .f32) (x3 : Vec Ideal S200 .f32)
    (x4 : Vec Ideal S4221x128 .f32) (x5 x6 x7 : Vec Ideal S128 .f32) (x8 : Vec Ideal S128x32 .f32) (x9 x10 x11 : Vec Ideal S32 .f32)
    (x12 : Vec Ideal S32x1 .f32) (x13 : Vec Ideal S1 .f32) (scr : Vec Ideal S1024x4221 .bf16)
    (hscr : ∀ (r : Fin 1024) (q : Fin 4221), scr (ix2 r q)
        = k2_pay4 (F := Ideal) x0 (ix2 r ⟨q.val / 201, by omega⟩) * k2_pay5 (F := Ideal) x0 x1 x2 x3 (ix2 r ⟨q.val % 201, Nat.mod_lt _ (by norm_num)⟩)) :
    k2_pay1 (F := Ideal) (k2_pay30 scr x4 x5 x6 x7 x8 x9) (k2_pay31 scr x4 x5 x6 x7 x8 x9) (Scalar.ofBits .f32 0x44800000#32) x10 x11 x12 x13
      = Cert.Spec.fusion x0 x1 x2 x3 x4 x5 x6 x7 x8 x9 x10 x11 x12 x13 Cert.Spec.normMul := by
  have hscr' : ∀ (r : Fin 1024) (q : Fin 4221), scr (ix2 r q) = Cert.Spec.fusedAt x0 x1 x2 x3 r q := fun r q => by
    rw [hscr r q, pay4_apply, pay5_apply]
    rfl
  have hY : (fun (r : Fin 1024) (n : Fin 32) => k2_pay30 (F := Ideal) scr x4 x5 x6 x7 x8 x9 (ix2 r n))
      = Cert.Spec.y2At x0 x1 x2 x3 x4 x5 x6 x7 x8 x9 Cert.Spec.normMul :=
    funext fun r => funext fun n => by
      rw [pay30_eq]
      exact y2K_apply x0 x1 x2 x3 x4 x5 x6 x7 x8 x9 scr hscr' r n
  funext y
  obtain ⟨r, n, rfl⟩ : ∃ (r : Fin 1024) (n : Fin 1), y = ix2 r n := ⟨y 0, y 1, eq_ix2 y⟩
  rw [pay1_eq]
  show _ = Cert.Spec.y3At x0 x1 x2 x3 x4 x5 x6 x7 x8 x9 x10 x11 x12 x13 Cert.Spec.normMul r n
  unfold y3K Cert.Spec.y3At Cert.Spec.denseAt Cert.Spec.o2At
  rw [addf_apply, dot4_apply, rowBcast_apply]
  refine congrArg₂ (· + ·) (Finset.sum_congr rfl fun k _ => congrArg₂ (· * ·) ?_ rfl) rfl
  refine (bnK_apply (k2_pay30 (F := Ideal) scr x4 x5 x6 x7 x8 x9) _ _ x10 x11 _ _ _
    (fun m => pay31_apply scr x4 x5 x6 x7 x8 x9 m) rfl r k).trans ?_
  rw [hY]

end Cert.KernelIdeal.KVal

end
-- ==== Proof.RefStages.lean ====
/-
  The reference program's first six stages as functions of their inputs.

  Message sums: every edge `e` reads the feature row of its (wrapped) source node and adds it into the
  row of its destination node, starting from zeros.  The degree column: every edge adds one at its
  destination node; the count is clamped below by one and laid out as a column.  A layer: the aggregated
  features divided entry by entry by the degree column, multiplied into the weight matrix, shifted by the
  bias row and clamped at zero.  The pooled features: every node adds its feature row into the row of its
  graph, and the row is divided by the (clamped) number of nodes of the graph.

  Each function is the literal composition of the host operations the printed reference performs for the
  corresponding buffers, in the printed order of arguments.
-/
import proofs.«144383_j84954453115094_1_alg».proof.Proof.Gen.ReferenceIdeal

noncomputable section

namespace Cert.ReferenceIdeal.RefStages

open Cert.ReferenceIdeal Idealize.ShloMosaic
open Cert.ReferenceIdeal.Facts₀ Cert.ReferenceIdeal.Facts

variable {F : FTy → Type} [FloatOps F]

/-- The summed messages over 128 feature columns: the gather of the rows of `feat` at the wrapped source
    indices (a negative index is shifted by the number of nodes), scatter-added into zeros at the
    destination indices. -/
def refMsum1 (feat : FVec F S50000x128 .f32) (src dst : IVec S1600000 32) : FVec F S50000x128 .f32 :=
  Host.scatterAdd scatter_S50000x128_S1600000x1_S1600000x128_1_0_0_1
    (broadcastInDim S50000x128 ![] bcast_S_S50000x128 (constant (F := F) S_ .f32 0x00000000#32))
    (broadcastInDim S1600000x1 ![0] bcast_S1600000_S1600000x1_0 dst)
    (Host.gather gather_S50000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32)))
          src)))

/-- The degree column: ones scatter-added into zeros at the destination indices, the maximum with ones,
    as a column. -/
def refDegCol (dst : IVec S1600000 32) : FVec F S50000x1 .f32 :=
  broadcastInDim S50000x1 ![0] bcast_S50000_S50000x1_0
    (maximumf
      (Host.scatterAdd scatter_S50000_S1600000x1_S1600000_n_0_0_1
        (broadcastInDim S50000 ![] bcast_S_S50000 (constant (F := F) S_ .f32 0x00000000#32))
        (broadcastInDim S1600000x1 ![0] bcast_S1600000_S1600000x1_0 dst)
        (broadcastInDim S1600000 ![] bcast_S_S1600000 (constant (F := F) S_ .f32 0x3F800000#32)))
      (broadcastInDim S50000 ![] bcast_S_S50000 (constant (F := F) S_ .f32 0x3F800000#32)))

/-- The first layer: `max ((x / dcol) · W + b, 0)` with the column and the bias row broadcast. -/
def refLayer1 (x : FVec F S50000x128 .f32) (dcol : FVec F S50000x1 .f32) (W : FVec F S128x100 .f32)
    (b : FVec F S100 .f32) : FVec F S50000x100 .f32 :=
  maximumf
    (addf
      (Host.dotGeneral dot_S50000x128_S128x100_S50000x100_1_0_0_1_n_n none
        (Host.divf x (broadcastInDim S50000x128 ![0, 1] bcast_S50000x1_S50000x128_0_1 dcol)) W)
      (broadcastInDim S50000x100 ![0, 1] bcast_S1x100_S50000x100_0_1
        (broadcastInDim S1x100 ![1] bcast_S100_S1x100_1 b)))
    (broadcastInDim S50000x100 ![] bcast_S_S50000x100 (constant (F := F) S_ .f32 0x00000000#32))

/-- The summed messages over 100 feature columns. -/
def refMsum2 (h : FVec F S50000x100 .f32) (src dst : IVec S1600000 32) : FVec F S50000x100 .f32 :=
  Host.scatterAdd scatter_S50000x100_S1600000x1_S1600000x100_1_0_0_1
    (broadcastInDim S50000x100 ![] bcast_S_S50000x100 (constant (F := F) S_ .f32 0x00000000#32))
    (broadcastInDim S1600000x1 ![0] bcast_S1600000_S1600000x1_0 dst)
    (Host.gather gather_S50000x100_S1600000x1_S1600000x100_1_0_n_n_0_1_1100 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32)))
          src)))

/-- The second layer: `max ((x / dcol) · W + b, 0)` with the column and the bias row broadcast. -/
def refLayer2 (x : FVec F S50000x100 .f32) (dcol : FVec F S50000x1 .f32) (W : FVec F S100x20 .f32)
    (b : FVec F S20 .f32) : FVec F S50000x20 .f32 :=
  maximumf
    (addf
      (Host.dotGeneral dot_S50000x100_S100x20_S50000x20_1_0_0_1_n_n none
        (Host.divf x (broadcastInDim S50000x100 ![0, 1] bcast_S50000x1_S50000x100_0_1 dcol)) W)
      (broadcastInDim S50000x20 ![0, 1] bcast_S1x20_S50000x20_0_1
        (broadcastInDim S1x20 ![1] bcast_S20_S1x20_1 b)))
    (broadcastInDim S50000x20 ![] bcast_S_S50000x20 (constant (F := F) S_ .f32 0x00000000#32))

/-- The pooled features: the node rows scatter-added into zeros at the graph indices, divided entry by entry
    by the graph's node count (ones scatter-added at the graph indices, clamped below by one, as a column,
    broadcast along the row). -/
def refHg (h : FVec F S50000x20 .f32) (gid : IVec S50000 32) : FVec F S1024x20 .f32 :=
  Host.divf
    (Host.scatterAdd scatter_S1024x20_S50000x1_S50000x20_1_0_0_1
      (broadcastInDim S1024x20 ![] bcast_S_S1024x20 (constant (F := F) S_ .f32 0x00000000#32))
      (broadcastInDim S50000x1 ![0] bcast_S50000_S50000x1_0 gid)
      h)
    (broadcastInDim S1024x20 ![0, 1] bcast_S1024x1_S1024x20_0_1
      (broadcastInDim S1024x1 ![0] bcast_S1024_S1024x1_0
        (maximumf
          (Host.scatterAdd scatter_S1024_S50000x1_S50000_n_0_0_1
            (broadcastInDim S1024 ![] bcast_S_S1024 (constant (F := F) S_ .f32 0x00000000#32))
            (broadcastInDim S50000x1 ![0] bcast_S50000_S50000x1_0 gid)
            (broadcastInDim S50000 ![] bcast_S_S50000 (constant (F := F) S_ .f32 0x3F800000#32)))
          (broadcastInDim S1024 ![] bcast_S_S1024 (constant (F := F) S_ .f32 0x3F800000#32)))))

end Cert.ReferenceIdeal.RefStages

end
-- ==== Proof.RefLayers.lean ====
/-
  The reference's two graph-convolution layers read index by index over the extended reals.

  At entry `(i, q)` the layer stage is `max ((∑ k, (x[i,k] / dcol[i,0]) * W[k,q]) + b[q]) 0`: the clamp and the sum
  of the product and the bias are entrywise; the bias row is the bias vector laid out as one row and repeated
  along the nodes; the divisor is the degree column repeated along the features; the host product contracts the
  one shared axis, and its contraction index is re-indexed by its single coordinate; the zero word is the
  extended real zero.
-/
import proofs.«144383_j84954453115094_1_alg».proof.Proof.RefStages
import proofs.«144383_j84954453115094_1_alg».proof.Proof.Spec
import Idealize.ShloMosaic.Lib.Pipeline.Value
import Idealize.ShloMosaic.Lib.IdealHost

noncomputable section

open scoped BigOperators

namespace Cert.ReferenceIdeal.RefLayers

open Cert.ReferenceIdeal Cert.ReferenceIdeal.RefStages Idealize.ShloMosaic Idealize.ShloMosaic.ValueIdx
open Cert.ReferenceIdeal.Facts₀ Cert.ReferenceIdeal.Facts

/-! ## The first layer: 128 features to 100 -/

/-- The left operand's index of the first product at result `(i, q)` and contraction coordinate `k` is `(i, k)`. -/
theorem lhsIdx1 (i : Fin 50000) (q : Fin 100) (k : Fin 128) :
    DotDims.lhsIdx dot_S50000x128_S128x100_S50000x100_1_0_0_1_n_n (ix2 i q)
      ((contrEquiv1 dot_S50000x128_S128x100_S50000x100_1_0_0_1_n_n 128 rfl rfl).symm k) = ix2 i k := by
  funext a
  refine Fin.ext ?_
  match a with
  | ⟨0, _⟩ =>
    simp [DotDims.lhsIdx, dot_S50000x128_S128x100_S50000x100_1_0_0_1_n_n]
    rfl
  | ⟨1, _⟩ =>
    refine (DotDims.lhsIdx_val_of_single dot_S50000x128_S128x100_S50000x100_1_0_0_1_n_n (cl := (1 : Fin 2)) rfl _ _).trans ?_
    exact contrEquiv1_symm_val dot_S50000x128_S128x100_S50000x100_1_0_0_1_n_n 128 rfl rfl k

/-- The right operand's index of the first product at result `(i, q)` and contraction coordinate `k` is `(k, q)`. -/
theorem rhsIdx1 (i : Fin 50000) (q : Fin 100) (k : Fin 128) :
    DotDims.rhsIdx dot_S50000x128_S128x100_S50000x100_1_0_0_1_n_n (ix2 i q)
      ((contrEquiv1 dot_S50000x128_S128x100_S50000x100_1_0_0_1_n_n 128 rfl rfl).symm k) = ix2 k q := by
  funext a
  refine Fin.ext ?_
  match a with
  | ⟨0, _⟩ =>
    refine (DotDims.rhsIdx_val_of_single dot_S50000x128_S128x100_S50000x100_1_0_0_1_n_n (cr := (0 : Fin 2)) rfl _ _).trans ?_
    exact contrEquiv1_symm_val dot_S50000x128_S128x100_S50000x100_1_0_0_1_n_n 128 rfl rfl k
  | ⟨1, _⟩ =>
    simp [DotDims.rhsIdx, dot_S50000x128_S128x100_S50000x100_1_0_0_1_n_n]
    rfl

/-- The degree column repeated along 128 features reads the column's entry of the row. -/
theorem colBcast128 (dcol : FVec Ideal S50000x1 .f32) (i : Fin 50000) (k : Fin 128) :
    broadcastInDim S50000x128 ![0, 1] bcast_S50000x1_S50000x128_0_1 dcol (ix2 i k) = dcol (ix2 i 0) := by
  refine broadcastInDim_apply _ _ _ _ _ ?_
  intro a
  match a with
  | ⟨0, _⟩ => rfl
  | ⟨1, _⟩ => rfl

/-- The bias vector as one row, repeated along the nodes, reads the bias entry of the column. -/
theorem biasBcast100 (b : FVec Ideal S100 .f32) (i : Fin 50000) (q : Fin 100) :
    broadcastInDim S50000x100 ![0, 1] bcast_S1x100_S50000x100_0_1
      (broadcastInDim S1x100 ![1] bcast_S100_S1x100_1 b) (ix2 i q) = b (ix1 q) := by
  refine (broadcastInDim_apply _ _ _ (ix2 i q) (ix2 (0 : Fin 1) q) ?_).trans ?_
  · intro a
    match a with
    | ⟨0, _⟩ => rfl
    | ⟨1, _⟩ => rfl
  · refine broadcastInDim_apply _ _ _ _ _ ?_
    intro a
    match a with
    | ⟨0, _⟩ => rfl

/-- The first host product at `(i, q)` is the sum over the 128 shared coordinates. -/
theorem dot1_apply (l : FVec Ideal S50000x128 .f32) (W : FVec Ideal S128x100 .f32) (i : Fin 50000) (q : Fin 100) :
    Host.dotGeneral (F := Ideal) dot_S50000x128_S128x100_S50000x100_1_0_0_1_n_n none l W (ix2 i q)
      = ∑ k : Fin 128, l (ix2 i k) * W (ix2 k q) := by
  refine (Ideal.dotGeneral_apply _ _ _ _ _ _).trans ?_
  refine (Equiv.sum_comp (contrEquiv1 dot_S50000x128_S128x100_S50000x100_1_0_0_1_n_n 128 rfl rfl).symm _).symm.trans ?_
  refine Finset.sum_congr rfl fun k _ => ?_
  rw [lhsIdx1, rhsIdx1]

/-- The first layer stage is the specification's layer. -/
theorem refLayer1_eq (x : FVec Ideal S50000x128 .f32) (dcol : FVec Ideal S50000x1 .f32) (W : FVec Ideal S128x100 .f32)
    (b : FVec Ideal S100 .f32) :
    refLayer1 (F := Ideal) x dcol W b = Cert.Spec.layer x dcol W b := by
  funext j
  obtain ⟨i, q, rfl⟩ : ∃ (i : Fin 50000) (q : Fin 100), j = ix2 i q := ⟨j 0, j 1, eq_ix2 j⟩
  show max (Host.dotGeneral (F := Ideal) dot_S50000x128_S128x100_S50000x100_1_0_0_1_n_n none
        (Host.divf x (broadcastInDim S50000x128 ![0, 1] bcast_S50000x1_S50000x128_0_1 dcol)) W (ix2 i q)
      + broadcastInDim S50000x100 ![0, 1] bcast_S1x100_S50000x100_0_1
          (broadcastInDim S1x100 ![1] bcast_S100_S1x100_1 b) (ix2 i q))
      (Ideal.ofBits .f32 0x00000000#32)
    = max ((∑ k : Fin 128, Ideal.div (x (ix2 i k)) (dcol (ix2 i 0)) * W (ix2 k q)) + b (ix1 q)) 0
  rw [dot1_apply, biasBcast100, Ideal.ofBits_zero_f32]
  refine congrArg (fun s => max (s + b (ix1 q)) 0) (Finset.sum_congr rfl fun k _ => ?_)
  show Ideal.div (x (ix2 i k)) (broadcastInDim S50000x128 ![0, 1] bcast_S50000x1_S50000x128_0_1 dcol (ix2 i k)) * W (ix2 k q) = _
  rw [colBcast128]

/-! ## The second layer: 100 features to 20 -/

/-- The left operand's index of the second product at result `(i, q)` and contraction coordinate `k` is `(i, k)`. -/
theorem lhsIdx2 (i : Fin 50000) (q : Fin 20) (k : Fin 100) :
    DotDims.lhsIdx dot_S50000x100_S100x20_S50000x20_1_0_0_1_n_n (ix2 i q)
      ((contrEquiv1 dot_S50000x100_S100x20_S50000x20_1_0_0_1_n_n 100 rfl rfl).symm k) = ix2 i k := by
  funext a
  refine Fin.ext ?_
  match a with
  | ⟨0, _⟩ =>
    simp [DotDims.lhsIdx, dot_S50000x100_S100x20_S50000x20_1_0_0_1_n_n]
    rfl
  | ⟨1, _⟩ =>
    refine (DotDims.lhsIdx_val_of_single dot_S50000x100_S100x20_S50000x20_1_0_0_1_n_n (cl := (1 : Fin 2)) rfl _ _).trans ?_
    exact contrEquiv1_symm_val dot_S50000x100_S100x20_S50000x20_1_0_0_1_n_n 100 rfl rfl k

/-- The right operand's index of the second product at result `(i, q)` and contraction coordinate `k` is `(k, q)`. -/
theorem rhsIdx2 (i : Fin 50000) (q : Fin 20) (k : Fin 100) :
    DotDims.rhsIdx dot_S50000x100_S100x20_S50000x20_1_0_0_1_n_n (ix2 i q)
      ((contrEquiv1 dot_S50000x100_S100x20_S50000x20_1_0_0_1_n_n 100 rfl rfl).symm k) = ix2 k q := by
  funext a
  refine Fin.ext ?_
  match a with
  | ⟨0, _⟩ =>
    refine (DotDims.rhsIdx_val_of_single dot_S50000x100_S100x20_S50000x20_1_0_0_1_n_n (cr := (0 : Fin 2)) rfl _ _).trans ?_
    exact contrEquiv1_symm_val dot_S50000x100_S100x20_S50000x20_1_0_0_1_n_n 100 rfl rfl k
  | ⟨1, _⟩ =>
    simp [DotDims.rhsIdx, dot_S50000x100_S100x20_S50000x20_1_0_0_1_n_n]
    rfl

/-- The degree column repeated along 100 features reads the column's entry of the row. -/
theorem colBcast100 (dcol : FVec Ideal S50000x1 .f32) (i : Fin 50000) (k : Fin 100) :
    broadcastInDim S50000x100 ![0, 1] bcast_S50000x1_S50000x100_0_1 dcol (ix2 i k) = dcol (ix2 i 0) := by
  refine broadcastInDim_apply _ _ _ _ _ ?_
  intro a
  match a with
  | ⟨0, _⟩ => rfl
  | ⟨1, _⟩ => rfl

/-- The bias vector as one row, repeated along the nodes, reads the bias entry of the column. -/
theorem biasBcast20 (b : FVec Ideal S20 .f32) (i : Fin 50000) (q : Fin 20) :
    broadcastInDim S50000x20 ![0, 1] bcast_S1x20_S50000x20_0_1
      (broadcastInDim S1x20 ![1] bcast_S20_S1x20_1 b) (ix2 i q) = b (ix1 q) := by
  refine (broadcastInDim_apply _ _ _ (ix2 i q) (ix2 (0 : Fin 1) q) ?_).trans ?_
  · intro a
    match a with
    | ⟨0, _⟩ => rfl
    | ⟨1, _⟩ => rfl
  · refine broadcastInDim_apply _ _ _ _ _ ?_
    intro a
    match a with
    | ⟨0, _⟩ => rfl

/-- The second host product at `(i, q)` is the sum over the 100 shared coordinates. -/
theorem dot2_apply (l : FVec Ideal S50000x100 .f32) (W : FVec Ideal S100x20 .f32) (i : Fin 50000) (q : Fin 20) :
    Host.dotGeneral (F := Ideal) dot_S50000x100_S100x20_S50000x20_1_0_0_1_n_n none l W (ix2 i q)
      = ∑ k : Fin 100, l (ix2 i k) * W (ix2 k q) := by
  refine (Ideal.dotGeneral_apply _ _ _ _ _ _).trans ?_
  refine (Equiv.sum_comp (contrEquiv1 dot_S50000x100_S100x20_S50000x20_1_0_0_1_n_n 100 rfl rfl).symm _).symm.trans ?_
  refine Finset.sum_congr rfl fun k _ => ?_
  rw [lhsIdx2, rhsIdx2]

/-- The second layer stage is the specification's layer. -/
theorem refLayer2_eq (x : FVec Ideal S50000x100 .f32) (dcol : FVec Ideal S50000x1 .f32) (W : FVec Ideal S100x20 .f32)
    (b : FVec Ideal S20 .f32) :
    refLayer2 (F := Ideal) x dcol W b = Cert.Spec.layer x dcol W b := by
  funext j
  obtain ⟨i, q, rfl⟩ : ∃ (i : Fin 50000) (q : Fin 20), j = ix2 i q := ⟨j 0, j 1, eq_ix2 j⟩
  show max (Host.dotGeneral (F := Ideal) dot_S50000x100_S100x20_S50000x20_1_0_0_1_n_n none
        (Host.divf x (broadcastInDim S50000x100 ![0, 1] bcast_S50000x1_S50000x100_0_1 dcol)) W (ix2 i q)
      + broadcastInDim S50000x20 ![0, 1] bcast_S1x20_S50000x20_0_1
          (broadcastInDim S1x20 ![1] bcast_S20_S1x20_1 b) (ix2 i q))
      (Ideal.ofBits .f32 0x00000000#32)
    = max ((∑ k : Fin 100, Ideal.div (x (ix2 i k)) (dcol (ix2 i 0)) * W (ix2 k q)) + b (ix1 q)) 0
  rw [dot2_apply, biasBcast20, Ideal.ofBits_zero_f32]
  refine congrArg (fun s => max (s + b (ix1 q)) 0) (Finset.sum_congr rfl fun k _ => ?_)
  show Ideal.div (x (ix2 i k)) (broadcastInDim S50000x100 ![0, 1] bcast_S50000x1_S50000x100_0_1 dcol (ix2 i k)) * W (ix2 k q) = _
  rw [colBcast100]

end Cert.ReferenceIdeal.RefLayers

end
-- ==== Proof.RefFusionDef.lean ====
/-
  The reference program's fusion head as a function of its inputs.

  The gate: the pooled features and the 3d descriptor side by side, multiplied into the gate's weight
  matrix, shifted by the bias row, then one divided by (one plus the exponential of the negation); the
  gate multiplies the descriptor entry by entry.  Both the pooled features and the gated descriptor get a
  trailing column of ones; the first is laid out as [1024, 21, 1], the second as [1024, 1, 201], both are
  broadcast to [1024, 21, 201] and multiplied, and the product is reshaped to [1024, 4221].

  A dense layer: the product with the weight matrix plus the bias row.  A batch normalisation: the column
  sums divided by 1024 (the mean), the deviations from the mean, the column sums of the squared deviations
  from the mean (the mean computed a second time through a row) divided by 1024 minus the converted integer
  zero, guarded by the comparison of that divisor with zero, plus epsilon, the square root, the
  deviations divided by it, scaled, shifted, and clamped at zero.  The head is dense, normalisation,
  dense, normalisation, dense.

  Each function is the literal composition of the host operations the printed reference performs for the
  corresponding buffers, in the printed order of arguments.
-/
import proofs.«144383_j84954453115094_1_alg».proof.Proof.Gen.ReferenceIdeal

noncomputable section

namespace Cert.ReferenceIdeal.RefStages

open Cert.ReferenceIdeal Idealize.ShloMosaic
open Cert.ReferenceIdeal.Facts₀ Cert.ReferenceIdeal.Facts

variable {F : FTy → Type} [FloatOps F]

/-- The gated descriptor: `(1 / (1 + exp (-([hg | d3] · Wg + bg)))) * d3`. -/
def refFusionGated (hg : FVec F S1024x20 .f32) (d3 : FVec F S1024x200 .f32) (Wg : FVec F S220x200 .f32)
    (bg : FVec F S200 .f32) : FVec F S1024x200 .f32 :=
  mulf
    (Host.divf
      (broadcastInDim S1024x200 ![] bcast_S_S1024x200 (constant (F := F) S_ .f32 0x3F800000#32))
      (addf
        (broadcastInDim S1024x200 ![] bcast_S_S1024x200 (constant (F := F) S_ .f32 0x3F800000#32))
        (Host.exp
          (Host.negf
            (addf
              (Host.dotGeneral dot_S1024x220_S220x200_S1024x200_1_0_0_1_n_n none
                (concatenate S1024x220 1 [⟨S1024x20, hg⟩, ⟨S1024x200, d3⟩]
                  concatenates_S1024x20_S1024x200_S1024x220_d1) Wg)
              (broadcastInDim S1024x200 ![0, 1] bcast_S1x200_S1024x200_0_1
                (broadcastInDim S1x200 ![1] bcast_S200_S1x200_1 bg)))))))
    d3

/-- The flattened outer product of `[hg | 1]` and `[gated | 1]`. -/
def refFusionFused (hg : FVec F S1024x20 .f32) (gated : FVec F S1024x200 .f32) : FVec F S1024x4221 .f32 :=
  shapeCast S1024x4221
    (mulf
      (broadcastInDim S1024x21x201 ![0, 1, 2] bcast_S1024x21x1_S1024x21x201_0_1_2
        (broadcastInDim S1024x21x1 ![0, 1] bcast_S1024x21_S1024x21x1_0_1
          (concatenate S1024x21 1
            [⟨S1024x20, hg⟩,
             ⟨S1024x1, broadcastInDim S1024x1 ![] bcast_S_S1024x1 (constant (F := F) S_ .f32 0x3F800000#32)⟩]
            concatenates_S1024x20_S1024x1_S1024x21_d1)))
      (broadcastInDim S1024x21x201 ![0, 1, 2] bcast_S1024x1x201_S1024x21x201_0_1_2
        (broadcastInDim S1024x1x201 ![0, 2] bcast_S1024x201_S1024x1x201_0_2
          (concatenate S1024x201 1
            [⟨S1024x200, gated⟩,
             ⟨S1024x1, broadcastInDim S1024x1 ![] bcast_S_S1024x1 (constant (F := F) S_ .f32 0x3F800000#32)⟩]
            concatenates_S1024x200_S1024x1_S1024x201_d1))))
    shapeCasts_S1024x21x201_S1024x4221

/-- The first dense layer: `x · Wf1 + bf1`. -/
def refFusionDense1 (x : FVec F S1024x4221 .f32) (W : FVec F S4221x128 .f32) (b : FVec F S128 .f32) :
    FVec F S1024x128 .f32 :=
  addf
    (Host.dotGeneral dot_S1024x4221_S4221x128_S1024x128_1_0_0_1_n_n none x W)
    (broadcastInDim S1024x128 ![0, 1] bcast_S1x128_S1024x128_0_1
      (broadcastInDim S1x128 ![1] bcast_S128_S1x128_1 b))

/-- The guarded column variance of a [1024, 128] array: the sum of the squared deviations from the column
    mean, divided by 1024 minus the converted integer `c`, where that divisor is positive. -/
def refFusionVar1 (y : FVec F S1024x128 .f32) (c : IVec S_ 32) : FVec F S128 .f32 :=
  select
    (broadcastInDim S128 ![] bcast_S_S128
      (cmpf .ogt
        (subf (constant (F := F) S_ .f32 0x44800000#32) (sitofp .f32 c))
        (constant (F := F) S_ .f32 0x00000000#32)))
    (Host.divf
      (Host.reduceAdd
        (mulf
          (subf y
            (broadcastInDim S1024x128 ![0, 1] bcast_S1x128_S1024x128_0_1
              (Host.divf
                (broadcastInDim S1x128 ![1] bcast_S128_S1x128_1
                  (Host.reduceAdd y (constant (F := F) S_ .f32 0x00000000#32) reducesTo_S1024x128_S128_d0 h_S_))
                (broadcastInDim S1x128 ![] bcast_S_S1x128 (constant (F := F) S_ .f32 0x44800000#32)))))
          (subf y
            (broadcastInDim S1024x128 ![0, 1] bcast_S1x128_S1024x128_0_1
              (Host.divf
                (broadcastInDim S1x128 ![1] bcast_S128_S1x128_1
                  (Host.reduceAdd y (constant (F := F) S_ .f32 0x00000000#32) reducesTo_S1024x128_S128_d0 h_S_))
                (broadcastInDim S1x128 ![] bcast_S_S1x128 (constant (F := F) S_ .f32 0x44800000#32))))))
        (constant (F := F) S_ .f32 0x00000000#32) reducesTo_S1024x128_S128_d0 h_S_)
      (broadcastInDim S128 ![] bcast_S_S128
        (subf (constant (F := F) S_ .f32 0x44800000#32) (sitofp .f32 c))))
    (broadcastInDim S128 ![] bcast_S_S128 (id (constant (F := F) S_ .f32 0x7FC00000#32)))

/-- The first batch normalisation and clamp:
    `max (((y - mean) / sqrt (var + ε)) * g + be, 0)`. -/
def refFusionBn1 (y : FVec F S1024x128 .f32) (g be : FVec F S128 .f32) : FVec F S1024x128 .f32 :=
  maximumf
    (addf
      (mulf
        (Host.divf
          (subf y
            (broadcastInDim S1024x128 ![0, 1] bcast_S1x128_S1024x128_0_1
              (broadcastInDim S1x128 ![1] bcast_S128_S1x128_1
                (Host.divf
                  (Host.reduceAdd y (constant (F := F) S_ .f32 0x00000000#32) reducesTo_S1024x128_S128_d0 h_S_)
                  (broadcastInDim S128 ![] bcast_S_S128 (constant (F := F) S_ .f32 0x44800000#32))))))
          (broadcastInDim S1024x128 ![0, 1] bcast_S1x128_S1024x128_0_1
            (broadcastInDim S1x128 ![1] bcast_S128_S1x128_1
              (Host.sqrt
                (addf (refFusionVar1 y (constantI S_ 32 0#32))
                  (broadcastInDim S128 ![] bcast_S_S128 (constant (F := F) S_ .f32 0x3727C5AC#32)))))))
        (broadcastInDim S1024x128 ![0, 1] bcast_S1x128_S1024x128_0_1
          (broadcastInDim S1x128 ![1] bcast_S128_S1x128_1 g)))
      (broadcastInDim S1024x128 ![0, 1] bcast_S1x128_S1024x128_0_1
        (broadcastInDim S1x128 ![1] bcast_S128_S1x128_1 be)))
    (broadcastInDim S1024x128 ![] bcast_S_S1024x128 (constant (F := F) S_ .f32 0x00000000#32))

/-- The second dense layer: `x · Wf2 + bf2`. -/
def refFusionDense2 (x : FVec F S1024x128 .f32) (W : FVec F S128x32 .f32) (b : FVec F S32 .f32) :
    FVec F S1024x32 .f32 :=
  addf
    (Host.dotGeneral dot_S1024x128_S128x32_S1024x32_1_0_0_1_n_n none x W)
    (broadcastInDim S1024x32 ![0, 1] bcast_S1x32_S1024x32_0_1
      (broadcastInDim S1x32 ![1] bcast_S32_S1x32_1 b))

/-- The guarded column variance of a [1024, 32] array. -/
def refFusionVar2 (y : FVec F S1024x32 .f32) (c : IVec S_ 32) : FVec F S32 .f32 :=
  select
    (broadcastInDim S32 ![] bcast_S_S32
      (cmpf .ogt
        (subf (constant (F := F) S_ .f32 0x44800000#32) (sitofp .f32 c))
        (constant (F := F) S_ .f32 0x00000000#32)))
    (Host.divf
      (Host.reduceAdd
        (mulf
          (subf y
            (broadcastInDim S1024x32 ![0, 1] bcast_S1x32_S1024x32_0_1
              (Host.divf
                (broadcastInDim S1x32 ![1] bcast_S32_S1x32_1
                  (Host.reduceAdd y (constant (F := F) S_ .f32 0x00000000#32) reducesTo_S1024x32_S32_d0 h_S_))
                (broadcastInDim S1x32 ![] bcast_S_S1x32 (constant (F := F) S_ .f32 0x44800000#32)))))
          (subf y
            (broadcastInDim S1024x32 ![0, 1] bcast_S1x32_S1024x32_0_1
              (Host.divf
                (broadcastInDim S1x32 ![1] bcast_S32_S1x32_1
                  (Host.reduceAdd y (constant (F := F) S_ .f32 0x00000000#32) reducesTo_S1024x32_S32_d0 h_S_))
                (broadcastInDim S1x32 ![] bcast_S_S1x32 (constant (F := F) S_ .f32 0x44800000#32))))))
        (constant (F := F) S_ .f32 0x00000000#32) reducesTo_S1024x32_S32_d0 h_S_)
      (broadcastInDim S32 ![] bcast_S_S32
        (subf (constant (F := F) S_ .f32 0x44800000#32) (sitofp .f32 c))))
    (broadcastInDim S32 ![] bcast_S_S32 (id (constant (F := F) S_ .f32 0x7FC00000#32)))

/-- The second batch normalisation and clamp. -/
def refFusionBn2 (y : FVec F S1024x32 .f32) (g be : FVec F S32 .f32) : FVec F S1024x32 .f32 :=
  maximumf
    (addf
      (mulf
        (Host.divf
          (subf y
            (broadcastInDim S1024x32 ![0, 1] bcast_S1x32_S1024x32_0_1
              (broadcastInDim S1x32 ![1] bcast_S32_S1x32_1
                (Host.divf
                  (Host.reduceAdd y (constant (F := F) S_ .f32 0x00000000#32) reducesTo_S1024x32_S32_d0 h_S_)
                  (broadcastInDim S32 ![] bcast_S_S32 (constant (F := F) S_ .f32 0x44800000#32))))))
          (broadcastInDim S1024x32 ![0, 1] bcast_S1x32_S1024x32_0_1
            (broadcastInDim S1x32 ![1] bcast_S32_S1x32_1
              (Host.sqrt
                (addf (refFusionVar2 y (constantI S_ 32 0#32))
                  (broadcastInDim S32 ![] bcast_S_S32 (constant (F := F) S_ .f32 0x3727C5AC#32)))))))
        (broadcastInDim S1024x32 ![0, 1] bcast_S1x32_S1024x32_0_1
          (broadcastInDim S1x32 ![1] bcast_S32_S1x32_1 g)))
      (broadcastInDim S1024x32 ![0, 1] bcast_S1x32_S1024x32_0_1
        (broadcastInDim S1x32 ![1] bcast_S32_S1x32_1 be)))
    (broadcastInDim S1024x32 ![] bcast_S_S1024x32 (constant (F := F) S_ .f32 0x00000000#32))

/-- The last dense layer: `x · Wf3 + bf3`. -/
def refFusionDense3 (x : FVec F S1024x32 .f32) (W : FVec F S32x1 .f32) (b : FVec F S1 .f32) :
    FVec F S1024x1 .f32 :=
  addf
    (Host.dotGeneral dot_S1024x32_S32x1_S1024x1_1_0_0_1_n_n none x W)
    (broadcastInDim S1024x1 ![0, 1] bcast_S1x1_S1024x1_0_1
      (broadcastInDim S1x1 ![1] bcast_S1_S1x1_1 b))

/-- The fusion head: gate, outer product, and the three dense layers with the two normalisations. -/
def refFusion (hg : FVec F S1024x20 .f32) (d3 : FVec F S1024x200 .f32) (Wg : FVec F S220x200 .f32)
    (bg : FVec F S200 .f32) (Wf1 : FVec F S4221x128 .f32) (bf1 g1 be1 : FVec F S128 .f32)
    (Wf2 : FVec F S128x32 .f32) (bf2 g2 be2 : FVec F S32 .f32) (Wf3 : FVec F S32x1 .f32)
    (bf3 : FVec F S1 .f32) : FVec F S1024x1 .f32 :=
  refFusionDense3
    (refFusionBn2
      (refFusionDense2
        (refFusionBn1
          (refFusionDense1 (refFusionFused hg (refFusionGated hg d3 Wg bg)) Wf1 bf1)
          g1 be1)
        Wf2 bf2)
      g2 be2)
    Wf3 bf3

end Cert.ReferenceIdeal.RefStages

end
-- ==== Proof.RefFusionA.lean ====
/-
  Reading lemmas for the reference's fusion head: what the layout operations and the matrix products of
  the head give at an index.

  A vector laid out as a row and broadcast over rows reads the vector at the column; a scalar broadcast
  reads the scalar; two arrays side by side along the columns read the first or the second by the column;
  an array broadcast along a new trailing or middle axis reads the array at the remaining coordinates; the
  row-major reshape of [1024, 21, 201] to [1024, 4221] reads (r, q / 201, q % 201) at (r, q); a matrix
  product contracting the left operand's columns with the right operand's rows reads the sum over the
  shared extent of the products.
-/
import proofs.«144383_j84954453115094_1_alg».proof.Proof.RefFusionDef
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefStages

open Cert.ReferenceIdeal Idealize.ShloMosaic Idealize.ShloMosaic.ValueIdx
open Cert.ReferenceIdeal.Facts₀ Cert.ReferenceIdeal.Facts

/-! ## Layout operations read at an index -/

section Layout

variable {α : Type}

/-- A vector `[b]` laid out as a row `[1, b]` and broadcast over `a` rows reads, at `(r, n)`, the vector at `n`. -/
theorem bcastRow_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (n : Fin b) :
    broadcastInDim ⟨2, ![a, b]⟩ ![0, 1] h2 (broadcastInDim ⟨2, ![1, b]⟩ ![1] h1 v) (ix2 r n) = v (ix1 n) := by
  refine (broadcastInDim_apply _ h2 _ (ix2 r n) (ix2 (0 : Fin 1) n) fun ax => ?_).trans ?_
  · match ax with
    | ⟨0, _⟩ => rfl
    | ⟨1, _⟩ =>
      show n.val = if b = 1 then 0 else n.val
      split
      · have := n.isLt; omega
      · rfl
  · refine broadcastInDim_apply _ h1 _ (ix2 (0 : Fin 1) n) (ix1 n) fun ax => ?_
    match ax with
    | ⟨0, _⟩ =>
      show n.val = if b = 1 then 0 else n.val
      split
      · have := n.isLt; omega
      · rfl

/-- A vector `[b]` laid out as a row `[1, b]` reads, at `(u, n)`, the vector at `n`. -/
theorem bcastRow1_apply {b : ℕ} (v : (⟨1, ![b]⟩ : Shape).Idx → α)
    (h1 : (⟨1, ![b]⟩ : Shape).BroadcastsInDim ⟨2, ![1, b]⟩ ![1]) (u : Fin 1) (n : Fin b) :
    broadcastInDim ⟨2, ![1, b]⟩ ![1] h1 v (ix2 u n) = v (ix1 n) := by
  refine broadcastInDim_apply _ h1 _ (ix2 u n) (ix1 n) fun ax => ?_
  match ax with
  | ⟨0, _⟩ =>
    show n.val = if b = 1 then 0 else n.val
    split
    · have := n.isLt; omega
    · rfl

/-- A row `[1, b]` broadcast over `a` rows reads, at `(r, n)`, the row at `n`. -/
theorem bcastRows_apply {a b : ℕ} (v : (⟨2, ![1, b]⟩ : Shape).Idx → α)
    (h2 : (⟨2, ![1, b]⟩ : Shape).BroadcastsInDim ⟨2, ![a, b]⟩ ![0, 1]) (r : Fin a) (n : Fin b) :
    broadcastInDim ⟨2, ![a, b]⟩ ![0, 1] h2 v (ix2 r n) = v (ix2 (0 : Fin 1) n) := by
  refine broadcastInDim_apply _ h2 _ (ix2 r n) (ix2 (0 : Fin 1) n) fun ax => ?_
  match ax with
  | ⟨0, _⟩ => rfl
  | ⟨1, _⟩ =>
    show n.val = if b = 1 then 0 else n.val
    split
    · have := n.isLt; omega
    · rfl

/-- A scalar broadcast to any shape reads the scalar everywhere. -/
theorem bcastScalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h _ j ix0 fun ax => ax.elim0

end Layout

section Layout2

variable {α : Type}

/-- Two arrays side by side along the columns, read at a column of the first. -/
theorem concatCols_apply_left {a p q m : ℕ} (x₁ : (⟨2, ![a, p]⟩ : Shape).Idx → α) (x₂ : (⟨2, ![a, q]⟩ : Shape).Idx → α)
    (h : Shape.Concatenates [(⟨2, ![a, p]⟩ : Shape), (⟨2, ![a, q]⟩ : Shape)] (⟨2, ![a, m]⟩ : Shape) 1)
    (r : Fin a) (k : Fin m) (hk : k.val < p) :
    concatenate (⟨2, ![a, m]⟩ : Shape) 1 [⟨(⟨2, ![a, p]⟩ : Shape), x₁⟩, ⟨(⟨2, ![a, q]⟩ : Shape), x₂⟩] h (ix2 r k)
      = x₁ (ix2 r ⟨k.val, hk⟩) :=
  concatenate_pair_apply_left 1 x₁ x₂ h (ix2 r k) rfl (ix2 r ⟨k.val, hk⟩) fun b =>
    match b with
    | ⟨0, _⟩ => rfl
    | ⟨1, _⟩ => rfl

/-- Two arrays side by side along the columns, read at a column of the second. -/
theorem concatCols_apply_right {a p q m : ℕ} (x₁ : (⟨2, ![a, p]⟩ : Shape).Idx → α) (x₂ : (⟨2, ![a, q]⟩ : Shape).Idx → α)
    (h : Shape.Concatenates [(⟨2, ![a, p]⟩ : Shape), (⟨2, ![a, q]⟩ : Shape)] (⟨2, ![a, m]⟩ : Shape) 1)
    (r : Fin a) (k : Fin m) (hk : p ≤ k.val) (hq : k.val - p < q) :
    concatenate (⟨2, ![a, m]⟩ : Shape) 1 [⟨(⟨2, ![a, p]⟩ : Shape), x₁⟩, ⟨(⟨2, ![a, q]⟩ : Shape), x₂⟩] h (ix2 r k)
      = x₂ (ix2 r ⟨k.val - p, hq⟩) :=
  concatenate_pair_apply_right 1 x₁ x₂ h (ix2 r k) rfl rfl (ix2 r ⟨k.val - p, hq⟩)
    (fun b hb =>
      match b, hb with
      | ⟨0, _⟩, _ => rfl
      | ⟨1, _⟩, hb => absurd rfl hb)
    (by show k.val - p + p = k.val; omega)

/-- `[a, b]` laid out as `[a, b, 1]` and broadcast along a third axis reads, at `(r, d, j)`, the array at `(r, d)`. -/
theorem bcastOuterL_apply {a b c : ℕ} (x : (⟨2, ![a, b]⟩ : Shape).Idx → α)
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2]) (r : Fin a) (d : Fin b) (j : Fin c) :
    broadcastInDim ⟨3, ![a, b, c]⟩ ![0, 1, 2] h2 (broadcastInDim ⟨3, ![a, b, 1]⟩ ![0, 1] h1 x) (ix3 r d j) = x (ix2 r d) := by
  refine (broadcastInDim_apply _ h2 _ (ix3 r d j) (ix3 r d (0 : Fin 1)) fun ax => ?_).trans ?_
  · match ax with
    | ⟨0, _⟩ =>
      show r.val = if a = 1 then 0 else r.val
      split
      · have := r.isLt; omega
      · rfl
    | ⟨1, _⟩ =>
      show d.val = if b = 1 then 0 else d.val
      split
      · have := d.isLt; omega
      · rfl
    | ⟨2, _⟩ => rfl
  · refine broadcastInDim_apply _ h1 _ (ix3 r d (0 : Fin 1)) (ix2 r d) fun ax => ?_
    match ax with
    | ⟨0, _⟩ =>
      show r.val = if a = 1 then 0 else r.val
      split
      · have := r.isLt; omega
      · rfl
    | ⟨1, _⟩ =>
      show d.val = if b = 1 then 0 else d.val
      split
      · have := d.isLt; omega
      · rfl

/-- `[a, c]` laid out as `[a, 1, c]` and broadcast along the middle axis reads, at `(r, d, j)`, the array at `(r, j)`. -/
theorem bcastOuterR_apply {a b c : ℕ} (x : (⟨2, ![a, c]⟩ : Shape).Idx → α)
    (h1 : (⟨2, ![a, c]⟩ : Shape).BroadcastsInDim ⟨3, ![a, 1, c]⟩ ![0, 2])
    (h2 : (⟨3, ![a, 1, c]⟩ : Shape).BroadcastsInDim ⟨3, ![a, b, c]⟩ ![0, 1, 2]) (r : Fin a) (d : Fin b) (j : Fin c) :
    broadcastInDim ⟨3, ![a, b, c]⟩ ![0, 1, 2] h2 (broadcastInDim ⟨3, ![a, 1, c]⟩ ![0, 2] h1 x) (ix3 r d j) = x (ix2 r j) := by
  refine (broadcastInDim_apply _ h2 _ (ix3 r d j) (ix3 r (0 : Fin 1) j) fun ax => ?_).trans ?_
  · match ax with
    | ⟨0, _⟩ =>
      show r.val = if a = 1 then 0 else r.val
      split
      · have := r.isLt; omega
      · rfl
    | ⟨1, _⟩ => rfl
    | ⟨2, _⟩ =>
      show j.val = if c = 1 then 0 else j.val
      split
      · have := j.isLt; omega
      · rfl
  · refine broadcastInDim_apply _ h1 _ (ix3 r (0 : Fin 1) j) (ix2 r j) fun ax => ?_
    match ax with
    | ⟨0, _⟩ =>
      show r.val = if a = 1 then 0 else r.val
      split
      · have := r.isLt; omega
      · rfl
    | ⟨1, _⟩ =>
      show j.val = if c = 1 then 0 else j.val
      split
      · have := j.isLt; omega
      · rfl

/-- `[1024, 21, 201]` reshaped to `[1024, 4221]` reads, at `(r, q)`, the array at `(r, q / 201, q % 201)`. -/
theorem reshapeFused_apply (x : S1024x21x201.Idx → α) (h : S1024x21x201.ShapeCasts S1024x4221)
    (r : Fin 1024) (q : Fin 4221) (hd : q.val / 201 < 21) (hm : q.val % 201 < 201) :
    shapeCast S1024x4221 x h (ix2 r q) = x (ix3 r ⟨q.val / 201, hd⟩ ⟨q.val % 201, hm⟩) :=
  shapeCast_apply x h _ _ (by
    rw [Shape.rowMajor_val_two, Shape.rowMajor_val_three]
    show (r.val * 21 + q.val / 201) * 201 + q.val % 201 = r.val * 4221 + q.val
    omega)

end Layout2

/-! ## A matrix product read at an index -/

/-- A `dot_general` contracting the columns of the left operand with the rows of the right one, read at `(p, n)`:
    the sum over the shared extent. -/
theorem dot_apply_of {a K b : ℕ} (D : DotDims (⟨2, ![a, K]⟩ : Shape) (⟨2, ![K, b]⟩ : Shape) (⟨2, ![a, b]⟩ : Shape))
    (hr : D.contr.rank = 1) (hs : D.contr.size ⟨0, by omega⟩ = K)
    (hL : ∀ (p : Fin a) (n : Fin b) (k : Fin K), D.lhsIdx (ix2 p n) ((contrEquiv1 D K hr hs).symm k) = ix2 p k)
    (hR : ∀ (p : Fin a) (n : Fin b) (k : Fin K), D.rhsIdx (ix2 p n) ((contrEquiv1 D K hr hs).symm k) = ix2 k n)
    (l : FVec Ideal (⟨2, ![a, K]⟩ : Shape) .f32) (r : FVec Ideal (⟨2, ![K, b]⟩ : Shape) .f32) (p : Fin a) (n : Fin b) :
    Host.dotGeneral (F := Ideal) D none l r (ix2 p n) = ∑ k : Fin K, l (ix2 p k) * r (ix2 k n) := by
  show FloatOps.dotGeneral D none .single l r (ix2 p n) = _
  rw [Ideal.dotGeneral_apply, ← Equiv.sum_comp (contrEquiv1 D K hr hs).symm]
  refine Finset.sum_congr rfl fun k _ => ?_
  rw [hL, hR]

theorem dotG_apply (l : FVec Ideal S1024x220 .f32) (r : FVec Ideal S220x200 .f32) (p : Fin 1024) (n : Fin 200) :
    Host.dotGeneral (F := Ideal) dot_S1024x220_S220x200_S1024x200_1_0_0_1_n_n none l r (ix2 p n)
      = ∑ k : Fin 220, l (ix2 p k) * r (ix2 k n) :=
  dot_apply_of dot_S1024x220_S220x200_S1024x200_1_0_0_1_n_n rfl rfl
    (fun _ _ _ => funext fun ax => Fin.ext (by match ax with | ⟨0, _⟩ => rfl | ⟨1, _⟩ => rfl))
    (fun _ _ _ => funext fun ax => Fin.ext (by match ax with | ⟨0, _⟩ => rfl | ⟨1, _⟩ => rfl)) l r p n

theorem dotF1_apply (l : FVec Ideal S1024x4221 .f32) (r : FVec Ideal S4221x128 .f32) (p : Fin 1024) (n : Fin 128) :
    Host.dotGeneral (F := Ideal) dot_S1024x4221_S4221x128_S1024x128_1_0_0_1_n_n none l r (ix2 p n)
      = ∑ k : Fin 4221, l (ix2 p k) * r (ix2 k n) :=
  dot_apply_of dot_S1024x4221_S4221x128_S1024x128_1_0_0_1_n_n rfl rfl
    (fun _ _ _ => funext fun ax => Fin.ext (by match ax with | ⟨0, _⟩ => rfl | ⟨1, _⟩ => rfl))
    (fun _ _ _ => funext fun ax => Fin.ext (by match ax with | ⟨0, _⟩ => rfl | ⟨1, _⟩ => rfl)) l r p n

theorem dotF2_apply (l : FVec Ideal S1024x128 .f32) (r : FVec Ideal S128x32 .f32) (p : Fin 1024) (n : Fin 32) :
    Host.dotGeneral (F := Ideal) dot_S1024x128_S128x32_S1024x32_1_0_0_1_n_n none l r (ix2 p n)
      = ∑ k : Fin 128, l (ix2 p k) * r (ix2 k n) :=
  dot_apply_of dot_S1024x128_S128x32_S1024x32_1_0_0_1_n_n rfl rfl
    (fun _ _ _ => funext fun ax => Fin.ext (by match ax with | ⟨0, _⟩ => rfl | ⟨1, _⟩ => rfl))
    (fun _ _ _ => funext fun ax => Fin.ext (by match ax with | ⟨0, _⟩ => rfl | ⟨1, _⟩ => rfl)) l r p n

theorem dotF3_apply (l : FVec Ideal S1024x32 .f32) (r : FVec Ideal S32x1 .f32) (p : Fin 1024) (n : Fin 1) :
    Host.dotGeneral (F := Ideal) dot_S1024x32_S32x1_S1024x1_1_0_0_1_n_n none l r (ix2 p n)
      = ∑ k : Fin 32, l (ix2 p k) * r (ix2 k n) :=
  dot_apply_of dot_S1024x32_S32x1_S1024x1_1_0_0_1_n_n rfl rfl
    (fun _ _ _ => funext fun ax => Fin.ext (by match ax with | ⟨0, _⟩ => rfl | ⟨1, _⟩ => rfl))
    (fun _ _ _ => funext fun ax => Fin.ext (by match ax with | ⟨0, _⟩ => rfl | ⟨1, _⟩ => rfl)) l r p n

end Cert.ReferenceIdeal.RefStages

end
-- ==== Proof.Consts.lean ====
/-
  The three float words the two programs share, as the extended reals they denote: `1024.0` is the real 1024,
  `1.0` is 1, and the word of `f32(1e-5)` is the positive real 10995116 · 2⁻⁴⁰.  One module reads them all.
-/
import Idealize.ShloMosaic.PureOps.Ideal

noncomputable section

namespace Cert.Consts

open Idealize.ShloMosaic

/-- `1024.0` denotes the real 1024. -/
theorem ofBits_1024 : Ideal.ofBits .f32 0x44800000#32 = ((1024 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-- The word of `f32(1e-5)` denotes the real 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- That real is positive. -/
theorem eps_pos : (0 : ℝ) < (10995116 : ℝ) * (2 : ℝ) ^ (-40 : ℤ) := by positivity

end Cert.Consts

end
-- ==== Proof.RefFusionB.lean ====
/-
  The head of the reference's fusion stage read at an index.

  The gate: at (r, n), one divided by one plus the exponential of the negated sum over the 220 columns of
  [hg | d3] times the gate's weight matrix plus the bias, which is the logistic function of that sum; it
  multiplies the descriptor entry.  The column of ones reads the word of 1.0.  [hg | 1] and [gated | 1]
  read their array or the one by the column.  The outer product reshaped row-major reads, at (r, q),
  [hg | 1] at (r, q / 201) times [gated | 1] at (r, q % 201).
-/
import proofs.«144383_j84954453115094_1_alg».proof.Proof.RefFusionA
import proofs.«144383_j84954453115094_1_alg».proof.Proof.Spec
import proofs.«144383_j84954453115094_1_alg».proof.Proof.Consts

noncomputable section

open scoped BigOperators

namespace Cert.ReferenceIdeal.RefStages

open Cert.ReferenceIdeal Idealize.ShloMosaic Idealize.ShloMosaic.ValueIdx
open Cert.ReferenceIdeal.Facts₀ Cert.ReferenceIdeal.Facts

/-! ## The head of the fusion: gate, trailing ones, outer product -/

/-- The column of ones reads the word of `1.0` everywhere. -/
theorem onesCol_apply (i : S1024x1.Idx) :
    broadcastInDim S1024x1 ![] bcast_S_S1024x1 (constant (F := Ideal) S_ .f32 0x3F800000#32) i = Cert.Spec.cone :=
  bcastScalar_apply _ _ i

/-- `[hg | d3]` read at `(r, k)`. -/
theorem cat_apply (hg : FVec Ideal S1024x20 .f32) (d3 : FVec Ideal S1024x200 .f32) (r : Fin 1024) (k : Fin 220) :
    concatenate S1024x220 1 [⟨S1024x20, hg⟩, ⟨S1024x200, d3⟩] concatenates_S1024x20_S1024x200_S1024x220_d1 (ix2 r k)
      = Cert.Spec.catAt hg d3 r k := by
  unfold Cert.Spec.catAt
  split
  next h => exact concatCols_apply_left hg d3 _ r k h
  next h => exact concatCols_apply_right hg d3 _ r k (by omega) (by omega)

/-- The gated descriptor read at `(r, n)`. -/
theorem gated_apply (hg : FVec Ideal S1024x20 .f32) (d3 : FVec Ideal S1024x200 .f32) (Wg : FVec Ideal S220x200 .f32)
    (bg : FVec Ideal S200 .f32) (r : Fin 1024) (n : Fin 200) :
    refFusionGated (F := Ideal) hg d3 Wg bg (ix2 r n) = Cert.Spec.gatedAt hg d3 Wg bg r n := by
  have hone : ∀ i : S1024x200.Idx,
      broadcastInDim S1024x200 ![] bcast_S_S1024x200 (constant (F := Ideal) S_ .f32 0x3F800000#32) i = 1 :=
    fun i => (bcastScalar_apply _ _ i).trans Cert.Consts.ofBits_one
  have hdot : Host.dotGeneral (F := Ideal) dot_S1024x220_S220x200_S1024x200_1_0_0_1_n_n none
        (concatenate S1024x220 1 [⟨S1024x20, hg⟩, ⟨S1024x200, d3⟩] concatenates_S1024x20_S1024x200_S1024x220_d1) Wg (ix2 r n)
      = ∑ k : Fin 220, Cert.Spec.catAt hg d3 r k * Wg (ix2 k n) :=
    (dotG_apply _ Wg r n).trans (Finset.sum_congr rfl fun k _ => congrArg (· * Wg (ix2 k n)) (cat_apply hg d3 r k))
  have hb : broadcastInDim S1024x200 ![0, 1] bcast_S1x200_S1024x200_0_1
        (broadcastInDim S1x200 ![1] bcast_S200_S1x200_1 bg) (ix2 r n) = bg (ix1 n) :=
    bcastRow_apply bg _ _ r n
  unfold refFusionGated Cert.Spec.gatedAt Ideal.logistic
  show Ideal.div (broadcastInDim S1024x200 ![] bcast_S_S1024x200 (constant (F := Ideal) S_ .f32 0x3F800000#32) (ix2 r n))
        (broadcastInDim S1024x200 ![] bcast_S_S1024x200 (constant (F := Ideal) S_ .f32 0x3F800000#32) (ix2 r n)
          + Ideal.exp (-(Host.dotGeneral (F := Ideal) dot_S1024x220_S220x200_S1024x200_1_0_0_1_n_n none
                (concatenate S1024x220 1 [⟨S1024x20, hg⟩, ⟨S1024x200, d3⟩] concatenates_S1024x20_S1024x200_S1024x220_d1) Wg (ix2 r n)
              + broadcastInDim S1024x200 ![0, 1] bcast_S1x200_S1024x200_0_1
                  (broadcastInDim S1x200 ![1] bcast_S200_S1x200_1 bg) (ix2 r n))))
        * d3 (ix2 r n) = _
  rw [hone, hdot, hb]

/-- `[hg | 1]` read at `(r, d)`. -/
theorem hgAug_apply (hg : FVec Ideal S1024x20 .f32) (r : Fin 1024) (d : Fin 21) :
    concatenate S1024x21 1
        [⟨S1024x20, hg⟩,
         ⟨S1024x1, broadcastInDim S1024x1 ![] bcast_S_S1024x1 (constant (F := Ideal) S_ .f32 0x3F800000#32)⟩]
        concatenates_S1024x20_S1024x1_S1024x21_d1 (ix2 r d)
      = Cert.Spec.hgAugAt hg r d := by
  unfold Cert.Spec.hgAugAt
  split
  next h => exact concatCols_apply_left hg _ _ r d h
  next h =>
    exact (concatCols_apply_right hg _ _ r d (by omega) (by omega)).trans (onesCol_apply _)

/-- `[gated | 1]` read at `(r, j)`. -/
theorem gatedAug_apply (hg : FVec Ideal S1024x20 .f32) (d3 : FVec Ideal S1024x200 .f32) (Wg : FVec Ideal S220x200 .f32)
    (bg : FVec Ideal S200 .f32) (r : Fin 1024) (j : Fin 201) :
    concatenate S1024x201 1
        [⟨S1024x200, refFusionGated (F := Ideal) hg d3 Wg bg⟩,
         ⟨S1024x1, broadcastInDim S1024x1 ![] bcast_S_S1024x1 (constant (F := Ideal) S_ .f32 0x3F800000#32)⟩]
        concatenates_S1024x200_S1024x1_S1024x201_d1 (ix2 r j)
      = Cert.Spec.gatedAugAt hg d3 Wg bg r j := by
  unfold Cert.Spec.gatedAugAt
  split
  next h => exact (concatCols_apply_left _ _ _ r j h).trans (gated_apply hg d3 Wg bg r ⟨j.val, h⟩)
  next h =>
    exact (concatCols_apply_right _ _ _ r j (by omega) (by omega)).trans (onesCol_apply _)

/-- The flattened outer product read at `(r, q)`. -/
theorem fused_apply (hg : FVec Ideal S1024x20 .f32) (d3 : FVec Ideal S1024x200 .f32) (Wg : FVec Ideal S220x200 .f32)
    (bg : FVec Ideal S200 .f32) (r : Fin 1024) (q : Fin 4221) :
    refFusionFused (F := Ideal) hg (refFusionGated (F := Ideal) hg d3 Wg bg) (ix2 r q)
      = Cert.Spec.fusedAt hg d3 Wg bg r q := by
  unfold refFusionFused Cert.Spec.fusedAt
  refine (reshapeFused_apply _ _ r q (by omega) (Nat.mod_lt _ (by norm_num))).trans ?_
  refine congrArg₂ (· * ·) ?_ ?_
  · exact (bcastOuterL_apply _ _ _ r _ _).trans (hgAug_apply hg r _)
  · exact (bcastOuterR_apply _ _ _ r _ _).trans (gatedAug_apply hg d3 Wg bg r _)

end Cert.ReferenceIdeal.RefStages

end
-- ==== Proof.RefFusionTail.lean ====
/-
  The tail of the reference's fusion head read index by index over the extended reals.

  A dense stage at `(r, n)` is the sum over the shared coordinate of the products plus the bias entry.  A
  normalisation stage at `(r, n)`: the column sum from the zero word is the sum over the 1024 rows; the mean is that
  sum divided by the word 1024 (computed once through a vector and once through a row, the same value); the variance's
  divisor is the word 1024 minus the converted integer zero, which is the word itself, and it exceeds zero, so the
  guard selects the quotient: the sum of the squared deviations divided by the word 1024; the deviation is divided by
  the square root of the variance plus epsilon, scaled, shifted and clamped at zero.
-/
import proofs.«144383_j84954453115094_1_alg».proof.Proof.RefFusionA
import proofs.«144383_j84954453115094_1_alg».proof.Proof.Spec
import proofs.«144383_j84954453115094_1_alg».proof.Proof.Consts
import Idealize.ShloMosaic.Lib.IdealHost

noncomputable section

open scoped BigOperators

namespace Cert.ReferenceIdeal.RefFusionTail

open Cert.ReferenceIdeal Cert.ReferenceIdeal.RefStages Idealize.ShloMosaic Idealize.ShloMosaic.ValueIdx
open Cert.ReferenceIdeal.Facts₀ Cert.ReferenceIdeal.Facts

/-! ## The three dense stages -/

/-- The first dense stage at `(r, n)`. -/
theorem refFusionDense1_apply (x : FVec Ideal S1024x4221 .f32) (W : FVec Ideal S4221x128 .f32) (b : FVec Ideal S128 .f32)
    (r : Fin 1024) (n : Fin 128) :
    refFusionDense1 (F := Ideal) x W b (ix2 r n) = Cert.Spec.denseAt (fun r k => x (ix2 r k)) W b r n := by
  unfold refFusionDense1
  rw [addf_apply, dotF1_apply, bcastRow_apply]
  rfl

/-- The second dense stage at `(r, n)`. -/
theorem refFusionDense2_apply (x : FVec Ideal S1024x128 .f32) (W : FVec Ideal S128x32 .f32) (b : FVec Ideal S32 .f32)
    (r : Fin 1024) (n : Fin 32) :
    refFusionDense2 (F := Ideal) x W b (ix2 r n) = Cert.Spec.denseAt (fun r k => x (ix2 r k)) W b r n := by
  unfold refFusionDense2
  rw [addf_apply, dotF2_apply, bcastRow_apply]
  rfl

/-- The last dense stage at `(r, n)`. -/
theorem refFusionDense3_apply (x : FVec Ideal S1024x32 .f32) (W : FVec Ideal S32x1 .f32) (b : FVec Ideal S1 .f32)
    (r : Fin 1024) (n : Fin 1) :
    refFusionDense3 (F := Ideal) x W b (ix2 r n) = Cert.Spec.denseAt (fun r k => x (ix2 r k)) W b r n := by
  unfold refFusionDense3
  rw [addf_apply, dotF3_apply, bcastRow_apply]
  rfl

/-! ## The normalisation over [1024, 128] -/

/-- The index over column `n` with coordinate `r` inserted on the reduced (row) axis is `(r, n)`. -/
theorem lift1 (h : S1024x128.Reduces [0] S128) (n : Fin 128) (r : Fin 1024) : h.lift (ix1 n) r = ix2 r n := by
  funext c
  refine Fin.ext ?_
  match c with
  | ⟨0, _⟩ => rfl
  | ⟨1, _⟩ => rfl

/-- The host's column sum from the zero word is the sum over the 1024 rows. -/
theorem colSum1 (z : FVec Ideal S1024x128 .f32) (n : Fin 128) :
    Host.reduceAdd (F := Ideal) z (constant (F := Ideal) S_ .f32 0x00000000#32) reducesTo_S1024x128_S128_d0 h_S_ (ix1 n)
      = ∑ r : Fin 1024, z (ix2 r n) := by
  have h : S1024x128.Reduces [0] S128 := by decide
  refine (Ideal.hostReduceAdd_single reducesTo_S1024x128_S128_d0 h z _ (ix1 n)).trans ?_
  rw [constant_apply, Ideal.ofBits_zero_f32, zero_add]
  exact Finset.sum_congr rfl fun r _ => congrArg z (lift1 h n r)

/-- The column mean (the sum divided by the word 1024 broadcast over the columns) is the specification's. -/
theorem mean1 (y : FVec Ideal S1024x128 .f32) (n : Fin 128) :
    Host.divf (Host.reduceAdd (F := Ideal) y (constant (F := Ideal) S_ .f32 0x00000000#32) reducesTo_S1024x128_S128_d0 h_S_)
        (broadcastInDim S128 ![] bcast_S_S128 (constant (F := Ideal) S_ .f32 0x44800000#32)) (ix1 n)
      = Cert.Spec.colMean (fun r n => y (ix2 r n)) n := by
  rw [hostDivf_apply, colSum1, bcastScalar_apply]
  rfl

/-- The column mean computed through a row and repeated along the rows is the specification's. -/
theorem meanRows1 (y : FVec Ideal S1024x128 .f32) (r : Fin 1024) (n : Fin 128) :
    broadcastInDim S1024x128 ![0, 1] bcast_S1x128_S1024x128_0_1
        (Host.divf
          (broadcastInDim S1x128 ![1] bcast_S128_S1x128_1
            (Host.reduceAdd (F := Ideal) y (constant (F := Ideal) S_ .f32 0x00000000#32) reducesTo_S1024x128_S128_d0 h_S_))
          (broadcastInDim S1x128 ![] bcast_S_S1x128 (constant (F := Ideal) S_ .f32 0x44800000#32))) (ix2 r n)
      = Cert.Spec.colMean (fun r n => y (ix2 r n)) n := by
  rw [bcastRows_apply, hostDivf_apply, bcastRow1_apply, colSum1, bcastScalar_apply]
  rfl

/-- The variance's divisor, the word 1024 minus the converted integer zero, is the word 1024. -/
theorem divisor1 :
    subf (constant (F := Ideal) S_ .f32 0x44800000#32) (sitofp .f32 (constantI S_ 32 0#32)) ix0
      = Ideal.ofBits .f32 0x44800000#32 := by
  show (Ideal.ofBits .f32 0x44800000#32 : EReal) - (((0#32 : BitVec 32).toInt : ℝ) : EReal) = Ideal.ofBits .f32 0x44800000#32
  simp

/-- The variance's guard holds: the divisor exceeds zero. -/
theorem guard1 :
    cmpf .ogt (subf (constant (F := Ideal) S_ .f32 0x44800000#32) (sitofp .f32 (constantI S_ 32 0#32)))
        (constant (F := Ideal) S_ .f32 0x00000000#32) ix0 = 1#1 := by
  rw [cmpf_apply, divisor1, constant_apply, Ideal.ofBits_zero_f32, Cert.Consts.ofBits_1024]
  show Ideal.cmp .ogt ((1024 : ℝ) : EReal) 0 = 1#1
  have h : (0 : EReal) < ((1024 : ℝ) : EReal) := EReal.coe_pos.mpr (by norm_num)
  simp [Ideal.cmp, h]

/-- The guarded column variance at the integer zero is the specification's biased variance. -/
theorem var1 (y : FVec Ideal S1024x128 .f32) (n : Fin 128) :
    refFusionVar1 (F := Ideal) y (constantI S_ 32 0#32) (ix1 n) = Cert.Spec.colVar (fun r n => y (ix2 r n)) n := by
  unfold refFusionVar1
  rw [select_apply, bcastScalar_apply, guard1, select_one, hostDivf_apply, bcastScalar_apply, divisor1, colSum1]
  refine congrArg (fun s => Ideal.div s (Ideal.ofBits .f32 0x44800000#32)) (Finset.sum_congr rfl fun r _ => ?_)
  rw [mulf_apply, subf_apply, meanRows1]

/-- The normalisation stage at `(r, n)` is the specification's, the deviation divided by the square root. -/
theorem refFusionBn1_apply (y : FVec Ideal S1024x128 .f32) (g be : FVec Ideal S128 .f32) (r : Fin 1024) (n : Fin 128) :
    refFusionBn1 (F := Ideal) y g be (ix2 r n)
      = Cert.Spec.bnReluAt Cert.Spec.normDiv (fun r n => y (ix2 r n)) g be r n := by
  unfold refFusionBn1
  rw [maximumf_apply, addf_apply, mulf_apply, hostDivf_apply, subf_apply, bcastScalar_apply, constant_apply,
    Ideal.ofBits_zero_f32]
  rw [bcastRow_apply, bcastRow_apply, bcastRow_apply, bcastRow_apply, mean1]
  show max (Ideal.div (y (ix2 r n) - Cert.Spec.colMean (fun r n => y (ix2 r n)) n)
        (Ideal.sqrt (refFusionVar1 (F := Ideal) y (constantI S_ 32 0#32) (ix1 n)
          + Ideal.ofBits .f32 0x3727C5AC#32)) * g (ix1 n) + be (ix1 n)) 0 = _
  rw [var1]
  rfl

/-! ## The normalisation over [1024, 32] -/

/-- The index over column `n` with coordinate `r` inserted on the reduced (row) axis is `(r, n)`. -/
theorem lift2 (h : S1024x32.Reduces [0] S32) (n : Fin 32) (r : Fin 1024) : h.lift (ix1 n) r = ix2 r n := by
  funext c
  refine Fin.ext ?_
  match c with
  | ⟨0, _⟩ => rfl
  | ⟨1, _⟩ => rfl

/-- The host's column sum from the zero word is the sum over the 1024 rows. -/
theorem colSum2 (z : FVec Ideal S1024x32 .f32) (n : Fin 32) :
    Host.reduceAdd (F := Ideal) z (constant (F := Ideal) S_ .f32 0x00000000#32) reducesTo_S1024x32_S32_d0 h_S_ (ix1 n)
      = ∑ r : Fin 1024, z (ix2 r n) := by
  have h : S1024x32.Reduces [0] S32 := by decide
  refine (Ideal.hostReduceAdd_single reducesTo_S1024x32_S32_d0 h z _ (ix1 n)).trans ?_
  rw [constant_apply, Ideal.ofBits_zero_f32, zero_add]
  exact Finset.sum_congr rfl fun r _ => congrArg z (lift2 h n r)

/-- The column mean (the sum divided by the word 1024 broadcast over the columns) is the specification's. -/
theorem mean2 (y : FVec Ideal S1024x32 .f32) (n : Fin 32) :
    Host.divf (Host.reduceAdd (F := Ideal) y (constant (F := Ideal) S_ .f32 0x00000000#32) reducesTo_S1024x32_S32_d0 h_S_)
        (broadcastInDim S32 ![] bcast_S_S32 (constant (F := Ideal) S_ .f32 0x44800000#32)) (ix1 n)
      = Cert.Spec.colMean (fun r n => y (ix2 r n)) n := by
  rw [hostDivf_apply, colSum2, bcastScalar_apply]
  rfl

/-- The column mean computed through a row and repeated along the rows is the specification's. -/
theorem meanRows2 (y : FVec Ideal S1024x32 .f32) (r : Fin 1024) (n : Fin 32) :
    broadcastInDim S1024x32 ![0, 1] bcast_S1x32_S1024x32_0_1
        (Host.divf
          (broadcastInDim S1x32 ![1] bcast_S32_S1x32_1
            (Host.reduceAdd (F := Ideal) y (constant (F := Ideal) S_ .f32 0x00000000#32) reducesTo_S1024x32_S32_d0 h_S_))
          (broadcastInDim S1x32 ![] bcast_S_S1x32 (constant (F := Ideal) S_ .f32 0x44800000#32))) (ix2 r n)
      = Cert.Spec.colMean (fun r n => y (ix2 r n)) n := by
  rw [bcastRows_apply, hostDivf_apply, bcastRow1_apply, colSum2, bcastScalar_apply]
  rfl

/-- The variance's divisor, the word 1024 minus the converted integer zero, is the word 1024. -/
theorem divisor2 :
    subf (constant (F := Ideal) S_ .f32 0x44800000#32) (sitofp .f32 (constantI S_ 32 0#32)) ix0
      = Ideal.ofBits .f32 0x44800000#32 := by
  show (Ideal.ofBits .f32 0x44800000#32 : EReal) - (((0#32 : BitVec 32).toInt : ℝ) : EReal) = Ideal.ofBits .f32 0x44800000#32
  simp

/-- The variance's guard holds: the divisor exceeds zero. -/
theorem guard2 :
    cmpf .ogt (subf (constant (F := Ideal) S_ .f32 0x44800000#32) (sitofp .f32 (constantI S_ 32 0#32)))
        (constant (F := Ideal) S_ .f32 0x00000000#32) ix0 = 1#1 := by
  rw [cmpf_apply, divisor2, constant_apply, Ideal.ofBits_zero_f32, Cert.Consts.ofBits_1024]
  show Ideal.cmp .ogt ((1024 : ℝ) : EReal) 0 = 1#1
  have h : (0 : EReal) < ((1024 : ℝ) : EReal) := EReal.coe_pos.mpr (by norm_num)
  simp [Ideal.cmp, h]

/-- The guarded column variance at the integer zero is the specification's biased variance. -/
theorem var2 (y : FVec Ideal S1024x32 .f32) (n : Fin 32) :
    refFusionVar2 (F := Ideal) y (constantI S_ 32 0#32) (ix1 n) = Cert.Spec.colVar (fun r n => y (ix2 r n)) n := by
  unfold refFusionVar2
  rw [select_apply, bcastScalar_apply, guard2, select_one, hostDivf_apply, bcastScalar_apply, divisor2, colSum2]
  refine congrArg (fun s => Ideal.div s (Ideal.ofBits .f32 0x44800000#32)) (Finset.sum_congr rfl fun r _ => ?_)
  rw [mulf_apply, subf_apply, meanRows2]

/-- The normalisation stage at `(r, n)` is the specification's, the deviation divided by the square root. -/
theorem refFusionBn2_apply (y : FVec Ideal S1024x32 .f32) (g be : FVec Ideal S32 .f32) (r : Fin 1024) (n : Fin 32) :
    refFusionBn2 (F := Ideal) y g be (ix2 r n)
      = Cert.Spec.bnReluAt Cert.Spec.normDiv (fun r n => y (ix2 r n)) g be r n := by
  unfold refFusionBn2
  rw [maximumf_apply, addf_apply, mulf_apply, hostDivf_apply, subf_apply, bcastScalar_apply, constant_apply,
    Ideal.ofBits_zero_f32]
  rw [bcastRow_apply, bcastRow_apply, bcastRow_apply, bcastRow_apply, mean2]
  show max (Ideal.div (y (ix2 r n) - Cert.Spec.colMean (fun r n => y (ix2 r n)) n)
        (Ideal.sqrt (refFusionVar2 (F := Ideal) y (constantI S_ 32 0#32) (ix1 n)
          + Ideal.ofBits .f32 0x3727C5AC#32)) * g (ix1 n) + be (ix1 n)) 0 = _
  rw [var2]
  rfl

end Cert.ReferenceIdeal.RefFusionTail

end
-- ==== Proof.RefFusion.lean ====
/-
  The reference's fusion head equals the fusion head of the specification, index by index.

  The flattened outer product of [hg | 1] and [gated | 1] at (r, q) is the specification's; each dense
  stage at (r, n) is the sum over the rows of the weight matrix of the stage's input times the weight,
  plus the bias; each normalisation at (r, n) is the deviation from the column mean divided by the square
  root of the column variance plus ε, scaled, shifted and clamped at zero.  Composing the five stages over
  the head gives the specification's three-layer head with the deviations divided by the square root.
-/
import proofs.«144383_j84954453115094_1_alg».proof.Proof.RefFusionB
import proofs.«144383_j84954453115094_1_alg».proof.Proof.RefFusionTail

noncomputable section

open scoped BigOperators

namespace Cert.ReferenceIdeal.RefStages

open Cert.ReferenceIdeal Idealize.ShloMosaic Idealize.ShloMosaic.ValueIdx
open Cert.ReferenceIdeal.Facts₀ Cert.ReferenceIdeal.Facts

/-! ## The whole head -/

/-- The reference's fusion head is the fusion head of the specification, with the deviations divided by the
    square root. -/
theorem refFusion_eq (hg : FVec Ideal S1024x20 .f32) (d3 : FVec Ideal S1024x200 .f32) (Wg : FVec Ideal S220x200 .f32)
    (bg : FVec Ideal S200 .f32) (Wf1 : FVec Ideal S4221x128 .f32) (bf1 g1 be1 : FVec Ideal S128 .f32)
    (Wf2 : FVec Ideal S128x32 .f32) (bf2 g2 be2 : FVec Ideal S32 .f32) (Wf3 : FVec Ideal S32x1 .f32)
    (bf3 : FVec Ideal S1 .f32) :
    refFusion (F := Ideal) hg d3 Wg bg Wf1 bf1 g1 be1 Wf2 bf2 g2 be2 Wf3 bf3
      = Cert.Spec.fusion hg d3 Wg bg Wf1 bf1 g1 be1 Wf2 bf2 g2 be2 Wf3 bf3 Cert.Spec.normDiv := by
  have h0 : (fun (r : Fin 1024) (k : Fin 4221) =>
        refFusionFused (F := Ideal) hg (refFusionGated (F := Ideal) hg d3 Wg bg) (ix2 r k))
      = Cert.Spec.fusedAt hg d3 Wg bg :=
    funext fun r => funext fun k => fused_apply hg d3 Wg bg r k
  have h1 : (fun (r : Fin 1024) (n : Fin 128) =>
        refFusionDense1 (F := Ideal) (refFusionFused (F := Ideal) hg (refFusionGated (F := Ideal) hg d3 Wg bg)) Wf1 bf1 (ix2 r n))
      = Cert.Spec.y1At hg d3 Wg bg Wf1 bf1 :=
    funext fun r => funext fun n => (RefFusionTail.refFusionDense1_apply _ Wf1 bf1 r n).trans (by rw [h0]; rfl)
  have h2 : (fun (r : Fin 1024) (n : Fin 128) =>
        refFusionBn1 (F := Ideal)
          (refFusionDense1 (F := Ideal) (refFusionFused (F := Ideal) hg (refFusionGated (F := Ideal) hg d3 Wg bg)) Wf1 bf1)
          g1 be1 (ix2 r n))
      = Cert.Spec.o1At hg d3 Wg bg Wf1 bf1 g1 be1 Cert.Spec.normDiv :=
    funext fun r => funext fun n => (RefFusionTail.refFusionBn1_apply _ g1 be1 r n).trans (by rw [h1]; rfl)
  have h3 : (fun (r : Fin 1024) (n : Fin 32) =>
        refFusionDense2 (F := Ideal)
          (refFusionBn1 (F := Ideal)
            (refFusionDense1 (F := Ideal) (refFusionFused (F := Ideal) hg (refFusionGated (F := Ideal) hg d3 Wg bg)) Wf1 bf1)
            g1 be1)
          Wf2 bf2 (ix2 r n))
      = Cert.Spec.y2At hg d3 Wg bg Wf1 bf1 g1 be1 Wf2 bf2 Cert.Spec.normDiv :=
    funext fun r => funext fun n => (RefFusionTail.refFusionDense2_apply _ Wf2 bf2 r n).trans (by rw [h2]; rfl)
  have h4 : (fun (r : Fin 1024) (n : Fin 32) =>
        refFusionBn2 (F := Ideal)
          (refFusionDense2 (F := Ideal)
            (refFusionBn1 (F := Ideal)
              (refFusionDense1 (F := Ideal) (refFusionFused (F := Ideal) hg (refFusionGated (F := Ideal) hg d3 Wg bg)) Wf1 bf1)
              g1 be1)
            Wf2 bf2)
          g2 be2 (ix2 r n))
      = Cert.Spec.o2At hg d3 Wg bg Wf1 bf1 g1 be1 Wf2 bf2 g2 be2 Cert.Spec.normDiv :=
    funext fun r => funext fun n => (RefFusionTail.refFusionBn2_apply _ g2 be2 r n).trans (by rw [h3]; rfl)
  funext y
  obtain ⟨r, n, rfl⟩ : ∃ (r : Fin 1024) (n : Fin 1), y = ix2 r n := ⟨y 0, y 1, eq_ix2 y⟩
  unfold refFusion
  refine (RefFusionTail.refFusionDense3_apply _ Wf3 bf3 r n).trans ?_
  rw [h4]
  rfl

end Cert.ReferenceIdeal.RefStages

end
-- ==== Proof.SpecNorm.lean ====
/-
  The two spellings of the normalisation agree where the programs use them.

  A column's biased variance is a sum of squares divided by 1024, so it is `≥ 0` in the extended reals (a square of an
  extended real is `≥ 0`, also at the infinities), and `var + ε` is a positive real or `⊤`.  At a positive real `x`
  both `d · (√x)⁻¹` and `d / √x` are the product of `d` with the real `1/√x`; at `⊤` both are `0` (`rsqrt ⊤ = 0`,
  `√⊤ = ⊤`, `⊤⁻¹ = 0`).  This holds for every extended-real deviation `d`: no finiteness is used.
-/
import proofs.«144383_j84954453115094_1_alg».proof.Proof.Spec
import proofs.«144383_j84954453115094_1_alg».proof.Proof.Consts

noncomputable section

open scoped BigOperators

namespace Cert.Spec

open Idealize.ShloMosaic Idealize.ShloMosaic.ValueIdx

theorem c1024_eq : c1024 = ((1024 : ℝ) : EReal) := Cert.Consts.ofBits_1024

theorem ceps_eq : ceps = (((10995116 : ℝ) * (2 : ℝ) ^ (-40 : ℤ) : ℝ) : EReal) := Cert.Consts.ofBits_eps

/-- A square of an extended real is nonnegative. -/
theorem mul_self_nonneg' (x : EReal) : 0 ≤ x * x := by
  induction x using EReal.rec with
  | bot => simp
  | coe r => rw [← EReal.coe_mul]; exact EReal.coe_nonneg.mpr (mul_self_nonneg r)
  | top => simp

/-- A nonnegative extended real divided by 1024 is nonnegative. -/
theorem div_c1024_nonneg {s : EReal} (hs : 0 ≤ s) : 0 ≤ Ideal.div s c1024 := by
  rw [c1024_eq, Ideal.div_coe (by norm_num : (1024 : ℝ) ≠ 0)]
  exact mul_nonneg hs (EReal.coe_nonneg.mpr (by norm_num))

/-- The variance of a column is nonnegative. -/
theorem colVar_nonneg {B D : Nat} (y : Fin B → Fin D → EReal) (n : Fin D) : 0 ≤ colVar y n :=
  div_c1024_nonneg (Finset.sum_nonneg fun r _ => mul_self_nonneg' _)

/-- Multiplying by the reciprocal square root and dividing by the square root agree at `v + ε`, `v ≥ 0`. -/
theorem norm_eq (d v : EReal) (hv : 0 ≤ v) : normMul d (v + ceps) = normDiv d (v + ceps) := by
  unfold normMul normDiv
  rw [ceps_eq]
  induction v using EReal.rec with
  | bot => exact absurd hv (by simp)
  | top =>
    rw [EReal.top_add_coe]
    simp [Ideal.div]
  | coe r =>
    have hr : 0 ≤ r := EReal.coe_nonneg.mp hv
    have hx : 0 < r + (10995116 : ℝ) * (2 : ℝ) ^ (-40 : ℤ) := add_pos_of_nonneg_of_pos hr Cert.Consts.eps_pos
    rw [← EReal.coe_add, Ideal.rsqrt_coe, Ideal.sqrt_coe, if_neg (not_lt.mpr hx.le), if_neg hx.ne', if_neg (not_lt.mpr hx.le),
      Ideal.div_coe (Real.sqrt_ne_zero'.mpr hx), one_div]

/-- Hence the normalisation step, with either spelling. -/
theorem bnReluAt_norm {B D : Nat} (y : Fin B → Fin D → EReal) (g be : A1 D) (r : Fin B) (n : Fin D) :
    bnReluAt normMul y g be r n = bnReluAt normDiv y g be r n := by
  unfold bnReluAt
  rw [norm_eq _ _ (colVar_nonneg y n)]

/-- The fusion head is the same function with either spelling. -/
theorem fusion_norm (hg : A2 1024 20) (d3 : A2 1024 200) (Wg : A2 220 200) (bg : A1 200)
    (Wf1 : A2 4221 128) (bf1 g1 be1 : A1 128) (Wf2 : A2 128 32) (bf2 g2 be2 : A1 32) (Wf3 : A2 32 1) (bf3 : A1 1) :
    fusion hg d3 Wg bg Wf1 bf1 g1 be1 Wf2 bf2 g2 be2 Wf3 bf3 normMul
      = fusion hg d3 Wg bg Wf1 bf1 g1 be1 Wf2 bf2 g2 be2 Wf3 bf3 normDiv := by
  have h1 : o1At hg d3 Wg bg Wf1 bf1 g1 be1 normMul = o1At hg d3 Wg bg Wf1 bf1 g1 be1 normDiv := by
    funext r n; exact bnReluAt_norm _ _ _ r n
  have h2 : y2At hg d3 Wg bg Wf1 bf1 g1 be1 Wf2 bf2 normMul = y2At hg d3 Wg bg Wf1 bf1 g1 be1 Wf2 bf2 normDiv := by
    funext r n; unfold y2At; rw [h1]
  have h3 : o2At hg d3 Wg bg Wf1 bf1 g1 be1 Wf2 bf2 g2 be2 normMul = o2At hg d3 Wg bg Wf1 bf1 g1 be1 Wf2 bf2 g2 be2 normDiv := by
    funext r n; unfold o2At; rw [h2]; exact bnReluAt_norm _ _ _ r n
  funext y
  unfold fusion y3At
  rw [h3]

end Cert.Spec

end
-- ==== Proof.StageEq.lean ====
/-
  The host operations around the kernel's regions and the reference's corresponding operations are the same functions:
  the two printed programs state the same gather, scatter and broadcast dimension records, each in its own namespace.
-/
import proofs.«144383_j84954453115094_1_alg».proof.Proof.KStages
import proofs.«144383_j84954453115094_1_alg».proof.Proof.RefStages

noncomputable section

namespace Cert.StageEq

open Idealize.ShloMosaic
open Cert.KernelIdeal.KStages Cert.ReferenceIdeal.RefStages

variable {F : FTy → Type} [FloatOps F]

theorem degCol_eq (dst : IVec Cert.KernelIdeal.S1600000 32) : refDegCol (F := F) dst = kDegCol (F := F) dst := rfl

theorem msum1_eq (feat : FVec F Cert.KernelIdeal.S50000x128 .f32) (src dst : IVec Cert.KernelIdeal.S1600000 32) :
    refMsum1 feat src dst = kMsum1 feat src dst := rfl

theorem msum2_eq (h : FVec F Cert.KernelIdeal.S50000x100 .f32) (src dst : IVec Cert.KernelIdeal.S1600000 32) :
    refMsum2 h src dst = kMsum2 h src dst := rfl

theorem hg_eq (h : FVec F Cert.KernelIdeal.S50000x20 .f32) (gid : IVec Cert.KernelIdeal.S50000 32) :
    refHg h gid = kHg h gid := rfl

end Cert.StageEq

end
-- ==== Proof.Bridge.lean ====
/-
  The bridge between the two programs.

  Kernel side: the third region's output array is the fusion head of the arrays it finds — the scratch buffer the body
  fills slab by slab holds the flattened outer product, and the body's remaining arithmetic, read index by index, is
  the specification with the normalisation spelt as a product with the reciprocal square root.

  Reference side: the composed term of the reference's run is the same function `G` of the argument arrays — its two
  layers and its fusion head read index by index are the specification's (with the normalisation spelt as a quotient by
  the square root, which agrees with the product spelling because a variance is nonnegative), and its gathers,
  scatter-adds and the readout are the very host operations of the kernel's program.
-/
import proofs.«144383_j84954453115094_1_alg».proof.Proof.KChain2
import proofs.«144383_j84954453115094_1_alg».proof.Proof.KLayer0
import proofs.«144383_j84954453115094_1_alg».proof.Proof.KLayer1
import proofs.«144383_j84954453115094_1_alg».proof.Proof.KFusionRun
import proofs.«144383_j84954453115094_1_alg».proof.Proof.KFusionPay
import proofs.«144383_j84954453115094_1_alg».proof.Proof.RefLayers
import proofs.«144383_j84954453115094_1_alg».proof.Proof.RefFusion
import proofs.«144383_j84954453115094_1_alg».proof.Proof.SpecNorm
import proofs.«144383_j84954453115094_1_alg».proof.Proof.StageEq

noncomputable section

namespace Cert.Bridge

open Idealize.ShloMosaic

/-- The third region's output array as the specification's fusion head of the arrays the region finds. -/
theorem region2_value : Cert.KernelIdeal.KChain.Region2Value := fun V c => by
  obtain ⟨scr, hscr, hout⟩ := Cert.KernelIdeal.KVal.region2_out V c
  exact hout.trans (Cert.KernelIdeal.KVal.fusion_pay_eq _ _ _ _ _ _ _ _ _ _ _ _ _ _ scr hscr)

open Cert.ReferenceIdeal.RefStages in
/-- The reference's composed result is `G` of the argument arrays. -/
theorem ref_result (a0 : FVec Ideal Cert.ReferenceIdeal.S50000x128 .f32) (a2 : FVec Ideal Cert.ReferenceIdeal.S1024x200 .f32)
    (a3 : FVec Ideal Cert.ReferenceIdeal.S128x100 .f32) (a4 : FVec Ideal Cert.ReferenceIdeal.S100 .f32)
    (a5 : FVec Ideal Cert.ReferenceIdeal.S100x20 .f32) (a6 : FVec Ideal Cert.ReferenceIdeal.S20 .f32)
    (a7 : FVec Ideal Cert.ReferenceIdeal.S220x200 .f32) (a8 : FVec Ideal Cert.ReferenceIdeal.S200 .f32)
    (a9 : FVec Ideal Cert.ReferenceIdeal.S4221x128 .f32) (a10 : FVec Ideal Cert.ReferenceIdeal.S128 .f32)
    (a11 : FVec Ideal Cert.ReferenceIdeal.S128x32 .f32) (a12 : FVec Ideal Cert.ReferenceIdeal.S32 .f32)
    (a13 : FVec Ideal Cert.ReferenceIdeal.S32x1 .f32) (a14 : FVec Ideal Cert.ReferenceIdeal.S1 .f32)
    (a15 a16 : FVec Ideal Cert.ReferenceIdeal.S128 .f32) (a17 a18 : FVec Ideal Cert.ReferenceIdeal.S32 .f32)
    (a19 a20 : IVec Cert.ReferenceIdeal.S1600000 32) (a21 : IVec Cert.ReferenceIdeal.S50000 32) :
    refFusion (F := Ideal) (refHg (refLayer2 (refMsum2 (refLayer1 (refMsum1 a0 a19 a20) (refDegCol a20) a3 a4) a19 a20) (refDegCol a20) a5 a6) a21)
        a2 a7 a8 a9 a10 a15 a16 a11 a12 a17 a18 a13 a14
      = Cert.KernelIdeal.KChain.G a0 a2 a3 a4 a5 a6 a7 a8 a9 a10 a11 a12 a13 a14 a15 a16 a17 a18 a19 a20 a21 Cert.Spec.normMul := by
  rw [refFusion_eq, Cert.ReferenceIdeal.RefLayers.refLayer2_eq, Cert.ReferenceIdeal.RefLayers.refLayer1_eq, ← Cert.Spec.fusion_norm]
  rfl

end Cert.Bridge

end
-- ==== Proof.RefRunOps.lean ====
/-
  The reference program's host function @main as the list of its 210 elementwise, broadcast, gather,
  scatter-add, contraction and reduction operations in program order, the bodies of the functions it calls
  written out at their call sites over each call's own buffers.  Running the function is running that list:
  from any memory with zero counters every weakly fair execution terminates, and each buffer then holds the
  fold of the operations' results over the launch contents.
-/
import proofs.«144383_j84954453115094_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 210 operations, in order: its own statements, and at each call the callee's statements over the call's
    buffers (the callee's parameters replaced by the call's operands). -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg19 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg19 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg19 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg20 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_1 (constant S_ .f32 0x3F800000#32),
    unary main_cst_1 main_v10 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_arg20 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_3 (constant S_ .f32 0x3F800000#32),
    unary main_cst_3 main_v14 (broadcastInDim S50000 ![] bcast_S_S50000 : (⟨S_, .f32⟩ : BufTy).Contents (Elt F) → (⟨S50000, .f32⟩ : BufTy).Contents (Elt F)),
    binary main_v13 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)),
    unary main_v16 main_v17 (broadcastInDim S50000x128 ![0, 1] bcast_S50000x1_S50000x128_0_1 : (⟨S50000x1, .f32⟩ : BufTy).Contents (Elt F) → (⟨S50000x128, .f32⟩ : BufTy).Contents (Elt F)),
    binary main_v9 main_v17 main_v18 (Host.divf : (⟨S50000x128, .f32⟩ : BufTy).Contents (Elt F) → (⟨S50000x128, .f32⟩ : BufTy).Contents (Elt F) → (⟨S50000x128, .f32⟩ : BufTy).Contents (Elt F)),
    binary main_v18 main_arg3 main_v19 ((fun l r => Host.dotGeneral dot_S50000x128_S128x100_S50000x100_1_0_0_1_n_n none l r) : (⟨S50000x128, .f32⟩ : BufTy).Contents (Elt F) → (⟨S128x100, .f32⟩ : BufTy).Contents (Elt F) → (⟨S50000x100, .f32⟩ : BufTy).Contents (Elt F)),
    unary main_arg4 main_v20 (broadcastInDim S1x100 ![1] bcast_S100_S1x100_1 : (⟨S100, .f32⟩ : BufTy).Contents (Elt F) → (⟨S1x100, .f32⟩ : BufTy).Contents (Elt F)),
    unary main_v20 main_v21 (broadcastInDim S50000x100 ![0, 1] bcast_S1x100_S50000x100_0_1 : (⟨S1x100, .f32⟩ : BufTy).Contents (Elt F) → (⟨S50000x100, .f32⟩ : BufTy).Contents (Elt F)),
    binary main_v19 main_v21 main_v22 (addf : (⟨S50000x100, .f32⟩ : BufTy).Contents (Elt F) → (⟨S50000x100, .f32⟩ : BufTy).Contents (Elt F) → (⟨S50000x100, .f32⟩ : BufTy).Contents (Elt F)),
    TRef.nullary main_call0.cst (constant S_ .f32 0x00000000#32),
    TRef.unary main_call0.cst main_call0.v0 (broadcastInDim S50000x100 ![] bcast_S_S50000x100),
    TRef.binary (.of main_v22) main_call0.v0 main_call0.v1 maximumf,
    nullary main_c_4 (constantI S_ 32 0#32),
    unary main_c_4 main_v24 (broadcastInDim S1600000 ![] bcast_S_S1600000 : (⟨S_, .i32⟩ : BufTy).Contents (Elt F) → (⟨S1600000, .i32⟩ : BufTy).Contents (Elt F)),
    binary main_arg19 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v26 (broadcastInDim S1600000 ![] bcast_S_S1600000 : (⟨S_, .i32⟩ : BufTy).Contents (Elt F) → (⟨S1600000, .i32⟩ : BufTy).Contents (Elt F)),
    binary main_arg19 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg19 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v23 main_v29 main_v30 ((fun x i => Host.gather gather_S50000x100_S1600000x1_S1600000x100_1_0_n_n_0_1_1100 x i) : (⟨S50000x100, .f32⟩ : BufTy).Contents (Elt F) → (⟨S1600000x1, .i32⟩ : BufTy).Contents (Elt F) → (⟨S1600000x100, .f32⟩ : BufTy).Contents (Elt F)),
    nullary main_cst_6 (constant S_ .f32 0x00000000#32),
    unary main_cst_6 main_v31 (broadcastInDim S50000x100 ![] bcast_S_S50000x100 : (⟨S_, .f32⟩ : BufTy).Contents (Elt F) → (⟨S50000x100, .f32⟩ : BufTy).Contents (Elt F)),
    unary main_arg20 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S50000x100_S1600000x1_S1600000x100_1_0_0_1 x i u) : (⟨S50000x100, .f32⟩ : BufTy).Contents (Elt F) → (⟨S1600000x1, .i32⟩ : BufTy).Contents (Elt F) → (⟨S1600000x100, .f32⟩ : BufTy).Contents (Elt F) → (⟨S50000x100, .f32⟩ : BufTy).Contents (Elt F)),
    nullary main_cst_7 (constant S_ .f32 0x3F800000#32),
    unary main_cst_7 main_v34 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v35 (broadcastInDim S50000 ![] bcast_S_S50000 : (⟨S_, .f32⟩ : BufTy).Contents (Elt F) → (⟨S50000, .f32⟩ : BufTy).Contents (Elt F)),
    unary main_arg20 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_9 (constant S_ .f32 0x3F800000#32),
    unary main_cst_9 main_v38 (broadcastInDim S50000 ![] bcast_S_S50000 : (⟨S_, .f32⟩ : BufTy).Contents (Elt F) → (⟨S50000, .f32⟩ : BufTy).Contents (Elt F)),
    binary main_v37 main_v38 main_v39 (maximumf : (⟨S50000, .f32⟩ : BufTy).Contents (Elt F) → (⟨S50000, .f32⟩ : BufTy).Contents (Elt F) → (⟨S50000, .f32⟩ : BufTy).Contents (Elt F)),
    unary main_v39 main_v40 (broadcastInDim S50000x1 ![0] bcast_S50000_S50000x1_0 : (⟨S50000, .f32⟩ : BufTy).Contents (Elt F) → (⟨S50000x1, .f32⟩ : BufTy).Contents (Elt F)),
    unary main_v40 main_v41 (broadcastInDim S50000x100 ![0, 1] bcast_S50000x1_S50000x100_0_1 : (⟨S50000x1, .f32⟩ : BufTy).Contents (Elt F) → (⟨S50000x100, .f32⟩ : BufTy).Contents (Elt F)),
    binary main_v33 main_v41 main_v42 (Host.divf : (⟨S50000x100, .f32⟩ : BufTy).Contents (Elt F) → (⟨S50000x100, .f32⟩ : BufTy).Contents (Elt F) → (⟨S50000x100, .f32⟩ : BufTy).Contents (Elt F)),
    binary main_v42 main_arg5 main_v43 ((fun l r => Host.dotGeneral dot_S50000x100_S100x20_S50000x20_1_0_0_1_n_n none l r) : (⟨S50000x100, .f32⟩ : BufTy).Contents (Elt F) → (⟨S100x20, .f32⟩ : BufTy).Contents (Elt F) → (⟨S50000x20, .f32⟩ : BufTy).Contents (Elt F)),
    unary main_arg6 main_v44 (broadcastInDim S1x20 ![1] bcast_S20_S1x20_1 : (⟨S20, .f32⟩ : BufTy).Contents (Elt F) → (⟨S1x20, .f32⟩ : BufTy).Contents (Elt F)),
    unary main_v44 main_v45 (broadcastInDim S50000x20 ![0, 1] bcast_S1x20_S50000x20_0_1 : (⟨S1x20, .f32⟩ : BufTy).Contents (Elt F) → (⟨S50000x20, .f32⟩ : BufTy).Contents (Elt F)),
    binary main_v43 main_v45 main_v46 (addf : (⟨S50000x20, .f32⟩ : BufTy).Contents (Elt F) → (⟨S50000x20, .f32⟩ : BufTy).Contents (Elt F) → (⟨S50000x20, .f32⟩ : BufTy).Contents (Elt F)),
    TRef.nullary main_call1.cst (constant S_ .f32 0x00000000#32),
    TRef.unary main_call1.cst main_call1.v0 (broadcastInDim S50000x20 ![] bcast_S_S50000x20),
    TRef.binary (.of main_v46) main_call1.v0 main_call1.v1 maximumf,
    nullary main_cst_10 (constant S_ .f32 0x3F800000#32),
    unary main_cst_10 main_v48 (broadcastInDim S50000 ![] bcast_S_S50000 : (⟨S_, .f32⟩ : BufTy).Contents (Elt F) → (⟨S50000, .f32⟩ : BufTy).Contents (Elt F)),
    nullary main_cst_11 (constant S_ .f32 0x00000000#32),
    unary main_cst_11 main_v49 (broadcastInDim S1024 ![] bcast_S_S1024 : (⟨S_, .f32⟩ : BufTy).Contents (Elt F) → (⟨S1024, .f32⟩ : BufTy).Contents (Elt F)),
    unary main_arg21 main_v50 (broadcastInDim S50000x1 ![0] bcast_S50000_S50000x1_0 : (⟨S50000, .i32⟩ : BufTy).Contents (Elt F) → (⟨S50000x1, .i32⟩ : BufTy).Contents (Elt F)),
    ternary main_v49 main_v50 main_v48 main_v51 ((fun x i u => Host.scatterAdd scatter_S1024_S50000x1_S50000_n_0_0_1 x i u) : (⟨S1024, .f32⟩ : BufTy).Contents (Elt F) → (⟨S50000x1, .i32⟩ : BufTy).Contents (Elt F) → (⟨S50000, .f32⟩ : BufTy).Contents (Elt F) → (⟨S1024, .f32⟩ : BufTy).Contents (Elt F)),
    nullary main_cst_12 (constant S_ .f32 0x00000000#32),
    unary main_cst_12 main_v52 (broadcastInDim S1024x20 ![] bcast_S_S1024x20 : (⟨S_, .f32⟩ : BufTy).Contents (Elt F) → (⟨S1024x20, .f32⟩ : BufTy).Contents (Elt F)),
    unary main_arg21 main_v53 (broadcastInDim S50000x1 ![0] bcast_S50000_S50000x1_0 : (⟨S50000, .i32⟩ : BufTy).Contents (Elt F) → (⟨S50000x1, .i32⟩ : BufTy).Contents (Elt F)),
    ternary main_v52 main_v53 main_v47 main_v54 ((fun x i u => Host.scatterAdd scatter_S1024x20_S50000x1_S50000x20_1_0_0_1 x i u) : (⟨S1024x20, .f32⟩ : BufTy).Contents (Elt F) → (⟨S50000x1, .i32⟩ : BufTy).Contents (Elt F) → (⟨S50000x20, .f32⟩ : BufTy).Contents (Elt F) → (⟨S1024x20, .f32⟩ : BufTy).Contents (Elt F)),
    nullary main_cst_13 (constant S_ .f32 0x3F800000#32),
    unary main_cst_13 main_v55 (broadcastInDim S1024 ![] bcast_S_S1024 : (⟨S_, .f32⟩ : BufTy).Contents (Elt F) → (⟨S1024, .f32⟩ : BufTy).Contents (Elt F)),
    binary main_v51 main_v55 main_v56 (maximumf : (⟨S1024, .f32⟩ : BufTy).Contents (Elt F) → (⟨S1024, .f32⟩ : BufTy).Contents (Elt F) → (⟨S1024, .f32⟩ : BufTy).Contents (Elt F)),
    unary main_v56 main_v57 (broadcastInDim S1024x1 ![0] bcast_S1024_S1024x1_0 : (⟨S1024, .f32⟩ : BufTy).Contents (Elt F) → (⟨S1024x1, .f32⟩ : BufTy).Contents (Elt F)),
    unary main_v57 main_v58 (broadcastInDim S1024x20 ![0, 1] bcast_S1024x1_S1024x20_0_1 : (⟨S1024x1, .f32⟩ : BufTy).Contents (Elt F) → (⟨S1024x20, .f32⟩ : BufTy).Contents (Elt F)),
    binary main_v54 main_v58 main_v59 (Host.divf : (⟨S1024x20, .f32⟩ : BufTy).Contents (Elt F) → (⟨S1024x20, .f32⟩ : BufTy).Contents (Elt F) → (⟨S1024x20, .f32⟩ : BufTy).Contents (Elt F)),
    binary main_v59 main_arg2 main_v60 ((fun a b => concatenate S1024x220 1 [⟨S1024x20, a⟩, ⟨S1024x200, b⟩] concatenates_S1024x20_S1024x200_S1024x220_d1) : (⟨S1024x20, .f32⟩ : BufTy).Contents (Elt F) → (⟨S1024x200, .f32⟩ : BufTy).Contents (Elt F) → (⟨S1024x220, .f32⟩ : BufTy).Contents (Elt F)),
    binary main_v60 main_arg7 main_v61 ((fun l r => Host.dotGeneral dot_S1024x220_S220x200_S1024x200_1_0_0_1_n_n none l r) : (⟨S1024x220, .f32⟩ : BufTy).Contents (Elt F) → (⟨S220x200, .f32⟩ : BufTy).Contents (Elt F) → (⟨S1024x200, .f32⟩ : BufTy).Contents (Elt F)),
    unary main_arg8 main_v62 (broadcastInDim S1x200 ![1] bcast_S200_S1x200_1 : (⟨S200, .f32⟩ : BufTy).Contents (Elt F) → (⟨S1x200, .f32⟩ : BufTy).Contents (Elt F)),
    unary main_v62 main_v63 (broadcastInDim S1024x200 ![0, 1] bcast_S1x200_S1024x200_0_1 : (⟨S1x200, .f32⟩ : BufTy).Contents (Elt F) → (⟨S1024x200, .f32⟩ : BufTy).Contents (Elt F)),
    binary main_v61 main_v63 main_v64 (addf : (⟨S1024x200, .f32⟩ : BufTy).Contents (Elt F) → (⟨S1024x200, .f32⟩ : BufTy).Contents (Elt F) → (⟨S1024x200, .f32⟩ : BufTy).Contents (Elt F)),
    unary main_v64 main_v65 (Host.negf : (⟨S1024x200, .f32⟩ : BufTy).Contents (Elt F) → (⟨S1024x200, .f32⟩ : BufTy).Contents (Elt F)),
    unary main_v65 main_v66 (Host.exp : (⟨S1024x200, .f32⟩ : BufTy).Contents (Elt F) → (⟨S1024x200, .f32⟩ : BufTy).Contents (Elt F)),
    nullary main_cst_14 (constant S_ .f32 0x3F800000#32),
    unary main_cst_14 main_v67 (broadcastInDim S1024x200 ![] bcast_S_S1024x200 : (⟨S_, .f32⟩ : BufTy).Contents (Elt F) → (⟨S1024x200, .f32⟩ : BufTy).Contents (Elt F)),
    binary main_v67 main_v66 main_v68 (addf : (⟨S1024x200, .f32⟩ : BufTy).Contents (Elt F) → (⟨S1024x200, .f32⟩ : BufTy).Contents (Elt F) → (⟨S1024x200, .f32⟩ : BufTy).Contents (Elt F)),
    nullary main_cst_15 (constant S_ .f32 0x3F800000#32),
    unary main_cst_15 main_v69 (broadcastInDim S1024x200 ![] bcast_S_S1024x200 : (⟨S_, .f32⟩ : BufTy).Contents (Elt F) → (⟨S1024x200, .f32⟩ : BufTy).Contents (Elt F)),
    binary main_v69 main_v68 main_v70 (Host.divf : (⟨S1024x200, .f32⟩ : BufTy).Contents (Elt F) → (⟨S1024x200, .f32⟩ : BufTy).Contents (Elt F) → (⟨S1024x200, .f32⟩ : BufTy).Contents (Elt F)),
    binary main_v70 main_arg2 main_v71 (mulf : (⟨S1024x200, .f32⟩ : BufTy).Contents (Elt F) → (⟨S1024x200, .f32⟩ : BufTy).Contents (Elt F) → (⟨S1024x200, .f32⟩ : BufTy).Contents (Elt F)),
    nullary main_cst_16 (constant S_ .f32 0x3F800000#32),
    unary main_cst_16 main_v72 (broadcastInDim S1024x1 ![] bcast_S_S1024x1 : (⟨S_, .f32⟩ : BufTy).Contents (Elt F) → (⟨S1024x1, .f32⟩ : BufTy).Contents (Elt F)),
    binary main_v59 main_v72 main_v73 ((fun a b => concatenate S1024x21 1 [⟨S1024x20, a⟩, ⟨S1024x1, b⟩] concatenates_S1024x20_S1024x1_S1024x21_d1) : (⟨S1024x20, .f32⟩ : BufTy).Contents (Elt F) → (⟨S1024x1, .f32⟩ : BufTy).Contents (Elt F) → (⟨S1024x21, .f32⟩ : BufTy).Contents (Elt F)),
    binary main_v71 main_v72 main_v74 ((fun a b => concatenate S1024x201 1 [⟨S1024x200, a⟩, ⟨S1024x1, b⟩] concatenates_S1024x200_S1024x1_S1024x201_d1) : (⟨S1024x200, .f32⟩ : BufTy).Contents (Elt F) → (⟨S1024x1, .f32⟩ : BufTy).Contents (Elt F) → (⟨S1024x201, .f32⟩ : BufTy).Contents (Elt F)),
    unary main_v73 main_v75 (broadcastInDim S1024x21x1 ![0, 1] bcast_S1024x21_S1024x21x1_0_1 : (⟨S1024x21, .f32⟩ : BufTy).Contents (Elt F) → (⟨S1024x21x1, .f32⟩ : BufTy).Contents (Elt F)),
    unary main_v74 main_v76 (broadcastInDim S1024x1x201 ![0, 2] bcast_S1024x201_S1024x1x201_0_2 : (⟨S1024x201, .f32⟩ : BufTy).Contents (Elt F) → (⟨S1024x1x201, .f32⟩ : BufTy).Contents (Elt F)),
    unary main_v75 main_v77 (broadcastInDim S1024x21x201 ![0, 1, 2] bcast_S1024x21x1_S1024x21x201_0_1_2 : (⟨S1024x21x1, .f32⟩ : BufTy).Contents (Elt F) → (⟨S1024x21x201, .f32⟩ : BufTy).Contents (Elt F)),
    unary main_v76 main_v78 (broadcastInDim S1024x21x201 ![0, 1, 2] bcast_S1024x1x201_S1024x21x201_0_1_2 : (⟨S1024x1x201, .f32⟩ : BufTy).Contents (Elt F) → (⟨S1024x21x201, .f32⟩ : BufTy).Contents (Elt F)),
    binary main_v77 main_v78 main_v79 (mulf : (⟨S1024x21x201, .f32⟩ : BufTy).Contents (Elt F) → (⟨S1024x21x201, .f32⟩ : BufTy).Contents (Elt F) → (⟨S1024x21x201, .f32⟩ : BufTy).Contents (Elt F)),
    reshape main_v79 main_v80 rfl shapeCasts_S1024x21x201_S1024x4221,
    binary main_v80 main_arg9 main_v81 ((fun l r => Host.dotGeneral dot_S1024x4221_S4221x128_S1024x128_1_0_0_1_n_n none l r) : (⟨S1024x4221, .f32⟩ : BufTy).Contents (Elt F) → (⟨S4221x128, .f32⟩ : BufTy).Contents (Elt F) → (⟨S1024x128, .f32⟩ : BufTy).Contents (Elt F)),
    unary main_arg10 main_v82 (broadcastInDim S1x128 ![1] bcast_S128_S1x128_1 : (⟨S128, .f32⟩ : BufTy).Contents (Elt F) → (⟨S1x128, .f32⟩ : BufTy).Contents (Elt F)),
    unary main_v82 main_v83 (broadcastInDim S1024x128 ![0, 1] bcast_S1x128_S1024x128_0_1 : (⟨S1x128, .f32⟩ : BufTy).Contents (Elt F) → (⟨S1024x128, .f32⟩ : BufTy).Contents (Elt F)),
    binary main_v81 main_v83 main_v84 (addf : (⟨S1024x128, .f32⟩ : BufTy).Contents (Elt F) → (⟨S1024x128, .f32⟩ : BufTy).Contents (Elt F) → (⟨S1024x128, .f32⟩ : BufTy).Contents (Elt F)),
    nullary main_cst_17 (constant S_ .f32 0x00000000#32),
    binary main_v84 main_cst_17 main_v85 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    nullary main_cst_18 (constant S_ .f32 0x44800000#32),
    unary main_cst_18 main_v86 (broadcastInDim S128 ![] bcast_S_S128 : (⟨S_, .f32⟩ : BufTy).Contents (Elt F) → (⟨S128, .f32⟩ : BufTy).Contents (Elt F)),
    binary main_v85 main_v86 main_v87 (Host.divf : (⟨S128, .f32⟩ : BufTy).Contents (Elt F) → (⟨S128, .f32⟩ : BufTy).Contents (Elt F) → (⟨S128, .f32⟩ : BufTy).Contents (Elt F)),
    nullary main_c_19 (constantI S_ 32 0#32),
    TRef.nullary main_call2.cst (constant S_ .f32 0x00000000#32),
    TRef.binary (.of main_v84) main_call2.cst main_call2.v0 (fun x v => Host.reduceAdd x v reducesTo_S1024x128_S128_d0 h_S_),
    TRef.unary main_call2.v0 main_call2.v1 (broadcastInDim S1x128 ![1] bcast_S128_S1x128_1),
    TRef.nullary main_call2.cst_0 (constant S_ .f32 0x44800000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S1024x128 ![0, 1] bcast_S1x128_S1024x128_0_1),
    TRef.binary (.of main_v84) main_call2.v4 main_call2.v5 subf,
    TRef.binary main_call2.v5 main_call2.v5 main_call2.v6 mulf,
    TRef.unary (.of main_c_19) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S1024x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v87 main_v89 (broadcastInDim S1x128 ![1] bcast_S128_S1x128_1 : (⟨S128, .f32⟩ : BufTy).Contents (Elt F) → (⟨S1x128, .f32⟩ : BufTy).Contents (Elt F)),
    unary main_v89 main_v90 (broadcastInDim S1024x128 ![0, 1] bcast_S1x128_S1024x128_0_1 : (⟨S1x128, .f32⟩ : BufTy).Contents (Elt F) → (⟨S1024x128, .f32⟩ : BufTy).Contents (Elt F)),
    binary main_v84 main_v90 main_v91 (subf : (⟨S1024x128, .f32⟩ : BufTy).Contents (Elt F) → (⟨S1024x128, .f32⟩ : BufTy).Contents (Elt F) → (⟨S1024x128, .f32⟩ : BufTy).Contents (Elt F)),
    nullary main_cst_20 (constant S_ .f32 0x3727C5AC#32),
    unary main_cst_20 main_v92 (broadcastInDim S128 ![] bcast_S_S128 : (⟨S_, .f32⟩ : BufTy).Contents (Elt F) → (⟨S128, .f32⟩ : BufTy).Contents (Elt F)),
    binary main_v88 main_v92 main_v93 (addf : (⟨S128, .f32⟩ : BufTy).Contents (Elt F) → (⟨S128, .f32⟩ : BufTy).Contents (Elt F) → (⟨S128, .f32⟩ : BufTy).Contents (Elt F)),
    unary main_v93 main_v94 (Host.sqrt : (⟨S128, .f32⟩ : BufTy).Contents (Elt F) → (⟨S128, .f32⟩ : BufTy).Contents (Elt F)),
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S1024x128 ![0, 1] bcast_S1x128_S1024x128_0_1 : (⟨S1x128, .f32⟩ : BufTy).Contents (Elt F) → (⟨S1024x128, .f32⟩ : BufTy).Contents (Elt F)),
    binary main_v91 main_v96 main_v97 (Host.divf : (⟨S1024x128, .f32⟩ : BufTy).Contents (Elt F) → (⟨S1024x128, .f32⟩ : BufTy).Contents (Elt F) → (⟨S1024x128, .f32⟩ : BufTy).Contents (Elt F)),
    unary main_arg15 main_v98 (broadcastInDim S1x128 ![1] bcast_S128_S1x128_1 : (⟨S128, .f32⟩ : BufTy).Contents (Elt F) → (⟨S1x128, .f32⟩ : BufTy).Contents (Elt F)),
    unary main_v98 main_v99 (broadcastInDim S1024x128 ![0, 1] bcast_S1x128_S1024x128_0_1 : (⟨S1x128, .f32⟩ : BufTy).Contents (Elt F) → (⟨S1024x128, .f32⟩ : BufTy).Contents (Elt F)),
    binary main_v97 main_v99 main_v100 (mulf : (⟨S1024x128, .f32⟩ : BufTy).Contents (Elt F) → (⟨S1024x128, .f32⟩ : BufTy).Contents (Elt F) → (⟨S1024x128, .f32⟩ : BufTy).Contents (Elt F)),
    unary main_arg16 main_v101 (broadcastInDim S1x128 ![1] bcast_S128_S1x128_1 : (⟨S128, .f32⟩ : BufTy).Contents (Elt F) → (⟨S1x128, .f32⟩ : BufTy).Contents (Elt F)),
    unary main_v101 main_v102 (broadcastInDim S1024x128 ![0, 1] bcast_S1x128_S1024x128_0_1 : (⟨S1x128, .f32⟩ : BufTy).Contents (Elt F) → (⟨S1024x128, .f32⟩ : BufTy).Contents (Elt F)),
    binary main_v100 main_v102 main_v103 (addf : (⟨S1024x128, .f32⟩ : BufTy).Contents (Elt F) → (⟨S1024x128, .f32⟩ : BufTy).Contents (Elt F) → (⟨S1024x128, .f32⟩ : BufTy).Contents (Elt F)),
    TRef.nullary main_call3.cst (constant S_ .f32 0x00000000#32),
    TRef.unary main_call3.cst main_call3.v0 (broadcastInDim S1024x128 ![] bcast_S_S1024x128),
    TRef.binary (.of main_v103) main_call3.v0 main_call3.v1 maximumf,
    binary main_v104 main_arg11 main_v105 ((fun l r => Host.dotGeneral dot_S1024x128_S128x32_S1024x32_1_0_0_1_n_n none l r) : (⟨S1024x128, .f32⟩ : BufTy).Contents (Elt F) → (⟨S128x32, .f32⟩ : BufTy).Contents (Elt F) → (⟨S1024x32, .f32⟩ : BufTy).Contents (Elt F)),
    unary main_arg12 main_v106 (broadcastInDim S1x32 ![1] bcast_S32_S1x32_1 : (⟨S32, .f32⟩ : BufTy).Contents (Elt F) → (⟨S1x32, .f32⟩ : BufTy).Contents (Elt F)),
    unary main_v106 main_v107 (broadcastInDim S1024x32 ![0, 1] bcast_S1x32_S1024x32_0_1 : (⟨S1x32, .f32⟩ : BufTy).Contents (Elt F) → (⟨S1024x32, .f32⟩ : BufTy).Contents (Elt F)),
    binary main_v105 main_v107 main_v108 (addf : (⟨S1024x32, .f32⟩ : BufTy).Contents (Elt F) → (⟨S1024x32, .f32⟩ : BufTy).Contents (Elt F) → (⟨S1024x32, .f32⟩ : BufTy).Contents (Elt F)),
    nullary main_cst_21 (constant S_ .f32 0x00000000#32),
    binary main_v108 main_cst_21 main_v109 ((fun x v => Host.reduceAdd x v reducesTo_S1024x32_S32_d0 h_S_) : (⟨S1024x32, .f32⟩ : BufTy).Contents (Elt F) → (⟨S_, .f32⟩ : BufTy).Contents (Elt F) → (⟨S32, .f32⟩ : BufTy).Contents (Elt F)),
    nullary main_cst_22 (constant S_ .f32 0x44800000#32),
    unary main_cst_22 main_v110 (broadcastInDim S32 ![] bcast_S_S32 : (⟨S_, .f32⟩ : BufTy).Contents (Elt F) → (⟨S32, .f32⟩ : BufTy).Contents (Elt F)),
    binary main_v109 main_v110 main_v111 (Host.divf : (⟨S32, .f32⟩ : BufTy).Contents (Elt F) → (⟨S32, .f32⟩ : BufTy).Contents (Elt F) → (⟨S32, .f32⟩ : BufTy).Contents (Elt F)),
    nullary main_c_23 (constantI S_ 32 0#32),
    TRef.nullary main_call4.cst (constant S_ .f32 0x00000000#32),
    TRef.binary (.of main_v108) main_call4.cst main_call4.v0 (fun x v => Host.reduceAdd x v reducesTo_S1024x32_S32_d0 h_S_),
    TRef.unary main_call4.v0 main_call4.v1 (broadcastInDim S1x32 ![1] bcast_S32_S1x32_1),
    TRef.nullary main_call4.cst_0 (constant S_ .f32 0x44800000#32),
    TRef.unary main_call4.cst_0 main_call4.v2 (broadcastInDim S1x32 ![] bcast_S_S1x32),
    TRef.binary main_call4.v1 main_call4.v2 main_call4.v3 Host.divf,
    TRef.unary main_call4.v3 main_call4.v4 (broadcastInDim S1024x32 ![0, 1] bcast_S1x32_S1024x32_0_1),
    TRef.binary (.of main_v108) main_call4.v4 main_call4.v5 subf,
    TRef.binary main_call4.v5 main_call4.v5 main_call4.v6 mulf,
    TRef.unary (.of main_c_23) main_call4.v7 (sitofp .f32),
    TRef.nullary main_call4.cst_1 (constant S_ .f32 0x44800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S1024x32_S32_d0 h_S_),
    TRef.unary main_call4.v8 main_call4.v10 (broadcastInDim S32 ![] bcast_S_S32),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S32 ![] bcast_S_S32),
    TRef.ternary main_call4.v12 main_call4.v11 main_call4.call0.v1 main_call4.call0.v2 (fun p a b => select (broadcastInDim S32 ![] bcast_S_S32 p) a b),
    unary main_v111 main_v113 (broadcastInDim S1x32 ![1] bcast_S32_S1x32_1 : (⟨S32, .f32⟩ : BufTy).Contents (Elt F) → (⟨S1x32, .f32⟩ : BufTy).Contents (Elt F)),
    unary main_v113 main_v114 (broadcastInDim S1024x32 ![0, 1] bcast_S1x32_S1024x32_0_1 : (⟨S1x32, .f32⟩ : BufTy).Contents (Elt F) → (⟨S1024x32, .f32⟩ : BufTy).Contents (Elt F)),
    binary main_v108 main_v114 main_v115 (subf : (⟨S1024x32, .f32⟩ : BufTy).Contents (Elt F) → (⟨S1024x32, .f32⟩ : BufTy).Contents (Elt F) → (⟨S1024x32, .f32⟩ : BufTy).Contents (Elt F)),
    nullary main_cst_24 (constant S_ .f32 0x3727C5AC#32),
    unary main_cst_24 main_v116 (broadcastInDim S32 ![] bcast_S_S32 : (⟨S_, .f32⟩ : BufTy).Contents (Elt F) → (⟨S32, .f32⟩ : BufTy).Contents (Elt F)),
    binary main_v112 main_v116 main_v117 (addf : (⟨S32, .f32⟩ : BufTy).Contents (Elt F) → (⟨S32, .f32⟩ : BufTy).Contents (Elt F) → (⟨S32, .f32⟩ : BufTy).Contents (Elt F)),
    unary main_v117 main_v118 (Host.sqrt : (⟨S32, .f32⟩ : BufTy).Contents (Elt F) → (⟨S32, .f32⟩ : BufTy).Contents (Elt F)),
    unary main_v118 main_v119 (broadcastInDim S1x32 ![1] bcast_S32_S1x32_1 : (⟨S32, .f32⟩ : BufTy).Contents (Elt F) → (⟨S1x32, .f32⟩ : BufTy).Contents (Elt F)),
    unary main_v119 main_v120 (broadcastInDim S1024x32 ![0, 1] bcast_S1x32_S1024x32_0_1 : (⟨S1x32, .f32⟩ : BufTy).Contents (Elt F) → (⟨S1024x32, .f32⟩ : BufTy).Contents (Elt F)),
    binary main_v115 main_v120 main_v121 (Host.divf : (⟨S1024x32, .f32⟩ : BufTy).Contents (Elt F) → (⟨S1024x32, .f32⟩ : BufTy).Contents (Elt F) → (⟨S1024x32, .f32⟩ : BufTy).Contents (Elt F)),
    unary main_arg17 main_v122 (broadcastInDim S1x32 ![1] bcast_S32_S1x32_1 : (⟨S32, .f32⟩ : BufTy).Contents (Elt F) → (⟨S1x32, .f32⟩ : BufTy).Contents (Elt F)),
    unary main_v122 main_v123 (broadcastInDim S1024x32 ![0, 1] bcast_S1x32_S1024x32_0_1 : (⟨S1x32, .f32⟩ : BufTy).Contents (Elt F) → (⟨S1024x32, .f32⟩ : BufTy).Contents (Elt F)),
    binary main_v121 main_v123 main_v124 (mulf : (⟨S1024x32, .f32⟩ : BufTy).Contents (Elt F) → (⟨S1024x32, .f32⟩ : BufTy).Contents (Elt F) → (⟨S1024x32, .f32⟩ : BufTy).Contents (Elt F)),
    unary main_arg18 main_v125 (broadcastInDim S1x32 ![1] bcast_S32_S1x32_1 : (⟨S32, .f32⟩ : BufTy).Contents (Elt F) → (⟨S1x32, .f32⟩ : BufTy).Contents (Elt F)),
    unary main_v125 main_v126 (broadcastInDim S1024x32 ![0, 1] bcast_S1x32_S1024x32_0_1 : (⟨S1x32, .f32⟩ : BufTy).Contents (Elt F) → (⟨S1024x32, .f32⟩ : BufTy).Contents (Elt F)),
    binary main_v124 main_v126 main_v127 (addf : (⟨S1024x32, .f32⟩ : BufTy).Contents (Elt F) → (⟨S1024x32, .f32⟩ : BufTy).Contents (Elt F) → (⟨S1024x32, .f32⟩ : BufTy).Contents (Elt F)),
    TRef.nullary main_call5.cst (constant S_ .f32 0x00000000#32),
    TRef.unary main_call5.cst main_call5.v0 (broadcastInDim S1024x32 ![] bcast_S_S1024x32),
    TRef.binary (.of main_v127) main_call5.v0 main_call5.v1 maximumf,
    binary main_v128 main_arg13 main_v129 ((fun l r => Host.dotGeneral dot_S1024x32_S32x1_S1024x1_1_0_0_1_n_n none l r) : (⟨S1024x32, .f32⟩ : BufTy).Contents (Elt F) → (⟨S32x1, .f32⟩ : BufTy).Contents (Elt F) → (⟨S1024x1, .f32⟩ : BufTy).Contents (Elt F)),
    unary main_arg14 main_v130 (broadcastInDim S1x1 ![1] bcast_S1_S1x1_1 : (⟨S1, .f32⟩ : BufTy).Contents (Elt F) → (⟨S1x1, .f32⟩ : BufTy).Contents (Elt F)),
    unary main_v130 main_v131 (broadcastInDim S1024x1 ![0, 1] bcast_S1x1_S1024x1_0_1 : (⟨S1x1, .f32⟩ : BufTy).Contents (Elt F) → (⟨S1024x1, .f32⟩ : BufTy).Contents (Elt F)),
    binary main_v129 main_v131 main_v132 (addf : (⟨S1024x1, .f32⟩ : BufTy).Contents (Elt F) → (⟨S1024x1, .f32⟩ : BufTy).Contents (Elt F) → (⟨S1024x1, .f32⟩ : BufTy).Contents (Elt F)) ]

set_option maxRecDepth 16384 in
set_option maxHeartbeats 4000000 in
/-- @main is that straight line: the three windows in order, the functions' definitions unfolded at their calls and the
    records at their fields; both sides are one chain of steps once sequencing is reassociated. -/
theorem main_eq (c : Dev nD) : main (F := F) c = seq ops := by
  simp only [main, main_part0, main_part1, main_part2, fn_relu.body, fn_relu_0.body, fn_where.body, fn_var.body, fn_relu_1.body, fn_where_3.body, fn_var_2.body, fn_relu_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., binary_bufs_sub .., unary_bufs_sub .., unary_bufs_sub .., unary_bufs_sub .., unary_bufs_sub ..,
    binary_bufs_sub .., reshape_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

set_option maxRecDepth 16384 in
set_option maxHeartbeats 4000000 in
/-- On every device, for any float values, from any memory with zero counters: every weakly fair execution of @main
    terminates, and every final state has each TensorCore buffer at the fold of the operations' results over the
    launch contents. -/
theorem run_after (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      r.2.mem ((c.tc : Thread nD τ).loc b) = after ops (launchContents m c) (Proc.devRef .tc b)) :=
  run_seq scopedRefs_eq scopedSems_eq defs main (fun _ => ops) main_eq (fun _ => ops_sub) m ρ

end Cert.ReferenceIdeal.RefRun

end
-- ==== Proof.RefRun.lean ====
/-
  The reference program's result read back through its stage functions.

  The 210 operations are cut into fourteen consecutive stretches, each ending at the buffer one stage function
  describes: the two message sums, the two degree columns, the two layers, the pooled features, the gated
  descriptor, the flattened outer product, and the three dense layers with the two batch normalisations between
  them.  Over any contents, a stretch leaves in its last buffer the stage function of the buffers it reads, and
  leaves every buffer it does not write as it was.  Folding the whole line is folding the stretches in order, so
  the result buffer holds the composition of the stage functions over the arguments' contents, and no argument
  is written.  Running @main is running the line.
-/
import proofs.«144383_j84954453115094_1_alg».proof.Proof.RefRunOps
import proofs.«144383_j84954453115094_1_alg».proof.Proof.RefStages
import proofs.«144383_j84954453115094_1_alg».proof.Proof.RefFusionDef
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A result buffer among a list of references is, as a set of device buffers, inside the list's. -/
theorem writes_sub_of_mem {y : Ref sig .tc} {W : List (Ref sig .tc)} (h : y ∈ W) :
    ({Proc.devRef .tc y} : Finset (DevRef τ sig)) ⊆ (W.map (Proc.devRef (τ := τ) .tc)).toFinset :=
  Finset.singleton_subset_iff.2 (List.mem_toFinset.2 (List.mem_map_of_mem h))

/-- Operations 1 … 13: those that produce the buffer %9 from what is there before them. -/
abbrev seg1 : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg19 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg19 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg19 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg20 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

/-- The buffers operations 1 … 13 write. -/
abbrev w1 : List (Ref sig .tc) := [main_c, main_v0, main_v1, main_c_0, main_v2, main_v3, main_v4, main_v5, main_v6, main_cst, main_v7, main_v8, main_v9]

theorem seg1_writes : (seg1 (F := F)).Forall fun op => op.writes ⊆ ((w1).map (Proc.devRef (τ := τ) .tc)).toFinset :=
  ⟨writes_sub_of_mem (y := main_c) (by decide),
    writes_sub_of_mem (y := main_v0) (by decide),
    writes_sub_of_mem (y := main_v1) (by decide),
    writes_sub_of_mem (y := main_c_0) (by decide),
    writes_sub_of_mem (y := main_v2) (by decide),
    writes_sub_of_mem (y := main_v3) (by decide),
    writes_sub_of_mem (y := main_v4) (by decide),
    writes_sub_of_mem (y := main_v5) (by decide),
    writes_sub_of_mem (y := main_v6) (by decide),
    writes_sub_of_mem (y := main_cst) (by decide),
    writes_sub_of_mem (y := main_v7) (by decide),
    writes_sub_of_mem (y := main_v8) (by decide),
    writes_sub_of_mem (y := main_v9) (by decide)⟩

/-- A buffer they do not write keeps its contents. -/
theorem seg1_frame (V : Valuation τ sig (Elt F)) {r : Ref sig .tc} (hr : r ∉ w1) :
    after (seg1 (F := F)) V (Proc.devRef .tc r) = V (Proc.devRef .tc r) :=
  after_of_writes_sub _ V seg1_writes hr

set_option maxRecDepth 16384 in
set_option maxHeartbeats 4000000 in
/-- Their result is the stage function of the buffers they read. -/
theorem seg1_out (V : Valuation τ sig (Elt F)) :
    after (seg1 (F := F)) V (Proc.devRef .tc main_v9)
      = RefStages.refMsum1 (F := F) (V (Proc.devRef .tc main_arg0)) (V (Proc.devRef .tc main_arg19)) (V (Proc.devRef .tc main_arg20)) := by
  after_results_simp
  rfl

/-- Operations 14 … 23: those that produce the buffer %16 from what is there before them. -/
abbrev seg2 : List (HloOp τ sig (Elt F)) :=
  [ nullary main_cst_1 (constant S_ .f32 0x3F800000#32),
    unary main_cst_1 main_v10 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_arg20 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_3 (constant S_ .f32 0x3F800000#32),
    unary main_cst_3 main_v14 (broadcastInDim S50000 ![] bcast_S_S50000 : (⟨S_, .f32⟩ : BufTy).Contents (Elt F) → (⟨S50000, .f32⟩ : BufTy).Contents (Elt F)),
    binary main_v13 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)) ]

/-- The buffers operations 14 … 23 write. -/
abbrev w2 : List (Ref sig .tc) := [main_cst_1, main_v10, main_cst_2, main_v11, main_v12, main_v13, main_cst_3, main_v14, main_v15, main_v16]

theorem seg2_writes : (seg2 (F := F)).Forall fun op => op.writes ⊆ ((w2).map (Proc.devRef (τ := τ) .tc)).toFinset :=
  ⟨writes_sub_of_mem (y := main_cst_1) (by decide),
    writes_sub_of_mem (y := main_v10) (by decide),
    writes_sub_of_mem (y := main_cst_2) (by decide),
    writes_sub_of_mem (y := main_v11) (by decide),
    writes_sub_of_mem (y := main_v12) (by decide),
    writes_sub_of_mem (y := main_v13) (by decide),
    writes_sub_of_mem (y := main_cst_3) (by decide),
    writes_sub_of_mem (y := main_v14) (by decide),
    writes_sub_of_mem (y := main_v15) (by decide),
    writes_sub_of_mem (y := main_v16) (by decide)⟩

/-- A buffer they do not write keeps its contents. -/
theorem seg2_frame (V : Valuation τ sig (Elt F)) {r : Ref sig .tc} (hr : r ∉ w2) :
    after (seg2 (F := F)) V (Proc.devRef .tc r) = V (Proc.devRef .tc r) :=
  after_of_writes_sub _ V seg2_writes hr

set_option maxRecDepth 16384 in
set_option maxHeartbeats 4000000 in
/-- Their result is the stage function of the buffers they read. -/
theorem seg2_out (V : Valuation τ sig (Elt F)) :
    after (seg2 (F := F)) V (Proc.devRef .tc main_v16)
      = RefStages.refDegCol (F := F) (V (Proc.devRef .tc main_arg20)) := by
  after_results_simp
  rfl

/-- Operations 24 … 32: those that produce the buffer %23 from what is there before them. -/
abbrev seg3 : List (HloOp τ sig (Elt F)) :=
  [ unary main_v16 main_v17 (broadcastInDim S50000x128 ![0, 1] bcast_S50000x1_S50000x128_0_1 : (⟨S50000x1, .f32⟩ : BufTy).Contents (Elt F) → (⟨S50000x128, .f32⟩ : BufTy).Contents (Elt F)),
    binary main_v9 main_v17 main_v18 (Host.divf : (⟨S50000x128, .f32⟩ : BufTy).Contents (Elt F) → (⟨S50000x128, .f32⟩ : BufTy).Contents (Elt F) → (⟨S50000x128, .f32⟩ : BufTy).Contents (Elt F)),
    binary main_v18 main_arg3 main_v19 ((fun l r => Host.dotGeneral dot_S50000x128_S128x100_S50000x100_1_0_0_1_n_n none l r) : (⟨S50000x128, .f32⟩ : BufTy).Contents (Elt F) → (⟨S128x100, .f32⟩ : BufTy).Contents (Elt F) → (⟨S50000x100, .f32⟩ : BufTy).Contents (Elt F)),
    unary main_arg4 main_v20 (broadcastInDim S1x100 ![1] bcast_S100_S1x100_1 : (⟨S100, .f32⟩ : BufTy).Contents (Elt F) → (⟨S1x100, .f32⟩ : BufTy).Contents (Elt F)),
    unary main_v20 main_v21 (broadcastInDim S50000x100 ![0, 1] bcast_S1x100_S50000x100_0_1 : (⟨S1x100, .f32⟩ : BufTy).Contents (Elt F) → (⟨S50000x100, .f32⟩ : BufTy).Contents (Elt F)),
    binary main_v19 main_v21 main_v22 (addf : (⟨S50000x100, .f32⟩ : BufTy).Contents (Elt F) → (⟨S50000x100, .f32⟩ : BufTy).Contents (Elt F) → (⟨S50000x100, .f32⟩ : BufTy).Contents (Elt F)),
    TRef.nullary main_call0.cst (constant S_ .f32 0x00000000#32),
    TRef.unary main_call0.cst main_call0.v0 (broadcastInDim S50000x100 ![] bcast_S_S50000x100),
    TRef.binary (.of main_v22) main_call0.v0 main_call0.v1 maximumf ]

/-- The buffers operations 24 … 32 write. -/
abbrev w3 : List (Ref sig .tc) := [main_v17, main_v18, main_v19, main_v20, main_v21, main_v22, main_call0.cst.ref, main_call0.v0.ref, main_call0.v1.ref]

theorem seg3_writes : (seg3 (F := F)).Forall fun op => op.writes ⊆ ((w3).map (Proc.devRef (τ := τ) .tc)).toFinset :=
  ⟨writes_sub_of_mem (y := main_v17) (by decide),
    writes_sub_of_mem (y := main_v18) (by decide),
    writes_sub_of_mem (y := main_v19) (by decide),
    writes_sub_of_mem (y := main_v20) (by decide),
    writes_sub_of_mem (y := main_v21) (by decide),
    writes_sub_of_mem (y := main_v22) (by decide),
    writes_sub_of_mem (y := main_call0.cst.ref) (by decide),
    writes_sub_of_mem (y := main_call0.v0.ref) (by decide),
    writes_sub_of_mem (y := main_call0.v1.ref) (by decide)⟩

/-- A buffer they do not write keeps its contents. -/
theorem seg3_frame (V : Valuation τ sig (Elt F)) {r : Ref sig .tc} (hr : r ∉ w3) :
    after (seg3 (F := F)) V (Proc.devRef .tc r) = V (Proc.devRef .tc r) :=
  after_of_writes_sub _ V seg3_writes hr

set_option maxRecDepth 16384 in
set_option maxHeartbeats 4000000 in
/-- Their result is the stage function of the buffers they read. -/
theorem seg3_out (V : Valuation τ sig (Elt F)) :
    after (seg3 (F := F)) V (Proc.devRef .tc main_v23)
      = RefStages.refLayer1 (F := F) (V (Proc.devRef .tc main_v9)) (V (Proc.devRef .tc main_v16)) (V (Proc.devRef .tc main_arg3)) (V (Proc.devRef .tc main_arg4)) := by
  after_results_simp
  rfl

/-- Operations 33 … 45: those that produce the buffer %33 from what is there before them. -/
abbrev seg4 : List (HloOp τ sig (Elt F)) :=
  [ nullary main_c_4 (constantI S_ 32 0#32),
    unary main_c_4 main_v24 (broadcastInDim S1600000 ![] bcast_S_S1600000 : (⟨S_, .i32⟩ : BufTy).Contents (Elt F) → (⟨S1600000, .i32⟩ : BufTy).Contents (Elt F)),
    binary main_arg19 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v26 (broadcastInDim S1600000 ![] bcast_S_S1600000 : (⟨S_, .i32⟩ : BufTy).Contents (Elt F) → (⟨S1600000, .i32⟩ : BufTy).Contents (Elt F)),
    binary main_arg19 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg19 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v23 main_v29 main_v30 ((fun x i => Host.gather gather_S50000x100_S1600000x1_S1600000x100_1_0_n_n_0_1_1100 x i) : (⟨S50000x100, .f32⟩ : BufTy).Contents (Elt F) → (⟨S1600000x1, .i32⟩ : BufTy).Contents (Elt F) → (⟨S1600000x100, .f32⟩ : BufTy).Contents (Elt F)),
    nullary main_cst_6 (constant S_ .f32 0x00000000#32),
    unary main_cst_6 main_v31 (broadcastInDim S50000x100 ![] bcast_S_S50000x100 : (⟨S_, .f32⟩ : BufTy).Contents (Elt F) → (⟨S50000x100, .f32⟩ : BufTy).Contents (Elt F)),
    unary main_arg20 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S50000x100_S1600000x1_S1600000x100_1_0_0_1 x i u) : (⟨S50000x100, .f32⟩ : BufTy).Contents (Elt F) → (⟨S1600000x1, .i32⟩ : BufTy).Contents (Elt F) → (⟨S1600000x100, .f32⟩ : BufTy).Contents (Elt F) → (⟨S50000x100, .f32⟩ : BufTy).Contents (Elt F)) ]

/-- The buffers operations 33 … 45 write. -/
abbrev w4 : List (Ref sig .tc) := [main_c_4, main_v24, main_v25, main_c_5, main_v26, main_v27, main_v28, main_v29, main_v30, main_cst_6, main_v31, main_v32, main_v33]

theorem seg4_writes : (seg4 (F := F)).Forall fun op => op.writes ⊆ ((w4).map (Proc.devRef (τ := τ) .tc)).toFinset :=
  ⟨writes_sub_of_mem (y := main_c_4) (by decide),
    writes_sub_of_mem (y := main_v24) (by decide),
    writes_sub_of_mem (y := main_v25) (by decide),
    writes_sub_of_mem (y := main_c_5) (by decide),
    writes_sub_of_mem (y := main_v26) (by decide),
    writes_sub_of_mem (y := main_v27) (by decide),
    writes_sub_of_mem (y := main_v28) (by decide),
    writes_sub_of_mem (y := main_v29) (by decide),
    writes_sub_of_mem (y := main_v30) (by decide),
    writes_sub_of_mem (y := main_cst_6) (by decide),
    writes_sub_of_mem (y := main_v31) (by decide),
    writes_sub_of_mem (y := main_v32) (by decide),
    writes_sub_of_mem (y := main_v33) (by decide)⟩

/-- A buffer they do not write keeps its contents. -/
theorem seg4_frame (V : Valuation τ sig (Elt F)) {r : Ref sig .tc} (hr : r ∉ w4) :
    after (seg4 (F := F)) V (Proc.devRef .tc r) = V (Proc.devRef .tc r) :=
  after_of_writes_sub _ V seg4_writes hr

set_option maxRecDepth 16384 in
set_option maxHeartbeats 4000000 in
/-- Their result is the stage function of the buffers they read. -/
theorem seg4_out (V : Valuation τ sig (Elt F)) :
    after (seg4 (F := F)) V (Proc.devRef .tc main_v33)
      = RefStages.refMsum2 (F := F) (V (Proc.devRef .tc main_v23)) (V (Proc.devRef .tc main_arg19)) (V (Proc.devRef .tc main_arg20)) := by
  after_results_simp
  rfl

/-- Operations 46 … 55: those that produce the buffer %40 from what is there before them. -/
abbrev seg5 : List (HloOp τ sig (Elt F)) :=
  [ nullary main_cst_7 (constant S_ .f32 0x3F800000#32),
    unary main_cst_7 main_v34 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v35 (broadcastInDim S50000 ![] bcast_S_S50000 : (⟨S_, .f32⟩ : BufTy).Contents (Elt F) → (⟨S50000, .f32⟩ : BufTy).Contents (Elt F)),
    unary main_arg20 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_9 (constant S_ .f32 0x3F800000#32),
    unary main_cst_9 main_v38 (broadcastInDim S50000 ![] bcast_S_S50000 : (⟨S_, .f32⟩ : BufTy).Contents (Elt F) → (⟨S50000, .f32⟩ : BufTy).Contents (Elt F)),
    binary main_v37 main_v38 main_v39 (maximumf : (⟨S50000, .f32⟩ : BufTy).Contents (Elt F) → (⟨S50000, .f32⟩ : BufTy).Contents (Elt F) → (⟨S50000, .f32⟩ : BufTy).Contents (Elt F)),
    unary main_v39 main_v40 (broadcastInDim S50000x1 ![0] bcast_S50000_S50000x1_0 : (⟨S50000, .f32⟩ : BufTy).Contents (Elt F) → (⟨S50000x1, .f32⟩ : BufTy).Contents (Elt F)) ]

/-- The buffers operations 46 … 55 write. -/
abbrev w5 : List (Ref sig .tc) := [main_cst_7, main_v34, main_cst_8, main_v35, main_v36, main_v37, main_cst_9, main_v38, main_v39, main_v40]

theorem seg5_writes : (seg5 (F := F)).Forall fun op => op.writes ⊆ ((w5).map (Proc.devRef (τ := τ) .tc)).toFinset :=
  ⟨writes_sub_of_mem (y := main_cst_7) (by decide),
    writes_sub_of_mem (y := main_v34) (by decide),
    writes_sub_of_mem (y := main_cst_8) (by decide),
    writes_sub_of_mem (y := main_v35) (by decide),
    writes_sub_of_mem (y := main_v36) (by decide),
    writes_sub_of_mem (y := main_v37) (by decide),
    writes_sub_of_mem (y := main_cst_9) (by decide),
    writes_sub_of_mem (y := main_v38) (by decide),
    writes_sub_of_mem (y := main_v39) (by decide),
    writes_sub_of_mem (y := main_v40) (by decide)⟩

/-- A buffer they do not write keeps its contents. -/
theorem seg5_frame (V : Valuation τ sig (Elt F)) {r : Ref sig .tc} (hr : r ∉ w5) :
    after (seg5 (F := F)) V (Proc.devRef .tc r) = V (Proc.devRef .tc r) :=
  after_of_writes_sub _ V seg5_writes hr

set_option maxRecDepth 16384 in
set_option maxHeartbeats 4000000 in
/-- Their result is the stage function of the buffers they read. -/
theorem seg5_out (V : Valuation τ sig (Elt F)) :
    after (seg5 (F := F)) V (Proc.devRef .tc main_v40)
      = RefStages.refDegCol (F := F) (V (Proc.devRef .tc main_arg20)) := by
  after_results_simp
  rfl

/-- Operations 56 … 64: those that produce the buffer %47 from what is there before them. -/
abbrev seg6 : List (HloOp τ sig (Elt F)) :=
  [ unary main_v40 main_v41 (broadcastInDim S50000x100 ![0, 1] bcast_S50000x1_S50000x100_0_1 : (⟨S50000x1, .f32⟩ : BufTy).Contents (Elt F) → (⟨S50000x100, .f32⟩ : BufTy).Contents (Elt F)),
    binary main_v33 main_v41 main_v42 (Host.divf : (⟨S50000x100, .f32⟩ : BufTy).Contents (Elt F) → (⟨S50000x100, .f32⟩ : BufTy).Contents (Elt F) → (⟨S50000x100, .f32⟩ : BufTy).Contents (Elt F)),
    binary main_v42 main_arg5 main_v43 ((fun l r => Host.dotGeneral dot_S50000x100_S100x20_S50000x20_1_0_0_1_n_n none l r) : (⟨S50000x100, .f32⟩ : BufTy).Contents (Elt F) → (⟨S100x20, .f32⟩ : BufTy).Contents (Elt F) → (⟨S50000x20, .f32⟩ : BufTy).Contents (Elt F)),
    unary main_arg6 main_v44 (broadcastInDim S1x20 ![1] bcast_S20_S1x20_1 : (⟨S20, .f32⟩ : BufTy).Contents (Elt F) → (⟨S1x20, .f32⟩ : BufTy).Contents (Elt F)),
    unary main_v44 main_v45 (broadcastInDim S50000x20 ![0, 1] bcast_S1x20_S50000x20_0_1 : (⟨S1x20, .f32⟩ : BufTy).Contents (Elt F) → (⟨S50000x20, .f32⟩ : BufTy).Contents (Elt F)),
    binary main_v43 main_v45 main_v46 (addf : (⟨S50000x20, .f32⟩ : BufTy).Contents (Elt F) → (⟨S50000x20, .f32⟩ : BufTy).Contents (Elt F) → (⟨S50000x20, .f32⟩ : BufTy).Contents (Elt F)),
    TRef.nullary main_call1.cst (constant S_ .f32 0x00000000#32),
    TRef.unary main_call1.cst main_call1.v0 (broadcastInDim S50000x20 ![] bcast_S_S50000x20),
    TRef.binary (.of main_v46) main_call1.v0 main_call1.v1 maximumf ]

/-- The buffers operations 56 … 64 write. -/
abbrev w6 : List (Ref sig .tc) := [main_v41, main_v42, main_v43, main_v44, main_v45, main_v46, main_call1.cst.ref, main_call1.v0.ref, main_call1.v1.ref]

theorem seg6_writes : (seg6 (F := F)).Forall fun op => op.writes ⊆ ((w6).map (Proc.devRef (τ := τ) .tc)).toFinset :=
  ⟨writes_sub_of_mem (y := main_v41) (by decide),
    writes_sub_of_mem (y := main_v42) (by decide),
    writes_sub_of_mem (y := main_v43) (by decide),
    writes_sub_of_mem (y := main_v44) (by decide),
    writes_sub_of_mem (y := main_v45) (by decide),
    writes_sub_of_mem (y := main_v46) (by decide),
    writes_sub_of_mem (y := main_call1.cst.ref) (by decide),
    writes_sub_of_mem (y := main_call1.v0.ref) (by decide),
    writes_sub_of_mem (y := main_call1.v1.ref) (by decide)⟩

/-- A buffer they do not write keeps its contents. -/
theorem seg6_frame (V : Valuation τ sig (Elt F)) {r : Ref sig .tc} (hr : r ∉ w6) :
    after (seg6 (F := F)) V (Proc.devRef .tc r) = V (Proc.devRef .tc r) :=
  after_of_writes_sub _ V seg6_writes hr

set_option maxRecDepth 16384 in
set_option maxHeartbeats 4000000 in
/-- Their result is the stage function of the buffers they read. -/
theorem seg6_out (V : Valuation τ sig (Elt F)) :
    after (seg6 (F := F)) V (Proc.devRef .tc main_v47)
      = RefStages.refLayer2 (F := F) (V (Proc.devRef .tc main_v33)) (V (Proc.devRef .tc main_v40)) (V (Proc.devRef .tc main_arg5)) (V (Proc.devRef .tc main_arg6)) := by
  after_results_simp
  rfl

/-- Operations 65 … 80: those that produce the buffer %59 from what is there before them. -/
abbrev seg7 : List (HloOp τ sig (Elt F)) :=
  [ nullary main_cst_10 (constant S_ .f32 0x3F800000#32),
    unary main_cst_10 main_v48 (broadcastInDim S50000 ![] bcast_S_S50000 : (⟨S_, .f32⟩ : BufTy).Contents (Elt F) → (⟨S50000, .f32⟩ : BufTy).Contents (Elt F)),
    nullary main_cst_11 (constant S_ .f32 0x00000000#32),
    unary main_cst_11 main_v49 (broadcastInDim S1024 ![] bcast_S_S1024 : (⟨S_, .f32⟩ : BufTy).Contents (Elt F) → (⟨S1024, .f32⟩ : BufTy).Contents (Elt F)),
    unary main_arg21 main_v50 (broadcastInDim S50000x1 ![0] bcast_S50000_S50000x1_0 : (⟨S50000, .i32⟩ : BufTy).Contents (Elt F) → (⟨S50000x1, .i32⟩ : BufTy).Contents (Elt F)),
    ternary main_v49 main_v50 main_v48 main_v51 ((fun x i u => Host.scatterAdd scatter_S1024_S50000x1_S50000_n_0_0_1 x i u) : (⟨S1024, .f32⟩ : BufTy).Contents (Elt F) → (⟨S50000x1, .i32⟩ : BufTy).Contents (Elt F) → (⟨S50000, .f32⟩ : BufTy).Contents (Elt F) → (⟨S1024, .f32⟩ : BufTy).Contents (Elt F)),
    nullary main_cst_12 (constant S_ .f32 0x00000000#32),
    unary main_cst_12 main_v52 (broadcastInDim S1024x20 ![] bcast_S_S1024x20 : (⟨S_, .f32⟩ : BufTy).Contents (Elt F) → (⟨S1024x20, .f32⟩ : BufTy).Contents (Elt F)),
    unary main_arg21 main_v53 (broadcastInDim S50000x1 ![0] bcast_S50000_S50000x1_0 : (⟨S50000, .i32⟩ : BufTy).Contents (Elt F) → (⟨S50000x1, .i32⟩ : BufTy).Contents (Elt F)),
    ternary main_v52 main_v53 main_v47 main_v54 ((fun x i u => Host.scatterAdd scatter_S1024x20_S50000x1_S50000x20_1_0_0_1 x i u) : (⟨S1024x20, .f32⟩ : BufTy).Contents (Elt F) → (⟨S50000x1, .i32⟩ : BufTy).Contents (Elt F) → (⟨S50000x20, .f32⟩ : BufTy).Contents (Elt F) → (⟨S1024x20, .f32⟩ : BufTy).Contents (Elt F)),
    nullary main_cst_13 (constant S_ .f32 0x3F800000#32),
    unary main_cst_13 main_v55 (broadcastInDim S1024 ![] bcast_S_S1024 : (⟨S_, .f32⟩ : BufTy).Contents (Elt F) → (⟨S1024, .f32⟩ : BufTy).Contents (Elt F)),
    binary main_v51 main_v55 main_v56 (maximumf : (⟨S1024, .f32⟩ : BufTy).Contents (Elt F) → (⟨S1024, .f32⟩ : BufTy).Contents (Elt F) → (⟨S1024, .f32⟩ : BufTy).Contents (Elt F)),
    unary main_v56 main_v57 (broadcastInDim S1024x1 ![0] bcast_S1024_S1024x1_0 : (⟨S1024, .f32⟩ : BufTy).Contents (Elt F) → (⟨S1024x1, .f32⟩ : BufTy).Contents (Elt F)),
    unary main_v57 main_v58 (broadcastInDim S1024x20 ![0, 1] bcast_S1024x1_S1024x20_0_1 : (⟨S1024x1, .f32⟩ : BufTy).Contents (Elt F) → (⟨S1024x20, .f32⟩ : BufTy).Contents (Elt F)),
    binary main_v54 main_v58 main_v59 (Host.divf : (⟨S1024x20, .f32⟩ : BufTy).Contents (Elt F) → (⟨S1024x20, .f32⟩ : BufTy).Contents (Elt F) → (⟨S1024x20, .f32⟩ : BufTy).Contents (Elt F)) ]

/-- The buffers operations 65 … 80 write. -/
abbrev w7 : List (Ref sig .tc) := [main_cst_10, main_v48, main_cst_11, main_v49, main_v50, main_v51, main_cst_12, main_v52, main_v53, main_v54, main_cst_13, main_v55, main_v56, main_v57, main_v58, main_v59]

theorem seg7_writes : (seg7 (F := F)).Forall fun op => op.writes ⊆ ((w7).map (Proc.devRef (τ := τ) .tc)).toFinset :=
  ⟨writes_sub_of_mem (y := main_cst_10) (by decide),
    writes_sub_of_mem (y := main_v48) (by decide),
    writes_sub_of_mem (y := main_cst_11) (by decide),
    writes_sub_of_mem (y := main_v49) (by decide),
    writes_sub_of_mem (y := main_v50) (by decide),
    writes_sub_of_mem (y := main_v51) (by decide),
    writes_sub_of_mem (y := main_cst_12) (by decide),
    writes_sub_of_mem (y := main_v52) (by decide),
    writes_sub_of_mem (y := main_v53) (by decide),
    writes_sub_of_mem (y := main_v54) (by decide),
    writes_sub_of_mem (y := main_cst_13) (by decide),
    writes_sub_of_mem (y := main_v55) (by decide),
    writes_sub_of_mem (y := main_v56) (by decide),
    writes_sub_of_mem (y := main_v57) (by decide),
    writes_sub_of_mem (y := main_v58) (by decide),
    writes_sub_of_mem (y := main_v59) (by decide)⟩

/-- A buffer they do not write keeps its contents. -/
theorem seg7_frame (V : Valuation τ sig (Elt F)) {r : Ref sig .tc} (hr : r ∉ w7) :
    after (seg7 (F := F)) V (Proc.devRef .tc r) = V (Proc.devRef .tc r) :=
  after_of_writes_sub _ V seg7_writes hr

set_option maxRecDepth 16384 in
set_option maxHeartbeats 4000000 in
/-- Their result is the stage function of the buffers they read. -/
theorem seg7_out (V : Valuation τ sig (Elt F)) :
    after (seg7 (F := F)) V (Proc.devRef .tc main_v59)
      = RefStages.refHg (F := F) (V (Proc.devRef .tc main_v47)) (V (Proc.devRef .tc main_arg21)) := by
  after_results_simp
  rfl

/-- Operations 81 … 94: those that produce the buffer %71 from what is there before them. -/
abbrev seg8 : List (HloOp τ sig (Elt F)) :=
  [ binary main_v59 main_arg2 main_v60 ((fun a b => concatenate S1024x220 1 [⟨S1024x20, a⟩, ⟨S1024x200, b⟩] concatenates_S1024x20_S1024x200_S1024x220_d1) : (⟨S1024x20, .f32⟩ : BufTy).Contents (Elt F) → (⟨S1024x200, .f32⟩ : BufTy).Contents (Elt F) → (⟨S1024x220, .f32⟩ : BufTy).Contents (Elt F)),
    binary main_v60 main_arg7 main_v61 ((fun l r => Host.dotGeneral dot_S1024x220_S220x200_S1024x200_1_0_0_1_n_n none l r) : (⟨S1024x220, .f32⟩ : BufTy).Contents (Elt F) → (⟨S220x200, .f32⟩ : BufTy).Contents (Elt F) → (⟨S1024x200, .f32⟩ : BufTy).Contents (Elt F)),
    unary main_arg8 main_v62 (broadcastInDim S1x200 ![1] bcast_S200_S1x200_1 : (⟨S200, .f32⟩ : BufTy).Contents (Elt F) → (⟨S1x200, .f32⟩ : BufTy).Contents (Elt F)),
    unary main_v62 main_v63 (broadcastInDim S1024x200 ![0, 1] bcast_S1x200_S1024x200_0_1 : (⟨S1x200, .f32⟩ : BufTy).Contents (Elt F) → (⟨S1024x200, .f32⟩ : BufTy).Contents (Elt F)),
    binary main_v61 main_v63 main_v64 (addf : (⟨S1024x200, .f32⟩ : BufTy).Contents (Elt F) → (⟨S1024x200, .f32⟩ : BufTy).Contents (Elt F) → (⟨S1024x200, .f32⟩ : BufTy).Contents (Elt F)),
    unary main_v64 main_v65 (Host.negf : (⟨S1024x200, .f32⟩ : BufTy).Contents (Elt F) → (⟨S1024x200, .f32⟩ : BufTy).Contents (Elt F)),
    unary main_v65 main_v66 (Host.exp : (⟨S1024x200, .f32⟩ : BufTy).Contents (Elt F) → (⟨S1024x200, .f32⟩ : BufTy).Contents (Elt F)),
    nullary main_cst_14 (constant S_ .f32 0x3F800000#32),
    unary main_cst_14 main_v67 (broadcastInDim S1024x200 ![] bcast_S_S1024x200 : (⟨S_, .f32⟩ : BufTy).Contents (Elt F) → (⟨S1024x200, .f32⟩ : BufTy).Contents (Elt F)),
    binary main_v67 main_v66 main_v68 (addf : (⟨S1024x200, .f32⟩ : BufTy).Contents (Elt F) → (⟨S1024x200, .f32⟩ : BufTy).Contents (Elt F) → (⟨S1024x200, .f32⟩ : BufTy).Contents (Elt F)),
    nullary main_cst_15 (constant S_ .f32 0x3F800000#32),
    unary main_cst_15 main_v69 (broadcastInDim S1024x200 ![] bcast_S_S1024x200 : (⟨S_, .f32⟩ : BufTy).Contents (Elt F) → (⟨S1024x200, .f32⟩ : BufTy).Contents (Elt F)),
    binary main_v69 main_v68 main_v70 (Host.divf : (⟨S1024x200, .f32⟩ : BufTy).Contents (Elt F) → (⟨S1024x200, .f32⟩ : BufTy).Contents (Elt F) → (⟨S1024x200, .f32⟩ : BufTy).Contents (Elt F)),
    binary main_v70 main_arg2 main_v71 (mulf : (⟨S1024x200, .f32⟩ : BufTy).Contents (Elt F) → (⟨S1024x200, .f32⟩ : BufTy).Contents (Elt F) → (⟨S1024x200, .f32⟩ : BufTy).Contents (Elt F)) ]

/-- The buffers operations 81 … 94 write. -/
abbrev w8 : List (Ref sig .tc) := [main_v60, main_v61, main_v62, main_v63, main_v64, main_v65, main_v66, main_cst_14, main_v67, main_v68, main_cst_15, main_v69, main_v70, main_v71]

theorem seg8_writes : (seg8 (F := F)).Forall fun op => op.writes ⊆ ((w8).map (Proc.devRef (τ := τ) .tc)).toFinset :=
  ⟨writes_sub_of_mem (y := main_v60) (by decide),
    writes_sub_of_mem (y := main_v61) (by decide),
    writes_sub_of_mem (y := main_v62) (by decide),
    writes_sub_of_mem (y := main_v63) (by decide),
    writes_sub_of_mem (y := main_v64) (by decide),
    writes_sub_of_mem (y := main_v65) (by decide),
    writes_sub_of_mem (y := main_v66) (by decide),
    writes_sub_of_mem (y := main_cst_14) (by decide),
    writes_sub_of_mem (y := main_v67) (by decide),
    writes_sub_of_mem (y := main_v68) (by decide),
    writes_sub_of_mem (y := main_cst_15) (by decide),
    writes_sub_of_mem (y := main_v69) (by decide),
    writes_sub_of_mem (y := main_v70) (by decide),
    writes_sub_of_mem (y := main_v71) (by decide)⟩

/-- A buffer they do not write keeps its contents. -/
theorem seg8_frame (V : Valuation τ sig (Elt F)) {r : Ref sig .tc} (hr : r ∉ w8) :
    after (seg8 (F := F)) V (Proc.devRef .tc r) = V (Proc.devRef .tc r) :=
  after_of_writes_sub _ V seg8_writes hr

set_option maxRecDepth 16384 in
set_option maxHeartbeats 4000000 in
/-- Their result is the stage function of the buffers they read. -/
theorem seg8_out (V : Valuation τ sig (Elt F)) :
    after (seg8 (F := F)) V (Proc.devRef .tc main_v71)
      = RefStages.refFusionGated (F := F) (V (Proc.devRef .tc main_v59)) (V (Proc.devRef .tc main_arg2)) (V (Proc.devRef .tc main_arg7)) (V (Proc.devRef .tc main_arg8)) := by
  after_results_simp
  rfl

/-- Operations 95 … 104: those that produce the buffer %80 from what is there before them. -/
abbrev seg9 : List (HloOp τ sig (Elt F)) :=
  [ nullary main_cst_16 (constant S_ .f32 0x3F800000#32),
    unary main_cst_16 main_v72 (broadcastInDim S1024x1 ![] bcast_S_S1024x1 : (⟨S_, .f32⟩ : BufTy).Contents (Elt F) → (⟨S1024x1, .f32⟩ : BufTy).Contents (Elt F)),
    binary main_v59 main_v72 main_v73 ((fun a b => concatenate S1024x21 1 [⟨S1024x20, a⟩, ⟨S1024x1, b⟩] concatenates_S1024x20_S1024x1_S1024x21_d1) : (⟨S1024x20, .f32⟩ : BufTy).Contents (Elt F) → (⟨S1024x1, .f32⟩ : BufTy).Contents (Elt F) → (⟨S1024x21, .f32⟩ : BufTy).Contents (Elt F)),
    binary main_v71 main_v72 main_v74 ((fun a b => concatenate S1024x201 1 [⟨S1024x200, a⟩, ⟨S1024x1, b⟩] concatenates_S1024x200_S1024x1_S1024x201_d1) : (⟨S1024x200, .f32⟩ : BufTy).Contents (Elt F) → (⟨S1024x1, .f32⟩ : BufTy).Contents (Elt F) → (⟨S1024x201, .f32⟩ : BufTy).Contents (Elt F)),
    unary main_v73 main_v75 (broadcastInDim S1024x21x1 ![0, 1] bcast_S1024x21_S1024x21x1_0_1 : (⟨S1024x21, .f32⟩ : BufTy).Contents (Elt F) → (⟨S1024x21x1, .f32⟩ : BufTy).Contents (Elt F)),
    unary main_v74 main_v76 (broadcastInDim S1024x1x201 ![0, 2] bcast_S1024x201_S1024x1x201_0_2 : (⟨S1024x201, .f32⟩ : BufTy).Contents (Elt F) → (⟨S1024x1x201, .f32⟩ : BufTy).Contents (Elt F)),
    unary main_v75 main_v77 (broadcastInDim S1024x21x201 ![0, 1, 2] bcast_S1024x21x1_S1024x21x201_0_1_2 : (⟨S1024x21x1, .f32⟩ : BufTy).Contents (Elt F) → (⟨S1024x21x201, .f32⟩ : BufTy).Contents (Elt F)),
    unary main_v76 main_v78 (broadcastInDim S1024x21x201 ![0, 1, 2] bcast_S1024x1x201_S1024x21x201_0_1_2 : (⟨S1024x1x201, .f32⟩ : BufTy).Contents (Elt F) → (⟨S1024x21x201, .f32⟩ : BufTy).Contents (Elt F)),
    binary main_v77 main_v78 main_v79 (mulf : (⟨S1024x21x201, .f32⟩ : BufTy).Contents (Elt F) → (⟨S1024x21x201, .f32⟩ : BufTy).Contents (Elt F) → (⟨S1024x21x201, .f32⟩ : BufTy).Contents (Elt F)),
    reshape main_v79 main_v80 rfl shapeCasts_S1024x21x201_S1024x4221 ]

/-- The buffers operations 95 … 104 write. -/
abbrev w9 : List (Ref sig .tc) := [main_cst_16, main_v72, main_v73, main_v74, main_v75, main_v76, main_v77, main_v78, main_v79, main_v80]

theorem seg9_writes : (seg9 (F := F)).Forall fun op => op.writes ⊆ ((w9).map (Proc.devRef (τ := τ) .tc)).toFinset :=
  ⟨writes_sub_of_mem (y := main_cst_16) (by decide),
    writes_sub_of_mem (y := main_v72) (by decide),
    writes_sub_of_mem (y := main_v73) (by decide),
    writes_sub_of_mem (y := main_v74) (by decide),
    writes_sub_of_mem (y := main_v75) (by decide),
    writes_sub_of_mem (y := main_v76) (by decide),
    writes_sub_of_mem (y := main_v77) (by decide),
    writes_sub_of_mem (y := main_v78) (by decide),
    writes_sub_of_mem (y := main_v79) (by decide),
    writes_sub_of_mem (y := main_v80) (by decide)⟩

/-- A buffer they do not write keeps its contents. -/
theorem seg9_frame (V : Valuation τ sig (Elt F)) {r : Ref sig .tc} (hr : r ∉ w9) :
    after (seg9 (F := F)) V (Proc.devRef .tc r) = V (Proc.devRef .tc r) :=
  after_of_writes_sub _ V seg9_writes hr

set_option maxRecDepth 16384 in
set_option maxHeartbeats 4000000 in
/-- Their result is the stage function of the buffers they read. -/
theorem seg9_out (V : Valuation τ sig (Elt F)) :
    after (seg9 (F := F)) V (Proc.devRef .tc main_v80)
      = RefStages.refFusionFused (F := F) (V (Proc.devRef .tc main_v59)) (V (Proc.devRef .tc main_v71)) := by
  after_results_simp
  rfl

/-- Operations 105 … 108: those that produce the buffer %84 from what is there before them. -/
abbrev seg10 : List (HloOp τ sig (Elt F)) :=
  [ binary main_v80 main_arg9 main_v81 ((fun l r => Host.dotGeneral dot_S1024x4221_S4221x128_S1024x128_1_0_0_1_n_n none l r) : (⟨S1024x4221, .f32⟩ : BufTy).Contents (Elt F) → (⟨S4221x128, .f32⟩ : BufTy).Contents (Elt F) → (⟨S1024x128, .f32⟩ : BufTy).Contents (Elt F)),
    unary main_arg10 main_v82 (broadcastInDim S1x128 ![1] bcast_S128_S1x128_1 : (⟨S128, .f32⟩ : BufTy).Contents (Elt F) → (⟨S1x128, .f32⟩ : BufTy).Contents (Elt F)),
    unary main_v82 main_v83 (broadcastInDim S1024x128 ![0, 1] bcast_S1x128_S1024x128_0_1 : (⟨S1x128, .f32⟩ : BufTy).Contents (Elt F) → (⟨S1024x128, .f32⟩ : BufTy).Contents (Elt F)),
    binary main_v81 main_v83 main_v84 (addf : (⟨S1024x128, .f32⟩ : BufTy).Contents (Elt F) → (⟨S1024x128, .f32⟩ : BufTy).Contents (Elt F) → (⟨S1024x128, .f32⟩ : BufTy).Contents (Elt F)) ]

/-- The buffers operations 105 … 108 write. -/
abbrev w10 : List (Ref sig .tc) := [main_v81, main_v82, main_v83, main_v84]

theorem seg10_writes : (seg10 (F := F)).Forall fun op => op.writes ⊆ ((w10).map (Proc.devRef (τ := τ) .tc)).toFinset :=
  ⟨writes_sub_of_mem (y := main_v81) (by decide),
    writes_sub_of_mem (y := main_v82) (by decide),
    writes_sub_of_mem (y := main_v83) (by decide),
    writes_sub_of_mem (y := main_v84) (by decide)⟩

/-- A buffer they do not write keeps its contents. -/
theorem seg10_frame (V : Valuation τ sig (Elt F)) {r : Ref sig .tc} (hr : r ∉ w10) :
    after (seg10 (F := F)) V (Proc.devRef .tc r) = V (Proc.devRef .tc r) :=
  after_of_writes_sub _ V seg10_writes hr

set_option maxRecDepth 16384 in
set_option maxHeartbeats 4000000 in
/-- Their result is the stage function of the buffers they read. -/
theorem seg10_out (V : Valuation τ sig (Elt F)) :
    after (seg10 (F := F)) V (Proc.devRef .tc main_v84)
      = RefStages.refFusionDense1 (F := F) (V (Proc.devRef .tc main_v80)) (V (Proc.devRef .tc main_arg9)) (V (Proc.devRef .tc main_arg10)) := by
  after_results_simp
  rfl

/-- Operations 109 … 155: those that produce the buffer %104 from what is there before them. -/
abbrev seg11 : List (HloOp τ sig (Elt F)) :=
  [ nullary main_cst_17 (constant S_ .f32 0x00000000#32),
    binary main_v84 main_cst_17 main_v85 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    nullary main_cst_18 (constant S_ .f32 0x44800000#32),
    unary main_cst_18 main_v86 (broadcastInDim S128 ![] bcast_S_S128 : (⟨S_, .f32⟩ : BufTy).Contents (Elt F) → (⟨S128, .f32⟩ : BufTy).Contents (Elt F)),
    binary main_v85 main_v86 main_v87 (Host.divf : (⟨S128, .f32⟩ : BufTy).Contents (Elt F) → (⟨S128, .f32⟩ : BufTy).Contents (Elt F) → (⟨S128, .f32⟩ : BufTy).Contents (Elt F)),
    nullary main_c_19 (constantI S_ 32 0#32),
    TRef.nullary main_call2.cst (constant S_ .f32 0x00000000#32),
    TRef.binary (.of main_v84) main_call2.cst main_call2.v0 (fun x v => Host.reduceAdd x v reducesTo_S1024x128_S128_d0 h_S_),
    TRef.unary main_call2.v0 main_call2.v1 (broadcastInDim S1x128 ![1] bcast_S128_S1x128_1),
    TRef.nullary main_call2.cst_0 (constant S_ .f32 0x44800000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S1024x128 ![0, 1] bcast_S1x128_S1024x128_0_1),
    TRef.binary (.of main_v84) main_call2.v4 main_call2.v5 subf,
    TRef.binary main_call2.v5 main_call2.v5 main_call2.v6 mulf,
    TRef.unary (.of main_c_19) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S1024x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v87 main_v89 (broadcastInDim S1x128 ![1] bcast_S128_S1x128_1 : (⟨S128, .f32⟩ : BufTy).Contents (Elt F) → (⟨S1x128, .f32⟩ : BufTy).Contents (Elt F)),
    unary main_v89 main_v90 (broadcastInDim S1024x128 ![0, 1] bcast_S1x128_S1024x128_0_1 : (⟨S1x128, .f32⟩ : BufTy).Contents (Elt F) → (⟨S1024x128, .f32⟩ : BufTy).Contents (Elt F)),
    binary main_v84 main_v90 main_v91 (subf : (⟨S1024x128, .f32⟩ : BufTy).Contents (Elt F) → (⟨S1024x128, .f32⟩ : BufTy).Contents (Elt F) → (⟨S1024x128, .f32⟩ : BufTy).Contents (Elt F)),
    nullary main_cst_20 (constant S_ .f32 0x3727C5AC#32),
    unary main_cst_20 main_v92 (broadcastInDim S128 ![] bcast_S_S128 : (⟨S_, .f32⟩ : BufTy).Contents (Elt F) → (⟨S128, .f32⟩ : BufTy).Contents (Elt F)),
    binary main_v88 main_v92 main_v93 (addf : (⟨S128, .f32⟩ : BufTy).Contents (Elt F) → (⟨S128, .f32⟩ : BufTy).Contents (Elt F) → (⟨S128, .f32⟩ : BufTy).Contents (Elt F)),
    unary main_v93 main_v94 (Host.sqrt : (⟨S128, .f32⟩ : BufTy).Contents (Elt F) → (⟨S128, .f32⟩ : BufTy).Contents (Elt F)),
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S1024x128 ![0, 1] bcast_S1x128_S1024x128_0_1 : (⟨S1x128, .f32⟩ : BufTy).Contents (Elt F) → (⟨S1024x128, .f32⟩ : BufTy).Contents (Elt F)),
    binary main_v91 main_v96 main_v97 (Host.divf : (⟨S1024x128, .f32⟩ : BufTy).Contents (Elt F) → (⟨S1024x128, .f32⟩ : BufTy).Contents (Elt F) → (⟨S1024x128, .f32⟩ : BufTy).Contents (Elt F)),
    unary main_arg15 main_v98 (broadcastInDim S1x128 ![1] bcast_S128_S1x128_1 : (⟨S128, .f32⟩ : BufTy).Contents (Elt F) → (⟨S1x128, .f32⟩ : BufTy).Contents (Elt F)),
    unary main_v98 main_v99 (broadcastInDim S1024x128 ![0, 1] bcast_S1x128_S1024x128_0_1 : (⟨S1x128, .f32⟩ : BufTy).Contents (Elt F) → (⟨S1024x128, .f32⟩ : BufTy).Contents (Elt F)),
    binary main_v97 main_v99 main_v100 (mulf : (⟨S1024x128, .f32⟩ : BufTy).Contents (Elt F) → (⟨S1024x128, .f32⟩ : BufTy).Contents (Elt F) → (⟨S1024x128, .f32⟩ : BufTy).Contents (Elt F)),
    unary main_arg16 main_v101 (broadcastInDim S1x128 ![1] bcast_S128_S1x128_1 : (⟨S128, .f32⟩ : BufTy).Contents (Elt F) → (⟨S1x128, .f32⟩ : BufTy).Contents (Elt F)),
    unary main_v101 main_v102 (broadcastInDim S1024x128 ![0, 1] bcast_S1x128_S1024x128_0_1 : (⟨S1x128, .f32⟩ : BufTy).Contents (Elt F) → (⟨S1024x128, .f32⟩ : BufTy).Contents (Elt F)),
    binary main_v100 main_v102 main_v103 (addf : (⟨S1024x128, .f32⟩ : BufTy).Contents (Elt F) → (⟨S1024x128, .f32⟩ : BufTy).Contents (Elt F) → (⟨S1024x128, .f32⟩ : BufTy).Contents (Elt F)),
    TRef.nullary main_call3.cst (constant S_ .f32 0x00000000#32),
    TRef.unary main_call3.cst main_call3.v0 (broadcastInDim S1024x128 ![] bcast_S_S1024x128),
    TRef.binary (.of main_v103) main_call3.v0 main_call3.v1 maximumf ]

/-- The buffers operations 109 … 155 write. -/
abbrev w11 : List (Ref sig .tc) := [main_cst_17, main_v85, main_cst_18, main_v86, main_v87, main_c_19, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v89, main_v90, main_v91, main_cst_20, main_v92, main_v93, main_v94, main_v95, main_v96, main_v97, main_v98, main_v99, main_v100, main_v101, main_v102, main_v103, main_call3.cst.ref, main_call3.v0.ref, main_call3.v1.ref]

theorem seg11_writes : (seg11 (F := F)).Forall fun op => op.writes ⊆ ((w11).map (Proc.devRef (τ := τ) .tc)).toFinset :=
  ⟨writes_sub_of_mem (y := main_cst_17) (by decide),
    writes_sub_of_mem (y := main_v85) (by decide),
    writes_sub_of_mem (y := main_cst_18) (by decide),
    writes_sub_of_mem (y := main_v86) (by decide),
    writes_sub_of_mem (y := main_v87) (by decide),
    writes_sub_of_mem (y := main_c_19) (by decide),
    writes_sub_of_mem (y := main_call2.cst.ref) (by decide),
    writes_sub_of_mem (y := main_call2.v0.ref) (by decide),
    writes_sub_of_mem (y := main_call2.v1.ref) (by decide),
    writes_sub_of_mem (y := main_call2.cst_0.ref) (by decide),
    writes_sub_of_mem (y := main_call2.v2.ref) (by decide),
    writes_sub_of_mem (y := main_call2.v3.ref) (by decide),
    writes_sub_of_mem (y := main_call2.v4.ref) (by decide),
    writes_sub_of_mem (y := main_call2.v5.ref) (by decide),
    writes_sub_of_mem (y := main_call2.v6.ref) (by decide),
    writes_sub_of_mem (y := main_call2.v7.ref) (by decide),
    writes_sub_of_mem (y := main_call2.cst_1.ref) (by decide),
    writes_sub_of_mem (y := main_call2.v8.ref) (by decide),
    writes_sub_of_mem (y := main_call2.cst_2.ref) (by decide),
    writes_sub_of_mem (y := main_call2.v9.ref) (by decide),
    writes_sub_of_mem (y := main_call2.v10.ref) (by decide),
    writes_sub_of_mem (y := main_call2.v11.ref) (by decide),
    writes_sub_of_mem (y := main_call2.cst_3.ref) (by decide),
    writes_sub_of_mem (y := main_call2.v12.ref) (by decide),
    writes_sub_of_mem (y := main_call2.cst_4.ref) (by decide),
    writes_sub_of_mem (y := main_call2.call0.v0.ref) (by decide),
    writes_sub_of_mem (y := main_call2.call0.v1.ref) (by decide),
    writes_sub_of_mem (y := main_call2.call0.v2.ref) (by decide),
    writes_sub_of_mem (y := main_v89) (by decide),
    writes_sub_of_mem (y := main_v90) (by decide),
    writes_sub_of_mem (y := main_v91) (by decide),
    writes_sub_of_mem (y := main_cst_20) (by decide),
    writes_sub_of_mem (y := main_v92) (by decide),
    writes_sub_of_mem (y := main_v93) (by decide),
    writes_sub_of_mem (y := main_v94) (by decide),
    writes_sub_of_mem (y := main_v95) (by decide),
    writes_sub_of_mem (y := main_v96) (by decide),
    writes_sub_of_mem (y := main_v97) (by decide),
    writes_sub_of_mem (y := main_v98) (by decide),
    writes_sub_of_mem (y := main_v99) (by decide),
    writes_sub_of_mem (y := main_v100) (by decide),
    writes_sub_of_mem (y := main_v101) (by decide),
    writes_sub_of_mem (y := main_v102) (by decide),
    writes_sub_of_mem (y := main_v103) (by decide),
    writes_sub_of_mem (y := main_call3.cst.ref) (by decide),
    writes_sub_of_mem (y := main_call3.v0.ref) (by decide),
    writes_sub_of_mem (y := main_call3.v1.ref) (by decide)⟩

/-- A buffer they do not write keeps its contents. -/
theorem seg11_frame (V : Valuation τ sig (Elt F)) {r : Ref sig .tc} (hr : r ∉ w11) :
    after (seg11 (F := F)) V (Proc.devRef .tc r) = V (Proc.devRef .tc r) :=
  after_of_writes_sub _ V seg11_writes hr

set_option maxRecDepth 16384 in
set_option maxHeartbeats 4000000 in
/-- Their result is the stage function of the buffers they read. -/
theorem seg11_out (V : Valuation τ sig (Elt F)) :
    after (seg11 (F := F)) V (Proc.devRef .tc main_v104)
      = RefStages.refFusionBn1 (F := F) (V (Proc.devRef .tc main_v84)) (V (Proc.devRef .tc main_arg15)) (V (Proc.devRef .tc main_arg16)) := by
  after_results_simp
  rfl

/-- Operations 156 … 159: those that produce the buffer %108 from what is there before them. -/
abbrev seg12 : List (HloOp τ sig (Elt F)) :=
  [ binary main_v104 main_arg11 main_v105 ((fun l r => Host.dotGeneral dot_S1024x128_S128x32_S1024x32_1_0_0_1_n_n none l r) : (⟨S1024x128, .f32⟩ : BufTy).Contents (Elt F) → (⟨S128x32, .f32⟩ : BufTy).Contents (Elt F) → (⟨S1024x32, .f32⟩ : BufTy).Contents (Elt F)),
    unary main_arg12 main_v106 (broadcastInDim S1x32 ![1] bcast_S32_S1x32_1 : (⟨S32, .f32⟩ : BufTy).Contents (Elt F) → (⟨S1x32, .f32⟩ : BufTy).Contents (Elt F)),
    unary main_v106 main_v107 (broadcastInDim S1024x32 ![0, 1] bcast_S1x32_S1024x32_0_1 : (⟨S1x32, .f32⟩ : BufTy).Contents (Elt F) → (⟨S1024x32, .f32⟩ : BufTy).Contents (Elt F)),
    binary main_v105 main_v107 main_v108 (addf : (⟨S1024x32, .f32⟩ : BufTy).Contents (Elt F) → (⟨S1024x32, .f32⟩ : BufTy).Contents (Elt F) → (⟨S1024x32, .f32⟩ : BufTy).Contents (Elt F)) ]

/-- The buffers operations 156 … 159 write. -/
abbrev w12 : List (Ref sig .tc) := [main_v105, main_v106, main_v107, main_v108]

theorem seg12_writes : (seg12 (F := F)).Forall fun op => op.writes ⊆ ((w12).map (Proc.devRef (τ := τ) .tc)).toFinset :=
  ⟨writes_sub_of_mem (y := main_v105) (by decide),
    writes_sub_of_mem (y := main_v106) (by decide),
    writes_sub_of_mem (y := main_v107) (by decide),
    writes_sub_of_mem (y := main_v108) (by decide)⟩

/-- A buffer they do not write keeps its contents. -/
theorem seg12_frame (V : Valuation τ sig (Elt F)) {r : Ref sig .tc} (hr : r ∉ w12) :
    after (seg12 (F := F)) V (Proc.devRef .tc r) = V (Proc.devRef .tc r) :=
  after_of_writes_sub _ V seg12_writes hr

set_option maxRecDepth 16384 in
set_option maxHeartbeats 4000000 in
/-- Their result is the stage function of the buffers they read. -/
theorem seg12_out (V : Valuation τ sig (Elt F)) :
    after (seg12 (F := F)) V (Proc.devRef .tc main_v108)
      = RefStages.refFusionDense2 (F := F) (V (Proc.devRef .tc main_v104)) (V (Proc.devRef .tc main_arg11)) (V (Proc.devRef .tc main_arg12)) := by
  after_results_simp
  rfl

/-- Operations 160 … 206: those that produce the buffer %128 from what is there before them. -/
abbrev seg13 : List (HloOp τ sig (Elt F)) :=
  [ nullary main_cst_21 (constant S_ .f32 0x00000000#32),
    binary main_v108 main_cst_21 main_v109 ((fun x v => Host.reduceAdd x v reducesTo_S1024x32_S32_d0 h_S_) : (⟨S1024x32, .f32⟩ : BufTy).Contents (Elt F) → (⟨S_, .f32⟩ : BufTy).Contents (Elt F) → (⟨S32, .f32⟩ : BufTy).Contents (Elt F)),
    nullary main_cst_22 (constant S_ .f32 0x44800000#32),
    unary main_cst_22 main_v110 (broadcastInDim S32 ![] bcast_S_S32 : (⟨S_, .f32⟩ : BufTy).Contents (Elt F) → (⟨S32, .f32⟩ : BufTy).Contents (Elt F)),
    binary main_v109 main_v110 main_v111 (Host.divf : (⟨S32, .f32⟩ : BufTy).Contents (Elt F) → (⟨S32, .f32⟩ : BufTy).Contents (Elt F) → (⟨S32, .f32⟩ : BufTy).Contents (Elt F)),
    nullary main_c_23 (constantI S_ 32 0#32),
    TRef.nullary main_call4.cst (constant S_ .f32 0x00000000#32),
    TRef.binary (.of main_v108) main_call4.cst main_call4.v0 (fun x v => Host.reduceAdd x v reducesTo_S1024x32_S32_d0 h_S_),
    TRef.unary main_call4.v0 main_call4.v1 (broadcastInDim S1x32 ![1] bcast_S32_S1x32_1),
    TRef.nullary main_call4.cst_0 (constant S_ .f32 0x44800000#32),
    TRef.unary main_call4.cst_0 main_call4.v2 (broadcastInDim S1x32 ![] bcast_S_S1x32),
    TRef.binary main_call4.v1 main_call4.v2 main_call4.v3 Host.divf,
    TRef.unary main_call4.v3 main_call4.v4 (broadcastInDim S1024x32 ![0, 1] bcast_S1x32_S1024x32_0_1),
    TRef.binary (.of main_v108) main_call4.v4 main_call4.v5 subf,
    TRef.binary main_call4.v5 main_call4.v5 main_call4.v6 mulf,
    TRef.unary (.of main_c_23) main_call4.v7 (sitofp .f32),
    TRef.nullary main_call4.cst_1 (constant S_ .f32 0x44800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S1024x32_S32_d0 h_S_),
    TRef.unary main_call4.v8 main_call4.v10 (broadcastInDim S32 ![] bcast_S_S32),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S32 ![] bcast_S_S32),
    TRef.ternary main_call4.v12 main_call4.v11 main_call4.call0.v1 main_call4.call0.v2 (fun p a b => select (broadcastInDim S32 ![] bcast_S_S32 p) a b),
    unary main_v111 main_v113 (broadcastInDim S1x32 ![1] bcast_S32_S1x32_1 : (⟨S32, .f32⟩ : BufTy).Contents (Elt F) → (⟨S1x32, .f32⟩ : BufTy).Contents (Elt F)),
    unary main_v113 main_v114 (broadcastInDim S1024x32 ![0, 1] bcast_S1x32_S1024x32_0_1 : (⟨S1x32, .f32⟩ : BufTy).Contents (Elt F) → (⟨S1024x32, .f32⟩ : BufTy).Contents (Elt F)),
    binary main_v108 main_v114 main_v115 (subf : (⟨S1024x32, .f32⟩ : BufTy).Contents (Elt F) → (⟨S1024x32, .f32⟩ : BufTy).Contents (Elt F) → (⟨S1024x32, .f32⟩ : BufTy).Contents (Elt F)),
    nullary main_cst_24 (constant S_ .f32 0x3727C5AC#32),
    unary main_cst_24 main_v116 (broadcastInDim S32 ![] bcast_S_S32 : (⟨S_, .f32⟩ : BufTy).Contents (Elt F) → (⟨S32, .f32⟩ : BufTy).Contents (Elt F)),
    binary main_v112 main_v116 main_v117 (addf : (⟨S32, .f32⟩ : BufTy).Contents (Elt F) → (⟨S32, .f32⟩ : BufTy).Contents (Elt F) → (⟨S32, .f32⟩ : BufTy).Contents (Elt F)),
    unary main_v117 main_v118 (Host.sqrt : (⟨S32, .f32⟩ : BufTy).Contents (Elt F) → (⟨S32, .f32⟩ : BufTy).Contents (Elt F)),
    unary main_v118 main_v119 (broadcastInDim S1x32 ![1] bcast_S32_S1x32_1 : (⟨S32, .f32⟩ : BufTy).Contents (Elt F) → (⟨S1x32, .f32⟩ : BufTy).Contents (Elt F)),
    unary main_v119 main_v120 (broadcastInDim S1024x32 ![0, 1] bcast_S1x32_S1024x32_0_1 : (⟨S1x32, .f32⟩ : BufTy).Contents (Elt F) → (⟨S1024x32, .f32⟩ : BufTy).Contents (Elt F)),
    binary main_v115 main_v120 main_v121 (Host.divf : (⟨S1024x32, .f32⟩ : BufTy).Contents (Elt F) → (⟨S1024x32, .f32⟩ : BufTy).Contents (Elt F) → (⟨S1024x32, .f32⟩ : BufTy).Contents (Elt F)),
    unary main_arg17 main_v122 (broadcastInDim S1x32 ![1] bcast_S32_S1x32_1 : (⟨S32, .f32⟩ : BufTy).Contents (Elt F) → (⟨S1x32, .f32⟩ : BufTy).Contents (Elt F)),
    unary main_v122 main_v123 (broadcastInDim S1024x32 ![0, 1] bcast_S1x32_S1024x32_0_1 : (⟨S1x32, .f32⟩ : BufTy).Contents (Elt F) → (⟨S1024x32, .f32⟩ : BufTy).Contents (Elt F)),
    binary main_v121 main_v123 main_v124 (mulf : (⟨S1024x32, .f32⟩ : BufTy).Contents (Elt F) → (⟨S1024x32, .f32⟩ : BufTy).Contents (Elt F) → (⟨S1024x32, .f32⟩ : BufTy).Contents (Elt F)),
    unary main_arg18 main_v125 (broadcastInDim S1x32 ![1] bcast_S32_S1x32_1 : (⟨S32, .f32⟩ : BufTy).Contents (Elt F) → (⟨S1x32, .f32⟩ : BufTy).Contents (Elt F)),
    unary main_v125 main_v126 (broadcastInDim S1024x32 ![0, 1] bcast_S1x32_S1024x32_0_1 : (⟨S1x32, .f32⟩ : BufTy).Contents (Elt F) → (⟨S1024x32, .f32⟩ : BufTy).Contents (Elt F)),
    binary main_v124 main_v126 main_v127 (addf : (⟨S1024x32, .f32⟩ : BufTy).Contents (Elt F) → (⟨S1024x32, .f32⟩ : BufTy).Contents (Elt F) → (⟨S1024x32, .f32⟩ : BufTy).Contents (Elt F)),
    TRef.nullary main_call5.cst (constant S_ .f32 0x00000000#32),
    TRef.unary main_call5.cst main_call5.v0 (broadcastInDim S1024x32 ![] bcast_S_S1024x32),
    TRef.binary (.of main_v127) main_call5.v0 main_call5.v1 maximumf ]

/-- The buffers operations 160 … 206 write. -/
abbrev w13 : List (Ref sig .tc) := [main_cst_21, main_v109, main_cst_22, main_v110, main_v111, main_c_23, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v113, main_v114, main_v115, main_cst_24, main_v116, main_v117, main_v118, main_v119, main_v120, main_v121, main_v122, main_v123, main_v124, main_v125, main_v126, main_v127, main_call5.cst.ref, main_call5.v0.ref, main_call5.v1.ref]

theorem seg13_writes : (seg13 (F := F)).Forall fun op => op.writes ⊆ ((w13).map (Proc.devRef (τ := τ) .tc)).toFinset :=
  ⟨writes_sub_of_mem (y := main_cst_21) (by decide),
    writes_sub_of_mem (y := main_v109) (by decide),
    writes_sub_of_mem (y := main_cst_22) (by decide),
    writes_sub_of_mem (y := main_v110) (by decide),
    writes_sub_of_mem (y := main_v111) (by decide),
    writes_sub_of_mem (y := main_c_23) (by decide),
    writes_sub_of_mem (y := main_call4.cst.ref) (by decide),
    writes_sub_of_mem (y := main_call4.v0.ref) (by decide),
    writes_sub_of_mem (y := main_call4.v1.ref) (by decide),
    writes_sub_of_mem (y := main_call4.cst_0.ref) (by decide),
    writes_sub_of_mem (y := main_call4.v2.ref) (by decide),
    writes_sub_of_mem (y := main_call4.v3.ref) (by decide),
    writes_sub_of_mem (y := main_call4.v4.ref) (by decide),
    writes_sub_of_mem (y := main_call4.v5.ref) (by decide),
    writes_sub_of_mem (y := main_call4.v6.ref) (by decide),
    writes_sub_of_mem (y := main_call4.v7.ref) (by decide),
    writes_sub_of_mem (y := main_call4.cst_1.ref) (by decide),
    writes_sub_of_mem (y := main_call4.v8.ref) (by decide),
    writes_sub_of_mem (y := main_call4.cst_2.ref) (by decide),
    writes_sub_of_mem (y := main_call4.v9.ref) (by decide),
    writes_sub_of_mem (y := main_call4.v10.ref) (by decide),
    writes_sub_of_mem (y := main_call4.v11.ref) (by decide),
    writes_sub_of_mem (y := main_call4.cst_3.ref) (by decide),
    writes_sub_of_mem (y := main_call4.v12.ref) (by decide),
    writes_sub_of_mem (y := main_call4.cst_4.ref) (by decide),
    writes_sub_of_mem (y := main_call4.call0.v0.ref) (by decide),
    writes_sub_of_mem (y := main_call4.call0.v1.ref) (by decide),
    writes_sub_of_mem (y := main_call4.call0.v2.ref) (by decide),
    writes_sub_of_mem (y := main_v113) (by decide),
    writes_sub_of_mem (y := main_v114) (by decide),
    writes_sub_of_mem (y := main_v115) (by decide),
    writes_sub_of_mem (y := main_cst_24) (by decide),
    writes_sub_of_mem (y := main_v116) (by decide),
    writes_sub_of_mem (y := main_v117) (by decide),
    writes_sub_of_mem (y := main_v118) (by decide),
    writes_sub_of_mem (y := main_v119) (by decide),
    writes_sub_of_mem (y := main_v120) (by decide),
    writes_sub_of_mem (y := main_v121) (by decide),
    writes_sub_of_mem (y := main_v122) (by decide),
    writes_sub_of_mem (y := main_v123) (by decide),
    writes_sub_of_mem (y := main_v124) (by decide),
    writes_sub_of_mem (y := main_v125) (by decide),
    writes_sub_of_mem (y := main_v126) (by decide),
    writes_sub_of_mem (y := main_v127) (by decide),
    writes_sub_of_mem (y := main_call5.cst.ref) (by decide),
    writes_sub_of_mem (y := main_call5.v0.ref) (by decide),
    writes_sub_of_mem (y := main_call5.v1.ref) (by decide)⟩

/-- A buffer they do not write keeps its contents. -/
theorem seg13_frame (V : Valuation τ sig (Elt F)) {r : Ref sig .tc} (hr : r ∉ w13) :
    after (seg13 (F := F)) V (Proc.devRef .tc r) = V (Proc.devRef .tc r) :=
  after_of_writes_sub _ V seg13_writes hr

set_option maxRecDepth 16384 in
set_option maxHeartbeats 4000000 in
/-- Their result is the stage function of the buffers they read. -/
theorem seg13_out (V : Valuation τ sig (Elt F)) :
    after (seg13 (F := F)) V (Proc.devRef .tc main_v128)
      = RefStages.refFusionBn2 (F := F) (V (Proc.devRef .tc main_v108)) (V (Proc.devRef .tc main_arg17)) (V (Proc.devRef .tc main_arg18)) := by
  after_results_simp
  rfl

/-- Operations 207 … 210: those that produce the buffer %132 from what is there before them. -/
abbrev seg14 : List (HloOp τ sig (Elt F)) :=
  [ binary main_v128 main_arg13 main_v129 ((fun l r => Host.dotGeneral dot_S1024x32_S32x1_S1024x1_1_0_0_1_n_n none l r) : (⟨S1024x32, .f32⟩ : BufTy).Contents (Elt F) → (⟨S32x1, .f32⟩ : BufTy).Contents (Elt F) → (⟨S1024x1, .f32⟩ : BufTy).Contents (Elt F)),
    unary main_arg14 main_v130 (broadcastInDim S1x1 ![1] bcast_S1_S1x1_1 : (⟨S1, .f32⟩ : BufTy).Contents (Elt F) → (⟨S1x1, .f32⟩ : BufTy).Contents (Elt F)),
    unary main_v130 main_v131 (broadcastInDim S1024x1 ![0, 1] bcast_S1x1_S1024x1_0_1 : (⟨S1x1, .f32⟩ : BufTy).Contents (Elt F) → (⟨S1024x1, .f32⟩ : BufTy).Contents (Elt F)),
    binary main_v129 main_v131 main_v132 (addf : (⟨S1024x1, .f32⟩ : BufTy).Contents (Elt F) → (⟨S1024x1, .f32⟩ : BufTy).Contents (Elt F) → (⟨S1024x1, .f32⟩ : BufTy).Contents (Elt F)) ]

/-- The buffers operations 207 … 210 write. -/
abbrev w14 : List (Ref sig .tc) := [main_v129, main_v130, main_v131, main_v132]

theorem seg14_writes : (seg14 (F := F)).Forall fun op => op.writes ⊆ ((w14).map (Proc.devRef (τ := τ) .tc)).toFinset :=
  ⟨writes_sub_of_mem (y := main_v129) (by decide),
    writes_sub_of_mem (y := main_v130) (by decide),
    writes_sub_of_mem (y := main_v131) (by decide),
    writes_sub_of_mem (y := main_v132) (by decide)⟩

/-- A buffer they do not write keeps its contents. -/
theorem seg14_frame (V : Valuation τ sig (Elt F)) {r : Ref sig .tc} (hr : r ∉ w14) :
    after (seg14 (F := F)) V (Proc.devRef .tc r) = V (Proc.devRef .tc r) :=
  after_of_writes_sub _ V seg14_writes hr

set_option maxRecDepth 16384 in
set_option maxHeartbeats 4000000 in
/-- Their result is the stage function of the buffers they read. -/
theorem seg14_out (V : Valuation τ sig (Elt F)) :
    after (seg14 (F := F)) V (Proc.devRef .tc main_v132)
      = RefStages.refFusionDense3 (F := F) (V (Proc.devRef .tc main_v128)) (V (Proc.devRef .tc main_arg13)) (V (Proc.devRef .tc main_arg14)) := by
  after_results_simp
  rfl

/-- The operation list is the fourteen stretches in order. -/
theorem ops_eq : (ops (F := F)) = seg1 ++ (seg2 ++ (seg3 ++ (seg4 ++ (seg5 ++ (seg6 ++ (seg7 ++ (seg8 ++ (seg9 ++ (seg10 ++ (seg11 ++ (seg12 ++ (seg13 ++ (seg14))))))))))))) := rfl

set_option maxRecDepth 16384 in
set_option maxHeartbeats 4000000 in
/-- The result buffer after the whole line: the stage functions composed, over the arguments' contents. -/
theorem v132_eq (V : Valuation τ sig (Elt F)) :
    after (ops (F := F)) V (Proc.devRef .tc main_v132)
      = RefStages.refFusion (F := F) (RefStages.refHg (F := F) (RefStages.refLayer2 (F := F) (RefStages.refMsum2 (F := F) (RefStages.refLayer1 (F := F) (RefStages.refMsum1 (F := F) (V (Proc.devRef .tc main_arg0)) (V (Proc.devRef .tc main_arg19)) (V (Proc.devRef .tc main_arg20))) (RefStages.refDegCol (F := F) (V (Proc.devRef .tc main_arg20))) (V (Proc.devRef .tc main_arg3)) (V (Proc.devRef .tc main_arg4))) (V (Proc.devRef .tc main_arg19)) (V (Proc.devRef .tc main_arg20))) (RefStages.refDegCol (F := F) (V (Proc.devRef .tc main_arg20))) (V (Proc.devRef .tc main_arg5)) (V (Proc.devRef .tc main_arg6))) (V (Proc.devRef .tc main_arg21))) (V (Proc.devRef .tc main_arg2)) (V (Proc.devRef .tc main_arg7)) (V (Proc.devRef .tc main_arg8)) (V (Proc.devRef .tc main_arg9)) (V (Proc.devRef .tc main_arg10)) (V (Proc.devRef .tc main_arg15)) (V (Proc.devRef .tc main_arg16)) (V (Proc.devRef .tc main_arg11)) (V (Proc.devRef .tc main_arg12)) (V (Proc.devRef .tc main_arg17)) (V (Proc.devRef .tc main_arg18)) (V (Proc.devRef .tc main_arg13)) (V (Proc.devRef .tc main_arg14)) := by
  rw [ops_eq]
  simp only [after_append]
  rw [seg14_out, seg13_out, seg13_frame (r := main_arg13) _ (by decide), seg13_frame (r := main_arg14) _ (by decide),
    seg12_out, seg12_frame (r := main_arg13) _ (by decide), seg12_frame (r := main_arg14) _ (by decide), seg12_frame (r := main_arg17) _ (by decide),
    seg12_frame (r := main_arg18) _ (by decide), seg11_out, seg11_frame (r := main_arg13) _ (by decide), seg11_frame (r := main_arg14) _ (by decide),
    seg11_frame (r := main_arg17) _ (by decide), seg11_frame (r := main_arg18) _ (by decide), seg11_frame (r := main_arg11) _ (by decide), seg11_frame (r := main_arg12) _ (by decide),
    seg10_out, seg10_frame (r := main_arg13) _ (by decide), seg10_frame (r := main_arg14) _ (by decide), seg10_frame (r := main_arg17) _ (by decide),
    seg10_frame (r := main_arg18) _ (by decide), seg10_frame (r := main_arg11) _ (by decide), seg10_frame (r := main_arg12) _ (by decide), seg10_frame (r := main_arg15) _ (by decide),
    seg10_frame (r := main_arg16) _ (by decide), seg9_out, seg9_frame (r := main_arg13) _ (by decide), seg9_frame (r := main_arg14) _ (by decide),
    seg9_frame (r := main_arg17) _ (by decide), seg9_frame (r := main_arg18) _ (by decide), seg9_frame (r := main_arg11) _ (by decide), seg9_frame (r := main_arg12) _ (by decide),
    seg9_frame (r := main_arg15) _ (by decide), seg9_frame (r := main_arg16) _ (by decide), seg9_frame (r := main_arg9) _ (by decide), seg9_frame (r := main_arg10) _ (by decide),
    seg8_out, seg8_frame (r := main_arg13) _ (by decide), seg8_frame (r := main_arg14) _ (by decide), seg8_frame (r := main_arg17) _ (by decide),
    seg8_frame (r := main_arg18) _ (by decide), seg8_frame (r := main_arg11) _ (by decide), seg8_frame (r := main_arg12) _ (by decide), seg8_frame (r := main_arg15) _ (by decide),
    seg8_frame (r := main_arg16) _ (by decide), seg8_frame (r := main_arg9) _ (by decide), seg8_frame (r := main_arg10) _ (by decide), seg8_frame (r := main_v59) _ (by decide),
    seg7_out, seg7_frame (r := main_arg13) _ (by decide), seg7_frame (r := main_arg14) _ (by decide), seg7_frame (r := main_arg17) _ (by decide),
    seg7_frame (r := main_arg18) _ (by decide), seg7_frame (r := main_arg11) _ (by decide), seg7_frame (r := main_arg12) _ (by decide), seg7_frame (r := main_arg15) _ (by decide),
    seg7_frame (r := main_arg16) _ (by decide), seg7_frame (r := main_arg9) _ (by decide), seg7_frame (r := main_arg10) _ (by decide), seg7_frame (r := main_arg2) _ (by decide),
    seg7_frame (r := main_arg7) _ (by decide), seg7_frame (r := main_arg8) _ (by decide), seg6_out, seg6_frame (r := main_arg13) _ (by decide),
    seg6_frame (r := main_arg14) _ (by decide), seg6_frame (r := main_arg17) _ (by decide), seg6_frame (r := main_arg18) _ (by decide), seg6_frame (r := main_arg11) _ (by decide),
    seg6_frame (r := main_arg12) _ (by decide), seg6_frame (r := main_arg15) _ (by decide), seg6_frame (r := main_arg16) _ (by decide), seg6_frame (r := main_arg9) _ (by decide),
    seg6_frame (r := main_arg10) _ (by decide), seg6_frame (r := main_arg2) _ (by decide), seg6_frame (r := main_arg7) _ (by decide), seg6_frame (r := main_arg8) _ (by decide),
    seg6_frame (r := main_arg21) _ (by decide), seg5_out, seg5_frame (r := main_arg13) _ (by decide), seg5_frame (r := main_arg14) _ (by decide),
    seg5_frame (r := main_arg17) _ (by decide), seg5_frame (r := main_arg18) _ (by decide), seg5_frame (r := main_arg11) _ (by decide), seg5_frame (r := main_arg12) _ (by decide),
    seg5_frame (r := main_arg15) _ (by decide), seg5_frame (r := main_arg16) _ (by decide), seg5_frame (r := main_arg9) _ (by decide), seg5_frame (r := main_arg10) _ (by decide),
    seg5_frame (r := main_arg2) _ (by decide), seg5_frame (r := main_arg7) _ (by decide), seg5_frame (r := main_arg8) _ (by decide), seg5_frame (r := main_arg21) _ (by decide),
    seg5_frame (r := main_v33) _ (by decide), seg5_frame (r := main_arg5) _ (by decide), seg5_frame (r := main_arg6) _ (by decide), seg4_out,
    seg4_frame (r := main_arg13) _ (by decide), seg4_frame (r := main_arg14) _ (by decide), seg4_frame (r := main_arg17) _ (by decide), seg4_frame (r := main_arg18) _ (by decide),
    seg4_frame (r := main_arg11) _ (by decide), seg4_frame (r := main_arg12) _ (by decide), seg4_frame (r := main_arg15) _ (by decide), seg4_frame (r := main_arg16) _ (by decide),
    seg4_frame (r := main_arg9) _ (by decide), seg4_frame (r := main_arg10) _ (by decide), seg4_frame (r := main_arg2) _ (by decide), seg4_frame (r := main_arg7) _ (by decide),
    seg4_frame (r := main_arg8) _ (by decide), seg4_frame (r := main_arg21) _ (by decide), seg4_frame (r := main_arg5) _ (by decide), seg4_frame (r := main_arg6) _ (by decide),
    seg4_frame (r := main_arg20) _ (by decide), seg3_out, seg3_frame (r := main_arg13) _ (by decide), seg3_frame (r := main_arg14) _ (by decide),
    seg3_frame (r := main_arg17) _ (by decide), seg3_frame (r := main_arg18) _ (by decide), seg3_frame (r := main_arg11) _ (by decide), seg3_frame (r := main_arg12) _ (by decide),
    seg3_frame (r := main_arg15) _ (by decide), seg3_frame (r := main_arg16) _ (by decide), seg3_frame (r := main_arg9) _ (by decide), seg3_frame (r := main_arg10) _ (by decide),
    seg3_frame (r := main_arg2) _ (by decide), seg3_frame (r := main_arg7) _ (by decide), seg3_frame (r := main_arg8) _ (by decide), seg3_frame (r := main_arg21) _ (by decide),
    seg3_frame (r := main_arg5) _ (by decide), seg3_frame (r := main_arg6) _ (by decide), seg3_frame (r := main_arg20) _ (by decide), seg3_frame (r := main_arg19) _ (by decide),
    seg2_out, seg2_frame (r := main_arg13) _ (by decide), seg2_frame (r := main_arg14) _ (by decide), seg2_frame (r := main_arg17) _ (by decide),
    seg2_frame (r := main_arg18) _ (by decide), seg2_frame (r := main_arg11) _ (by decide), seg2_frame (r := main_arg12) _ (by decide), seg2_frame (r := main_arg15) _ (by decide),
    seg2_frame (r := main_arg16) _ (by decide), seg2_frame (r := main_arg9) _ (by decide), seg2_frame (r := main_arg10) _ (by decide), seg2_frame (r := main_arg2) _ (by decide),
    seg2_frame (r := main_arg7) _ (by decide), seg2_frame (r := main_arg8) _ (by decide), seg2_frame (r := main_arg21) _ (by decide), seg2_frame (r := main_arg5) _ (by decide),
    seg2_frame (r := main_arg6) _ (by decide), seg2_frame (r := main_arg20) _ (by decide), seg2_frame (r := main_arg19) _ (by decide), seg2_frame (r := main_v9) _ (by decide),
    seg2_frame (r := main_arg3) _ (by decide), seg2_frame (r := main_arg4) _ (by decide), seg1_out, seg1_frame (r := main_arg13) _ (by decide),
    seg1_frame (r := main_arg14) _ (by decide), seg1_frame (r := main_arg17) _ (by decide), seg1_frame (r := main_arg18) _ (by decide), seg1_frame (r := main_arg11) _ (by decide),
    seg1_frame (r := main_arg12) _ (by decide), seg1_frame (r := main_arg15) _ (by decide), seg1_frame (r := main_arg16) _ (by decide), seg1_frame (r := main_arg9) _ (by decide),
    seg1_frame (r := main_arg10) _ (by decide), seg1_frame (r := main_arg2) _ (by decide), seg1_frame (r := main_arg7) _ (by decide), seg1_frame (r := main_arg8) _ (by decide),
    seg1_frame (r := main_arg21) _ (by decide), seg1_frame (r := main_arg5) _ (by decide), seg1_frame (r := main_arg6) _ (by decide), seg1_frame (r := main_arg20) _ (by decide),
    seg1_frame (r := main_arg19) _ (by decide), seg1_frame (r := main_arg3) _ (by decide), seg1_frame (r := main_arg4) _ (by decide)]
  rfl

/-- A buffer none of the fourteen stretches writes keeps its contents over the whole line. -/
theorem ops_frame (V : Valuation τ sig (Elt F)) {r : Ref sig .tc} (h1 : r ∉ w1) (h2 : r ∉ w2) (h3 : r ∉ w3) (h4 : r ∉ w4) (h5 : r ∉ w5) (h6 : r ∉ w6) (h7 : r ∉ w7) (h8 : r ∉ w8) (h9 : r ∉ w9) (h10 : r ∉ w10) (h11 : r ∉ w11) (h12 : r ∉ w12) (h13 : r ∉ w13) (h14 : r ∉ w14) :
    after (ops (F := F)) V (Proc.devRef .tc r) = V (Proc.devRef .tc r) := by
  rw [ops_eq]
  simp only [after_append]
  rw [seg14_frame _ h14, seg13_frame _ h13, seg12_frame _ h12, seg11_frame _ h11, seg10_frame _ h10, seg9_frame _ h9, seg8_frame _ h8, seg7_frame _ h7, seg6_frame _ h6, seg5_frame _ h5, seg4_frame _ h4, seg3_frame _ h3, seg2_frame _ h2, seg1_frame _ h1]

set_option maxRecDepth 16384 in
set_option maxHeartbeats 4000000 in
/-- On every device, over the extended reals, from any memory with zero counters: every weakly fair execution of
    @main terminates with the result buffer at the composed stage functions of the arguments' launch contents,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v132)
        = RefStages.refFusion (F := Ideal) (RefStages.refHg (F := Ideal) (RefStages.refLayer2 (F := Ideal) (RefStages.refMsum2 (F := Ideal) (RefStages.refLayer1 (F := Ideal) (RefStages.refMsum1 (F := Ideal) (m ((c.tc : Thread nD τ).loc main_arg0)) (m ((c.tc : Thread nD τ).loc main_arg19)) (m ((c.tc : Thread nD τ).loc main_arg20))) (RefStages.refDegCol (F := Ideal) (m ((c.tc : Thread nD τ).loc main_arg20))) (m ((c.tc : Thread nD τ).loc main_arg3)) (m ((c.tc : Thread nD τ).loc main_arg4))) (m ((c.tc : Thread nD τ).loc main_arg19)) (m ((c.tc : Thread nD τ).loc main_arg20))) (RefStages.refDegCol (F := Ideal) (m ((c.tc : Thread nD τ).loc main_arg20))) (m ((c.tc : Thread nD τ).loc main_arg5)) (m ((c.tc : Thread nD τ).loc main_arg6))) (m ((c.tc : Thread nD τ).loc main_arg21))) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v132).trans (v132_eq (launchContents m c)),
      (h c main_arg0).trans (ops_frame (launchContents m c) (by decide) (by decide) (by decide) (by decide) (by decide) (by decide) (by decide) (by decide) (by decide) (by decide) (by decide) (by decide) (by decide) (by decide)),
      (h c main_arg1).trans (ops_frame (launchContents m c) (by decide) (by decide) (by decide) (by decide) (by decide) (by decide) (by decide) (by decide) (by decide) (by decide) (by decide) (by decide) (by decide) (by decide)),
      (h c main_arg2).trans (ops_frame (launchContents m c) (by decide) (by decide) (by decide) (by decide) (by decide) (by decide) (by decide) (by decide) (by decide) (by decide) (by decide) (by decide) (by decide) (by decide)),
      (h c main_arg3).trans (ops_frame (launchContents m c) (by decide) (by decide) (by decide) (by decide) (by decide) (by decide) (by decide) (by decide) (by decide) (by decide) (by decide) (by decide) (by decide) (by decide)),
      (h c main_arg4).trans (ops_frame (launchContents m c) (by decide) (by decide) (by decide) (by decide) (by decide) (by decide) (by decide) (by decide) (by decide) (by decide) (by decide) (by decide) (by decide) (by decide)),
      (h c main_arg5).trans (ops_frame (launchContents m c) (by decide) (by decide) (by decide) (by decide) (by decide) (by decide) (by decide) (by decide) (by decide) (by decide) (by decide) (by decide) (by decide) (by decide)),
      (h c main_arg6).trans (ops_frame (launchContents m c) (by decide) (by decide) (by decide) (by decide) (by decide) (by decide) (by decide) (by decide) (by decide) (by decide) (by decide) (by decide) (by decide) (by decide)),
      (h c main_arg7).trans (ops_frame (launchContents m c) (by decide) (by decide) (by decide) (by decide) (by decide) (by decide) (by decide) (by decide) (by decide) (by decide) (by decide) (by decide) (by decide) (by decide)),
      (h c main_arg8).trans (ops_frame (launchContents m c) (by decide) (by decide) (by decide) (by decide) (by decide) (by decide) (by decide) (by decide) (by decide) (by decide) (by decide) (by decide) (by decide) (by decide)),
      (h c main_arg9).trans (ops_frame (launchContents m c) (by decide) (by decide) (by decide) (by decide) (by decide) (by decide) (by decide) (by decide) (by decide) (by decide) (by decide) (by decide) (by decide) (by decide)),
      (h c main_arg10).trans (ops_frame (launchContents m c) (by decide) (by decide) (by decide) (by decide) (by decide) (by decide) (by decide) (by decide) (by decide) (by decide) (by decide) (by decide) (by decide) (by decide)),
      (h c main_arg11).trans (ops_frame (launchContents m c) (by decide) (by decide) (by decide) (by decide) (by decide) (by decide) (by decide) (by decide) (by decide) (by decide) (by decide) (by decide) (by decide) (by decide)),
      (h c main_arg12).trans (ops_frame (launchContents m c) (by decide) (by decide) (by decide) (by decide) (by decide) (by decide) (by decide) (by decide) (by decide) (by decide) (by decide) (by decide) (by decide) (by decide)),
      (h c main_arg13).trans (ops_frame (launchContents m c) (by decide) (by decide) (by decide) (by decide) (by decide) (by decide) (by decide) (by decide) (by decide) (by decide) (by decide) (by decide) (by decide) (by decide)),
      (h c main_arg14).trans (ops_frame (launchContents m c) (by decide) (by decide) (by decide) (by decide) (by decide) (by decide) (by decide) (by decide) (by decide) (by decide) (by decide) (by decide) (by decide) (by decide)),
      (h c main_arg15).trans (ops_frame (launchContents m c) (by decide) (by decide) (by decide) (by decide) (by decide) (by decide) (by decide) (by decide) (by decide) (by decide) (by decide) (by decide) (by decide) (by decide)),
      (h c main_arg16).trans (ops_frame (launchContents m c) (by decide) (by decide) (by decide) (by decide) (by decide) (by decide) (by decide) (by decide) (by decide) (by decide) (by decide) (by decide) (by decide) (by decide)),
      (h c main_arg17).trans (ops_frame (launchContents m c) (by decide) (by decide) (by decide) (by decide) (by decide) (by decide) (by decide) (by decide) (by decide) (by decide) (by decide) (by decide) (by decide) (by decide)),
      (h c main_arg18).trans (ops_frame (launchContents m c) (by decide) (by decide) (by decide) (by decide) (by decide) (by decide) (by decide) (by decide) (by decide) (by decide) (by decide) (by decide) (by decide) (by decide)),
      (h c main_arg19).trans (ops_frame (launchContents m c) (by decide) (by decide) (by decide) (by decide) (by decide) (by decide) (by decide) (by decide) (by decide) (by decide) (by decide) (by decide) (by decide) (by decide)),
      (h c main_arg20).trans (ops_frame (launchContents m c) (by decide) (by decide) (by decide) (by decide) (by decide) (by decide) (by decide) (by decide) (by decide) (by decide) (by decide) (by decide) (by decide) (by decide)),
      (h c main_arg21).trans (ops_frame (launchContents m c) (by decide) (by decide) (by decide) (by decide) (by decide) (by decide) (by decide) (by decide) (by decide) (by decide) (by decide) (by decide) (by decide) (by decide))⟩)
    (run_after m ρ)

end Cert.ReferenceIdeal.RefRun

end
-- ==== Proof.lean ====
/-
  The certificate: the Pallas graph-network kernel against its jnp reference, over the extended reals.

  Both programs compute, from the node features, the edge lists and the graph ids: two graph-convolution layers
  (neighbourhood sums by gather and scatter-add, the row divided by its clamped in-degree, a dense layer, a clamp at
  zero), the per-graph mean readout, and a fusion head (a logistic gate on the 3d descriptor, the flattened outer product
  of the two vectors each extended by a one, three dense layers with two batch normalisations).  The kernel runs the two
  layers and the head as three regions with the gathers and scatter-adds between them on the host; it divides by the
  in-degree inside the region, accumulates the matrix products block by block in bf16 operands (no change at the ideal
  instance), fills the outer product slab by slab into a scratch buffer, uses the one-operation logistic where the
  reference spells `1 / (1 + exp (-x))` (one function), and normalises by multiplying with the reciprocal square root of
  `var + ε` where the reference divides by the square root.  The last is the only difference that needs an argument: a
  variance is a sum of squares over 1024, hence nonnegative, so `var + ε` is a positive real or `⊤`, where the two
  spellings agree for every extended-real deviation.  The precondition (finite inputs) is never opened.

  The three frames: the word-level and the idealized kernel by their generated frames; the reference by its run, written
  over the list of its 210 host operations.  `preserves` is trivial (the ideal pass rewrote nothing).  `algebraic`: the
  kernel's run with its result named, the boundary contents threaded through the three regions (each region's output
  array read off its frame as one whole-array function), against the reference's run read back through the same stages.
-/
import proofs.«144383_j84954453115094_1_alg».proof.Defs
import proofs.«144383_j84954453115094_1_alg».proof.Proof.Gen.Kernel
import proofs.«144383_j84954453115094_1_alg».proof.Proof.Gen.Kernel.Skeleton
import proofs.«144383_j84954453115094_1_alg».proof.Proof.Gen.Kernel.Launch
import proofs.«144383_j84954453115094_1_alg».proof.Proof.Gen.Kernel.Points
import proofs.«144383_j84954453115094_1_alg».proof.Proof.Gen.Kernel.Frame
import proofs.«144383_j84954453115094_1_alg».proof.Proof.Gen.KernelIdeal
import proofs.«144383_j84954453115094_1_alg».proof.Proof.Gen.KernelIdeal.Skeleton
import proofs.«144383_j84954453115094_1_alg».proof.Proof.Gen.KernelIdeal.Launch
import proofs.«144383_j84954453115094_1_alg».proof.Proof.Gen.KernelIdeal.Points
import proofs.«144383_j84954453115094_1_alg».proof.Proof.Gen.KernelIdeal.Frame
import proofs.«144383_j84954453115094_1_alg».proof.Proof.Gen.ReferenceIdeal
import proofs.«144383_j84954453115094_1_alg».proof.Proof.Gen.Pre_finite_inputs
import proofs.«144383_j84954453115094_1_alg».proof.Proof.KernelRun
import proofs.«144383_j84954453115094_1_alg».proof.Proof.Bridge
import proofs.«144383_j84954453115094_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both programs end with the result `G` of the argument arrays. -/
theorem algebraic : Cert.algebraic_KernelIdeal_ReferenceIdeal := by
  intro m ρ m' ρ' _ hagree
  refine ⟨fun c => Cert.KernelIdeal.KChain.G (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) Cert.Spec.normMul, ?_, ?_⟩
  · exact (θ_run Cert.KernelIdeal.defs _ _).mono
      (fun _ h c => ⟨(h c).1.trans (Cert.KernelIdeal.KChain.W6_v41 m ρ c Cert.KernelIdeal.KVal.region0_value
        Cert.KernelIdeal.KVal.region1_value Cert.Bridge.region2_value), (h c).2⟩)
      (Cert.KernelIdeal.KRun.run_value m ρ)
  · refine (θ_run Cert.ReferenceIdeal.defs _ _).mono (fun _ h c => ⟨(h c).1.trans ?_, (h c).2⟩)
      (Cert.ReferenceIdeal.RefRun.run m' ρ')
    obtain ⟨h0, -, h2, h3, h4, h5, h6, h7, h8, h9, h10, h11, h12, h13, h14, h15, h16, h17, h18, h19, h20, h21⟩ := hagree c
    rw [h0, h2, h3, h4, h5, h6, h7, h8, h9, h10, h11, h12, h13, h14, h15, h16, h17, h18, h19, h20, h21]
    exact Cert.Bridge.ref_result _ _ _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
